-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v141)) (v1 : (c : Dev Cert.KernelIdeal.nD) → Buf (Elt Ideal) ((c.tc : Thread Cert.KernelIdeal.nD Cert.KernelIdeal.τ).loc Cert.KernelIdeal.main_v142)) (v2 : (c : Dev Cert.KernelIdeal.nD) → Buf (Elt Ideal) ((c.tc : Thread Cert.KernelIdeal.nD Cert.KernelIdeal.τ).loc Cert.KernelIdeal.main_v120)) (v3 : (c : Dev Cert.KernelIdeal.nD) → Buf (Elt Ideal) ((c.tc : Thread Cert.KernelIdeal.nD Cert.KernelIdeal.τ).loc Cert.KernelIdeal.main_v121)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v141) = v0 c
          ∧ r.2.mem ((c.tc : Thread Cert.KernelIdeal.nD Cert.KernelIdeal.τ).loc Cert.KernelIdeal.main_v142) = v1 c
          ∧ r.2.mem ((c.tc : Thread Cert.KernelIdeal.nD Cert.KernelIdeal.τ).loc Cert.KernelIdeal.main_v120) = v2 c
          ∧ r.2.mem ((c.tc : Thread Cert.KernelIdeal.nD Cert.KernelIdeal.τ).loc Cert.KernelIdeal.main_v121) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v110) = v0 c
          ∧ r.2.mem ((c.tc : Thread Cert.ReferenceIdeal.nD Cert.ReferenceIdeal.τ).loc Cert.ReferenceIdeal.main_v123) = v1 c
          ∧ r.2.mem ((c.tc : Thread Cert.ReferenceIdeal.nD Cert.ReferenceIdeal.τ).loc Cert.ReferenceIdeal.main_v96) = v2 c
          ∧ r.2.mem ((c.tc : Thread Cert.ReferenceIdeal.nD Cert.ReferenceIdeal.τ).loc Cert.ReferenceIdeal.main_v97) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x256 : Shape := ⟨2, ![50000, 256]⟩
abbrev S400000x128 : Shape := ⟨2, ![400000, 128]⟩
abbrev S1x2x400000 : Shape := ⟨3, ![1, 2, 400000]⟩
abbrev S256x128 : Shape := ⟨2, ![256, 128]⟩
abbrev S128x128 : Shape := ⟨2, ![128, 128]⟩
abbrev S256x1 : Shape := ⟨2, ![256, 1]⟩
abbrev S_ : Shape := ⟨0, ![]⟩

class Facts : Prop where
  bcast_S_S50000x256 : S_.BroadcastsInDim S50000x256 (![] : Fin 0 → Fin S50000x256.rank)
  reducesTo_S50000x256_S_d0_1 : S50000x256.ReducesTo [0, 1] S_
  h_S_ : 0 < S_.numel
  bcast_S_S400000x128 : S_.BroadcastsInDim S400000x128 (![] : Fin 0 → Fin S400000x128.rank)
  reducesTo_S400000x128_S_d0_1 : S400000x128.ReducesTo [0, 1] S_
  bcast_S_S256x128 : S_.BroadcastsInDim S256x128 (![] : Fin 0 → Fin S256x128.rank)
  reducesTo_S256x128_S_d0_1 : S256x128.ReducesTo [0, 1] S_
  bcast_S_S128x128 : S_.BroadcastsInDim S128x128 (![] : Fin 0 → Fin S128x128.rank)
  reducesTo_S128x128_S_d0_1 : S128x128.ReducesTo [0, 1] S_
  bcast_S_S256x1 : S_.BroadcastsInDim S256x1 (![] : Fin 0 → Fin S256x1.rank)
  reducesTo_S256x1_S_d0_1 : S256x1.ReducesTo [0, 1] S_
  bcast_S_S1x2x400000 : S_.BroadcastsInDim S1x2x400000 (![] : Fin 0 → Fin S1x2x400000.rank)
  reducesTo_S1x2x400000_S_d0_1_2 : S1x2x400000.ReducesTo [0, 1, 2] S_

variable [Facts]

def fn_part2 {F : FTy → Type} [FloatOps F] (main_v28 : IVec S_ 1) (main_v33 : IVec S1x2x400000 1) : IVec S_ 1 :=
  let main_c_12 : IVec S_ 1 := constantI S_ 1 1#1
  let main_v34 : IVec S_ 1 := (fun x v => Host.reduce IntOp.andi x v reducesTo_S1x2x400000_S_d0_1_2 h_S_) main_v33 main_c_12
  let main_v35 : IVec S_ 1 := andi main_v28 main_v34
  main_v35

def fn_part1 {F : FTy → Type} [FloatOps F] (main_arg2 : IVec S1x2x400000 32) (main_arg5 : FVec F S256x1 .f32) (main_arg6 : FVec F S256x1 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S256x1 .f32 := Host.absf main_arg5
  let main_cst_6 : FVec F S_ .f32 := constant S_ .f32 0x7F800000#32
  let main_v20 : FVec F S256x1 .f32 := broadcastInDim S256x1 ![] bcast_S_S256x1 main_cst_6
  let main_v21 : IVec S256x1 1 := cmpf .olt main_v19 main_v20
  let main_c_7 : IVec S_ 1 := constantI S_ 1 1#1
  let main_v22 : IVec S_ 1 := (fun x v => Host.reduce IntOp.andi x v reducesTo_S256x1_S_d0_1 h_S_) main_v21 main_c_7
  let main_v23 : IVec S_ 1 := andi main_v18 main_v22
  let main_v24 : FVec F S256x1 .f32 := Host.absf main_arg6
  let main_cst_8 : FVec F S_ .f32 := constant S_ .f32 0x7F800000#32
  let main_v25 : FVec F S256x1 .f32 := broadcastInDim S256x1 ![] bcast_S_S256x1 main_cst_8
  let main_v26 : IVec S256x1 1 := cmpf .olt main_v24 main_v25
  let main_c_9 : IVec S_ 1 := constantI S_ 1 1#1
  let main_v27 : IVec S_ 1 := (fun x v => Host.reduce IntOp.andi x v reducesTo_S256x1_S_d0_1 h_S_) main_v26 main_c_9
  let main_v28 : IVec S_ 1 := andi main_v23 main_v27
  let main_c_10 : IVec S_ 32 := constantI S_ 32 0#32
  let main_v29 : IVec S1x2x400000 32 := broadcastInDim S1x2x400000 ![] bcast_S_S1x2x400000 main_c_10
  let main_v30 : IVec S1x2x400000 1 := cmpi .sge main_arg2 main_v29
  let main_c_11 : IVec S_ 32 := constantI S_ 32 50000#32
  let main_v31 : IVec S1x2x400000 32 := broadcastInDim S1x2x400000 ![] bcast_S_S1x2x400000 main_c_11
  let main_v32 : IVec S1x2x400000 1 := cmpi .slt main_arg2 main_v31
  let main_v33 : IVec S1x2x400000 1 := andi main_v30 main_v32
  fn_part2 (F := F) main_v28 main_v33

def fn {F : FTy → Type} [FloatOps F] (main_arg0 : FVec F S50000x256 .f32) (main_arg1 : FVec F S400000x128 .f32) (main_arg2 : IVec S1x2x400000 32) (main_arg3 : FVec F S256x128 .f32) (main_arg4 : FVec F S128x128 .f32) (main_arg5 : FVec F S256x1 .f32) (main_arg6 : FVec F S256x1 .f32) : IVec S_ 1 :=
  let main_v0 : FVec F S50000x256 .f32 := Host.absf main_arg0
  let main_cst : FVec F S_ .f32 := constant S_ .f32 0x7F800000#32
  let main_v1 : FVec F S50000x256 .f32 := broadcastInDim S50000x256 ![] bcast_S_S50000x256 main_cst
  let main_v2 : IVec S50000x256 1 := cmpf .olt main_v0 main_v1
  let main_c : IVec S_ 1 := constantI S_ 1 1#1
  let main_v3 : IVec S_ 1 := (fun x v => Host.reduce IntOp.andi x v reducesTo_S50000x256_S_d0_1 h_S_) main_v2 main_c
  let main_v4 : FVec F S400000x128 .f32 := Host.absf main_arg1
  let main_cst_0 : FVec F S_ .f32 := constant S_ .f32 0x7F800000#32
  let main_v5 : FVec F S400000x128 .f32 := broadcastInDim S400000x128 ![] bcast_S_S400000x128 main_cst_0
  let main_v6 : IVec S400000x128 1 := cmpf .olt main_v4 main_v5
  let main_c_1 : IVec S_ 1 := constantI S_ 1 1#1
  let main_v7 : IVec S_ 1 := (fun x v => Host.reduce IntOp.andi x v reducesTo_S400000x128_S_d0_1 h_S_) main_v6 main_c_1
  let main_v8 : IVec S_ 1 := andi main_v3 main_v7
  let main_v9 : FVec F S256x128 .f32 := Host.absf main_arg3
  let main_cst_2 : FVec F S_ .f32 := constant S_ .f32 0x7F800000#32
  let main_v10 : FVec F S256x128 .f32 := broadcastInDim S256x128 ![] bcast_S_S256x128 main_cst_2
  let main_v11 : IVec S256x128 1 := cmpf .olt main_v9 main_v10
  let main_c_3 : IVec S_ 1 := constantI S_ 1 1#1
  let main_v12 : IVec S_ 1 := (fun x v => Host.reduce IntOp.andi x v reducesTo_S256x128_S_d0_1 h_S_) main_v11 main_c_3
  let main_v13 : IVec S_ 1 := andi main_v8 main_v12
  let main_v14 : FVec F S128x128 .f32 := Host.absf main_arg4
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg2 main_arg5 main_arg6 main_v13 main_v16
-- ==== Kernel.lean ====
abbrev S50000x256 : Shape := ⟨2, ![50000, 256]⟩
abbrev S400000x128 : Shape := ⟨2, ![400000, 128]⟩
abbrev S1x2x400000 : Shape := ⟨3, ![1, 2, 400000]⟩
abbrev S256x128 : Shape := ⟨2, ![256, 128]⟩
abbrev S128x128 : Shape := ⟨2, ![128, 128]⟩
abbrev S256x1 : Shape := ⟨2, ![256, 1]⟩
abbrev S256 : Shape := ⟨1, ![256]⟩
abbrev S128 : Shape := ⟨1, ![128]⟩
abbrev S_ : Shape := ⟨0, ![]⟩
abbrev S128x1 : Shape := ⟨2, ![128, 1]⟩
abbrev S128x4 : Shape := ⟨2, ![128, 4]⟩
abbrev S50000x128 : Shape := ⟨2, ![50000, 128]⟩
abbrev S50000x4 : Shape := ⟨2, ![50000, 4]⟩
abbrev S5000x256 : Shape := ⟨2, ![5000, 256]⟩
abbrev S5000x128 : Shape := ⟨2, ![5000, 128]⟩
abbrev S5000x4 : Shape := ⟨2, ![5000, 4]⟩
abbrev S400000x4 : Shape := ⟨2, ![400000, 4]⟩
abbrev S8000x128 : Shape := ⟨2, ![8000, 128]⟩
abbrev S8000x4 : Shape := ⟨2, ![8000, 4]⟩
abbrev S400000x2 : Shape := ⟨2, ![400000, 2]⟩
abbrev S800000x2 : Shape := ⟨2, ![800000, 2]⟩
abbrev S800000x1 : Shape := ⟨2, ![800000, 1]⟩
abbrev S800000 : Shape := ⟨1, ![800000]⟩
abbrev S800000x4 : Shape := ⟨2, ![800000, 4]⟩
abbrev S400000x1 : Shape := ⟨2, ![400000, 1]⟩
abbrev S400000 : Shape := ⟨1, ![400000]⟩
abbrev S50000 : Shape := ⟨1, ![50000]⟩
abbrev S1 : Shape := ⟨1, ![1]⟩
abbrev S49999 : Shape := ⟨1, ![49999]⟩
abbrev S50000x1 : Shape := ⟨2, ![50000, 1]⟩
abbrev S1x1 : Shape := ⟨2, ![1, 1]⟩
abbrev S800000x256 : Shape := ⟨2, ![800000, 256]⟩
abbrev S800000x128 : Shape := ⟨2, ![800000, 128]⟩

abbrev nBuf : Space → Nat
  | .hbm => 298
  | .vmem => 16
  | .smem => 0
  | _ => 0

abbrev hbmTy0_0 (i : Nat) : BufTy := match i % 128 with
  | 0 => ⟨S50000x256, .f32⟩
  | 1 => ⟨S400000x128, .f32⟩
  | 2 => ⟨S1x2x400000, .i32⟩
  | 3 => ⟨S256x128, .f32⟩
  | 4 => ⟨S128x128, .f32⟩
  | 5 => ⟨S256x1, .f32⟩
  | 6 => ⟨S256x1, .f32⟩
  | 7 => ⟨S256, .f32⟩
  | 8 => ⟨S256, .f32⟩
  | 9 => ⟨S128, .f32⟩
  | 10 => ⟨S128, .f32⟩
  | 11 => ⟨S128, .f32⟩
  | 12 => ⟨S_, .f32⟩
  | 13 => ⟨S128, .f32⟩
  | 14 => ⟨S128x1, .f32⟩
  | 15 => ⟨S128x1, .f32⟩
  | 16 => ⟨S128x1, .f32⟩
  | 17 => ⟨S128x1, .f32⟩
  | 18 => ⟨S128x4, .f32⟩
  | 19 => ⟨S128, .f32⟩
  | 20 => ⟨S_, .f32⟩
  | 21 => ⟨S128, .f32⟩
  | 22 => ⟨S_, .f32⟩
  | 23 => ⟨S128, .f32⟩
  | 24 => ⟨S_, .f32⟩
  | 25 => ⟨S128, .f32⟩
  | 26 => ⟨S128x1, .f32⟩
  | 27 => ⟨S128x1, .f32⟩
  | 28 => ⟨S128x1, .f32⟩
  | 29 => ⟨S128x1, .f32⟩
  | 30 => ⟨S128x4, .f32⟩
  | 31 => ⟨S50000x128, .bf16⟩
  | 32 => ⟨S50000x4, .f32⟩
  | 33 => ⟨S400000x128, .bf16⟩
  | 34 => ⟨S400000x4, .f32⟩
  | 35 => ⟨S400000x2, .i32⟩
  | 36 => ⟨S400000x2, .i32⟩
  | 37 => ⟨S800000x2, .i32⟩
  | 38 => ⟨S800000x1, .i32⟩
  | 39 => ⟨S800000, .i32⟩
  | 40 => ⟨S800000x1, .i32⟩
  | 41 => ⟨S800000, .i32⟩
  | 42 => ⟨S_, .i32⟩
  | 43 => ⟨S800000, .i32⟩
  | 44 => ⟨S800000, .i1⟩
  | 45 => ⟨S_, .i32⟩
  | 46 => ⟨S800000, .i32⟩
  | 47 => ⟨S800000, .i32⟩
  | 48 => ⟨S800000, .i32⟩
  | 49 => ⟨S800000x1, .i32⟩
  | 50 => ⟨S800000x4, .f32⟩
  | 51 => ⟨S800000x1, .f32⟩
  | 52 => ⟨S800000, .f32⟩
  | 53 => ⟨S800000x1, .f32⟩
  | 54 => ⟨S800000, .f32⟩
  | 55 => ⟨S_, .i32⟩
  | 56 => ⟨S800000, .i32⟩
  | 57 => ⟨S800000, .i1⟩
  | 58 => ⟨S_, .i32⟩
  | 59 => ⟨S800000, .i32⟩
  | 60 => ⟨S800000, .i32⟩
  | 61 => ⟨S800000, .i32⟩
  | 62 => ⟨S800000x1, .i32⟩
  | 63 => ⟨S800000x4, .f32⟩
  | 64 => ⟨S800000x1, .f32⟩
  | 65 => ⟨S800000, .f32⟩
  | 66 => ⟨S400000x1, .f32⟩
  | 67 => ⟨S400000, .f32⟩
  | 68 => ⟨S800000, .f32⟩
  | 69 => ⟨S800000, .f32⟩
  | 70 => ⟨S800000, .f32⟩
  | 71 => ⟨S_, .f32⟩
  | 72 => ⟨S800000, .f32⟩
  | 73 => ⟨S800000, .i1⟩
  | 74 => ⟨S_, .f32⟩
  | 75 => ⟨S800000, .f32⟩
  | 76 => ⟨S800000, .f32⟩
  | 77 => ⟨S800000, .f32⟩
  | 78 => ⟨S_, .f32⟩
  | 79 => ⟨S_, .f32⟩
  | 80 => ⟨S_, .f32⟩
  | 81 => ⟨S800000, .f32⟩
  | 82 => ⟨S800000, .f32⟩
  | 83 => ⟨S_, .f32⟩
  | 84 => ⟨S800000, .f32⟩
  | 85 => ⟨S800000, .f32⟩
  | 86 => ⟨S800000, .f32⟩
  | 87 => ⟨S_, .f32⟩
  | 88 => ⟨S800000, .f32⟩
  | 89 => ⟨S800000, .i1⟩
  | 90 => ⟨S_, .f32⟩
  | 91 => ⟨S800000, .f32⟩
  | 92 => ⟨S800000, .f32⟩
  | 93 => ⟨S800000, .f32⟩
  | 94 => ⟨S_, .f32⟩
  | 95 => ⟨S_, .f32⟩
  | 96 => ⟨S_, .f32⟩
  | 97 => ⟨S800000, .f32⟩
  | 98 => ⟨S800000, .f32⟩
  | 99 => ⟨S_, .f32⟩
  | 100 => ⟨S800000, .f32⟩
  | 101 => ⟨S800000, .f32⟩
  | 102 => ⟨S800000, .f32⟩
  | 103 => ⟨S_, .i32⟩
  | 104 => ⟨S50000, .i32⟩
  | 105 => ⟨S_, .i32⟩
  | 106 => ⟨S_, .i32⟩
  | 107 => ⟨S800000, .i32⟩
  | 108 => ⟨S800000, .i32⟩
  | 109 => ⟨S_, .i32⟩
  | 110 => ⟨S800000, .i32⟩
  | 111 => ⟨S800000, .i1⟩
  | 112 => ⟨S_, .i32⟩
  | 113 => ⟨S800000, .i32⟩
  | 114 => ⟨S800000, .i32⟩
  | 115 => ⟨S800000, .i32⟩
  | 116 => ⟨S800000x1, .i32⟩
  | 117 => ⟨S_, .i32⟩
  | 118 => ⟨S800000, .i32⟩
  | 119 => ⟨S50000, .i32⟩
  | 120 => ⟨S_, .f32⟩
  | 121 => ⟨S50000, .f32⟩
  | 122 => ⟨S800000x1, .i32⟩
  | 123 => ⟨S50000, .f32⟩
  | 124 => ⟨S_, .f32⟩
  | 125 => ⟨S50000, .f32⟩
  | 126 => ⟨S800000x1, .i32⟩
  | 127 => ⟨S50000, .f32⟩
  | _ => ⟨S50000x256, .f32⟩

abbrev hbmTy0_1 (i : Nat) : BufTy := match i % 128 with
  | 0 => ⟨S1, .i32⟩
  | 1 => ⟨S49999, .i32⟩
  | 2 => ⟨S50000, .i32⟩
  | 3 => ⟨S_, .i32⟩
  | 4 => ⟨S1, .i32⟩
  | 5 => ⟨S_, .i32⟩
  | 6 => ⟨S50000, .i32⟩
  | 7 => ⟨S_, .i32⟩
  | 8 => ⟨S_, .i32⟩
  | 9 => ⟨S50000, .i32⟩
  | 10 => ⟨S_, .i32⟩
  | 11 => ⟨S800000, .i32⟩
  | 12 => ⟨S_, .i32⟩
  | 13 => ⟨S50000, .i32⟩
  | 14 => ⟨S50000, .i1⟩
  | 15 => ⟨S_, .i32⟩
  | 16 => ⟨S50000, .i32⟩
  | 17 => ⟨S50000, .i32⟩
  | 18 => ⟨S50000, .i32⟩
  | 19 => ⟨S50000x1, .i32⟩
  | 20 => ⟨S_, .i32⟩
  | 21 => ⟨S50000, .i32⟩
  | 22 => ⟨S800000, .i32⟩
  | 23 => ⟨S_, .i32⟩
  | 24 => ⟨S_, .i32⟩
  | 25 => ⟨S800000, .i32⟩
  | 26 => ⟨S_, .i32⟩
  | 27 => ⟨S800000, .i32⟩
  | 28 => ⟨S800000, .i32⟩
  | 29 => ⟨S_, .i32⟩
  | 30 => ⟨S800000, .i32⟩
  | 31 => ⟨S800000, .i1⟩
  | 32 => ⟨S_, .i32⟩
  | 33 => ⟨S800000, .i32⟩
  | 34 => ⟨S800000, .i32⟩
  | 35 => ⟨S800000, .i32⟩
  | 36 => ⟨S800000x1, .i32⟩
  | 37 => ⟨S1, .i32⟩
  | 38 => ⟨S_, .i32⟩
  | 39 => ⟨S800000x1, .i32⟩
  | 40 => ⟨S800000x1, .i1⟩
  | 41 => ⟨S1x1, .i32⟩
  | 42 => ⟨S800000x1, .i32⟩
  | 43 => ⟨S800000x1, .i1⟩
  | 44 => ⟨S800000x1, .i1⟩
  | 45 => ⟨S_, .i1⟩
  | 46 => ⟨S800000, .i1⟩
  | 47 => ⟨S800000, .f32⟩
  | 48 => ⟨S_, .f32⟩
  | 49 => ⟨S800000, .f32⟩
  | 50 => ⟨S800000, .f32⟩
  | 51 => ⟨S1, .i32⟩
  | 52 => ⟨S49999, .i32⟩
  | 53 => ⟨S50000, .i32⟩
  | 54 => ⟨S_, .i32⟩
  | 55 => ⟨S1, .i32⟩
  | 56 => ⟨S_, .i32⟩
  | 57 => ⟨S50000, .i32⟩
  | 58 => ⟨S_, .i32⟩
  | 59 => ⟨S_, .i32⟩
  | 60 => ⟨S50000, .i32⟩
  | 61 => ⟨S_, .i32⟩
  | 62 => ⟨S800000, .i32⟩
  | 63 => ⟨S_, .i32⟩
  | 64 => ⟨S50000, .i32⟩
  | 65 => ⟨S50000, .i1⟩
  | 66 => ⟨S_, .i32⟩
  | 67 => ⟨S50000, .i32⟩
  | 68 => ⟨S50000, .i32⟩
  | 69 => ⟨S50000, .i32⟩
  | 70 => ⟨S50000x1, .i32⟩
  | 71 => ⟨S_, .i32⟩
  | 72 => ⟨S50000, .i32⟩
  | 73 => ⟨S800000, .i32⟩
  | 74 => ⟨S_, .i32⟩
  | 75 => ⟨S_, .i32⟩
  | 76 => ⟨S800000, .i32⟩
  | 77 => ⟨S_, .i32⟩
  | 78 => ⟨S800000, .i32⟩
  | 79 => ⟨S800000, .i32⟩
  | 80 => ⟨S_, .i32⟩
  | 81 => ⟨S800000, .i32⟩
  | 82 => ⟨S800000, .i1⟩
  | 83 => ⟨S_, .i32⟩
  | 84 => ⟨S800000, .i32⟩
  | 85 => ⟨S800000, .i32⟩
  | 86 => ⟨S800000, .i32⟩
  | 87 => ⟨S800000x1, .i32⟩
  | 88 => ⟨S1, .i32⟩
  | 89 => ⟨S_, .i32⟩
  | 90 => ⟨S800000x1, .i32⟩
  | 91 => ⟨S800000x1, .i1⟩
  | 92 => ⟨S1x1, .i32⟩
  | 93 => ⟨S800000x1, .i32⟩
  | 94 => ⟨S800000x1, .i1⟩
  | 95 => ⟨S800000x1, .i1⟩
  | 96 => ⟨S_, .i1⟩
  | 97 => ⟨S800000, .i1⟩
  | 98 => ⟨S800000, .f32⟩
  | 99 => ⟨S_, .f32⟩
  | 100 => ⟨S800000, .f32⟩
  | 101 => ⟨S800000, .f32⟩
  | 102 => ⟨S800000, .f32⟩
  | 103 => ⟨S800000, .f32⟩
  | 104 => ⟨S_, .i32⟩
  | 105 => ⟨S_, .f32⟩
  | 106 => ⟨S_, .f32⟩
  | 107 => ⟨S1, .f32⟩
  | 108 => ⟨S_, .f32⟩
  | 109 => ⟨S1, .f32⟩
  | 110 => ⟨S1, .f32⟩
  | 111 => ⟨S800000, .f32⟩
  | 112 => ⟨S800000, .f32⟩
  | 113 => ⟨S800000, .f32⟩
  | 114 => ⟨S_, .f32⟩
  | 115 => ⟨S_, .f32⟩
  | 116 => ⟨S_, .f32⟩
  | 117 => ⟨S_, .f32⟩
  | 118 => ⟨S_, .f32⟩
  | 119 => ⟨S_, .f32⟩
  | 120 => ⟨S_, .f32⟩
  | 121 => ⟨S_, .i1⟩
  | 122 => ⟨S_, .f32⟩
  | 123 => ⟨S_, .f32⟩
  | 124 => ⟨S_, .f32⟩
  | 125 => ⟨S_, .i32⟩
  | 126 => ⟨S_, .f32⟩
  | 127 => ⟨S_, .f32⟩
  | _ => ⟨S50000x256, .f32⟩

abbrev hbmTy0_2 (i : Nat) : BufTy := match i % 128 with
  | 0 => ⟨S1, .f32⟩
  | 1 => ⟨S_, .f32⟩
  | 2 => ⟨S1, .f32⟩
  | 3 => ⟨S1, .f32⟩
  | 4 => ⟨S800000, .f32⟩
  | 5 => ⟨S800000, .f32⟩
  | 6 => ⟨S800000, .f32⟩
  | 7 => ⟨S_, .f32⟩
  | 8 => ⟨S_, .f32⟩
  | 9 => ⟨S_, .f32⟩
  | 10 => ⟨S_, .f32⟩
  | 11 => ⟨S_, .f32⟩
  | 12 => ⟨S_, .f32⟩
  | 13 => ⟨S_, .f32⟩
  | 14 => ⟨S_, .i1⟩
  | 15 => ⟨S_, .f32⟩
  | 16 => ⟨S_, .f32⟩
  | 17 => ⟨S_, .f32⟩
  | 18 => ⟨S50000x128, .bf16⟩
  | 19 => ⟨S50000x256, .bf16⟩
  | 20 => ⟨S_, .i32⟩
  | 21 => ⟨S800000, .i32⟩
  | 22 => ⟨S800000, .i1⟩
  | 23 => ⟨S_, .i32⟩
  | 24 => ⟨S800000, .i32⟩
  | 25 => ⟨S800000, .i32⟩
  | 26 => ⟨S800000, .i32⟩
  | 27 => ⟨S800000x1, .i32⟩
  | 28 => ⟨S800000x256, .bf16⟩
  | 29 => ⟨S800000x1, .f32⟩
  | 30 => ⟨S800000x128, .f32⟩
  | 31 => ⟨S800000x1, .f32⟩
  | 32 => ⟨S800000x128, .f32⟩
  | 33 => ⟨S800000x256, .f32⟩
  | 34 => ⟨S800000x256, .f32⟩
  | 35 => ⟨S800000x256, .f32⟩
  | 36 => ⟨S_, .f32⟩
  | 37 => ⟨S50000x256, .f32⟩
  | 38 => ⟨S800000x1, .i32⟩
  | 39 => ⟨S50000x256, .f32⟩
  | 40 => ⟨S50000x128, .f32⟩
  | 41 => ⟨S50000x128, .f32⟩
  | _ => ⟨S50000x256, .f32⟩

abbrev hbmTy (i : Nat) : BufTy := match i / 128 with
  | 0 => hbmTy0_0 i
  | 1 => hbmTy0_1 i
  | 2 => hbmTy0_2 i
  | _ => ⟨S50000x256, .f32⟩

abbrev bufTy : (tb : Table) → Fin (tcTables nBuf tb) → BufTy
  | .hbm, ⟨i, _⟩ => hbmTy i
  | .local _ .vmem, ⟨0, _⟩ => ⟨S5000x256, .f32⟩
  | .local _ .vmem, ⟨1, _⟩ => ⟨S5000x256, .f32⟩
  | .local _ .vmem, ⟨2, _⟩ => ⟨S256x128, .f32⟩
  | .local _ .vmem, ⟨3, _⟩ => ⟨S128x4, .f32⟩
  | .local _ .vmem, ⟨4, _⟩ => ⟨S5000x128, .bf16⟩
  | .local _ .vmem, ⟨5, _⟩ => ⟨S5000x128, .bf16⟩
  | .local _ .vmem, ⟨6, _⟩ => ⟨S5000x4, .f32⟩
  | .local _ .vmem, ⟨7, _⟩ => ⟨S5000x4, .f32⟩
  | .local _ .vmem, ⟨8, _⟩ => ⟨S8000x128, .f32⟩
  | .local _ .vmem, ⟨9, _⟩ => ⟨S8000x128, .f32⟩
  | .local _ .vmem, ⟨10, _⟩ => ⟨S128x128, .f32⟩
  | .local _ .vmem, ⟨11, _⟩ => ⟨S128x4, .f32⟩
  | .local _ .vmem, ⟨12, _⟩ => ⟨S8000x128, .bf16⟩
  | .local _ .vmem, ⟨13, _⟩ => ⟨S8000x128, .bf16⟩
  | .local _ .vmem, ⟨14, _⟩ => ⟨S8000x4, .f32⟩
  | .local _ .vmem, ⟨15, _⟩ => ⟨S8000x4, .f32⟩
  | _, _ => ⟨S50000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_cst : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_0 : Ref sig .tc := ⟨.hbm, 20, rfl⟩
abbrev main_v12 : Ref sig .tc := ⟨.hbm, 21, rfl⟩
abbrev main_cst_1 : Ref sig .tc := ⟨.hbm, 22, rfl⟩
abbrev main_v13 : Ref sig .tc := ⟨.hbm, 23, rfl⟩
abbrev main_cst_2 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20_0 : Ref sig .tc := ⟨.hbm, 31, rfl⟩
abbrev main_v20_1 : Ref sig .tc := ⟨.hbm, 32, rfl⟩
abbrev main_v21_0 : Ref sig .tc := ⟨.hbm, 33, rfl⟩
abbrev main_v21_1 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_c : Ref sig .tc := ⟨.hbm, 42, rfl⟩
abbrev main_v29 : Ref sig .tc := ⟨.hbm, 43, rfl⟩
abbrev main_v30 : Ref sig .tc := ⟨.hbm, 44, rfl⟩
abbrev main_c_3 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_c_4 : Ref sig .tc := ⟨.hbm, 55, rfl⟩
abbrev main_v40 : Ref sig .tc := ⟨.hbm, 56, rfl⟩
abbrev main_v41 : Ref sig .tc := ⟨.hbm, 57, rfl⟩
abbrev main_c_5 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_cst_6 : Ref sig .tc := ⟨.hbm, 71, rfl⟩
abbrev main_v54 : Ref sig .tc := ⟨.hbm, 72, rfl⟩
abbrev main_v55 : Ref sig .tc := ⟨.hbm, 73, rfl⟩
abbrev main_cst_7 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_cst_8 : Ref sig .tc := ⟨.hbm, 78, rfl⟩
abbrev main_cst_9 : Ref sig .tc := ⟨.hbm, 79, rfl⟩
abbrev main_call1_v0 : Ref sig .tc := ⟨.hbm, 80, rfl⟩
abbrev main_call1_v1 : Ref sig .tc := ⟨.hbm, 81, rfl⟩
abbrev main_call1_v2 : Ref sig .tc := ⟨.hbm, 82, rfl⟩
abbrev main_call1_v3 : Ref sig .tc := ⟨.hbm, 83, rfl⟩
abbrev main_call1_v4 : Ref sig .tc := ⟨.hbm, 84, rfl⟩
abbrev main_v59 : Ref sig .tc := ⟨.hbm, 85, rfl⟩
abbrev main_v60 : Ref sig .tc := ⟨.hbm, 86, rfl⟩
abbrev main_cst_10 : Ref sig .tc := ⟨.hbm, 87, rfl⟩
abbrev main_v61 : Ref sig .tc := ⟨.hbm, 88, rfl⟩
abbrev main_v62 : Ref sig .tc := ⟨.hbm, 89, rfl⟩
abbrev main_cst_11 : Ref sig .tc := ⟨.hbm, 90, rfl⟩
abbrev main_v63 : Ref sig .tc := ⟨.hbm, 91, rfl⟩
abbrev main_v64 : Ref sig .tc := ⟨.hbm, 92, rfl⟩
abbrev main_v65 : Ref sig .tc := ⟨.hbm, 93, rfl⟩
abbrev main_cst_12 : Ref sig .tc := ⟨.hbm, 94, rfl⟩
abbrev main_cst_13 : Ref sig .tc := ⟨.hbm, 95, rfl⟩
abbrev main_call3_v0 : Ref sig .tc := ⟨.hbm, 96, rfl⟩
abbrev main_call3_v1 : Ref sig .tc := ⟨.hbm, 97, rfl⟩
abbrev main_call3_v2 : Ref sig .tc := ⟨.hbm, 98, rfl⟩
abbrev main_call3_v3 : Ref sig .tc := ⟨.hbm, 99, rfl⟩
abbrev main_call3_v4 : Ref sig .tc := ⟨.hbm, 100, rfl⟩
abbrev main_v66 : Ref sig .tc := ⟨.hbm, 101, rfl⟩
abbrev main_v67 : Ref sig .tc := ⟨.hbm, 102, rfl⟩
abbrev main_c_14 : Ref sig .tc := ⟨.hbm, 103, rfl⟩
abbrev main_v68 : Ref sig .tc := ⟨.hbm, 104, rfl⟩
abbrev main_c_15 : Ref sig .tc := ⟨.hbm, 105, rfl⟩
abbrev main_call4_v0 : Ref sig .tc := ⟨.hbm, 106, rfl⟩
abbrev main_call4_v1 : Ref sig .tc := ⟨.hbm, 107, rfl⟩
abbrev main_v69 : Ref sig .tc := ⟨.hbm, 108, rfl⟩
abbrev main_c_16 : Ref sig .tc := ⟨.hbm, 109, rfl⟩
abbrev main_v70 : Ref sig .tc := ⟨.hbm, 110, rfl⟩
abbrev main_v71 : Ref sig .tc := ⟨.hbm, 111, rfl⟩
abbrev main_c_17 : Ref sig .tc := ⟨.hbm, 112, rfl⟩
abbrev main_v72 : Ref sig .tc := ⟨.hbm, 113, rfl⟩
abbrev main_v73 : Ref sig .tc := ⟨.hbm, 114, rfl⟩
abbrev main_v74 : Ref sig .tc := ⟨.hbm, 115, rfl⟩
abbrev main_v75 : Ref sig .tc := ⟨.hbm, 116, rfl⟩
abbrev main_c_18 : Ref sig .tc := ⟨.hbm, 117, rfl⟩
abbrev main_v76 : Ref sig .tc := ⟨.hbm, 118, rfl⟩
abbrev main_v77 : Ref sig .tc := ⟨.hbm, 119, rfl⟩
abbrev main_cst_19 : Ref sig .tc := ⟨.hbm, 120, rfl⟩
abbrev main_v78 : Ref sig .tc := ⟨.hbm, 121, rfl⟩
abbrev main_v79 : Ref sig .tc := ⟨.hbm, 122, rfl⟩
abbrev main_v80 : Ref sig .tc := ⟨.hbm, 123, rfl⟩
abbrev main_cst_20 : Ref sig .tc := ⟨.hbm, 124, rfl⟩
abbrev main_v81 : Ref sig .tc := ⟨.hbm, 125, rfl⟩
abbrev main_v82 : Ref sig .tc := ⟨.hbm, 126, rfl⟩
abbrev main_v83 : Ref sig .tc := ⟨.hbm, 127, rfl⟩
abbrev main_call5_v0 : Ref sig .tc := ⟨.hbm, 128, rfl⟩
abbrev main_call5_v1 : Ref sig .tc := ⟨.hbm, 129, rfl⟩
abbrev main_v84 : Ref sig .tc := ⟨.hbm, 130, rfl⟩
abbrev main_c_21 : Ref sig .tc := ⟨.hbm, 131, rfl⟩
abbrev main_v85 : Ref sig .tc := ⟨.hbm, 132, rfl⟩
abbrev main_c_22 : Ref sig .tc := ⟨.hbm, 133, rfl⟩
abbrev main_v86 : Ref sig .tc := ⟨.hbm, 134, rfl⟩
abbrev main_call6_call0_c : Ref sig .tc := ⟨.hbm, 135, rfl⟩
abbrev main_call6_call0_v0 : Ref sig .tc := ⟨.hbm, 136, rfl⟩
abbrev main_v87 : Ref sig .tc := ⟨.hbm, 137, rfl⟩
abbrev main_c_23 : Ref sig .tc := ⟨.hbm, 138, rfl⟩
abbrev main_v88 : Ref sig .tc := ⟨.hbm, 139, rfl⟩
abbrev main_c_24 : Ref sig .tc := ⟨.hbm, 140, rfl⟩
abbrev main_v89 : Ref sig .tc := ⟨.hbm, 141, rfl⟩
abbrev main_v90 : Ref sig .tc := ⟨.hbm, 142, rfl⟩
abbrev main_c_25 : Ref sig .tc := ⟨.hbm, 143, rfl⟩
abbrev main_v91 : Ref sig .tc := ⟨.hbm, 144, rfl⟩
abbrev main_v92 : Ref sig .tc := ⟨.hbm, 145, rfl⟩
abbrev main_v93 : Ref sig .tc := ⟨.hbm, 146, rfl⟩
abbrev main_v94 : Ref sig .tc := ⟨.hbm, 147, rfl⟩
abbrev main_c_26 : Ref sig .tc := ⟨.hbm, 148, rfl⟩
abbrev main_v95 : Ref sig .tc := ⟨.hbm, 149, rfl⟩
abbrev main_v96 : Ref sig .tc := ⟨.hbm, 150, rfl⟩
abbrev main_call7_call0_c : Ref sig .tc := ⟨.hbm, 151, rfl⟩
abbrev main_call7_call0_v0 : Ref sig .tc := ⟨.hbm, 152, rfl⟩
abbrev main_v97 : Ref sig .tc := ⟨.hbm, 153, rfl⟩
abbrev main_c_27 : Ref sig .tc := ⟨.hbm, 154, rfl⟩
abbrev main_v98 : Ref sig .tc := ⟨.hbm, 155, rfl⟩
abbrev main_v99 : Ref sig .tc := ⟨.hbm, 156, rfl⟩
abbrev main_call8_c : Ref sig .tc := ⟨.hbm, 157, rfl⟩
abbrev main_call8_v0 : Ref sig .tc := ⟨.hbm, 158, rfl⟩
abbrev main_call8_v1 : Ref sig .tc := ⟨.hbm, 159, rfl⟩
abbrev main_call8_c_0 : Ref sig .tc := ⟨.hbm, 160, rfl⟩
abbrev main_call8_v2 : Ref sig .tc := ⟨.hbm, 161, rfl⟩
abbrev main_call8_v3 : Ref sig .tc := ⟨.hbm, 162, rfl⟩
abbrev main_call8_v4 : Ref sig .tc := ⟨.hbm, 163, rfl⟩
abbrev main_call8_v5 : Ref sig .tc := ⟨.hbm, 164, rfl⟩
abbrev main_call8_c_1 : Ref sig .tc := ⟨.hbm, 165, rfl⟩
abbrev main_call8_c_2 : Ref sig .tc := ⟨.hbm, 166, rfl⟩
abbrev main_call8_v6 : Ref sig .tc := ⟨.hbm, 167, rfl⟩
abbrev main_call8_v7 : Ref sig .tc := ⟨.hbm, 168, rfl⟩
abbrev main_call8_v8 : Ref sig .tc := ⟨.hbm, 169, rfl⟩
abbrev main_call8_v9 : Ref sig .tc := ⟨.hbm, 170, rfl⟩
abbrev main_call8_v10 : Ref sig .tc := ⟨.hbm, 171, rfl⟩
abbrev main_call8_v11 : Ref sig .tc := ⟨.hbm, 172, rfl⟩
abbrev main_call8_c_3 : Ref sig .tc := ⟨.hbm, 173, rfl⟩
abbrev main_call8_v12 : Ref sig .tc := ⟨.hbm, 174, rfl⟩
abbrev main_call8_v13 : Ref sig .tc := ⟨.hbm, 175, rfl⟩
abbrev main_call8_cst : Ref sig .tc := ⟨.hbm, 176, rfl⟩
abbrev main_call8_v14 : Ref sig .tc := ⟨.hbm, 177, rfl⟩
abbrev main_v100 : Ref sig .tc := ⟨.hbm, 178, rfl⟩
abbrev main_call9_v0 : Ref sig .tc := ⟨.hbm, 179, rfl⟩
abbrev main_call9_v1 : Ref sig .tc := ⟨.hbm, 180, rfl⟩
abbrev main_v101 : Ref sig .tc := ⟨.hbm, 181, rfl⟩
abbrev main_c_28 : Ref sig .tc := ⟨.hbm, 182, rfl⟩
abbrev main_v102 : Ref sig .tc := ⟨.hbm, 183, rfl⟩
abbrev main_c_29 : Ref sig .tc := ⟨.hbm, 184, rfl⟩
abbrev main_v103 : Ref sig .tc := ⟨.hbm, 185, rfl⟩
abbrev main_call10_call0_c : Ref sig .tc := ⟨.hbm, 186, rfl⟩
abbrev main_call10_call0_v0 : Ref sig .tc := ⟨.hbm, 187, rfl⟩
abbrev main_v104 : Ref sig .tc := ⟨.hbm, 188, rfl⟩
abbrev main_c_30 : Ref sig .tc := ⟨.hbm, 189, rfl⟩
abbrev main_v105 : Ref sig .tc := ⟨.hbm, 190, rfl⟩
abbrev main_c_31 : Ref sig .tc := ⟨.hbm, 191, rfl⟩
abbrev main_v106 : Ref sig .tc := ⟨.hbm, 192, rfl⟩
abbrev main_v107 : Ref sig .tc := ⟨.hbm, 193, rfl⟩
abbrev main_c_32 : Ref sig .tc := ⟨.hbm, 194, rfl⟩
abbrev main_v108 : Ref sig .tc := ⟨.hbm, 195, rfl⟩
abbrev main_v109 : Ref sig .tc := ⟨.hbm, 196, rfl⟩
abbrev main_v110 : Ref sig .tc := ⟨.hbm, 197, rfl⟩
abbrev main_v111 : Ref sig .tc := ⟨.hbm, 198, rfl⟩
abbrev main_c_33 : Ref sig .tc := ⟨.hbm, 199, rfl⟩
abbrev main_v112 : Ref sig .tc := ⟨.hbm, 200, rfl⟩
abbrev main_v113 : Ref sig .tc := ⟨.hbm, 201, rfl⟩
abbrev main_call11_call0_c : Ref sig .tc := ⟨.hbm, 202, rfl⟩
abbrev main_call11_call0_v0 : Ref sig .tc := ⟨.hbm, 203, rfl⟩
abbrev main_v114 : Ref sig .tc := ⟨.hbm, 204, rfl⟩
abbrev main_c_34 : Ref sig .tc := ⟨.hbm, 205, rfl⟩
abbrev main_v115 : Ref sig .tc := ⟨.hbm, 206, rfl⟩
abbrev main_v116 : Ref sig .tc := ⟨.hbm, 207, rfl⟩
abbrev main_call12_c : Ref sig .tc := ⟨.hbm, 208, rfl⟩
abbrev main_call12_v0 : Ref sig .tc := ⟨.hbm, 209, rfl⟩
abbrev main_call12_v1 : Ref sig .tc := ⟨.hbm, 210, rfl⟩
abbrev main_call12_c_0 : Ref sig .tc := ⟨.hbm, 211, rfl⟩
abbrev main_call12_v2 : Ref sig .tc := ⟨.hbm, 212, rfl⟩
abbrev main_call12_v3 : Ref sig .tc := ⟨.hbm, 213, rfl⟩
abbrev main_call12_v4 : Ref sig .tc := ⟨.hbm, 214, rfl⟩
abbrev main_call12_v5 : Ref sig .tc := ⟨.hbm, 215, rfl⟩
abbrev main_call12_c_1 : Ref sig .tc := ⟨.hbm, 216, rfl⟩
abbrev main_call12_c_2 : Ref sig .tc := ⟨.hbm, 217, rfl⟩
abbrev main_call12_v6 : Ref sig .tc := ⟨.hbm, 218, rfl⟩
abbrev main_call12_v7 : Ref sig .tc := ⟨.hbm, 219, rfl⟩
abbrev main_call12_v8 : Ref sig .tc := ⟨.hbm, 220, rfl⟩
abbrev main_call12_v9 : Ref sig .tc := ⟨.hbm, 221, rfl⟩
abbrev main_call12_v10 : Ref sig .tc := ⟨.hbm, 222, rfl⟩
abbrev main_call12_v11 : Ref sig .tc := ⟨.hbm, 223, rfl⟩
abbrev main_call12_c_3 : Ref sig .tc := ⟨.hbm, 224, rfl⟩
abbrev main_call12_v12 : Ref sig .tc := ⟨.hbm, 225, rfl⟩
abbrev main_call12_v13 : Ref sig .tc := ⟨.hbm, 226, rfl⟩
abbrev main_call12_cst : Ref sig .tc := ⟨.hbm, 227, rfl⟩
abbrev main_call12_v14 : Ref sig .tc := ⟨.hbm, 228, rfl⟩
abbrev main_v117 : Ref sig .tc := ⟨.hbm, 229, rfl⟩
abbrev main_v118 : Ref sig .tc := ⟨.hbm, 230, rfl⟩
abbrev main_v119 : Ref sig .tc := ⟨.hbm, 231, rfl⟩
abbrev main_c_35 : Ref sig .tc := ⟨.hbm, 232, rfl⟩
abbrev main_call13_cst : Ref sig .tc := ⟨.hbm, 233, rfl⟩
abbrev main_call13_v0 : Ref sig .tc := ⟨.hbm, 234, rfl⟩
abbrev main_call13_v1 : Ref sig .tc := ⟨.hbm, 235, rfl⟩
abbrev main_call13_cst_0 : Ref sig .tc := ⟨.hbm, 236, rfl⟩
abbrev main_call13_v2 : Ref sig .tc := ⟨.hbm, 237, rfl⟩
abbrev main_call13_v3 : Ref sig .tc := ⟨.hbm, 238, rfl⟩
abbrev main_call13_v4 : Ref sig .tc := ⟨.hbm, 239, rfl⟩
abbrev main_call13_v5 : Ref sig .tc := ⟨.hbm, 240, rfl⟩
abbrev main_call13_v6 : Ref sig .tc := ⟨.hbm, 241, rfl⟩
abbrev main_call13_v7 : Ref sig .tc := ⟨.hbm, 242, rfl⟩
abbrev main_call13_cst_1 : Ref sig .tc := ⟨.hbm, 243, rfl⟩
abbrev main_call13_v8 : Ref sig .tc := ⟨.hbm, 244, rfl⟩
abbrev main_call13_cst_2 : Ref sig .tc := ⟨.hbm, 245, rfl⟩
abbrev main_call13_v9 : Ref sig .tc := ⟨.hbm, 246, rfl⟩
abbrev main_call13_v10 : Ref sig .tc := ⟨.hbm, 247, rfl⟩
abbrev main_call13_cst_3 : Ref sig .tc := ⟨.hbm, 248, rfl⟩
abbrev main_call13_v11 : Ref sig .tc := ⟨.hbm, 249, rfl⟩
abbrev main_call13_cst_4 : Ref sig .tc := ⟨.hbm, 250, rfl⟩
abbrev main_call13_call0_v0 : Ref sig .tc := ⟨.hbm, 251, rfl⟩
abbrev main_v120 : Ref sig .tc := ⟨.hbm, 252, rfl⟩
abbrev main_c_36 : Ref sig .tc := ⟨.hbm, 253, rfl⟩
abbrev main_call14_cst : Ref sig .tc := ⟨.hbm, 254, rfl⟩
abbrev main_call14_v0 : Ref sig .tc := ⟨.hbm, 255, rfl⟩
abbrev main_call14_v1 : Ref sig .tc := ⟨.hbm, 256, rfl⟩
abbrev main_call14_cst_0 : Ref sig .tc := ⟨.hbm, 257, rfl⟩
abbrev main_call14_v2 : Ref sig .tc := ⟨.hbm, 258, rfl⟩
abbrev main_call14_v3 : Ref sig .tc := ⟨.hbm, 259, rfl⟩
abbrev main_call14_v4 : Ref sig .tc := ⟨.hbm, 260, rfl⟩
abbrev main_call14_v5 : Ref sig .tc := ⟨.hbm, 261, rfl⟩
abbrev main_call14_v6 : Ref sig .tc := ⟨.hbm, 262, rfl⟩
abbrev main_call14_v7 : Ref sig .tc := ⟨.hbm, 263, rfl⟩
abbrev main_call14_cst_1 : Ref sig .tc := ⟨.hbm, 264, rfl⟩
abbrev main_call14_v8 : Ref sig .tc := ⟨.hbm, 265, rfl⟩
abbrev main_call14_cst_2 : Ref sig .tc := ⟨.hbm, 266, rfl⟩
abbrev main_call14_v9 : Ref sig .tc := ⟨.hbm, 267, rfl⟩
abbrev main_call14_v10 : Ref sig .tc := ⟨.hbm, 268, rfl⟩
abbrev main_call14_cst_3 : Ref sig .tc := ⟨.hbm, 269, rfl⟩
abbrev main_call14_v11 : Ref sig .tc := ⟨.hbm, 270, rfl⟩
abbrev main_call14_cst_4 : Ref sig .tc := ⟨.hbm, 271, rfl⟩
abbrev main_call14_call0_v0 : Ref sig .tc := ⟨.hbm, 272, rfl⟩
abbrev main_v121 : Ref sig .tc := ⟨.hbm, 273, rfl⟩
abbrev main_v122 : Ref sig .tc := ⟨.hbm, 274, rfl⟩
abbrev main_v123 : Ref sig .tc := ⟨.hbm, 275, rfl⟩
abbrev main_c_37 : Ref sig .tc := ⟨.hbm, 276, rfl⟩
abbrev main_v124 : Ref sig .tc := ⟨.hbm, 277, rfl⟩
abbrev main_v125 : Ref sig .tc := ⟨.hbm, 278, rfl⟩
abbrev main_c_38 : Ref sig .tc := ⟨.hbm, 279, rfl⟩
abbrev main_v126 : Ref sig .tc := ⟨.hbm, 280, rfl⟩
abbrev main_v127 : Ref sig .tc := ⟨.hbm, 281, rfl⟩
abbrev main_v128 : Ref sig .tc := ⟨.hbm, 282, rfl⟩
abbrev main_v129 : Ref sig .tc := ⟨.hbm, 283, rfl⟩
abbrev main_v130 : Ref sig .tc := ⟨.hbm, 284, rfl⟩
abbrev main_v131 : Ref sig .tc := ⟨.hbm, 285, rfl⟩
abbrev main_v132 : Ref sig .tc := ⟨.hbm, 286, rfl⟩
abbrev main_v133 : Ref sig .tc := ⟨.hbm, 287, rfl⟩
abbrev main_v134 : Ref sig .tc := ⟨.hbm, 288, rfl⟩
abbrev main_v135 : Ref sig .tc := ⟨.hbm, 289, rfl⟩
abbrev main_v136 : Ref sig .tc := ⟨.hbm, 290, rfl⟩
abbrev main_v137 : Ref sig .tc := ⟨.hbm, 291, rfl⟩
abbrev main_cst_39 : Ref sig .tc := ⟨.hbm, 292, rfl⟩
abbrev main_v138 : Ref sig .tc := ⟨.hbm, 293, rfl⟩
abbrev main_v139 : Ref sig .tc := ⟨.hbm, 294, rfl⟩
abbrev main_v140 : Ref sig .tc := ⟨.hbm, 295, rfl⟩
abbrev main_v141 : Ref sig .tc := ⟨.hbm, 296, rfl⟩
abbrev main_v142 : Ref sig .tc := ⟨.hbm, 297, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg3_1 : Ref sig .tc := ⟨.vmem, 13, rfl⟩
abbrev cc1_stg4_0 : Ref sig .tc := ⟨.vmem, 14, rfl⟩
abbrev cc1_stg4_1 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc1_sem0_0 : DmaSem sig := 8
abbrev cc1_sem0_1 : DmaSem sig := 9
abbrev cc1_sem1_0 : DmaSem sig := 10
abbrev cc1_sem2_0 : DmaSem sig := 11
abbrev cc1_sem3_0 : DmaSem sig := 12
abbrev cc1_sem3_1 : DmaSem sig := 13
abbrev cc1_sem4_0 : DmaSem sig := 14
abbrev cc1_sem4_1 : DmaSem sig := 15

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128x4 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S5000x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S5000x4 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨1, ![50], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S8000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S128x4 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S8000x128 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S8000x4 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

class Facts₀ : Prop where
  shapeCasts_S256x1_S256 : S256x1.ShapeCasts S256
  slices_S256_S128_0 : S256.Slices ![0] S128
  slices_S256_S128_128 : S256.Slices ![128] S128
  bcast_S_S128 : S_.BroadcastsInDim S128 (![] : Fin 0 → Fin S128.rank)
  bcast_S128_S128x1_0 : S128.BroadcastsInDim S128x1 (![0] : Fin 1 → Fin S128x1.rank)
  concatenates_S128x1_S128x1_S128x1_S128x1_S128x4_d1 : Shape.Concatenates [S128x1, S128x1, S128x1, S128x1] S128x4 1
  inb_S5000x256_S5000x256_0_0 : ∀ a, (![0, 0] : Fin 2 → Nat) a + S5000x256.size a ≤ S5000x256.size a
  h_S5000x256 : 0 < S5000x256.numel
  bitsLt_bf16_f32 : FTy.bits .bf16 < FTy.bits .f32
  inb_S256x128_S256x128_0_0 : ∀ a, (![0, 0] : Fin 2 → Nat) a + S256x128.size a ≤ S256x128.size a
  h_S256x128 : 0 < S256x128.numel
  inb_S5000x128_S5000x128_0_0 : ∀ a, (![0, 0] : Fin 2 → Nat) a + S5000x128.size a ≤ S5000x128.size a
  h_S5000x128 : 0 < S5000x128.numel
  packedbf16_S5000x128_S5000x128_0_0 : (Rect.unit (s := S5000x128) ![0, 0] S5000x128.size inb_S5000x128_S5000x128_0_0).PackedRows (EltTy.packing .bf16)
  inb_S128x4_S128x4_0_0 : ∀ a, (![0, 0] : Fin 2 → Nat) a + S128x4.size a ≤ S128x4.size a
  h_S128x4 : 0 < S128x4.numel
  shapeCasts_S128x4_S128x4 : S128x4.ShapeCasts S128x4
  inb_S5000x4_S5000x4_0_0 : ∀ a, (![0, 0] : Fin 2 → Nat) a + S5000x4.size a ≤ S5000x4.size a
  h_S5000x4 : 0 < S5000x4.numel
  inb_S8000x128_S8000x128_0_0 : ∀ a, (![0, 0] : Fin 2 → Nat) a + S8000x128.size a ≤ S8000x128.size a
  h_S8000x128 : 0 < S8000x128.numel
  inb_S128x128_S128x128_0_0 : ∀ a, (![0, 0] : Fin 2 → Nat) a + S128x128.size a ≤ S128x128.size a
  h_S128x128 : 0 < S128x128.numel
  packedbf16_S8000x128_S8000x128_0_0 : (Rect.unit (s := S8000x128) ![0, 0] S8000x128.size inb_S8000x128_S8000x128_0_0).PackedRows (EltTy.packing .bf16)
  inb_S8000x4_S8000x4_0_0 : ∀ a, (![0, 0] : Fin 2 → Nat) a + S8000x4.size a ≤ S8000x4.size a
  h_S8000x4 : 0 < S8000x4.numel
  shapeCasts_S1x2x400000_S400000x2 : S1x2x400000.ShapeCasts S400000x2
  concatenates_S400000x2_S400000x2_S800000x2_d0 : Shape.Concatenates [S400000x2, S400000x2] S800000x2 0
  slices_S800000x2_S800000x1_0_0 : S800000x2.Slices ![0, 0] S800000x1
  shapeCasts_S800000x1_S800000 : S800000x1.ShapeCasts S800000
  slices_S800000x2_S800000x1_0_1 : S800000x2.Slices ![0, 1] S800000x1
  bcast_S_S800000 : S_.BroadcastsInDim S800000 (![] : Fin 0 → Fin S800000.rank)
  bcast_S800000_S800000x1_0 : S800000.BroadcastsInDim S800000x1 (![0] : Fin 1 → Fin S800000x1.rank)
  slices_S800000x4_S800000x1_0_0 : S800000x4.Slices ![0, 0] S800000x1
  slices_S800000x4_S800000x1_0_2 : S800000x4.Slices ![0, 2] S800000x1
  slices_S800000x4_S800000x1_0_1 : S800000x4.Slices ![0, 1] S800000x1
  slices_S400000x4_S400000x1_0_0 : S400000x4.Slices ![0, 0] S400000x1
  shapeCasts_S400000x1_S400000 : S400000x1.ShapeCasts S400000
  concatenates_S400000_S400000_S800000_d0 : Shape.Concatenates [S400000, S400000] S800000 0
  bcast_S_S50000 : S_.BroadcastsInDim S50000 (![] : Fin 0 → Fin S50000.rank)
  slices_S50000_S1_49999 : S50000.Slices ![49999] S1
  slices_S50000_S49999_0 : S50000.Slices ![0] S49999
  concatenates_S1_S49999_S50000_d0 : Shape.Concatenates [S1, S49999] S50000 0
  bcast_S_S1 : S_.BroadcastsInDim S1 (![] : Fin 0 → Fin S1.rank)
  bcast_S_S_ : S_.BroadcastsInDim S_ (![] : Fin 0 → Fin S_.rank)
  reduceWindows_S50000_S50000_w50000s1p49999_0 : S50000.ReduceWindows (![50000] : Fin 1 → Nat) ![1] ![49999] ![0] S50000
  h_S_ : 0 < S_.numel
  bcast_S50000_S50000x1_0 : S50000.BroadcastsInDim S50000x1 (![0] : Fin 1 → Fin S50000x1.rank)
  reduceWindows_S800000_S800000_w800000s1p799999_0 : S800000.ReduceWindows (![800000] : Fin 1 → Nat) ![1] ![799999] ![0] S800000
  bcast_S_S800000x1 : S_.BroadcastsInDim S800000x1 (![] : Fin 0 → Fin S800000x1.rank)
  bcast_S1_S1x1_1 : S1.BroadcastsInDim S1x1 (![1] : Fin 1 → Fin S1x1.rank)
  bcast_S1x1_S800000x1_0_1 : S1x1.BroadcastsInDim S800000x1 (![0, 1] : Fin 2 → Fin S800000x1.rank)
  reducesTo_S800000x1_S800000_d1 : S800000x1.ReducesTo [1] S800000
  reducesTo_S800000_S_d0 : S800000.ReducesTo [0] S_
  bcast_S1_S800000_0 : S1.BroadcastsInDim S800000 (![0] : Fin 1 → Fin S800000.rank)
  slices_S400000x128_S50000x128_0_0 : S400000x128.Slices ![0, 0] S50000x128
  concatenates_S50000x128_S50000x128_S50000x256_d1 : Shape.Concatenates [S50000x128, S50000x128] S50000x256 1
  bcast_S800000x1_S800000x128_0_1 : S800000x1.BroadcastsInDim S800000x128 (![0, 1] : Fin 2 → Fin S800000x128.rank)
  concatenates_S800000x128_S800000x128_S800000x256_d1 : Shape.Concatenates [S800000x128, S800000x128] S800000x256 1
  bcast_S_S50000x256 : S_.BroadcastsInDim S50000x256 (![] : Fin 0 → Fin S50000x256.rank)
  slices_S50000x256_S50000x128_0_0 : S50000x256.Slices ![0, 0] S50000x128
  slices_S50000x256_S50000x128_0_128 : S50000x256.Slices ![0, 128] S50000x128
  dot_S5000x256_S256x128_S5000x128_1_0_0_1_n_n_wf : DotDims.WF S5000x256 S256x128 S5000x128 [1] [0] [0] [1] [] []
  dot_S5000x128_S128x4_S5000x4_1_0_0_1_n_n_wf : DotDims.WF S5000x128 S128x4 S5000x4 [1] [0] [0] [1] [] []
  dot_S8000x128_S128x128_S8000x128_1_0_0_1_n_n_wf : DotDims.WF S8000x128 S128x128 S8000x128 [1] [0] [0] [1] [] []
  dot_S8000x128_S128x4_S8000x4_1_0_0_1_n_n_wf : DotDims.WF S8000x128 S128x4 S8000x4 [1] [0] [0] [1] [] []
  gather_S50000x4_S800000x1_S800000x4_1_0_n_n_0_1_14_wf : GatherDims.WF S50000x4 S800000x1 S800000x4 [1] [0] [] [0] [] 1 ![1, 4]
  scatter_S50000_S800000x1_S800000_n_0_0_1_wf : ScatterDims.WF S50000 S800000x1 S800000 [] [0] [0] 1
  scatter_S50000_S1_S__n_0_0_0_wf : ScatterDims.WF S50000 S1 S_ [] [0] [0] 0
  scatter_S800000_S50000x1_S50000_n_0_0_1_wf : ScatterDims.WF S800000 S50000x1 S50000 [] [0] [0] 1
  gather_S50000_S800000x1_S800000_n_0_n_n_0_1_1_wf : GatherDims.WF S50000 S800000x1 S800000 [] [0] [] [0] [] 1 ![1]
  gather_S50000x256_S800000x1_S800000x256_1_0_n_n_0_1_1256_wf : GatherDims.WF S50000x256 S800000x1 S800000x256 [1] [0] [] [0] [] 1 ![1, 256]
  scatter_S50000x256_S800000x1_S800000x256_1_0_0_1_wf : ScatterDims.WF S50000x256 S800000x1 S800000x256 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x256.size a ≤ S50000x256.size a
  hwx0_0 : ∀ i : grid0.Coords, EltTy.bits .f32 = 32 ∨ (Rect.block (s := S50000x256) S5000x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x128.size a ≤ S256x128.size a
  hwx0_1 : ∀ i : grid0.Coords, EltTy.bits .f32 = 32 ∨ (Rect.block (s := S256x128) S256x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x4.size a ≤ S128x4.size a
  hwx0_2 : ∀ i : grid0.Coords, EltTy.bits .f32 = 32 ∨ (Rect.block (s := S128x4) S128x4.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x128.size a ≤ S50000x128.size a
  hwx0_3 : ∀ i : grid0.Coords, EltTy.bits .bf16 = 32 ∨ (Rect.block (s := S50000x128) S5000x128.size (cc0_transform_3 i) (hinb0_3 i)).WholeWords (EltTy.packing .bf16)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S5000x4.size a ≤ S50000x4.size a
  hwx0_4 : ∀ i : grid0.Coords, EltTy.bits .f32 = 32 ∨ (Rect.block (s := S50000x4) S5000x4.size (cc0_transform_4 i) (hinb0_4 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S8000x128.size a ≤ S400000x128.size a
  hwx1_0 : ∀ i : grid1.Coords, EltTy.bits .f32 = 32 ∨ (Rect.block (s := S400000x128) S8000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128x128.size a ≤ S128x128.size a
  hwx1_1 : ∀ i : grid1.Coords, EltTy.bits .f32 = 32 ∨ (Rect.block (s := S128x128) S128x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x4.size a ≤ S128x4.size a
  hwx1_2 : ∀ i : grid1.Coords, EltTy.bits .f32 = 32 ∨ (Rect.block (s := S128x4) S128x4.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S8000x128.size a ≤ S400000x128.size a
  hwx1_3 : ∀ i : grid1.Coords, EltTy.bits .bf16 = 32 ∨ (Rect.block (s := S400000x128) S8000x128.size (cc1_transform_3 i) (hinb1_3 i)).WholeWords (EltTy.packing .bf16)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S8000x4.size a ≤ S400000x4.size a
  hwx1_4 : ∀ i : grid1.Coords, EltTy.bits .f32 = 32 ∨ (Rect.block (s := S400000x4) S8000x4.size (cc1_transform_4 i) (hinb1_4 i)).WholeWords (EltTy.packing .f32)

variable [Facts₀]

def dot_S5000x256_S256x128_S5000x128_1_0_0_1_n_n : DotDims S5000x256 S256x128 S5000x128 where
  lhsContracting := [1]
  rhsContracting := [0]
  lhsNonContracting := [0]
  rhsNonContracting := [1]
  lhsBatch := []
  rhsBatch := []
  wf := dot_S5000x256_S256x128_S5000x128_1_0_0_1_n_n_wf
def dot_S5000x128_S128x4_S5000x4_1_0_0_1_n_n : DotDims S5000x128 S128x4 S5000x4 where
  lhsContracting := [1]
  rhsContracting := [0]
  lhsNonContracting := [0]
  rhsNonContracting := [1]
  lhsBatch := []
  rhsBatch := []
  wf := dot_S5000x128_S128x4_S5000x4_1_0_0_1_n_n_wf
def dot_S8000x128_S128x128_S8000x128_1_0_0_1_n_n : DotDims S8000x128 S128x128 S8000x128 where
  lhsContracting := [1]
  rhsContracting := [0]
  lhsNonContracting := [0]
  rhsNonContracting := [1]
  lhsBatch := []
  rhsBatch := []
  wf := dot_S8000x128_S128x128_S8000x128_1_0_0_1_n_n_wf
def dot_S8000x128_S128x4_S8000x4_1_0_0_1_n_n : DotDims S8000x128 S128x4 S8000x4 where
  lhsContracting := [1]
  rhsContracting := [0]
  lhsNonContracting := [0]
  rhsNonContracting := [1]
  lhsBatch := []
  rhsBatch := []
  wf := dot_S8000x128_S128x4_S8000x4_1_0_0_1_n_n_wf
def gather_S50000x4_S800000x1_S800000x4_1_0_n_n_0_1_14 : GatherDims S50000x4 S800000x1 S800000x4 where
  offsetDims := [1]
  collapsedSliceDims := [0]
  operandBatchingDims := []
  startIndicesBatchingDims := []
  startIndexMap := [0]
  indexVectorDim := 1
  sliceSizes := ![1, 4]
  wf := gather_S50000x4_S800000x1_S800000x4_1_0_n_n_0_1_14_wf
def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def scatter_S50000_S1_S__n_0_0_0 : ScatterDims S50000 S1 S_ where
  updateWindowDims := []
  insertedWindowDims := [0]
  scatterDimsToOperandDims := [0]
  indexVectorDim := 0
  wf := scatter_S50000_S1_S__n_0_0_0_wf
def scatter_S800000_S50000x1_S50000_n_0_0_1 : ScatterDims S800000 S50000x1 S50000 where
  updateWindowDims := []
  insertedWindowDims := [0]
  scatterDimsToOperandDims := [0]
  indexVectorDim := 1
  wf := scatter_S800000_S50000x1_S50000_n_0_0_1_wf
def gather_S50000_S800000x1_S800000_n_0_n_n_0_1_1 : GatherDims S50000 S800000x1 S800000 where
  offsetDims := []
  collapsedSliceDims := [0]
  operandBatchingDims := []
  startIndicesBatchingDims := []
  startIndexMap := [0]
  indexVectorDim := 1
  sliceSizes := ![1]
  wf := gather_S50000_S800000x1_S800000_n_0_n_n_0_1_1_wf
def gather_S50000x256_S800000x1_S800000x256_1_0_n_n_0_1_1256 : GatherDims S50000x256 S800000x1 S800000x256 where
  offsetDims := [1]
  collapsedSliceDims := [0]
  operandBatchingDims := []
  startIndicesBatchingDims := []
  startIndexMap := [0]
  indexVectorDim := 1
  sliceSizes := ![1, 256]
  wf := gather_S50000x256_S800000x1_S800000x256_1_0_n_n_0_1_1256_wf
def scatter_S50000x256_S800000x1_S800000x256_1_0_0_1 : ScatterDims S50000x256 S800000x1 S800000x256 where
  updateWindowDims := [1]
  insertedWindowDims := [0]
  scatterDimsToOperandDims := [0]
  indexVectorDim := 1
  wf := scatter_S50000x256_S800000x1_S800000x256_1_0_0_1_wf

abbrev win0_0 : Pipeline.Window sig grid0 :=
  Pipeline.Window.ofSpec (Memref.whole main_arg0) S5000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S256x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v10) S128x4.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v20_0) S5000x128.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v20_1) S5000x4.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_arg1) S8000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg4) S128x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v19) S128x4.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v21_0) S8000x128.size cc1_transform_3 reads1_3 true false 2 stage1_3 sem1_3
    hrank1 hreads1_3 hinb1_3 nbuf1_3 (Memref.isWhole_whole _) hwx1_3 hstage1_3

abbrev win1_4 : Pipeline.Window sig grid1 :=
  Pipeline.Window.ofSpec (Memref.whole main_v21_1) S8000x4.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

class Facts : Prop extends Facts₀ where

variable [Facts]
-- ==== ReferenceIdeal.lean ====
abbrev S50000x256 : Shape := ⟨2, ![50000, 256]⟩
abbrev S400000x128 : Shape := ⟨2, ![400000, 128]⟩
abbrev S1x2x400000 : Shape := ⟨3, ![1, 2, 400000]⟩
abbrev S256x128 : Shape := ⟨2, ![256, 128]⟩
abbrev S128x128 : Shape := ⟨2, ![128, 128]⟩
abbrev S256x1 : Shape := ⟨2, ![256, 1]⟩
abbrev S800000x128 : Shape := ⟨2, ![800000, 128]⟩
abbrev S400000x2 : Shape := ⟨2, ![400000, 2]⟩
abbrev S800000x2 : Shape := ⟨2, ![800000, 2]⟩
abbrev S800000x1 : Shape := ⟨2, ![800000, 1]⟩
abbrev S800000 : Shape := ⟨1, ![800000]⟩
abbrev S50000x128 : Shape := ⟨2, ![50000, 128]⟩
abbrev S_ : Shape := ⟨0, ![]⟩
abbrev S800000x2x1 : Shape := ⟨3, ![800000, 2, 1]⟩
abbrev S800000x2x128 : Shape := ⟨3, ![800000, 2, 128]⟩
abbrev S800000x256 : Shape := ⟨2, ![800000, 256]⟩
abbrev S50000 : Shape := ⟨1, ![50000]⟩
abbrev S1 : Shape := ⟨1, ![1]⟩
abbrev S49999 : Shape := ⟨1, ![49999]⟩
abbrev S50000x1 : Shape := ⟨2, ![50000, 1]⟩
abbrev S1x1 : Shape := ⟨2, ![1, 1]⟩

abbrev nBuf : Space → Nat
  | .hbm => 276
  | .vmem => 0
  | .smem => 0
  | _ => 0

abbrev hbmTy0_0 (i : Nat) : BufTy := match i % 128 with
  | 0 => ⟨S50000x256, .f32⟩
  | 1 => ⟨S400000x128, .f32⟩
  | 2 => ⟨S1x2x400000, .i32⟩
  | 3 => ⟨S256x128, .f32⟩
  | 4 => ⟨S128x128, .f32⟩
  | 5 => ⟨S256x1, .f32⟩
  | 6 => ⟨S256x1, .f32⟩
  | 7 => ⟨S800000x128, .f32⟩
  | 8 => ⟨S400000x2, .i32⟩
  | 9 => ⟨S400000x2, .i32⟩
  | 10 => ⟨S800000x2, .i32⟩
  | 11 => ⟨S800000x1, .i32⟩
  | 12 => ⟨S800000, .i32⟩
  | 13 => ⟨S800000x1, .i32⟩
  | 14 => ⟨S800000, .i32⟩
  | 15 => ⟨S50000x128, .f32⟩
  | 16 => ⟨S800000x128, .f32⟩
  | 17 => ⟨S_, .i32⟩
  | 18 => ⟨S800000x2, .i32⟩
  | 19 => ⟨S800000x2, .i1⟩
  | 20 => ⟨S_, .i32⟩
  | 21 => ⟨S800000x2, .i32⟩
  | 22 => ⟨S800000x2, .i32⟩
  | 23 => ⟨S800000x2, .i32⟩
  | 24 => ⟨S800000x2x1, .i32⟩
  | 25 => ⟨S800000x2x128, .f32⟩
  | 26 => ⟨S800000x256, .f32⟩
  | 27 => ⟨S_, .i32⟩
  | 28 => ⟨S800000, .i32⟩
  | 29 => ⟨S800000, .i1⟩
  | 30 => ⟨S_, .i32⟩
  | 31 => ⟨S800000, .i32⟩
  | 32 => ⟨S800000, .i32⟩
  | 33 => ⟨S800000, .i32⟩
  | 34 => ⟨S800000x1, .i32⟩
  | 35 => ⟨S800000x128, .f32⟩
  | 36 => ⟨S800000x256, .f32⟩
  | 37 => ⟨S800000x1, .f32⟩
  | 38 => ⟨S800000, .f32⟩
  | 39 => ⟨S_, .f32⟩
  | 40 => ⟨S800000, .f32⟩
  | 41 => ⟨S800000, .i1⟩
  | 42 => ⟨S_, .f32⟩
  | 43 => ⟨S800000, .f32⟩
  | 44 => ⟨S800000, .f32⟩
  | 45 => ⟨S800000, .f32⟩
  | 46 => ⟨S_, .f32⟩
  | 47 => ⟨S_, .f32⟩
  | 48 => ⟨S_, .f32⟩
  | 49 => ⟨S800000, .f32⟩
  | 50 => ⟨S800000, .f32⟩
  | 51 => ⟨S_, .f32⟩
  | 52 => ⟨S800000, .f32⟩
  | 53 => ⟨S800000, .f32⟩
  | 54 => ⟨S800000, .f32⟩
  | 55 => ⟨S800000x1, .f32⟩
  | 56 => ⟨S800000, .f32⟩
  | 57 => ⟨S_, .f32⟩
  | 58 => ⟨S800000, .f32⟩
  | 59 => ⟨S800000, .i1⟩
  | 60 => ⟨S_, .f32⟩
  | 61 => ⟨S800000, .f32⟩
  | 62 => ⟨S800000, .f32⟩
  | 63 => ⟨S800000, .f32⟩
  | 64 => ⟨S_, .f32⟩
  | 65 => ⟨S_, .f32⟩
  | 66 => ⟨S_, .f32⟩
  | 67 => ⟨S800000, .f32⟩
  | 68 => ⟨S800000, .f32⟩
  | 69 => ⟨S_, .f32⟩
  | 70 => ⟨S800000, .f32⟩
  | 71 => ⟨S800000, .f32⟩
  | 72 => ⟨S800000, .f32⟩
  | 73 => ⟨S_, .i32⟩
  | 74 => ⟨S50000, .i32⟩
  | 75 => ⟨S_, .i32⟩
  | 76 => ⟨S_, .i32⟩
  | 77 => ⟨S800000, .i32⟩
  | 78 => ⟨S800000, .i32⟩
  | 79 => ⟨S_, .i32⟩
  | 80 => ⟨S800000, .i32⟩
  | 81 => ⟨S800000, .i1⟩
  | 82 => ⟨S_, .i32⟩
  | 83 => ⟨S800000, .i32⟩
  | 84 => ⟨S800000, .i32⟩
  | 85 => ⟨S800000, .i32⟩
  | 86 => ⟨S800000x1, .i32⟩
  | 87 => ⟨S_, .i32⟩
  | 88 => ⟨S800000, .i32⟩
  | 89 => ⟨S50000, .i32⟩
  | 90 => ⟨S_, .f32⟩
  | 91 => ⟨S50000, .f32⟩
  | 92 => ⟨S800000x1, .i32⟩
  | 93 => ⟨S50000, .f32⟩
  | 94 => ⟨S_, .f32⟩
  | 95 => ⟨S50000, .f32⟩
  | 96 => ⟨S800000x1, .i32⟩
  | 97 => ⟨S50000, .f32⟩
  | 98 => ⟨S1, .i32⟩
  | 99 => ⟨S49999, .i32⟩
  | 100 => ⟨S50000, .i32⟩
  | 101 => ⟨S_, .i32⟩
  | 102 => ⟨S1, .i32⟩
  | 103 => ⟨S_, .i32⟩
  | 104 => ⟨S50000, .i32⟩
  | 105 => ⟨S_, .i32⟩
  | 106 => ⟨S_, .i32⟩
  | 107 => ⟨S50000, .i32⟩
  | 108 => ⟨S_, .i32⟩
  | 109 => ⟨S800000, .i32⟩
  | 110 => ⟨S_, .i32⟩
  | 111 => ⟨S50000, .i32⟩
  | 112 => ⟨S50000, .i1⟩
  | 113 => ⟨S_, .i32⟩
  | 114 => ⟨S50000, .i32⟩
  | 115 => ⟨S50000, .i32⟩
  | 116 => ⟨S50000, .i32⟩
  | 117 => ⟨S50000x1, .i32⟩
  | 118 => ⟨S_, .i32⟩
  | 119 => ⟨S50000, .i32⟩
  | 120 => ⟨S800000, .i32⟩
  | 121 => ⟨S_, .i32⟩
  | 122 => ⟨S_, .i32⟩
  | 123 => ⟨S800000, .i32⟩
  | 124 => ⟨S_, .i32⟩
  | 125 => ⟨S800000, .i32⟩
  | 126 => ⟨S800000, .i32⟩
  | 127 => ⟨S_, .i32⟩
  | _ => ⟨S50000x256, .f32⟩

abbrev hbmTy0_1 (i : Nat) : BufTy := match i % 128 with
  | 0 => ⟨S800000, .i32⟩
  | 1 => ⟨S800000, .i1⟩
  | 2 => ⟨S_, .i32⟩
  | 3 => ⟨S800000, .i32⟩
  | 4 => ⟨S800000, .i32⟩
  | 5 => ⟨S800000, .i32⟩
  | 6 => ⟨S800000x1, .i32⟩
  | 7 => ⟨S1, .i32⟩
  | 8 => ⟨S_, .i32⟩
  | 9 => ⟨S800000x1, .i32⟩
  | 10 => ⟨S800000x1, .i1⟩
  | 11 => ⟨S1x1, .i32⟩
  | 12 => ⟨S800000x1, .i32⟩
  | 13 => ⟨S800000x1, .i1⟩
  | 14 => ⟨S800000x1, .i1⟩
  | 15 => ⟨S_, .i1⟩
  | 16 => ⟨S800000, .i1⟩
  | 17 => ⟨S800000, .f32⟩
  | 18 => ⟨S_, .f32⟩
  | 19 => ⟨S800000, .f32⟩
  | 20 => ⟨S800000, .f32⟩
  | 21 => ⟨S1, .i32⟩
  | 22 => ⟨S49999, .i32⟩
  | 23 => ⟨S50000, .i32⟩
  | 24 => ⟨S_, .i32⟩
  | 25 => ⟨S1, .i32⟩
  | 26 => ⟨S_, .i32⟩
  | 27 => ⟨S50000, .i32⟩
  | 28 => ⟨S_, .i32⟩
  | 29 => ⟨S_, .i32⟩
  | 30 => ⟨S50000, .i32⟩
  | 31 => ⟨S_, .i32⟩
  | 32 => ⟨S800000, .i32⟩
  | 33 => ⟨S_, .i32⟩
  | 34 => ⟨S50000, .i32⟩
  | 35 => ⟨S50000, .i1⟩
  | 36 => ⟨S_, .i32⟩
  | 37 => ⟨S50000, .i32⟩
  | 38 => ⟨S50000, .i32⟩
  | 39 => ⟨S50000, .i32⟩
  | 40 => ⟨S50000x1, .i32⟩
  | 41 => ⟨S_, .i32⟩
  | 42 => ⟨S50000, .i32⟩
  | 43 => ⟨S800000, .i32⟩
  | 44 => ⟨S_, .i32⟩
  | 45 => ⟨S_, .i32⟩
  | 46 => ⟨S800000, .i32⟩
  | 47 => ⟨S_, .i32⟩
  | 48 => ⟨S800000, .i32⟩
  | 49 => ⟨S800000, .i32⟩
  | 50 => ⟨S_, .i32⟩
  | 51 => ⟨S800000, .i32⟩
  | 52 => ⟨S800000, .i1⟩
  | 53 => ⟨S_, .i32⟩
  | 54 => ⟨S800000, .i32⟩
  | 55 => ⟨S800000, .i32⟩
  | 56 => ⟨S800000, .i32⟩
  | 57 => ⟨S800000x1, .i32⟩
  | 58 => ⟨S1, .i32⟩
  | 59 => ⟨S_, .i32⟩
  | 60 => ⟨S800000x1, .i32⟩
  | 61 => ⟨S800000x1, .i1⟩
  | 62 => ⟨S1x1, .i32⟩
  | 63 => ⟨S800000x1, .i32⟩
  | 64 => ⟨S800000x1, .i1⟩
  | 65 => ⟨S800000x1, .i1⟩
  | 66 => ⟨S_, .i1⟩
  | 67 => ⟨S800000, .i1⟩
  | 68 => ⟨S800000, .f32⟩
  | 69 => ⟨S_, .f32⟩
  | 70 => ⟨S800000, .f32⟩
  | 71 => ⟨S800000, .f32⟩
  | 72 => ⟨S800000, .f32⟩
  | 73 => ⟨S800000, .f32⟩
  | 74 => ⟨S_, .i32⟩
  | 75 => ⟨S_, .f32⟩
  | 76 => ⟨S_, .f32⟩
  | 77 => ⟨S1, .f32⟩
  | 78 => ⟨S_, .f32⟩
  | 79 => ⟨S1, .f32⟩
  | 80 => ⟨S1, .f32⟩
  | 81 => ⟨S800000, .f32⟩
  | 82 => ⟨S800000, .f32⟩
  | 83 => ⟨S800000, .f32⟩
  | 84 => ⟨S_, .f32⟩
  | 85 => ⟨S_, .f32⟩
  | 86 => ⟨S_, .f32⟩
  | 87 => ⟨S_, .f32⟩
  | 88 => ⟨S_, .f32⟩
  | 89 => ⟨S_, .f32⟩
  | 90 => ⟨S_, .f32⟩
  | 91 => ⟨S_, .i1⟩
  | 92 => ⟨S_, .f32⟩
  | 93 => ⟨S_, .f32⟩
  | 94 => ⟨S_, .f32⟩
  | 95 => ⟨S_, .i32⟩
  | 96 => ⟨S_, .f32⟩
  | 97 => ⟨S_, .f32⟩
  | 98 => ⟨S1, .f32⟩
  | 99 => ⟨S_, .f32⟩
  | 100 => ⟨S1, .f32⟩
  | 101 => ⟨S1, .f32⟩
  | 102 => ⟨S800000, .f32⟩
  | 103 => ⟨S800000, .f32⟩
  | 104 => ⟨S800000, .f32⟩
  | 105 => ⟨S_, .f32⟩
  | 106 => ⟨S_, .f32⟩
  | 107 => ⟨S_, .f32⟩
  | 108 => ⟨S_, .f32⟩
  | 109 => ⟨S_, .f32⟩
  | 110 => ⟨S_, .f32⟩
  | 111 => ⟨S_, .f32⟩
  | 112 => ⟨S_, .i1⟩
  | 113 => ⟨S_, .f32⟩
  | 114 => ⟨S_, .f32⟩
  | 115 => ⟨S_, .f32⟩
  | 116 => ⟨S_, .i32⟩
  | 117 => ⟨S800000, .i32⟩
  | 118 => ⟨S800000, .i1⟩
  | 119 => ⟨S_, .i32⟩
  | 120 => ⟨S800000, .i32⟩
  | 121 => ⟨S800000, .i32⟩
  | 122 => ⟨S800000, .i32⟩
  | 123 => ⟨S800000x1, .i32⟩
  | 124 => ⟨S800000x128, .f32⟩
  | 125 => ⟨S800000x1, .f32⟩
  | 126 => ⟨S800000x128, .f32⟩
  | 127 => ⟨S800000x128, .f32⟩
  | _ => ⟨S50000x256, .f32⟩

abbrev hbmTy0_2 (i : Nat) : BufTy := match i % 128 with
  | 0 => ⟨S_, .f32⟩
  | 1 => ⟨S50000x128, .f32⟩
  | 2 => ⟨S800000x1, .i32⟩
  | 3 => ⟨S50000x128, .f32⟩
  | 4 => ⟨S_, .i32⟩
  | 5 => ⟨S800000, .i32⟩
  | 6 => ⟨S800000, .i1⟩
  | 7 => ⟨S_, .i32⟩
  | 8 => ⟨S800000, .i32⟩
  | 9 => ⟨S800000, .i32⟩
  | 10 => ⟨S800000, .i32⟩
  | 11 => ⟨S800000x1, .i32⟩
  | 12 => ⟨S800000x128, .f32⟩
  | 13 => ⟨S800000x1, .f32⟩
  | 14 => ⟨S800000x128, .f32⟩
  | 15 => ⟨S800000x128, .f32⟩
  | 16 => ⟨S_, .f32⟩
  | 17 => ⟨S50000x128, .f32⟩
  | 18 => ⟨S800000x1, .i32⟩
  | 19 => ⟨S50000x128, .f32⟩
  | _ => ⟨S50000x256, .f32⟩

abbrev hbmTy (i : Nat) : BufTy := match i / 128 with
  | 0 => hbmTy0_0 i
  | 1 => hbmTy0_1 i
  | 2 => hbmTy0_2 i
  | _ => ⟨S50000x256, .f32⟩

abbrev bufTy : (tb : Table) → Fin (tcTables nBuf tb) → BufTy
  | .hbm, ⟨i, _⟩ => hbmTy i
  | _, _ => ⟨S50000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_c : Ref sig .tc := ⟨.hbm, 17, rfl⟩
abbrev main_v10 : Ref sig .tc := ⟨.hbm, 18, rfl⟩
abbrev main_v11 : Ref sig .tc := ⟨.hbm, 19, rfl⟩
abbrev main_c_0 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_c_1 : Ref sig .tc := ⟨.hbm, 27, rfl⟩
abbrev main_v18 : Ref sig .tc := ⟨.hbm, 28, rfl⟩
abbrev main_v19 : Ref sig .tc := ⟨.hbm, 29, rfl⟩
abbrev main_c_2 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_cst : Ref sig .tc := ⟨.hbm, 39, rfl⟩
abbrev main_v28 : Ref sig .tc := ⟨.hbm, 40, rfl⟩
abbrev main_v29 : Ref sig .tc := ⟨.hbm, 41, rfl⟩
abbrev main_cst_3 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_cst_4 : Ref sig .tc := ⟨.hbm, 46, rfl⟩
abbrev main_cst_5 : Ref sig .tc := ⟨.hbm, 47, rfl⟩
abbrev main_call1_v0 : Ref sig .tc := ⟨.hbm, 48, rfl⟩
abbrev main_call1_v1 : Ref sig .tc := ⟨.hbm, 49, rfl⟩
abbrev main_call1_v2 : Ref sig .tc := ⟨.hbm, 50, rfl⟩
abbrev main_call1_v3 : Ref sig .tc := ⟨.hbm, 51, rfl⟩
abbrev main_call1_v4 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_cst_6 : Ref sig .tc := ⟨.hbm, 57, rfl⟩
abbrev main_v37 : Ref sig .tc := ⟨.hbm, 58, rfl⟩
abbrev main_v38 : Ref sig .tc := ⟨.hbm, 59, rfl⟩
abbrev main_cst_7 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_cst_8 : Ref sig .tc := ⟨.hbm, 64, rfl⟩
abbrev main_cst_9 : Ref sig .tc := ⟨.hbm, 65, rfl⟩
abbrev main_call3_v0 : Ref sig .tc := ⟨.hbm, 66, rfl⟩
abbrev main_call3_v1 : Ref sig .tc := ⟨.hbm, 67, rfl⟩
abbrev main_call3_v2 : Ref sig .tc := ⟨.hbm, 68, rfl⟩
abbrev main_call3_v3 : Ref sig .tc := ⟨.hbm, 69, rfl⟩
abbrev main_call3_v4 : Ref sig .tc := ⟨.hbm, 70, rfl⟩
abbrev main_v42 : Ref sig .tc := ⟨.hbm, 71, rfl⟩
abbrev main_v43 : Ref sig .tc := ⟨.hbm, 72, rfl⟩
abbrev main_c_10 : Ref sig .tc := ⟨.hbm, 73, rfl⟩
abbrev main_v44 : Ref sig .tc := ⟨.hbm, 74, rfl⟩
abbrev main_c_11 : Ref sig .tc := ⟨.hbm, 75, rfl⟩
abbrev main_call4_v0 : Ref sig .tc := ⟨.hbm, 76, rfl⟩
abbrev main_call4_v1 : Ref sig .tc := ⟨.hbm, 77, rfl⟩
abbrev main_v45 : Ref sig .tc := ⟨.hbm, 78, rfl⟩
abbrev main_c_12 : Ref sig .tc := ⟨.hbm, 79, rfl⟩
abbrev main_v46 : Ref sig .tc := ⟨.hbm, 80, rfl⟩
abbrev main_v47 : Ref sig .tc := ⟨.hbm, 81, rfl⟩
abbrev main_c_13 : Ref sig .tc := ⟨.hbm, 82, rfl⟩
abbrev main_v48 : Ref sig .tc := ⟨.hbm, 83, rfl⟩
abbrev main_v49 : Ref sig .tc := ⟨.hbm, 84, rfl⟩
abbrev main_v50 : Ref sig .tc := ⟨.hbm, 85, rfl⟩
abbrev main_v51 : Ref sig .tc := ⟨.hbm, 86, rfl⟩
abbrev main_c_14 : Ref sig .tc := ⟨.hbm, 87, rfl⟩
abbrev main_v52 : Ref sig .tc := ⟨.hbm, 88, rfl⟩
abbrev main_v53 : Ref sig .tc := ⟨.hbm, 89, rfl⟩
abbrev main_cst_15 : Ref sig .tc := ⟨.hbm, 90, rfl⟩
abbrev main_v54 : Ref sig .tc := ⟨.hbm, 91, rfl⟩
abbrev main_v55 : Ref sig .tc := ⟨.hbm, 92, rfl⟩
abbrev main_v56 : Ref sig .tc := ⟨.hbm, 93, rfl⟩
abbrev main_cst_16 : Ref sig .tc := ⟨.hbm, 94, rfl⟩
abbrev main_v57 : Ref sig .tc := ⟨.hbm, 95, rfl⟩
abbrev main_v58 : Ref sig .tc := ⟨.hbm, 96, rfl⟩
abbrev main_v59 : Ref sig .tc := ⟨.hbm, 97, rfl⟩
abbrev main_call5_v0 : Ref sig .tc := ⟨.hbm, 98, rfl⟩
abbrev main_call5_v1 : Ref sig .tc := ⟨.hbm, 99, rfl⟩
abbrev main_v60 : Ref sig .tc := ⟨.hbm, 100, rfl⟩
abbrev main_c_17 : Ref sig .tc := ⟨.hbm, 101, rfl⟩
abbrev main_v61 : Ref sig .tc := ⟨.hbm, 102, rfl⟩
abbrev main_c_18 : Ref sig .tc := ⟨.hbm, 103, rfl⟩
abbrev main_v62 : Ref sig .tc := ⟨.hbm, 104, rfl⟩
abbrev main_call6_call0_c : Ref sig .tc := ⟨.hbm, 105, rfl⟩
abbrev main_call6_call0_v0 : Ref sig .tc := ⟨.hbm, 106, rfl⟩
abbrev main_v63 : Ref sig .tc := ⟨.hbm, 107, rfl⟩
abbrev main_c_19 : Ref sig .tc := ⟨.hbm, 108, rfl⟩
abbrev main_v64 : Ref sig .tc := ⟨.hbm, 109, rfl⟩
abbrev main_c_20 : Ref sig .tc := ⟨.hbm, 110, rfl⟩
abbrev main_v65 : Ref sig .tc := ⟨.hbm, 111, rfl⟩
abbrev main_v66 : Ref sig .tc := ⟨.hbm, 112, rfl⟩
abbrev main_c_21 : Ref sig .tc := ⟨.hbm, 113, rfl⟩
abbrev main_v67 : Ref sig .tc := ⟨.hbm, 114, rfl⟩
abbrev main_v68 : Ref sig .tc := ⟨.hbm, 115, rfl⟩
abbrev main_v69 : Ref sig .tc := ⟨.hbm, 116, rfl⟩
abbrev main_v70 : Ref sig .tc := ⟨.hbm, 117, rfl⟩
abbrev main_c_22 : Ref sig .tc := ⟨.hbm, 118, rfl⟩
abbrev main_v71 : Ref sig .tc := ⟨.hbm, 119, rfl⟩
abbrev main_v72 : Ref sig .tc := ⟨.hbm, 120, rfl⟩
abbrev main_call7_call0_c : Ref sig .tc := ⟨.hbm, 121, rfl⟩
abbrev main_call7_call0_v0 : Ref sig .tc := ⟨.hbm, 122, rfl⟩
abbrev main_v73 : Ref sig .tc := ⟨.hbm, 123, rfl⟩
abbrev main_c_23 : Ref sig .tc := ⟨.hbm, 124, rfl⟩
abbrev main_v74 : Ref sig .tc := ⟨.hbm, 125, rfl⟩
abbrev main_v75 : Ref sig .tc := ⟨.hbm, 126, rfl⟩
abbrev main_call8_c : Ref sig .tc := ⟨.hbm, 127, rfl⟩
abbrev main_call8_v0 : Ref sig .tc := ⟨.hbm, 128, rfl⟩
abbrev main_call8_v1 : Ref sig .tc := ⟨.hbm, 129, rfl⟩
abbrev main_call8_c_0 : Ref sig .tc := ⟨.hbm, 130, rfl⟩
abbrev main_call8_v2 : Ref sig .tc := ⟨.hbm, 131, rfl⟩
abbrev main_call8_v3 : Ref sig .tc := ⟨.hbm, 132, rfl⟩
abbrev main_call8_v4 : Ref sig .tc := ⟨.hbm, 133, rfl⟩
abbrev main_call8_v5 : Ref sig .tc := ⟨.hbm, 134, rfl⟩
abbrev main_call8_c_1 : Ref sig .tc := ⟨.hbm, 135, rfl⟩
abbrev main_call8_c_2 : Ref sig .tc := ⟨.hbm, 136, rfl⟩
abbrev main_call8_v6 : Ref sig .tc := ⟨.hbm, 137, rfl⟩
abbrev main_call8_v7 : Ref sig .tc := ⟨.hbm, 138, rfl⟩
abbrev main_call8_v8 : Ref sig .tc := ⟨.hbm, 139, rfl⟩
abbrev main_call8_v9 : Ref sig .tc := ⟨.hbm, 140, rfl⟩
abbrev main_call8_v10 : Ref sig .tc := ⟨.hbm, 141, rfl⟩
abbrev main_call8_v11 : Ref sig .tc := ⟨.hbm, 142, rfl⟩
abbrev main_call8_c_3 : Ref sig .tc := ⟨.hbm, 143, rfl⟩
abbrev main_call8_v12 : Ref sig .tc := ⟨.hbm, 144, rfl⟩
abbrev main_call8_v13 : Ref sig .tc := ⟨.hbm, 145, rfl⟩
abbrev main_call8_cst : Ref sig .tc := ⟨.hbm, 146, rfl⟩
abbrev main_call8_v14 : Ref sig .tc := ⟨.hbm, 147, rfl⟩
abbrev main_v76 : Ref sig .tc := ⟨.hbm, 148, rfl⟩
abbrev main_call9_v0 : Ref sig .tc := ⟨.hbm, 149, rfl⟩
abbrev main_call9_v1 : Ref sig .tc := ⟨.hbm, 150, rfl⟩
abbrev main_v77 : Ref sig .tc := ⟨.hbm, 151, rfl⟩
abbrev main_c_24 : Ref sig .tc := ⟨.hbm, 152, rfl⟩
abbrev main_v78 : Ref sig .tc := ⟨.hbm, 153, rfl⟩
abbrev main_c_25 : Ref sig .tc := ⟨.hbm, 154, rfl⟩
abbrev main_v79 : Ref sig .tc := ⟨.hbm, 155, rfl⟩
abbrev main_call10_call0_c : Ref sig .tc := ⟨.hbm, 156, rfl⟩
abbrev main_call10_call0_v0 : Ref sig .tc := ⟨.hbm, 157, rfl⟩
abbrev main_v80 : Ref sig .tc := ⟨.hbm, 158, rfl⟩
abbrev main_c_26 : Ref sig .tc := ⟨.hbm, 159, rfl⟩
abbrev main_v81 : Ref sig .tc := ⟨.hbm, 160, rfl⟩
abbrev main_c_27 : Ref sig .tc := ⟨.hbm, 161, rfl⟩
abbrev main_v82 : Ref sig .tc := ⟨.hbm, 162, rfl⟩
abbrev main_v83 : Ref sig .tc := ⟨.hbm, 163, rfl⟩
abbrev main_c_28 : Ref sig .tc := ⟨.hbm, 164, rfl⟩
abbrev main_v84 : Ref sig .tc := ⟨.hbm, 165, rfl⟩
abbrev main_v85 : Ref sig .tc := ⟨.hbm, 166, rfl⟩
abbrev main_v86 : Ref sig .tc := ⟨.hbm, 167, rfl⟩
abbrev main_v87 : Ref sig .tc := ⟨.hbm, 168, rfl⟩
abbrev main_c_29 : Ref sig .tc := ⟨.hbm, 169, rfl⟩
abbrev main_v88 : Ref sig .tc := ⟨.hbm, 170, rfl⟩
abbrev main_v89 : Ref sig .tc := ⟨.hbm, 171, rfl⟩
abbrev main_call11_call0_c : Ref sig .tc := ⟨.hbm, 172, rfl⟩
abbrev main_call11_call0_v0 : Ref sig .tc := ⟨.hbm, 173, rfl⟩
abbrev main_v90 : Ref sig .tc := ⟨.hbm, 174, rfl⟩
abbrev main_c_30 : Ref sig .tc := ⟨.hbm, 175, rfl⟩
abbrev main_v91 : Ref sig .tc := ⟨.hbm, 176, rfl⟩
abbrev main_v92 : Ref sig .tc := ⟨.hbm, 177, rfl⟩
abbrev main_call12_c : Ref sig .tc := ⟨.hbm, 178, rfl⟩
abbrev main_call12_v0 : Ref sig .tc := ⟨.hbm, 179, rfl⟩
abbrev main_call12_v1 : Ref sig .tc := ⟨.hbm, 180, rfl⟩
abbrev main_call12_c_0 : Ref sig .tc := ⟨.hbm, 181, rfl⟩
abbrev main_call12_v2 : Ref sig .tc := ⟨.hbm, 182, rfl⟩
abbrev main_call12_v3 : Ref sig .tc := ⟨.hbm, 183, rfl⟩
abbrev main_call12_v4 : Ref sig .tc := ⟨.hbm, 184, rfl⟩
abbrev main_call12_v5 : Ref sig .tc := ⟨.hbm, 185, rfl⟩
abbrev main_call12_c_1 : Ref sig .tc := ⟨.hbm, 186, rfl⟩
abbrev main_call12_c_2 : Ref sig .tc := ⟨.hbm, 187, rfl⟩
abbrev main_call12_v6 : Ref sig .tc := ⟨.hbm, 188, rfl⟩
abbrev main_call12_v7 : Ref sig .tc := ⟨.hbm, 189, rfl⟩
abbrev main_call12_v8 : Ref sig .tc := ⟨.hbm, 190, rfl⟩
abbrev main_call12_v9 : Ref sig .tc := ⟨.hbm, 191, rfl⟩
abbrev main_call12_v10 : Ref sig .tc := ⟨.hbm, 192, rfl⟩
abbrev main_call12_v11 : Ref sig .tc := ⟨.hbm, 193, rfl⟩
abbrev main_call12_c_3 : Ref sig .tc := ⟨.hbm, 194, rfl⟩
abbrev main_call12_v12 : Ref sig .tc := ⟨.hbm, 195, rfl⟩
abbrev main_call12_v13 : Ref sig .tc := ⟨.hbm, 196, rfl⟩
abbrev main_call12_cst : Ref sig .tc := ⟨.hbm, 197, rfl⟩
abbrev main_call12_v14 : Ref sig .tc := ⟨.hbm, 198, rfl⟩
abbrev main_v93 : Ref sig .tc := ⟨.hbm, 199, rfl⟩
abbrev main_v94 : Ref sig .tc := ⟨.hbm, 200, rfl⟩
abbrev main_v95 : Ref sig .tc := ⟨.hbm, 201, rfl⟩
abbrev main_c_31 : Ref sig .tc := ⟨.hbm, 202, rfl⟩
abbrev main_call13_cst : Ref sig .tc := ⟨.hbm, 203, rfl⟩
abbrev main_call13_v0 : Ref sig .tc := ⟨.hbm, 204, rfl⟩
abbrev main_call13_v1 : Ref sig .tc := ⟨.hbm, 205, rfl⟩
abbrev main_call13_cst_0 : Ref sig .tc := ⟨.hbm, 206, rfl⟩
abbrev main_call13_v2 : Ref sig .tc := ⟨.hbm, 207, rfl⟩
abbrev main_call13_v3 : Ref sig .tc := ⟨.hbm, 208, rfl⟩
abbrev main_call13_v4 : Ref sig .tc := ⟨.hbm, 209, rfl⟩
abbrev main_call13_v5 : Ref sig .tc := ⟨.hbm, 210, rfl⟩
abbrev main_call13_v6 : Ref sig .tc := ⟨.hbm, 211, rfl⟩
abbrev main_call13_v7 : Ref sig .tc := ⟨.hbm, 212, rfl⟩
abbrev main_call13_cst_1 : Ref sig .tc := ⟨.hbm, 213, rfl⟩
abbrev main_call13_v8 : Ref sig .tc := ⟨.hbm, 214, rfl⟩
abbrev main_call13_cst_2 : Ref sig .tc := ⟨.hbm, 215, rfl⟩
abbrev main_call13_v9 : Ref sig .tc := ⟨.hbm, 216, rfl⟩
abbrev main_call13_v10 : Ref sig .tc := ⟨.hbm, 217, rfl⟩
abbrev main_call13_cst_3 : Ref sig .tc := ⟨.hbm, 218, rfl⟩
abbrev main_call13_v11 : Ref sig .tc := ⟨.hbm, 219, rfl⟩
abbrev main_call13_cst_4 : Ref sig .tc := ⟨.hbm, 220, rfl⟩
abbrev main_call13_call0_v0 : Ref sig .tc := ⟨.hbm, 221, rfl⟩
abbrev main_v96 : Ref sig .tc := ⟨.hbm, 222, rfl⟩
abbrev main_c_32 : Ref sig .tc := ⟨.hbm, 223, rfl⟩
abbrev main_call14_cst : Ref sig .tc := ⟨.hbm, 224, rfl⟩
abbrev main_call14_v0 : Ref sig .tc := ⟨.hbm, 225, rfl⟩
abbrev main_call14_v1 : Ref sig .tc := ⟨.hbm, 226, rfl⟩
abbrev main_call14_cst_0 : Ref sig .tc := ⟨.hbm, 227, rfl⟩
abbrev main_call14_v2 : Ref sig .tc := ⟨.hbm, 228, rfl⟩
abbrev main_call14_v3 : Ref sig .tc := ⟨.hbm, 229, rfl⟩
abbrev main_call14_v4 : Ref sig .tc := ⟨.hbm, 230, rfl⟩
abbrev main_call14_v5 : Ref sig .tc := ⟨.hbm, 231, rfl⟩
abbrev main_call14_v6 : Ref sig .tc := ⟨.hbm, 232, rfl⟩
abbrev main_call14_v7 : Ref sig .tc := ⟨.hbm, 233, rfl⟩
abbrev main_call14_cst_1 : Ref sig .tc := ⟨.hbm, 234, rfl⟩
abbrev main_call14_v8 : Ref sig .tc := ⟨.hbm, 235, rfl⟩
abbrev main_call14_cst_2 : Ref sig .tc := ⟨.hbm, 236, rfl⟩
abbrev main_call14_v9 : Ref sig .tc := ⟨.hbm, 237, rfl⟩
abbrev main_call14_v10 : Ref sig .tc := ⟨.hbm, 238, rfl⟩
abbrev main_call14_cst_3 : Ref sig .tc := ⟨.hbm, 239, rfl⟩
abbrev main_call14_v11 : Ref sig .tc := ⟨.hbm, 240, rfl⟩
abbrev main_call14_cst_4 : Ref sig .tc := ⟨.hbm, 241, rfl⟩
abbrev main_call14_call0_v0 : Ref sig .tc := ⟨.hbm, 242, rfl⟩
abbrev main_v97 : Ref sig .tc := ⟨.hbm, 243, rfl⟩
abbrev main_c_33 : Ref sig .tc := ⟨.hbm, 244, rfl⟩
abbrev main_v98 : Ref sig .tc := ⟨.hbm, 245, rfl⟩
abbrev main_v99 : Ref sig .tc := ⟨.hbm, 246, rfl⟩
abbrev main_c_34 : Ref sig .tc := ⟨.hbm, 247, rfl⟩
abbrev main_v100 : Ref sig .tc := ⟨.hbm, 248, rfl⟩
abbrev main_v101 : Ref sig .tc := ⟨.hbm, 249, rfl⟩
abbrev main_v102 : Ref sig .tc := ⟨.hbm, 250, rfl⟩
abbrev main_v103 : Ref sig .tc := ⟨.hbm, 251, rfl⟩
abbrev main_v104 : Ref sig .tc := ⟨.hbm, 252, rfl⟩
abbrev main_v105 : Ref sig .tc := ⟨.hbm, 253, rfl⟩
abbrev main_v106 : Ref sig .tc := ⟨.hbm, 254, rfl⟩
abbrev main_v107 : Ref sig .tc := ⟨.hbm, 255, rfl⟩
abbrev main_cst_35 : Ref sig .tc := ⟨.hbm, 256, rfl⟩
abbrev main_v108 : Ref sig .tc := ⟨.hbm, 257, rfl⟩
abbrev main_v109 : Ref sig .tc := ⟨.hbm, 258, rfl⟩
abbrev main_v110 : Ref sig .tc := ⟨.hbm, 259, rfl⟩
abbrev main_c_36 : Ref sig .tc := ⟨.hbm, 260, rfl⟩
abbrev main_v111 : Ref sig .tc := ⟨.hbm, 261, rfl⟩
abbrev main_v112 : Ref sig .tc := ⟨.hbm, 262, rfl⟩
abbrev main_c_37 : Ref sig .tc := ⟨.hbm, 263, rfl⟩
abbrev main_v113 : Ref sig .tc := ⟨.hbm, 264, rfl⟩
abbrev main_v114 : Ref sig .tc := ⟨.hbm, 265, rfl⟩
abbrev main_v115 : Ref sig .tc := ⟨.hbm, 266, rfl⟩
abbrev main_v116 : Ref sig .tc := ⟨.hbm, 267, rfl⟩
abbrev main_v117 : Ref sig .tc := ⟨.hbm, 268, rfl⟩
abbrev main_v118 : Ref sig .tc := ⟨.hbm, 269, rfl⟩
abbrev main_v119 : Ref sig .tc := ⟨.hbm, 270, rfl⟩
abbrev main_v120 : Ref sig .tc := ⟨.hbm, 271, rfl⟩
abbrev main_cst_38 : Ref sig .tc := ⟨.hbm, 272, rfl⟩
abbrev main_v121 : Ref sig .tc := ⟨.hbm, 273, rfl⟩
abbrev main_v122 : Ref sig .tc := ⟨.hbm, 274, rfl⟩
abbrev main_v123 : Ref sig .tc := ⟨.hbm, 275, rfl⟩

abbrev nD : Nat := 1
abbrev τ : Topo := Topo.v7x

variable {F : FTy → Type} [FloatOps F]

class Facts₀ : Prop where
  concatenates_S400000x128_S400000x128_S800000x128_d0 : Shape.Concatenates [S400000x128, S400000x128] S800000x128 0
  shapeCasts_S1x2x400000_S400000x2 : S1x2x400000.ShapeCasts S400000x2
  concatenates_S400000x2_S400000x2_S800000x2_d0 : Shape.Concatenates [S400000x2, S400000x2] S800000x2 0
  slices_S800000x2_S800000x1_0_0 : S800000x2.Slices ![0, 0] S800000x1
  shapeCasts_S800000x1_S800000 : S800000x1.ShapeCasts S800000
  slices_S800000x2_S800000x1_0_1 : S800000x2.Slices ![0, 1] S800000x1
  bcast_S_S800000x2 : S_.BroadcastsInDim S800000x2 (![] : Fin 0 → Fin S800000x2.rank)
  bcast_S800000x2_S800000x2x1_0_1 : S800000x2.BroadcastsInDim S800000x2x1 (![0, 1] : Fin 2 → Fin S800000x2x1.rank)
  shapeCasts_S800000x2x128_S800000x256 : S800000x2x128.ShapeCasts S800000x256
  bcast_S_S800000 : S_.BroadcastsInDim S800000 (![] : Fin 0 → Fin S800000.rank)
  bcast_S800000_S800000x1_0 : S800000.BroadcastsInDim S800000x1 (![0] : Fin 1 → Fin S800000x1.rank)
  concatenates_S800000x128_S800000x128_S800000x256_d1 : Shape.Concatenates [S800000x128, S800000x128] S800000x256 1
  bcast_S_S50000 : S_.BroadcastsInDim S50000 (![] : Fin 0 → Fin S50000.rank)
  slices_S50000_S1_49999 : S50000.Slices ![49999] S1
  slices_S50000_S49999_0 : S50000.Slices ![0] S49999
  concatenates_S1_S49999_S50000_d0 : Shape.Concatenates [S1, S49999] S50000 0
  bcast_S_S1 : S_.BroadcastsInDim S1 (![] : Fin 0 → Fin S1.rank)
  bcast_S_S_ : S_.BroadcastsInDim S_ (![] : Fin 0 → Fin S_.rank)
  reduceWindows_S50000_S50000_w50000s1p49999_0 : S50000.ReduceWindows (![50000] : Fin 1 → Nat) ![1] ![49999] ![0] S50000
  h_S_ : 0 < S_.numel
  bcast_S50000_S50000x1_0 : S50000.BroadcastsInDim S50000x1 (![0] : Fin 1 → Fin S50000x1.rank)
  reduceWindows_S800000_S800000_w800000s1p799999_0 : S800000.ReduceWindows (![800000] : Fin 1 → Nat) ![1] ![799999] ![0] S800000
  bcast_S_S800000x1 : S_.BroadcastsInDim S800000x1 (![] : Fin 0 → Fin S800000x1.rank)
  bcast_S1_S1x1_1 : S1.BroadcastsInDim S1x1 (![1] : Fin 1 → Fin S1x1.rank)
  bcast_S1x1_S800000x1_0_1 : S1x1.BroadcastsInDim S800000x1 (![0, 1] : Fin 2 → Fin S800000x1.rank)
  reducesTo_S800000x1_S800000_d1 : S800000x1.ReducesTo [1] S800000
  reducesTo_S800000_S_d0 : S800000.ReducesTo [0] S_
  bcast_S1_S800000_0 : S1.BroadcastsInDim S800000 (![0] : Fin 1 → Fin S800000.rank)
  bcast_S800000x1_S800000x128_0_1 : S800000x1.BroadcastsInDim S800000x128 (![0, 1] : Fin 2 → Fin S800000x128.rank)
  bcast_S_S50000x128 : S_.BroadcastsInDim S50000x128 (![] : Fin 0 → Fin S50000x128.rank)
  dot_S50000x256_S256x128_S50000x128_1_0_0_1_n_n_wf : DotDims.WF S50000x256 S256x128 S50000x128 [1] [0] [0] [1] [] []
  dot_S800000x128_S128x128_S800000x128_1_0_0_1_n_n_wf : DotDims.WF S800000x128 S128x128 S800000x128 [1] [0] [0] [1] [] []
  gather_S50000x128_S800000x2x1_S800000x2x128_2_0_n_n_0_2_1128_wf : GatherDims.WF S50000x128 S800000x2x1 S800000x2x128 [2] [0] [] [0] [] 2 ![1, 128]
  gather_S50000x128_S800000x1_S800000x128_1_0_n_n_0_1_1128_wf : GatherDims.WF S50000x128 S800000x1 S800000x128 [1] [0] [] [0] [] 1 ![1, 128]
  dot_S800000x256_S256x1_S800000x1_1_0_0_1_n_n_wf : DotDims.WF S800000x256 S256x1 S800000x1 [1] [0] [0] [1] [] []
  scatter_S50000_S800000x1_S800000_n_0_0_1_wf : ScatterDims.WF S50000 S800000x1 S800000 [] [0] [0] 1
  scatter_S50000_S1_S__n_0_0_0_wf : ScatterDims.WF S50000 S1 S_ [] [0] [0] 0
  scatter_S800000_S50000x1_S50000_n_0_0_1_wf : ScatterDims.WF S800000 S50000x1 S50000 [] [0] [0] 1
  gather_S50000_S800000x1_S800000_n_0_n_n_0_1_1_wf : GatherDims.WF S50000 S800000x1 S800000 [] [0] [] [0] [] 1 ![1]
  scatter_S50000x128_S800000x1_S800000x128_1_0_0_1_wf : ScatterDims.WF S50000x128 S800000x1 S800000x128 [1] [0] [0] 1
  gather_S800000x128_S800000x1_S800000x128_1_0_n_n_0_1_1128_wf : GatherDims.WF S800000x128 S800000x1 S800000x128 [1] [0] [] [0] [] 1 ![1, 128]

variable [Facts₀]

def dot_S50000x256_S256x128_S50000x128_1_0_0_1_n_n : DotDims S50000x256 S256x128 S50000x128 where
  lhsContracting := [1]
  rhsContracting := [0]
  lhsNonContracting := [0]
  rhsNonContracting := [1]
  lhsBatch := []
  rhsBatch := []
  wf := dot_S50000x256_S256x128_S50000x128_1_0_0_1_n_n_wf
def dot_S800000x128_S128x128_S800000x128_1_0_0_1_n_n : DotDims S800000x128 S128x128 S800000x128 where
  lhsContracting := [1]
  rhsContracting := [0]
  lhsNonContracting := [0]
  rhsNonContracting := [1]
  lhsBatch := []
  rhsBatch := []
  wf := dot_S800000x128_S128x128_S800000x128_1_0_0_1_n_n_wf
def gather_S50000x128_S800000x2x1_S800000x2x128_2_0_n_n_0_2_1128 : GatherDims S50000x128 S800000x2x1 S800000x2x128 where
  offsetDims := [2]
  collapsedSliceDims := [0]
  operandBatchingDims := []
  startIndicesBatchingDims := []
  startIndexMap := [0]
  indexVectorDim := 2
  sliceSizes := ![1, 128]
  wf := gather_S50000x128_S800000x2x1_S800000x2x128_2_0_n_n_0_2_1128_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def dot_S800000x256_S256x1_S800000x1_1_0_0_1_n_n : DotDims S800000x256 S256x1 S800000x1 where
  lhsContracting := [1]
  rhsContracting := [0]
  lhsNonContracting := [0]
  rhsNonContracting := [1]
  lhsBatch := []
  rhsBatch := []
  wf := dot_S800000x256_S256x1_S800000x1_1_0_0_1_n_n_wf
def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def scatter_S50000_S1_S__n_0_0_0 : ScatterDims S50000 S1 S_ where
  updateWindowDims := []
  insertedWindowDims := [0]
  scatterDimsToOperandDims := [0]
  indexVectorDim := 0
  wf := scatter_S50000_S1_S__n_0_0_0_wf
def scatter_S800000_S50000x1_S50000_n_0_0_1 : ScatterDims S800000 S50000x1 S50000 where
  updateWindowDims := []
  insertedWindowDims := [0]
  scatterDimsToOperandDims := [0]
  indexVectorDim := 1
  wf := scatter_S800000_S50000x1_S50000_n_0_0_1_wf
def gather_S50000_S800000x1_S800000_n_0_n_n_0_1_1 : GatherDims S50000 S800000x1 S800000 where
  offsetDims := []
  collapsedSliceDims := [0]
  operandBatchingDims := []
  startIndicesBatchingDims := []
  startIndexMap := [0]
  indexVectorDim := 1
  sliceSizes := ![1]
  wf := gather_S50000_S800000x1_S800000_n_0_n_n_0_1_1_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def gather_S800000x128_S800000x1_S800000x128_1_0_n_n_0_1_1128 : GatherDims S800000x128 S800000x1 S800000x128 where
  offsetDims := [1]
  collapsedSliceDims := [0]
  operandBatchingDims := []
  startIndicesBatchingDims := []
  startIndexMap := [0]
  indexVectorDim := 1
  sliceSizes := ![1, 128]
  wf := gather_S800000x128_S800000x1_S800000x128_1_0_n_n_0_1_1128_wf

class Facts : Prop extends Facts₀ where

variable [Facts]
-- ==== Proof.KBody0.lean ====
import proofs.«130992_j35871566856204_2_alg».proof.Proof.Gen.Kernel.Launch
import proofs.«130992_j35871566856204_2_alg».proof.Proof.Gen.Kernel.Skeleton
import proofs.«130992_j35871566856204_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Region 0: the kernel body `cc0__node_proj_kernel` on whole staging blocks

The body loads the row block `x`, the weight matrix `w` and the projection matrix `a` whole, stores
`h = trunc (x · w)` whole into the first output block and `p = (x · w) · a` whole into the second. -/

/-- The whole-block rectangles of the five staging buffers. -/
abbrev r0_x : Rect S5000x256 := Rect.unit (s := S5000x256) ![0, 0] S5000x256.size inb_S5000x256_S5000x256_0_0
abbrev r0_w : Rect S256x128 := Rect.unit (s := S256x128) ![0, 0] S256x128.size inb_S256x128_S256x128_0_0
abbrev r0_a : Rect S128x4 := Rect.unit (s := S128x4) ![0, 0] S128x4.size inb_S128x4_S128x4_0_0
abbrev r0_h : Rect S5000x128 := Rect.unit (s := S5000x128) ![0, 0] S5000x128.size inb_S5000x128_S5000x128_0_0
abbrev r0_p : Rect S5000x4 := Rect.unit (s := S5000x4) ![0, 0] S5000x4.size inb_S5000x4_S5000x4_0_0

/-- What the body leaves in the first output block (the bf16 product), from the blocks of `x` and `w`:
    its one whole-block store, as the canonical contents of that one piece. -/
def out0_3 (x0 : Vec F S5000x256 .f32) (x1 : Vec F S256x128 .f32) : Vec F S5000x128 .bf16 :=
  View.canon [⟨r0_h, k0_pay2 (View.ld x0 r0_x) (View.ld x1 r0_w)⟩]

/-- What the body leaves in the second output block (the f32 projection), from the blocks of `x`, `w`, `a`. -/
def out0_4 (x0 : Vec F S5000x256 .f32) (x1 : Vec F S256x128 .f32) (x2 : Vec F S128x4 .f32) : Vec F S5000x4 .f32 :=
  View.canon [⟨r0_p, k0_pay3 (View.ld x0 r0_x) (View.ld x1 r0_w) (View.ld x2 r0_a)⟩]

/-- One whole-block store covers its block. -/
theorem cover0_3 (p0 : Vec F S5000x128 .bf16) (y : S5000x128.Idx) :
    ∃ pc ∈ ([⟨r0_h, p0⟩] : List (View.Piece (Elt F) S5000x128 .bf16)), y ∈ pc.1.set :=
  View.cover_of_tiled [⟨r0_h, p0⟩] S5000x128.size (by rfl) y
theorem cover0_4 (p0 : Vec F S5000x4 .f32) (y : S5000x4.Idx) :
    ∃ pc ∈ ([⟨r0_p, p0⟩] : List (View.Piece (Elt F) S5000x4 .f32)), y ∈ pc.1.set :=
  View.cover_of_tiled [⟨r0_p, p0⟩] S5000x4.size (by rfl) y

set_option maxHeartbeats 1000000 in
/-- The body on whole staging memrefs — the three inputs at read contents `x0 x1 x2`, the two outputs at anything —
    runs to the continuation holding the inputs as they were and the outputs at `out0_3`, `out0_4` of the inputs. -/
theorem sound_kernel0 (c : Dev nD) (E : Set ℕ) (i : grid0.Coords)
    (arg1 : Memref sig .tc .vmem S5000x256 .f32) (harg1 : arg1.IsWhole) (arg2 : Memref sig .tc .vmem S256x128 .f32) (harg2 : arg2.IsWhole)
    (arg3 : Memref sig .tc .vmem S128x4 .f32) (harg3 : arg3.IsWhole) (arg4 : Memref sig .tc .vmem S5000x128 .bf16) (harg4 : arg4.IsWhole)
    (arg5 : Memref sig .tc .vmem S5000x4 .f32) (harg5 : arg5.IsWhole)
    (x0 : Vec F S5000x256 .f32) (x1 : Vec F S256x128 .f32) (x2 : Vec F S128x4 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d) ∗ (∃ d, owns (c : Thread nD τ) arg5 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out0_3 x0 x1) ∗ owns (c : Thread nD τ) arg5 fullShare (out0_4 x0 x1 x2)) -∗ K ⟨⟩))
      ⊢ wp frame (wpE (defs₀ (F := F)) Variants.none c none) E (cc0__node_proj_kernel i arg1 harg1 arg2 harg2 arg3 harg3 arg4 harg4 arg5 harg5) K := by
  simp only [cc0__node_proj_kernel_eq_skeleton]; unfold cc0__node_proj_kernel_skel
  unfold owns
  iintro ⟨⟨%f0, %hf0, H0⟩, ⟨%f1, %hf1, H1⟩, ⟨%f2, %hf2, H2⟩, ⟨%d3, %f3, -, H3⟩, ⟨%d4, %f4, -, H4⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    exact View.read_writes_eq_canon _ _ _ (cover0_3 _)
  iexists _; isplitr
  swap; · iexact H4
  ipureintro
  exact View.read_writes_eq_canon _ _ _ (cover0_4 _)

/-! ## The windows' blocks, and the proof data of pipeline 0 at the entry contents `V` -/

section Region
-- the TensorCore's buffer contents when the region is entered
variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point, fetched there or not (an unfetched
    window's block index has not moved), for any proof data whose array is `V`'s and whose body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- The proof data of pipeline 0 on core `c`: the arrays as the region finds them; after the body at point `t` each
    input's buffer at its block and each output's at `out0_W` of the input blocks; the class invariant (the scoped rest
    and the generator register, untouched); nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t)
    | ⟨4, _⟩ => out0_4 (iblk0 V c 0 t) (iblk0 V c 1 t) (iblk0 V c 2 t)
  Φ _ := Pipeline.ΦA spec0 c
  q _ := fullShare
  owed _ := 0

/-- The proof data's arrays are the region-entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) :
    (dat0 V c).after 3 t = out0_3 (iblk0 V c 0 t) (iblk0 V c 1 t) := by dsimp only [dat0]
theorem after0_4 (c : Dev nD) (t : Fin cfg0.N) :
    (dat0 V c).after 4 t = out0_4 (iblk0 V c 0 t) (iblk0 V c 1 t) (iblk0 V c 2 t) := by dsimp only [dat0]

/-- Each input's current staging buffer holds its block at every point. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t))

set_option maxHeartbeats 1000000 in
/-- The body at any point: the inputs' memrefs hold their blocks, so `sound_kernel0` applies; the invariant and
    the core's `owes` pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3, after0_4]
  iintro ⟨HΦ, Ho, ⟨%d0, H0⟩, ⟨%d1, H1⟩, ⟨%d2, H2⟩, ⟨%d3, H3⟩, ⟨%d4, H4⟩⟩
  iapply (sound_kernel0 c Set.univ _ _ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The library's body obligation, at every point. -/
theorem body_obligation0 (c : Dev nD) : BodyObligation (dat0 (F := F) V c) (defs₀ (F := F)) Variants.none () Set.univ := fun t => by
  rw [bigSep_W0, bigSep_W0]
  exact sound_body0 V c t

end Region

end Cert.Kernel.Hand

end
-- ==== Proof.KBody1.lean ====
import proofs.«130992_j35871566856204_2_alg».proof.Proof.Gen.Kernel.Launch
import proofs.«130992_j35871566856204_2_alg».proof.Proof.Gen.Kernel.Skeleton
import proofs.«130992_j35871566856204_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Region 1: the kernel body `cc1__edge_proj_kernel` on whole staging blocks

The body loads the row block `x`, the weight matrix `w` and the projection matrix `a` whole, stores
`h = trunc (x · w)` whole into the first output block and `p = (x · w) · a` whole into the second. -/

/-- The whole-block rectangles of the five staging buffers. -/
abbrev r1_x : Rect S8000x128 := Rect.unit (s := S8000x128) ![0, 0] S8000x128.size inb_S8000x128_S8000x128_0_0
abbrev r1_w : Rect S128x128 := Rect.unit (s := S128x128) ![0, 0] S128x128.size inb_S128x128_S128x128_0_0
abbrev r1_a : Rect S128x4 := Rect.unit (s := S128x4) ![0, 0] S128x4.size inb_S128x4_S128x4_0_0
abbrev r1_h : Rect S8000x128 := Rect.unit (s := S8000x128) ![0, 0] S8000x128.size inb_S8000x128_S8000x128_0_0
abbrev r1_p : Rect S8000x4 := Rect.unit (s := S8000x4) ![0, 0] S8000x4.size inb_S8000x4_S8000x4_0_0

/-- What the body leaves in the first output block (the bf16 product), from the blocks of `x` and `w`:
    its one whole-block store, as the canonical contents of that one piece. -/
def out1_3 (x0 : Vec F S8000x128 .f32) (x1 : Vec F S128x128 .f32) : Vec F S8000x128 .bf16 :=
  View.canon [⟨r1_h, k1_pay2 (View.ld x0 r1_x) (View.ld x1 r1_w)⟩]

/-- What the body leaves in the second output block (the f32 projection), from the blocks of `x`, `w`, `a`. -/
def out1_4 (x0 : Vec F S8000x128 .f32) (x1 : Vec F S128x128 .f32) (x2 : Vec F S128x4 .f32) : Vec F S8000x4 .f32 :=
  View.canon [⟨r1_p, k1_pay3 (View.ld x0 r1_x) (View.ld x1 r1_w) (View.ld x2 r1_a)⟩]

/-- One whole-block store covers its block. -/
theorem cover1_3 (p0 : Vec F S8000x128 .bf16) (y : S8000x128.Idx) :
    ∃ pc ∈ ([⟨r1_h, p0⟩] : List (View.Piece (Elt F) S8000x128 .bf16)), y ∈ pc.1.set :=
  View.cover_of_tiled [⟨r1_h, p0⟩] S8000x128.size (by rfl) y
theorem cover1_4 (p0 : Vec F S8000x4 .f32) (y : S8000x4.Idx) :
    ∃ pc ∈ ([⟨r1_p, p0⟩] : List (View.Piece (Elt F) S8000x4 .f32)), y ∈ pc.1.set :=
  View.cover_of_tiled [⟨r1_p, p0⟩] S8000x4.size (by rfl) y

set_option maxHeartbeats 1000000 in
/-- The body on whole staging memrefs — the three inputs at read contents `x0 x1 x2`, the two outputs at anything —
    runs to the continuation holding the inputs as they were and the outputs at `out1_3`, `out1_4` of the inputs. -/
theorem sound_kernel1 (c : Dev nD) (E : Set ℕ) (i : grid1.Coords)
    (arg1 : Memref sig .tc .vmem S8000x128 .f32) (harg1 : arg1.IsWhole) (arg2 : Memref sig .tc .vmem S128x128 .f32) (harg2 : arg2.IsWhole)
    (arg3 : Memref sig .tc .vmem S128x4 .f32) (harg3 : arg3.IsWhole) (arg4 : Memref sig .tc .vmem S8000x128 .bf16) (harg4 : arg4.IsWhole)
    (arg5 : Memref sig .tc .vmem S8000x4 .f32) (harg5 : arg5.IsWhole)
    (x0 : Vec F S8000x128 .f32) (x1 : Vec F S128x128 .f32) (x2 : Vec F S128x4 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d) ∗ (∃ d, owns (c : Thread nD τ) arg5 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out1_3 x0 x1) ∗ owns (c : Thread nD τ) arg5 fullShare (out1_4 x0 x1 x2)) -∗ K ⟨⟩))
      ⊢ wp frame (wpE (defs₀ (F := F)) Variants.none c none) E (cc1__edge_proj_kernel i arg1 harg1 arg2 harg2 arg3 harg3 arg4 harg4 arg5 harg5) K := by
  simp only [cc1__edge_proj_kernel_eq_skeleton]; unfold cc1__edge_proj_kernel_skel
  unfold owns
  iintro ⟨⟨%f0, %hf0, H0⟩, ⟨%f1, %hf1, H1⟩, ⟨%f2, %hf2, H2⟩, ⟨%d3, %f3, -, H3⟩, ⟨%d4, %f4, -, H4⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    exact View.read_writes_eq_canon _ _ _ (cover1_3 _)
  iexists _; isplitr
  swap; · iexact H4
  ipureintro
  exact View.read_writes_eq_canon _ _ _ (cover1_4 _)

/-! ## The windows' blocks, and the proof data of pipeline 1 at the entry contents `V` -/

section Region
-- the TensorCore's buffer contents when the region is entered
variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds its block at every point, fetched there or not (an unfetched
    window's block index has not moved), for any proof data whose array is `V`'s and whose body leaves the block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- The proof data of pipeline 1 on core `c`: the arrays as the region finds them; after the body at point `t` each
    input's buffer at its block and each output's at `out1_W` of the input blocks; the class invariant (the scoped rest
    and the generator register, untouched); nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1_3 (iblk1 V c 0 t) (iblk1 V c 1 t)
    | ⟨4, _⟩ => out1_4 (iblk1 V c 0 t) (iblk1 V c 1 t) (iblk1 V c 2 t)
  Φ _ := Pipeline.ΦA spec1 c
  q _ := fullShare
  owed _ := 0

/-- The proof data's arrays are the region-entry contents. -/
theorem A_eq1 (c : Dev nD) (w : Fin cfg1.W) : (dat1 V c).A w = V c (Pipeline.arrRef spec1 w) := by
  dsimp only [dat1]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) :
    (dat1 V c).after 3 t = out1_3 (iblk1 V c 0 t) (iblk1 V c 1 t) := by dsimp only [dat1]
theorem after1_4 (c : Dev nD) (t : Fin cfg1.N) :
    (dat1 V c).after 4 t = out1_4 (iblk1 V c 0 t) (iblk1 V c 1 t) (iblk1 V c 2 t) := by dsimp only [dat1]

/-- Each input's current staging buffer holds its block at every point. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t))

set_option maxHeartbeats 1000000 in
/-- The body at any point: the inputs' memrefs hold their blocks, so `sound_kernel1` applies; the invariant and
    the core's `owes` pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3, after1_4]
  iintro ⟨HΦ, Ho, ⟨%d0, H0⟩, ⟨%d1, H1⟩, ⟨%d2, H2⟩, ⟨%d3, H3⟩, ⟨%d4, H4⟩⟩
  iapply (sound_kernel1 c Set.univ _ _ _ _ _ _ _ _ _ _ _ (iblk1 V c 0 t) (iblk1 V c 1 t) (iblk1 V c 2 t) _)
  isplitl [H0]; · iexact H0
  isplitl [H1]; · iexact H1
  isplitl [H2]; · iexact H2
  isplitl [H3]; · iexists _; iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The library's body obligation, at every point. -/
theorem body_obligation1 (c : Dev nD) : BodyObligation (dat1 (F := F) V c) (defs₀ (F := F)) Variants.none () Set.univ := fun t => by
  rw [bigSep_W1, bigSep_W1]
  exact sound_body1 V c t

end Region

end Cert.Kernel.Hand

end
-- ==== Proof.KFold.lean ====
import proofs.«130992_j35871566856204_2_alg».proof.Proof.Gen.Kernel.Launch
import proofs.«130992_j35871566856204_2_alg».proof.Proof.Gen.Kernel.Skeleton
import proofs.«130992_j35871566856204_2_alg».proof.Proof.Gen.Kernel.Points
import proofs.«130992_j35871566856204_2_alg».proof.Proof.KBody0
import proofs.«130992_j35871566856204_2_alg».proof.Proof.KBody1
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The buffers' contents at every segment boundary of @main: a fold from the launch memory

@main is one host stretch, the two kernel regions back to back, and thirty host stretches. A host stretch takes the
contents `W` to `StableHlo.after ops W`; a region takes them to its arrays at what its write-backs leave
(`Dat.arrAt … N`) and every other buffer as entered. -/

variable (m : (ℓ : Loc nD τ sig) → Buf (Elt F) ℓ) (ρ : Dev nD → PrngReg)

/-- Core `c`'s buffers at launch. -/
abbrev W0 : Dev nD → Valuation τ sig (Elt F) := fun c b => (s₀ m ρ).mem ((c : Dev nD), b)
/-- After the first host stretch (region 0's entry). -/
abbrev W1 : Dev nD → Valuation τ sig (Elt F) := fun c => StableHlo.after hostOps0 (W0 m ρ c)
/-- The same read at the TensorCore's references (what region 0's proof data take). -/
abbrev V1 : (c : Dev nD) → (b : Ref sig .tc) → Buf (Elt F) ((c : Thread nD τ).loc b) := fun c b => W1 m ρ c b
/-- At region 0's exit: its arrays at what the pipeline leaves, every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
/-- Region 0's exit contents read at the TensorCore's references: what region 1's proof data take (no host stretch
    lies between the two regions). -/
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- At region 1's exit. -/
def W3 (c : Dev nD) : Valuation τ sig (Elt F) :=
  Pipeline.withArrays spec1 c (W2 m ρ c) fun w => (dat1 (V2 m ρ) c).arrAt w cfg1.N
theorem W3_arr (c : Dev nD) (w : Fin cfg1.W) :
    W3 m ρ c (Proc.devRef .tc (Pipeline.arrRef spec1 w)) = (dat1 (V2 m ρ) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m ρ c (Proc.devRef .tc b) = W2 m ρ c (Proc.devRef .tc b) := by
  unfold W3; exact Pipeline.withArrays_of_ne spec1 c _ _ b hb
abbrev V3 : (c : Dev nD) → (b : Ref sig .tc) → Buf (Elt F) ((c : Thread nD τ).loc b) := fun c b => W3 m ρ c b
theorem hF1 (c : Dev nD) (w : Fin cfg1.W) : (dat1 (V2 m ρ) c).arrAt w cfg1.N = V3 m ρ c (Pipeline.arrRef spec1 w) :=
  (W3_arr m ρ c w).symm
theorem hrest1 (c : Dev nD) : ∀ b, b ∉ Finset.univ.image (Pipeline.arrRef spec1) → V3 m ρ c b = V2 m ρ c b :=
  fun b hb => W3_of_ne m ρ c b fun w e => hb (Finset.mem_image.mpr ⟨w, Finset.mem_univ _, e⟩)

/-- The contents right after the two regions. -/
abbrev Wregs : Dev nD → Valuation τ sig (Elt F) := W3 m ρ

/-! ## The thirty host stretches after the regions -/
abbrev W4 : Dev nD → Valuation τ sig (Elt F) := fun c => StableHlo.after hostOps2 (Wregs m ρ c)
abbrev W5 : Dev nD → Valuation τ sig (Elt F) := fun c => StableHlo.after hostOps2_1 (W4 m ρ c)
abbrev W6 : Dev nD → Valuation τ sig (Elt F) := fun c => StableHlo.after hostOps2_2 (W5 m ρ c)
abbrev W7 : Dev nD → Valuation τ sig (Elt F) := fun c => StableHlo.after hostOps2_3 (W6 m ρ c)
abbrev W8 : Dev nD → Valuation τ sig (Elt F) := fun c => StableHlo.after hostOps2_4 (W7 m ρ c)
abbrev W9 : Dev nD → Valuation τ sig (Elt F) := fun c => StableHlo.after hostOps2_5 (W8 m ρ c)
abbrev W10 : Dev nD → Valuation τ sig (Elt F) := fun c => StableHlo.after hostOps2_6 (W9 m ρ c)
abbrev W11 : Dev nD → Valuation τ sig (Elt F) := fun c => StableHlo.after hostOps2_7 (W10 m ρ c)
abbrev W12 : Dev nD → Valuation τ sig (Elt F) := fun c => StableHlo.after hostOps2_8 (W11 m ρ c)
abbrev W13 : Dev nD → Valuation τ sig (Elt F) := fun c => StableHlo.after hostOps2_9 (W12 m ρ c)
abbrev W14 : Dev nD → Valuation τ sig (Elt F) := fun c => StableHlo.after hostOps2_10 (W13 m ρ c)
abbrev W15 : Dev nD → Valuation τ sig (Elt F) := fun c => StableHlo.after hostOps2_11 (W14 m ρ c)
abbrev W16 : Dev nD → Valuation τ sig (Elt F) := fun c => StableHlo.after hostOps2_12 (W15 m ρ c)
abbrev W17 : Dev nD → Valuation τ sig (Elt F) := fun c => StableHlo.after hostOps2_13 (W16 m ρ c)
abbrev W18 : Dev nD → Valuation τ sig (Elt F) := fun c => StableHlo.after hostOps2_14 (W17 m ρ c)
abbrev W19 : Dev nD → Valuation τ sig (Elt F) := fun c => StableHlo.after hostOps2_15 (W18 m ρ c)
abbrev W20 : Dev nD → Valuation τ sig (Elt F) := fun c => StableHlo.after hostOps2_16 (W19 m ρ c)
abbrev W21 : Dev nD → Valuation τ sig (Elt F) := fun c => StableHlo.after hostOps2_17 (W20 m ρ c)
abbrev W22 : Dev nD → Valuation τ sig (Elt F) := fun c => StableHlo.after hostOps2_18 (W21 m ρ c)
abbrev W23 : Dev nD → Valuation τ sig (Elt F) := fun c => StableHlo.after hostOps2_19 (W22 m ρ c)
abbrev W24 : Dev nD → Valuation τ sig (Elt F) := fun c => StableHlo.after hostOps2_20 (W23 m ρ c)
abbrev W25 : Dev nD → Valuation τ sig (Elt F) := fun c => StableHlo.after hostOps2_21 (W24 m ρ c)
abbrev W26 : Dev nD → Valuation τ sig (Elt F) := fun c => StableHlo.after hostOps2_22 (W25 m ρ c)
abbrev W27 : Dev nD → Valuation τ sig (Elt F) := fun c => StableHlo.after hostOps2_23 (W26 m ρ c)
abbrev W28 : Dev nD → Valuation τ sig (Elt F) := fun c => StableHlo.after hostOps2_24 (W27 m ρ c)
abbrev W29 : Dev nD → Valuation τ sig (Elt F) := fun c => StableHlo.after hostOps2_25 (W28 m ρ c)
abbrev W30 : Dev nD → Valuation τ sig (Elt F) := fun c => StableHlo.after hostOps2_26 (W29 m ρ c)
abbrev W31 : Dev nD → Valuation τ sig (Elt F) := fun c => StableHlo.after hostOps2_27 (W30 m ρ c)
abbrev W32 : Dev nD → Valuation τ sig (Elt F) := fun c => StableHlo.after hostOps2_28 (W31 m ρ c)
abbrev W33 : Dev nD → Valuation τ sig (Elt F) := fun c => StableHlo.after hostOps2_29 (W32 m ρ c)

/-- Core `c`'s buffers when @main returns. -/
abbrev Wend : Dev nD → Valuation τ sig (Elt F) := W33 m ρ

/-! ## What the regions leave -/

/-- Region 1 leaves every buffer but its two outputs as entered: an input window's array ends as it began. -/
theorem W3_eq_W2 (c : Dev nD) (b : Ref sig .tc) (h0 : b ≠ main_v21_0) (h1 : b ≠ main_v21_1) :
    W3 m ρ c (Proc.devRef .tc b) = W2 m ρ c (Proc.devRef .tc b) := by
  by_cases h : ∃ w, Pipeline.arrRef spec1 w = b
  · obtain ⟨w, rfl⟩ := h
    rw [W3_arr]
    match w with
    | ⟨0, _⟩ => exact ((dat1 (V2 m ρ) c).arrAt_in 0 rfl _).trans (A_eq1 (V2 m ρ) c 0)
    | ⟨1, _⟩ => exact ((dat1 (V2 m ρ) c).arrAt_in 1 rfl _).trans (A_eq1 (V2 m ρ) c 1)
    | ⟨2, _⟩ => exact ((dat1 (V2 m ρ) c).arrAt_in 2 rfl _).trans (A_eq1 (V2 m ρ) c 2)
    | ⟨3, _⟩ => exact absurd rfl h0
    | ⟨4, _⟩ => exact absurd rfl h1
  · exact W3_of_ne m ρ c b fun w e => h ⟨w, e⟩
/-- Region 0 likewise. -/
theorem W2_eq_W1 (c : Dev nD) (b : Ref sig .tc) (h0 : b ≠ main_v20_0) (h1 : b ≠ main_v20_1) :
    W2 m ρ c (Proc.devRef .tc b) = W1 m ρ c (Proc.devRef .tc b) := by
  by_cases h : ∃ w, Pipeline.arrRef spec0 w = b
  · obtain ⟨w, rfl⟩ := h
    rw [W2_arr]
    match w with
    | ⟨0, _⟩ => exact ((dat0 (V1 m ρ) c).arrAt_in 0 rfl _).trans (A_eq0 (V1 m ρ) c 0)
    | ⟨1, _⟩ => exact ((dat0 (V1 m ρ) c).arrAt_in 1 rfl _).trans (A_eq0 (V1 m ρ) c 1)
    | ⟨2, _⟩ => exact ((dat0 (V1 m ρ) c).arrAt_in 2 rfl _).trans (A_eq0 (V1 m ρ) c 2)
    | ⟨3, _⟩ => exact absurd rfl h0
    | ⟨4, _⟩ => exact absurd rfl h1
  · exact W2_of_ne m ρ c b fun w e => h ⟨w, e⟩

/-- After the regions the four region outputs hold what the pipelines' write-backs leave, -/
theorem Wregs_v20_0 (c : Dev nD) : Wregs m ρ c (Proc.devRef .tc main_v20_0) = (dat0 (V1 m ρ) c).arrAt 3 cfg0.N :=
  (W3_of_ne m ρ c main_v20_0 (by decide)).trans (W2_arr m ρ c 3)
theorem Wregs_v20_1 (c : Dev nD) : Wregs m ρ c (Proc.devRef .tc main_v20_1) = (dat0 (V1 m ρ) c).arrAt 4 cfg0.N :=
  (W3_of_ne m ρ c main_v20_1 (by decide)).trans (W2_arr m ρ c 4)
theorem Wregs_v21_0 (c : Dev nD) : Wregs m ρ c (Proc.devRef .tc main_v21_0) = (dat1 (V2 m ρ) c).arrAt 3 cfg1.N :=
  W3_arr m ρ c 3
theorem Wregs_v21_1 (c : Dev nD) : Wregs m ρ c (Proc.devRef .tc main_v21_1) = (dat1 (V2 m ρ) c).arrAt 4 cfg1.N :=
  W3_arr m ρ c 4
/-- and every other buffer what it held after the first host stretch. -/
theorem Wregs_of_ne (c : Dev nD) (b : Ref sig .tc) (h0 : b ≠ main_v20_0) (h1 : b ≠ main_v20_1) (h2 : b ≠ main_v21_0) (h3 : b ≠ main_v21_1) :
    Wregs m ρ c (Proc.devRef .tc b) = W1 m ρ c (Proc.devRef .tc b) :=
  (W3_eq_W2 m ρ c b h2 h3).trans (W2_eq_W1 m ρ c b h0 h1)
/-- Region 1's proof data see, at a reference region 0 does not write, what the first host stretch left. -/
theorem V2_of_ne (c : Dev nD) (b : Ref sig .tc) (h0 : b ≠ main_v20_0) (h1 : b ≠ main_v20_1) : V2 m ρ c b = V1 m ρ c b :=
  W2_eq_W1 m ρ c b h0 h1

/-! ## No host operation allocates a buffer -/

theorem hostOps0_fresh : (hostOps0 : List (HloOp τ sig (Elt F))).Forall fun op => op.fresh = ∅ := by
  simp only [List.Forall]; repeat' constructor
theorem hostOps2_fresh : (hostOps2 : List (HloOp τ sig (Elt F))).Forall fun op => op.fresh = ∅ := by
  simp only [List.Forall]; repeat' constructor
theorem hostOps2_1_fresh : (hostOps2_1 : List (HloOp τ sig (Elt F))).Forall fun op => op.fresh = ∅ := by
  simp only [List.Forall]; repeat' constructor
theorem hostOps2_2_fresh : (hostOps2_2 : List (HloOp τ sig (Elt F))).Forall fun op => op.fresh = ∅ := by
  simp only [List.Forall]; repeat' constructor
theorem hostOps2_3_fresh : (hostOps2_3 : List (HloOp τ sig (Elt F))).Forall fun op => op.fresh = ∅ := by
  simp only [List.Forall]; repeat' constructor
theorem hostOps2_4_fresh : (hostOps2_4 : List (HloOp τ sig (Elt F))).Forall fun op => op.fresh = ∅ := by
  simp only [List.Forall]; repeat' constructor
theorem hostOps2_5_fresh : (hostOps2_5 : List (HloOp τ sig (Elt F))).Forall fun op => op.fresh = ∅ := by
  simp only [List.Forall]; repeat' constructor
theorem hostOps2_6_fresh : (hostOps2_6 : List (HloOp τ sig (Elt F))).Forall fun op => op.fresh = ∅ := by
  simp only [List.Forall]; repeat' constructor
theorem hostOps2_7_fresh : (hostOps2_7 : List (HloOp τ sig (Elt F))).Forall fun op => op.fresh = ∅ := by
  simp only [List.Forall]; repeat' constructor
theorem hostOps2_8_fresh : (hostOps2_8 : List (HloOp τ sig (Elt F))).Forall fun op => op.fresh = ∅ := by
  simp only [List.Forall]; repeat' constructor
theorem hostOps2_9_fresh : (hostOps2_9 : List (HloOp τ sig (Elt F))).Forall fun op => op.fresh = ∅ := by
  simp only [List.Forall]; repeat' constructor
theorem hostOps2_10_fresh : (hostOps2_10 : List (HloOp τ sig (Elt F))).Forall fun op => op.fresh = ∅ := by
  simp only [List.Forall]; repeat' constructor
theorem hostOps2_11_fresh : (hostOps2_11 : List (HloOp τ sig (Elt F))).Forall fun op => op.fresh = ∅ := by
  simp only [List.Forall]; repeat' constructor
theorem hostOps2_12_fresh : (hostOps2_12 : List (HloOp τ sig (Elt F))).Forall fun op => op.fresh = ∅ := by
  simp only [List.Forall]; repeat' constructor
theorem hostOps2_13_fresh : (hostOps2_13 : List (HloOp τ sig (Elt F))).Forall fun op => op.fresh = ∅ := by
  simp only [List.Forall]; repeat' constructor
theorem hostOps2_14_fresh : (hostOps2_14 : List (HloOp τ sig (Elt F))).Forall fun op => op.fresh = ∅ := by
  simp only [List.Forall]; repeat' constructor
theorem hostOps2_15_fresh : (hostOps2_15 : List (HloOp τ sig (Elt F))).Forall fun op => op.fresh = ∅ := by
  simp only [List.Forall]; repeat' constructor
theorem hostOps2_16_fresh : (hostOps2_16 : List (HloOp τ sig (Elt F))).Forall fun op => op.fresh = ∅ := by
  simp only [List.Forall]; repeat' constructor
theorem hostOps2_17_fresh : (hostOps2_17 : List (HloOp τ sig (Elt F))).Forall fun op => op.fresh = ∅ := by
  simp only [List.Forall]; repeat' constructor
theorem hostOps2_18_fresh : (hostOps2_18 : List (HloOp τ sig (Elt F))).Forall fun op => op.fresh = ∅ := by
  simp only [List.Forall]; repeat' constructor
theorem hostOps2_19_fresh : (hostOps2_19 : List (HloOp τ sig (Elt F))).Forall fun op => op.fresh = ∅ := by
  simp only [List.Forall]; repeat' constructor
theorem hostOps2_20_fresh : (hostOps2_20 : List (HloOp τ sig (Elt F))).Forall fun op => op.fresh = ∅ := by
  simp only [List.Forall]; repeat' constructor
theorem hostOps2_21_fresh : (hostOps2_21 : List (HloOp τ sig (Elt F))).Forall fun op => op.fresh = ∅ := by
  simp only [List.Forall]; repeat' constructor
theorem hostOps2_22_fresh : (hostOps2_22 : List (HloOp τ sig (Elt F))).Forall fun op => op.fresh = ∅ := by
  simp only [List.Forall]; repeat' constructor
theorem hostOps2_23_fresh : (hostOps2_23 : List (HloOp τ sig (Elt F))).Forall fun op => op.fresh = ∅ := by
  simp only [List.Forall]; repeat' constructor
theorem hostOps2_24_fresh : (hostOps2_24 : List (HloOp τ sig (Elt F))).Forall fun op => op.fresh = ∅ := by
  simp only [List.Forall]; repeat' constructor
theorem hostOps2_25_fresh : (hostOps2_25 : List (HloOp τ sig (Elt F))).Forall fun op => op.fresh = ∅ := by
  simp only [List.Forall]; repeat' constructor
theorem hostOps2_26_fresh : (hostOps2_26 : List (HloOp τ sig (Elt F))).Forall fun op => op.fresh = ∅ := by
  simp only [List.Forall]; repeat' constructor
theorem hostOps2_27_fresh : (hostOps2_27 : List (HloOp τ sig (Elt F))).Forall fun op => op.fresh = ∅ := by
  simp only [List.Forall]; repeat' constructor
theorem hostOps2_28_fresh : (hostOps2_28 : List (HloOp τ sig (Elt F))).Forall fun op => op.fresh = ∅ := by
  simp only [List.Forall]; repeat' constructor
theorem hostOps2_29_fresh : (hostOps2_29 : List (HloOp τ sig (Elt F))).Forall fun op => op.fresh = ∅ := by
  simp only [List.Forall]; repeat' constructor

/-! ## The arguments end as launched: no host operation and no region writes one -/

/-- @main's seven arguments. -/
abbrev argRefs : List (Ref sig .tc) := [main_arg0, main_arg1, main_arg2, main_arg3, main_arg4, main_arg5, main_arg6]

omit [FloatOps F] in
/-- An operation whose one result buffer is no argument writes no argument. -/
theorem arg_not_written (y : Ref sig .tc) (hy : y ∉ (argRefs : List (Ref sig .tc))) (r : Ref sig .tc) (hr : r ∈ (argRefs : List (Ref sig .tc))) :
    (Proc.devRef .tc r : DevRef τ sig) ∉ ({Proc.devRef .tc y} : Finset (DevRef τ sig)) := fun h =>
  hy (Proc.devRef_injective _ (Finset.mem_singleton.mp h) ▸ hr)

/-- A line none of whose operations writes an argument leaves every argument's buffer as it was. -/
theorem after_arg (ops : List (HloOp τ sig (Elt F)))
    (h : ops.Forall fun op => ∀ r ∈ (argRefs : List (Ref sig .tc)), (Proc.devRef .tc r : DevRef τ sig) ∉ op.writes)
    (W : Valuation τ sig (Elt F)) (r : Ref sig .tc) (hr : r ∈ (argRefs : List (Ref sig .tc))) :
    StableHlo.after ops W (Proc.devRef .tc r) = W (Proc.devRef .tc r) :=
  StableHlo.after_of_forall_not_mem ops W fun op hop => (List.forall_iff_forall_mem.mp h) op hop r hr

local macro "keeps_args" : tactic => `(tactic| (
  simp only [List.Forall, StableHlo.nullary_writes, StableHlo.unary_writes, StableHlo.binary_writes, StableHlo.ternary_writes,
    StableHlo.quaternary_writes, StableHlo.reshape_writes, StableHlo.binaryIndexed_writes, StableHlo.unaryIndexed_writes, StableHlo.nary_writes]
  repeat' apply And.intro
  all_goals exact arg_not_written _ (by decide)))

theorem hostOps0_keeps : (hostOps0 : List (HloOp τ sig (Elt F))).Forall fun op => ∀ r ∈ (argRefs : List (Ref sig .tc)), (Proc.devRef .tc r : DevRef τ sig) ∉ op.writes := by
  keeps_args
theorem hostOps2_keeps : (hostOps2 : List (HloOp τ sig (Elt F))).Forall fun op => ∀ r ∈ (argRefs : List (Ref sig .tc)), (Proc.devRef .tc r : DevRef τ sig) ∉ op.writes := by
  keeps_args
theorem hostOps2_1_keeps : (hostOps2_1 : List (HloOp τ sig (Elt F))).Forall fun op => ∀ r ∈ (argRefs : List (Ref sig .tc)), (Proc.devRef .tc r : DevRef τ sig) ∉ op.writes := by
  keeps_args
theorem hostOps2_2_keeps : (hostOps2_2 : List (HloOp τ sig (Elt F))).Forall fun op => ∀ r ∈ (argRefs : List (Ref sig .tc)), (Proc.devRef .tc r : DevRef τ sig) ∉ op.writes := by
  keeps_args
theorem hostOps2_3_keeps : (hostOps2_3 : List (HloOp τ sig (Elt F))).Forall fun op => ∀ r ∈ (argRefs : List (Ref sig .tc)), (Proc.devRef .tc r : DevRef τ sig) ∉ op.writes := by
  keeps_args
theorem hostOps2_4_keeps : (hostOps2_4 : List (HloOp τ sig (Elt F))).Forall fun op => ∀ r ∈ (argRefs : List (Ref sig .tc)), (Proc.devRef .tc r : DevRef τ sig) ∉ op.writes := by
  keeps_args
theorem hostOps2_5_keeps : (hostOps2_5 : List (HloOp τ sig (Elt F))).Forall fun op => ∀ r ∈ (argRefs : List (Ref sig .tc)), (Proc.devRef .tc r : DevRef τ sig) ∉ op.writes := by
  keeps_args
theorem hostOps2_6_keeps : (hostOps2_6 : List (HloOp τ sig (Elt F))).Forall fun op => ∀ r ∈ (argRefs : List (Ref sig .tc)), (Proc.devRef .tc r : DevRef τ sig) ∉ op.writes := by
  keeps_args
theorem hostOps2_7_keeps : (hostOps2_7 : List (HloOp τ sig (Elt F))).Forall fun op => ∀ r ∈ (argRefs : List (Ref sig .tc)), (Proc.devRef .tc r : DevRef τ sig) ∉ op.writes := by
  keeps_args
theorem hostOps2_8_keeps : (hostOps2_8 : List (HloOp τ sig (Elt F))).Forall fun op => ∀ r ∈ (argRefs : List (Ref sig .tc)), (Proc.devRef .tc r : DevRef τ sig) ∉ op.writes := by
  keeps_args
theorem hostOps2_9_keeps : (hostOps2_9 : List (HloOp τ sig (Elt F))).Forall fun op => ∀ r ∈ (argRefs : List (Ref sig .tc)), (Proc.devRef .tc r : DevRef τ sig) ∉ op.writes := by
  keeps_args
theorem hostOps2_10_keeps : (hostOps2_10 : List (HloOp τ sig (Elt F))).Forall fun op => ∀ r ∈ (argRefs : List (Ref sig .tc)), (Proc.devRef .tc r : DevRef τ sig) ∉ op.writes := by
  keeps_args
theorem hostOps2_11_keeps : (hostOps2_11 : List (HloOp τ sig (Elt F))).Forall fun op => ∀ r ∈ (argRefs : List (Ref sig .tc)), (Proc.devRef .tc r : DevRef τ sig) ∉ op.writes := by
  keeps_args
theorem hostOps2_12_keeps : (hostOps2_12 : List (HloOp τ sig (Elt F))).Forall fun op => ∀ r ∈ (argRefs : List (Ref sig .tc)), (Proc.devRef .tc r : DevRef τ sig) ∉ op.writes := by
  keeps_args
theorem hostOps2_13_keeps : (hostOps2_13 : List (HloOp τ sig (Elt F))).Forall fun op => ∀ r ∈ (argRefs : List (Ref sig .tc)), (Proc.devRef .tc r : DevRef τ sig) ∉ op.writes := by
  keeps_args
theorem hostOps2_14_keeps : (hostOps2_14 : List (HloOp τ sig (Elt F))).Forall fun op => ∀ r ∈ (argRefs : List (Ref sig .tc)), (Proc.devRef .tc r : DevRef τ sig) ∉ op.writes := by
  keeps_args
theorem hostOps2_15_keeps : (hostOps2_15 : List (HloOp τ sig (Elt F))).Forall fun op => ∀ r ∈ (argRefs : List (Ref sig .tc)), (Proc.devRef .tc r : DevRef τ sig) ∉ op.writes := by
  keeps_args
theorem hostOps2_16_keeps : (hostOps2_16 : List (HloOp τ sig (Elt F))).Forall fun op => ∀ r ∈ (argRefs : List (Ref sig .tc)), (Proc.devRef .tc r : DevRef τ sig) ∉ op.writes := by
  keeps_args
theorem hostOps2_17_keeps : (hostOps2_17 : List (HloOp τ sig (Elt F))).Forall fun op => ∀ r ∈ (argRefs : List (Ref sig .tc)), (Proc.devRef .tc r : DevRef τ sig) ∉ op.writes := by
  keeps_args
theorem hostOps2_18_keeps : (hostOps2_18 : List (HloOp τ sig (Elt F))).Forall fun op => ∀ r ∈ (argRefs : List (Ref sig .tc)), (Proc.devRef .tc r : DevRef τ sig) ∉ op.writes := by
  keeps_args
theorem hostOps2_19_keeps : (hostOps2_19 : List (HloOp τ sig (Elt F))).Forall fun op => ∀ r ∈ (argRefs : List (Ref sig .tc)), (Proc.devRef .tc r : DevRef τ sig) ∉ op.writes := by
  keeps_args
theorem hostOps2_20_keeps : (hostOps2_20 : List (HloOp τ sig (Elt F))).Forall fun op => ∀ r ∈ (argRefs : List (Ref sig .tc)), (Proc.devRef .tc r : DevRef τ sig) ∉ op.writes := by
  keeps_args
theorem hostOps2_21_keeps : (hostOps2_21 : List (HloOp τ sig (Elt F))).Forall fun op => ∀ r ∈ (argRefs : List (Ref sig .tc)), (Proc.devRef .tc r : DevRef τ sig) ∉ op.writes := by
  keeps_args
theorem hostOps2_22_keeps : (hostOps2_22 : List (HloOp τ sig (Elt F))).Forall fun op => ∀ r ∈ (argRefs : List (Ref sig .tc)), (Proc.devRef .tc r : DevRef τ sig) ∉ op.writes := by
  keeps_args
theorem hostOps2_23_keeps : (hostOps2_23 : List (HloOp τ sig (Elt F))).Forall fun op => ∀ r ∈ (argRefs : List (Ref sig .tc)), (Proc.devRef .tc r : DevRef τ sig) ∉ op.writes := by
  keeps_args
theorem hostOps2_24_keeps : (hostOps2_24 : List (HloOp τ sig (Elt F))).Forall fun op => ∀ r ∈ (argRefs : List (Ref sig .tc)), (Proc.devRef .tc r : DevRef τ sig) ∉ op.writes := by
  keeps_args
theorem hostOps2_25_keeps : (hostOps2_25 : List (HloOp τ sig (Elt F))).Forall fun op => ∀ r ∈ (argRefs : List (Ref sig .tc)), (Proc.devRef .tc r : DevRef τ sig) ∉ op.writes := by
  keeps_args
theorem hostOps2_26_keeps : (hostOps2_26 : List (HloOp τ sig (Elt F))).Forall fun op => ∀ r ∈ (argRefs : List (Ref sig .tc)), (Proc.devRef .tc r : DevRef τ sig) ∉ op.writes := by
  keeps_args
theorem hostOps2_27_keeps : (hostOps2_27 : List (HloOp τ sig (Elt F))).Forall fun op => ∀ r ∈ (argRefs : List (Ref sig .tc)), (Proc.devRef .tc r : DevRef τ sig) ∉ op.writes := by
  keeps_args
theorem hostOps2_28_keeps : (hostOps2_28 : List (HloOp τ sig (Elt F))).Forall fun op => ∀ r ∈ (argRefs : List (Ref sig .tc)), (Proc.devRef .tc r : DevRef τ sig) ∉ op.writes := by
  keeps_args
theorem hostOps2_29_keeps : (hostOps2_29 : List (HloOp τ sig (Elt F))).Forall fun op => ∀ r ∈ (argRefs : List (Ref sig .tc)), (Proc.devRef .tc r : DevRef τ sig) ∉ op.writes := by
  keeps_args

/-- After the regions an argument's buffer holds its launch contents. -/
theorem Wregs_arg (c : Dev nD) (r : Ref sig .tc) (hr : r ∈ (argRefs : List (Ref sig .tc))) :
    Wregs m ρ c (Proc.devRef .tc r) = m ((c : Thread nD τ).loc r) := by
  have hne : r ≠ main_v20_0 ∧ r ≠ main_v20_1 ∧ r ≠ main_v21_0 ∧ r ≠ main_v21_1 := by
    refine ⟨?_, ?_, ?_, ?_⟩ <;> (intro e; subst e; revert hr; decide)
  exact (Wregs_of_ne m ρ c r hne.1 hne.2.1 hne.2.2.1 hne.2.2.2).trans (after_arg hostOps0 hostOps0_keeps _ r hr)

/-- When @main returns an argument's buffer holds its launch contents. -/
theorem Wend_arg (c : Dev nD) (r : Ref sig .tc) (hr : r ∈ (argRefs : List (Ref sig .tc))) :
    Wend m ρ c (Proc.devRef .tc r) = m ((c : Thread nD τ).loc r) :=
  (after_arg hostOps2_29 hostOps2_29_keeps _ r hr).trans <|
  (after_arg hostOps2_28 hostOps2_28_keeps _ r hr).trans <|
  (after_arg hostOps2_27 hostOps2_27_keeps _ r hr).trans <|
  (after_arg hostOps2_26 hostOps2_26_keeps _ r hr).trans <|
  (after_arg hostOps2_25 hostOps2_25_keeps _ r hr).trans <|
  (after_arg hostOps2_24 hostOps2_24_keeps _ r hr).trans <|
  (after_arg hostOps2_23 hostOps2_23_keeps _ r hr).trans <|
  (after_arg hostOps2_22 hostOps2_22_keeps _ r hr).trans <|
  (after_arg hostOps2_21 hostOps2_21_keeps _ r hr).trans <|
  (after_arg hostOps2_20 hostOps2_20_keeps _ r hr).trans <|
  (after_arg hostOps2_19 hostOps2_19_keeps _ r hr).trans <|
  (after_arg hostOps2_18 hostOps2_18_keeps _ r hr).trans <|
  (after_arg hostOps2_17 hostOps2_17_keeps _ r hr).trans <|
  (after_arg hostOps2_16 hostOps2_16_keeps _ r hr).trans <|
  (after_arg hostOps2_15 hostOps2_15_keeps _ r hr).trans <|
  (after_arg hostOps2_14 hostOps2_14_keeps _ r hr).trans <|
  (after_arg hostOps2_13 hostOps2_13_keeps _ r hr).trans <|
  (after_arg hostOps2_12 hostOps2_12_keeps _ r hr).trans <|
  (after_arg hostOps2_11 hostOps2_11_keeps _ r hr).trans <|
  (after_arg hostOps2_10 hostOps2_10_keeps _ r hr).trans <|
  (after_arg hostOps2_9 hostOps2_9_keeps _ r hr).trans <|
  (after_arg hostOps2_8 hostOps2_8_keeps _ r hr).trans <|
  (after_arg hostOps2_7 hostOps2_7_keeps _ r hr).trans <|
  (after_arg hostOps2_6 hostOps2_6_keeps _ r hr).trans <|
  (after_arg hostOps2_5 hostOps2_5_keeps _ r hr).trans <|
  (after_arg hostOps2_4 hostOps2_4_keeps _ r hr).trans <|
  (after_arg hostOps2_3 hostOps2_3_keeps _ r hr).trans <|
  (after_arg hostOps2_2 hostOps2_2_keeps _ r hr).trans <|
  (after_arg hostOps2_1 hostOps2_1_keeps _ r hr).trans <|
  (after_arg hostOps2 hostOps2_keeps _ r hr).trans <|
  Wregs_arg m ρ c r hr

theorem Wend_main_arg0 (c : Dev nD) : Wend m ρ c (Proc.devRef .tc main_arg0) = m ((c : Thread nD τ).loc main_arg0) :=
  Wend_arg m ρ c main_arg0 (by decide)
theorem Wend_main_arg1 (c : Dev nD) : Wend m ρ c (Proc.devRef .tc main_arg1) = m ((c : Thread nD τ).loc main_arg1) :=
  Wend_arg m ρ c main_arg1 (by decide)
theorem Wend_main_arg2 (c : Dev nD) : Wend m ρ c (Proc.devRef .tc main_arg2) = m ((c : Thread nD τ).loc main_arg2) :=
  Wend_arg m ρ c main_arg2 (by decide)
theorem Wend_main_arg3 (c : Dev nD) : Wend m ρ c (Proc.devRef .tc main_arg3) = m ((c : Thread nD τ).loc main_arg3) :=
  Wend_arg m ρ c main_arg3 (by decide)
theorem Wend_main_arg4 (c : Dev nD) : Wend m ρ c (Proc.devRef .tc main_arg4) = m ((c : Thread nD τ).loc main_arg4) :=
  Wend_arg m ρ c main_arg4 (by decide)
theorem Wend_main_arg5 (c : Dev nD) : Wend m ρ c (Proc.devRef .tc main_arg5) = m ((c : Thread nD τ).loc main_arg5) :=
  Wend_arg m ρ c main_arg5 (by decide)
theorem Wend_main_arg6 (c : Dev nD) : Wend m ρ c (Proc.devRef .tc main_arg6) = m ((c : Thread nD τ).loc main_arg6) :=
  Wend_arg m ρ c main_arg6 (by decide)

end Cert.Kernel.Hand

end
-- ==== Proof.KRun.lean ====
import proofs.«130992_j35871566856204_2_alg».proof.Proof.Gen.Kernel.Launch
import proofs.«130992_j35871566856204_2_alg».proof.Proof.Gen.Kernel.Skeleton
import proofs.«130992_j35871566856204_2_alg».proof.Proof.Gen.Kernel.Points
import proofs.«130992_j35871566856204_2_alg».proof.Proof.KFold
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The run of @main: one host stretch, the two kernel regions, thirty host stretches -/

variable (m : (ℓ : Loc nD τ sig) → Buf (Elt F) ℓ) (ρ : Dev nD → PrngReg)

/-- The prefetched tables' admissible contents: no pipeline has a table. -/
abbrev adm : (p : Fin 2) → (pcfgs (F := F) p).Adm := fun p => (cfgs p).toPCfg_adm
/-- Every pipeline's proof data, each at its region's entry contents. -/
def pdats : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V2 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state and its `owes`, at nothing. -/
abbrev R (c : Dev nD) : sProp 𝕄 := iprop((∃ r, prngReg c r) ∗ ∃ W, owes (c : Thread nD τ) (0 : CellTallies nD τ sig Unit) W)
/-- A host stretch as a segment over the unscoped references from the contents `W`, `R` riding along. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

omit [FloatOps F] in
/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`: every unscoped buffer at the last boundary's contents, the generator register at some state. -/
abbrev Tₙ (c : Dev nD) : sProp 𝕄 := iprop(StableHlo.held (c : Thread nD τ) (Pipeline.ucRefs τ sig) (Wend m ρ c) ∗ ∃ r, prngReg c r)

/-! ## The regions as segments -/

set_option backward.isDefEq.respectTransparency.types false in
/-- Region 0 over the thread state: entered from every unscoped buffer at `W1`, left at `W2`. Its arrays are split
    out of the unscoped buffers and put back at the exit contents; the generator register goes into the class invariant
    and comes out; nothing is owed; the kernel has no semaphore of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered from every unscoped buffer at `W2`, left at `W3`. Its arrays are split
    out of the unscoped buffers and put back at the exit contents; the generator register goes into the class invariant
    and comes out; nothing is owed; the kernel has no semaphore of its own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V2 m ρ) c).loose
  hwaits := Pipeline.hwaits_of_owed_zero _ _ _ _ L lv 1 fun _ _ => rfl
  pre c := iprop(StableHlo.held (c : Thread nD τ) (Pipeline.ucRefs τ sig) (W2 m ρ c) ∗ R c)
  post c := iprop(StableHlo.held (c : Thread nD τ) (Pipeline.ucRefs τ sig) (W3 m ρ c) ∗ R c)
  X c := iprop(∃ r, prngReg c r)
  Y c := iprop(∃ r, prngReg c r)
  Z c := Pipeline.unscopedRest (Ix := Unit) (Name := ℕ) (U := UR sig nD τ) (Lvl := ℕ) spec1 c (V2 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V2 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V2 m ρ c) (V3 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

/-- @main's 33 segments in order. -/
abbrev segs : List (Pipeline.Seg (pcfgs (F := F)) adm (pdats m ρ) () defs₀ 𝒱₀ L lv) :=
  [ .host (hseg hostOps0 hostOps0_sub hostOps0_fresh (W0 m ρ)),
    .region (reg0 m ρ),
    .region (reg1 m ρ),
    .host (hseg hostOps2 hostOps2_sub hostOps2_fresh (W3 m ρ)),
    .host (hseg hostOps2_1 hostOps2_1_sub hostOps2_1_fresh (W4 m ρ)),
    .host (hseg hostOps2_2 hostOps2_2_sub hostOps2_2_fresh (W5 m ρ)),
    .host (hseg hostOps2_3 hostOps2_3_sub hostOps2_3_fresh (W6 m ρ)),
    .host (hseg hostOps2_4 hostOps2_4_sub hostOps2_4_fresh (W7 m ρ)),
    .host (hseg hostOps2_5 hostOps2_5_sub hostOps2_5_fresh (W8 m ρ)),
    .host (hseg hostOps2_6 hostOps2_6_sub hostOps2_6_fresh (W9 m ρ)),
    .host (hseg hostOps2_7 hostOps2_7_sub hostOps2_7_fresh (W10 m ρ)),
    .host (hseg hostOps2_8 hostOps2_8_sub hostOps2_8_fresh (W11 m ρ)),
    .host (hseg hostOps2_9 hostOps2_9_sub hostOps2_9_fresh (W12 m ρ)),
    .host (hseg hostOps2_10 hostOps2_10_sub hostOps2_10_fresh (W13 m ρ)),
    .host (hseg hostOps2_11 hostOps2_11_sub hostOps2_11_fresh (W14 m ρ)),
    .host (hseg hostOps2_12 hostOps2_12_sub hostOps2_12_fresh (W15 m ρ)),
    .host (hseg hostOps2_13 hostOps2_13_sub hostOps2_13_fresh (W16 m ρ)),
    .host (hseg hostOps2_14 hostOps2_14_sub hostOps2_14_fresh (W17 m ρ)),
    .host (hseg hostOps2_15 hostOps2_15_sub hostOps2_15_fresh (W18 m ρ)),
    .host (hseg hostOps2_16 hostOps2_16_sub hostOps2_16_fresh (W19 m ρ)),
    .host (hseg hostOps2_17 hostOps2_17_sub hostOps2_17_fresh (W20 m ρ)),
    .host (hseg hostOps2_18 hostOps2_18_sub hostOps2_18_fresh (W21 m ρ)),
    .host (hseg hostOps2_19 hostOps2_19_sub hostOps2_19_fresh (W22 m ρ)),
    .host (hseg hostOps2_20 hostOps2_20_sub hostOps2_20_fresh (W23 m ρ)),
    .host (hseg hostOps2_21 hostOps2_21_sub hostOps2_21_fresh (W24 m ρ)),
    .host (hseg hostOps2_22 hostOps2_22_sub hostOps2_22_fresh (W25 m ρ)),
    .host (hseg hostOps2_23 hostOps2_23_sub hostOps2_23_fresh (W26 m ρ)),
    .host (hseg hostOps2_24 hostOps2_24_sub hostOps2_24_fresh (W27 m ρ)),
    .host (hseg hostOps2_25 hostOps2_25_sub hostOps2_25_fresh (W28 m ρ)),
    .host (hseg hostOps2_26 hostOps2_26_sub hostOps2_26_fresh (W29 m ρ)),
    .host (hseg hostOps2_27 hostOps2_27_sub hostOps2_27_fresh (W30 m ρ)),
    .host (hseg hostOps2_28 hostOps2_28_sub hostOps2_28_fresh (W31 m ρ)),
    .host (hseg hostOps2_29 hostOps2_29_sub hostOps2_29_fresh (W32 m ρ)) ]

/-- @main IS the run of the segments. -/
theorem main_run (c : Dev nD) : main (F := F) c = Pipeline.Seg.run (segs m ρ) := (main_chain c).trans (by chain_rfl)

set_option backward.isDefEq.respectTransparency.types false in
/-- The launch: at the compiled mesh, from any memory with zero counters, every weakly fair execution of @main on the
    TensorCores terminates, nothing faulting, and in every final state every unscoped buffer holds the fold `Wend` —
    whatever is then read off that (`hQ`). -/
theorem run_of {Q : PUnit × MemSt nD τ sig (Elt F) → Prop}
    (hQ : ∀ s : MemSt nD τ sig (Elt F), (∀ c : Dev nD, ∀ b ∈ Pipeline.ucRefs τ sig, s.mem (((c : Thread nD τ)).1, b) = Wend m ρ c b) → Q (⟨⟩, s)) :
    θ_run defs (onTc (τ := τ) (main (F := F))) ⟨m, fun _ => 0, ρ⟩ Q :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl,
      fun c => by
        show iprop(StableHlo.held (c : Thread nD τ) (Pipeline.ucRefs τ sig) (Wend m ρ c)
            ∗ (∃ r, prngReg c r) ∗ ∃ W, owes (c : Thread nD τ) (0 : CellTallies nD τ sig Unit) W)
          ⊢ iprop((StableHlo.held (c : Thread nD τ) (Pipeline.ucRefs τ sig) (Wend m ρ c) ∗ ∃ r, prngReg c r)
            ∗ ∃ W, owes (c : Thread nD τ) (0 : CellTallies nD τ sig Unit) W)
        iintro ⟨Hh, Hp, Ho⟩
        isplitl [Hh Hp]
        · isplitl [Hh]; · iexact Hh
          iexact Hp
        iexact Ho⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = Wend m ρ c b)
    (hfin := fun c s' => by
      iintro ⟨⟨Hh, -⟩, HSI⟩
      unfold StableHlo.held
      imodintro
      iapply (pointsTo_read_all (Pipeline.ucRefs τ sig) (fun b => (((c : Thread nD τ)).1, b)) (Wend m ρ c) s')
      isplitl [Hh] <;> iassumption)
    (hQ := hQ)

/-- Every unscoped buffer ends at the fold. -/
theorem run : θ_run defs (onTc (τ := τ) (main (F := F))) ⟨m, fun _ => 0, ρ⟩
    (fun r => ∀ c : Dev nD, ∀ b ∈ Pipeline.ucRefs τ sig, r.2.mem ((c : Thread nD τ).1, b) = Wend m ρ c b) :=
  run_of m ρ fun _ h => h

/-- The frame: every argument array ends holding its launch contents. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  run_of m ρ fun s h c =>
    ⟨(h c _ (mem_uc main_arg0 (by decide))).trans (Wend_main_arg0 m ρ c),
     (h c _ (mem_uc main_arg1 (by decide))).trans (Wend_main_arg1 m ρ c),
     (h c _ (mem_uc main_arg2 (by decide))).trans (Wend_main_arg2 m ρ c),
     (h c _ (mem_uc main_arg3 (by decide))).trans (Wend_main_arg3 m ρ c),
     (h c _ (mem_uc main_arg4 (by decide))).trans (Wend_main_arg4 m ρ c),
     (h c _ (mem_uc main_arg5 (by decide))).trans (Wend_main_arg5 m ρ c),
     (h c _ (mem_uc main_arg6 (by decide))).trans (Wend_main_arg6 m ρ c)⟩

end Cert.Kernel.Hand

end
-- ==== Proof.KIBody0.lean ====
import proofs.«130992_j35871566856204_2_alg».proof.Proof.Gen.KernelIdeal.Launch
import proofs.«130992_j35871566856204_2_alg».proof.Proof.Gen.KernelIdeal.Skeleton
import proofs.«130992_j35871566856204_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Region 0: the kernel body `cc0__node_proj_kernel` on whole staging blocks

The body loads the row block `x`, the weight matrix `w` and the projection matrix `a` whole, stores
`h = trunc (x · w)` whole into the first output block and `p = (x · w) · a` whole into the second. -/

/-- The whole-block rectangles of the five staging buffers. -/
abbrev r0_x : Rect S5000x256 := Rect.unit (s := S5000x256) ![0, 0] S5000x256.size inb_S5000x256_S5000x256_0_0
abbrev r0_w : Rect S256x128 := Rect.unit (s := S256x128) ![0, 0] S256x128.size inb_S256x128_S256x128_0_0
abbrev r0_a : Rect S128x4 := Rect.unit (s := S128x4) ![0, 0] S128x4.size inb_S128x4_S128x4_0_0
abbrev r0_h : Rect S5000x128 := Rect.unit (s := S5000x128) ![0, 0] S5000x128.size inb_S5000x128_S5000x128_0_0
abbrev r0_p : Rect S5000x4 := Rect.unit (s := S5000x4) ![0, 0] S5000x4.size inb_S5000x4_S5000x4_0_0

/-- What the body leaves in the first output block (the bf16 product), from the blocks of `x` and `w`:
    its one whole-block store, as the canonical contents of that one piece. -/
def out0_3 (x0 : Vec F S5000x256 .f32) (x1 : Vec F S256x128 .f32) : Vec F S5000x128 .bf16 :=
  View.canon [⟨r0_h, k0_pay2 (View.ld x0 r0_x) (View.ld x1 r0_w)⟩]

/-- What the body leaves in the second output block (the f32 projection), from the blocks of `x`, `w`, `a`. -/
def out0_4 (x0 : Vec F S5000x256 .f32) (x1 : Vec F S256x128 .f32) (x2 : Vec F S128x4 .f32) : Vec F S5000x4 .f32 :=
  View.canon [⟨r0_p, k0_pay3 (View.ld x0 r0_x) (View.ld x1 r0_w) (View.ld x2 r0_a)⟩]

/-- One whole-block store covers its block. -/
theorem cover0_3 (p0 : Vec F S5000x128 .bf16) (y : S5000x128.Idx) :
    ∃ pc ∈ ([⟨r0_h, p0⟩] : List (View.Piece (Elt F) S5000x128 .bf16)), y ∈ pc.1.set :=
  View.cover_of_tiled [⟨r0_h, p0⟩] S5000x128.size (by rfl) y
theorem cover0_4 (p0 : Vec F S5000x4 .f32) (y : S5000x4.Idx) :
    ∃ pc ∈ ([⟨r0_p, p0⟩] : List (View.Piece (Elt F) S5000x4 .f32)), y ∈ pc.1.set :=
  View.cover_of_tiled [⟨r0_p, p0⟩] S5000x4.size (by rfl) y

set_option maxHeartbeats 1000000 in
/-- The body on whole staging memrefs — the three inputs at read contents `x0 x1 x2`, the two outputs at anything —
    runs to the continuation holding the inputs as they were and the outputs at `out0_3`, `out0_4` of the inputs. -/
theorem sound_kernel0 (c : Dev nD) (E : Set ℕ) (i : grid0.Coords)
    (arg1 : Memref sig .tc .vmem S5000x256 .f32) (harg1 : arg1.IsWhole) (arg2 : Memref sig .tc .vmem S256x128 .f32) (harg2 : arg2.IsWhole)
    (arg3 : Memref sig .tc .vmem S128x4 .f32) (harg3 : arg3.IsWhole) (arg4 : Memref sig .tc .vmem S5000x128 .bf16) (harg4 : arg4.IsWhole)
    (arg5 : Memref sig .tc .vmem S5000x4 .f32) (harg5 : arg5.IsWhole)
    (x0 : Vec F S5000x256 .f32) (x1 : Vec F S256x128 .f32) (x2 : Vec F S128x4 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d) ∗ (∃ d, owns (c : Thread nD τ) arg5 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out0_3 x0 x1) ∗ owns (c : Thread nD τ) arg5 fullShare (out0_4 x0 x1 x2)) -∗ K ⟨⟩))
      ⊢ wp frame (wpE (defs₀ (F := F)) Variants.none c none) E (cc0__node_proj_kernel i arg1 harg1 arg2 harg2 arg3 harg3 arg4 harg4 arg5 harg5) K := by
  simp only [cc0__node_proj_kernel_eq_skeleton]; unfold cc0__node_proj_kernel_skel
  unfold owns
  iintro ⟨⟨%f0, %hf0, H0⟩, ⟨%f1, %hf1, H1⟩, ⟨%f2, %hf2, H2⟩, ⟨%d3, %f3, -, H3⟩, ⟨%d4, %f4, -, H4⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    exact View.read_writes_eq_canon _ _ _ (cover0_3 _)
  iexists _; isplitr
  swap; · iexact H4
  ipureintro
  exact View.read_writes_eq_canon _ _ _ (cover0_4 _)

/-! ## The windows' blocks, and the proof data of pipeline 0 at the entry contents `V` -/

section Region
-- the TensorCore's buffer contents when the region is entered
variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point, fetched there or not (an unfetched
    window's block index has not moved), for any proof data whose array is `V`'s and whose body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- The proof data of pipeline 0 on core `c`: the arrays as the region finds them; after the body at point `t` each
    input's buffer at its block and each output's at `out0_W` of the input blocks; the class invariant (the scoped rest
    and the generator register, untouched); nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t)
    | ⟨4, _⟩ => out0_4 (iblk0 V c 0 t) (iblk0 V c 1 t) (iblk0 V c 2 t)
  Φ _ := Pipeline.ΦA spec0 c
  q _ := fullShare
  owed _ := 0

/-- The proof data's arrays are the region-entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) :
    (dat0 V c).after 3 t = out0_3 (iblk0 V c 0 t) (iblk0 V c 1 t) := by dsimp only [dat0]
theorem after0_4 (c : Dev nD) (t : Fin cfg0.N) :
    (dat0 V c).after 4 t = out0_4 (iblk0 V c 0 t) (iblk0 V c 1 t) (iblk0 V c 2 t) := by dsimp only [dat0]

/-- Each input's current staging buffer holds its block at every point. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t))

set_option maxHeartbeats 1000000 in
/-- The body at any point: the inputs' memrefs hold their blocks, so `sound_kernel0` applies; the invariant and
    the core's `owes` pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3, after0_4]
  iintro ⟨HΦ, Ho, ⟨%d0, H0⟩, ⟨%d1, H1⟩, ⟨%d2, H2⟩, ⟨%d3, H3⟩, ⟨%d4, H4⟩⟩
  iapply (sound_kernel0 c Set.univ _ _ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The library's body obligation, at every point. -/
theorem body_obligation0 (c : Dev nD) : BodyObligation (dat0 (F := F) V c) (defs₀ (F := F)) Variants.none () Set.univ := fun t => by
  rw [bigSep_W0, bigSep_W0]
  exact sound_body0 V c t

end Region

end Cert.KernelIdeal.Hand

end
-- ==== Proof.KIBody1.lean ====
import proofs.«130992_j35871566856204_2_alg».proof.Proof.Gen.KernelIdeal.Launch
import proofs.«130992_j35871566856204_2_alg».proof.Proof.Gen.KernelIdeal.Skeleton
import proofs.«130992_j35871566856204_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Region 1: the kernel body `cc1__edge_proj_kernel` on whole staging blocks

The body loads the row block `x`, the weight matrix `w` and the projection matrix `a` whole, stores
`h = trunc (x · w)` whole into the first output block and `p = (x · w) · a` whole into the second. -/

/-- The whole-block rectangles of the five staging buffers. -/
abbrev r1_x : Rect S8000x128 := Rect.unit (s := S8000x128) ![0, 0] S8000x128.size inb_S8000x128_S8000x128_0_0
abbrev r1_w : Rect S128x128 := Rect.unit (s := S128x128) ![0, 0] S128x128.size inb_S128x128_S128x128_0_0
abbrev r1_a : Rect S128x4 := Rect.unit (s := S128x4) ![0, 0] S128x4.size inb_S128x4_S128x4_0_0
abbrev r1_h : Rect S8000x128 := Rect.unit (s := S8000x128) ![0, 0] S8000x128.size inb_S8000x128_S8000x128_0_0
abbrev r1_p : Rect S8000x4 := Rect.unit (s := S8000x4) ![0, 0] S8000x4.size inb_S8000x4_S8000x4_0_0

/-- What the body leaves in the first output block (the bf16 product), from the blocks of `x` and `w`:
    its one whole-block store, as the canonical contents of that one piece. -/
def out1_3 (x0 : Vec F S8000x128 .f32) (x1 : Vec F S128x128 .f32) : Vec F S8000x128 .bf16 :=
  View.canon [⟨r1_h, k1_pay2 (View.ld x0 r1_x) (View.ld x1 r1_w)⟩]

/-- What the body leaves in the second output block (the f32 projection), from the blocks of `x`, `w`, `a`. -/
def out1_4 (x0 : Vec F S8000x128 .f32) (x1 : Vec F S128x128 .f32) (x2 : Vec F S128x4 .f32) : Vec F S8000x4 .f32 :=
  View.canon [⟨r1_p, k1_pay3 (View.ld x0 r1_x) (View.ld x1 r1_w) (View.ld x2 r1_a)⟩]

/-- One whole-block store covers its block. -/
theorem cover1_3 (p0 : Vec F S8000x128 .bf16) (y : S8000x128.Idx) :
    ∃ pc ∈ ([⟨r1_h, p0⟩] : List (View.Piece (Elt F) S8000x128 .bf16)), y ∈ pc.1.set :=
  View.cover_of_tiled [⟨r1_h, p0⟩] S8000x128.size (by rfl) y
theorem cover1_4 (p0 : Vec F S8000x4 .f32) (y : S8000x4.Idx) :
    ∃ pc ∈ ([⟨r1_p, p0⟩] : List (View.Piece (Elt F) S8000x4 .f32)), y ∈ pc.1.set :=
  View.cover_of_tiled [⟨r1_p, p0⟩] S8000x4.size (by rfl) y

set_option maxHeartbeats 1000000 in
/-- The body on whole staging memrefs — the three inputs at read contents `x0 x1 x2`, the two outputs at anything —
    runs to the continuation holding the inputs as they were and the outputs at `out1_3`, `out1_4` of the inputs. -/
theorem sound_kernel1 (c : Dev nD) (E : Set ℕ) (i : grid1.Coords)
    (arg1 : Memref sig .tc .vmem S8000x128 .f32) (harg1 : arg1.IsWhole) (arg2 : Memref sig .tc .vmem S128x128 .f32) (harg2 : arg2.IsWhole)
    (arg3 : Memref sig .tc .vmem S128x4 .f32) (harg3 : arg3.IsWhole) (arg4 : Memref sig .tc .vmem S8000x128 .bf16) (harg4 : arg4.IsWhole)
    (arg5 : Memref sig .tc .vmem S8000x4 .f32) (harg5 : arg5.IsWhole)
    (x0 : Vec F S8000x128 .f32) (x1 : Vec F S128x128 .f32) (x2 : Vec F S128x4 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d) ∗ (∃ d, owns (c : Thread nD τ) arg5 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out1_3 x0 x1) ∗ owns (c : Thread nD τ) arg5 fullShare (out1_4 x0 x1 x2)) -∗ K ⟨⟩))
      ⊢ wp frame (wpE (defs₀ (F := F)) Variants.none c none) E (cc1__edge_proj_kernel i arg1 harg1 arg2 harg2 arg3 harg3 arg4 harg4 arg5 harg5) K := by
  simp only [cc1__edge_proj_kernel_eq_skeleton]; unfold cc1__edge_proj_kernel_skel
  unfold owns
  iintro ⟨⟨%f0, %hf0, H0⟩, ⟨%f1, %hf1, H1⟩, ⟨%f2, %hf2, H2⟩, ⟨%d3, %f3, -, H3⟩, ⟨%d4, %f4, -, H4⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    exact View.read_writes_eq_canon _ _ _ (cover1_3 _)
  iexists _; isplitr
  swap; · iexact H4
  ipureintro
  exact View.read_writes_eq_canon _ _ _ (cover1_4 _)

/-! ## The windows' blocks, and the proof data of pipeline 1 at the entry contents `V` -/

section Region
-- the TensorCore's buffer contents when the region is entered
variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds its block at every point, fetched there or not (an unfetched
    window's block index has not moved), for any proof data whose array is `V`'s and whose body leaves the block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- The proof data of pipeline 1 on core `c`: the arrays as the region finds them; after the body at point `t` each
    input's buffer at its block and each output's at `out1_W` of the input blocks; the class invariant (the scoped rest
    and the generator register, untouched); nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1_3 (iblk1 V c 0 t) (iblk1 V c 1 t)
    | ⟨4, _⟩ => out1_4 (iblk1 V c 0 t) (iblk1 V c 1 t) (iblk1 V c 2 t)
  Φ _ := Pipeline.ΦA spec1 c
  q _ := fullShare
  owed _ := 0

/-- The proof data's arrays are the region-entry contents. -/
theorem A_eq1 (c : Dev nD) (w : Fin cfg1.W) : (dat1 V c).A w = V c (Pipeline.arrRef spec1 w) := by
  dsimp only [dat1]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) :
    (dat1 V c).after 3 t = out1_3 (iblk1 V c 0 t) (iblk1 V c 1 t) := by dsimp only [dat1]
theorem after1_4 (c : Dev nD) (t : Fin cfg1.N) :
    (dat1 V c).after 4 t = out1_4 (iblk1 V c 0 t) (iblk1 V c 1 t) (iblk1 V c 2 t) := by dsimp only [dat1]

/-- Each input's current staging buffer holds its block at every point. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t))

set_option maxHeartbeats 1000000 in
/-- The body at any point: the inputs' memrefs hold their blocks, so `sound_kernel1` applies; the invariant and
    the core's `owes` pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3, after1_4]
  iintro ⟨HΦ, Ho, ⟨%d0, H0⟩, ⟨%d1, H1⟩, ⟨%d2, H2⟩, ⟨%d3, H3⟩, ⟨%d4, H4⟩⟩
  iapply (sound_kernel1 c Set.univ _ _ _ _ _ _ _ _ _ _ _ (iblk1 V c 0 t) (iblk1 V c 1 t) (iblk1 V c 2 t) _)
  isplitl [H0]; · iexact H0
  isplitl [H1]; · iexact H1
  isplitl [H2]; · iexact H2
  isplitl [H3]; · iexists _; iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The library's body obligation, at every point. -/
theorem body_obligation1 (c : Dev nD) : BodyObligation (dat1 (F := F) V c) (defs₀ (F := F)) Variants.none () Set.univ := fun t => by
  rw [bigSep_W1, bigSep_W1]
  exact sound_body1 V c t

end Region

end Cert.KernelIdeal.Hand

end
-- ==== Proof.KIFold.lean ====
import proofs.«130992_j35871566856204_2_alg».proof.Proof.Gen.KernelIdeal.Launch
import proofs.«130992_j35871566856204_2_alg».proof.Proof.Gen.KernelIdeal.Skeleton
import proofs.«130992_j35871566856204_2_alg».proof.Proof.Gen.KernelIdeal.Points
import proofs.«130992_j35871566856204_2_alg».proof.Proof.KIBody0
import proofs.«130992_j35871566856204_2_alg».proof.Proof.KIBody1
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The buffers' contents at every segment boundary of @main: a fold from the launch memory

@main is one host stretch, the two kernel regions back to back, and thirty host stretches. A host stretch takes the
contents `W` to `StableHlo.after ops W`; a region takes them to its arrays at what its write-backs leave
(`Dat.arrAt … N`) and every other buffer as entered. -/

variable (m : (ℓ : Loc nD τ sig) → Buf (Elt F) ℓ) (ρ : Dev nD → PrngReg)

/-- Core `c`'s buffers at launch. -/
abbrev W0 : Dev nD → Valuation τ sig (Elt F) := fun c b => (s₀ m ρ).mem ((c : Dev nD), b)
/-- After the first host stretch (region 0's entry). -/
abbrev W1 : Dev nD → Valuation τ sig (Elt F) := fun c => StableHlo.after hostOps0 (W0 m ρ c)
/-- The same read at the TensorCore's references (what region 0's proof data take). -/
abbrev V1 : (c : Dev nD) → (b : Ref sig .tc) → Buf (Elt F) ((c : Thread nD τ).loc b) := fun c b => W1 m ρ c b
/-- At region 0's exit: its arrays at what the pipeline leaves, every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
/-- Region 0's exit contents read at the TensorCore's references: what region 1's proof data take (no host stretch
    lies between the two regions). -/
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- At region 1's exit. -/
def W3 (c : Dev nD) : Valuation τ sig (Elt F) :=
  Pipeline.withArrays spec1 c (W2 m ρ c) fun w => (dat1 (V2 m ρ) c).arrAt w cfg1.N
theorem W3_arr (c : Dev nD) (w : Fin cfg1.W) :
    W3 m ρ c (Proc.devRef .tc (Pipeline.arrRef spec1 w)) = (dat1 (V2 m ρ) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m ρ c (Proc.devRef .tc b) = W2 m ρ c (Proc.devRef .tc b) := by
  unfold W3; exact Pipeline.withArrays_of_ne spec1 c _ _ b hb
abbrev V3 : (c : Dev nD) → (b : Ref sig .tc) → Buf (Elt F) ((c : Thread nD τ).loc b) := fun c b => W3 m ρ c b
theorem hF1 (c : Dev nD) (w : Fin cfg1.W) : (dat1 (V2 m ρ) c).arrAt w cfg1.N = V3 m ρ c (Pipeline.arrRef spec1 w) :=
  (W3_arr m ρ c w).symm
theorem hrest1 (c : Dev nD) : ∀ b, b ∉ Finset.univ.image (Pipeline.arrRef spec1) → V3 m ρ c b = V2 m ρ c b :=
  fun b hb => W3_of_ne m ρ c b fun w e => hb (Finset.mem_image.mpr ⟨w, Finset.mem_univ _, e⟩)

/-- The contents right after the two regions. -/
abbrev Wregs : Dev nD → Valuation τ sig (Elt F) := W3 m ρ

/-! ## The thirty host stretches after the regions -/
abbrev W4 : Dev nD → Valuation τ sig (Elt F) := fun c => StableHlo.after hostOps2 (Wregs m ρ c)
abbrev W5 : Dev nD → Valuation τ sig (Elt F) := fun c => StableHlo.after hostOps2_1 (W4 m ρ c)
abbrev W6 : Dev nD → Valuation τ sig (Elt F) := fun c => StableHlo.after hostOps2_2 (W5 m ρ c)
abbrev W7 : Dev nD → Valuation τ sig (Elt F) := fun c => StableHlo.after hostOps2_3 (W6 m ρ c)
abbrev W8 : Dev nD → Valuation τ sig (Elt F) := fun c => StableHlo.after hostOps2_4 (W7 m ρ c)
abbrev W9 : Dev nD → Valuation τ sig (Elt F) := fun c => StableHlo.after hostOps2_5 (W8 m ρ c)
abbrev W10 : Dev nD → Valuation τ sig (Elt F) := fun c => StableHlo.after hostOps2_6 (W9 m ρ c)
abbrev W11 : Dev nD → Valuation τ sig (Elt F) := fun c => StableHlo.after hostOps2_7 (W10 m ρ c)
abbrev W12 : Dev nD → Valuation τ sig (Elt F) := fun c => StableHlo.after hostOps2_8 (W11 m ρ c)
abbrev W13 : Dev nD → Valuation τ sig (Elt F) := fun c => StableHlo.after hostOps2_9 (W12 m ρ c)
abbrev W14 : Dev nD → Valuation τ sig (Elt F) := fun c => StableHlo.after hostOps2_10 (W13 m ρ c)
abbrev W15 : Dev nD → Valuation τ sig (Elt F) := fun c => StableHlo.after hostOps2_11 (W14 m ρ c)
abbrev W16 : Dev nD → Valuation τ sig (Elt F) := fun c => StableHlo.after hostOps2_12 (W15 m ρ c)
abbrev W17 : Dev nD → Valuation τ sig (Elt F) := fun c => StableHlo.after hostOps2_13 (W16 m ρ c)
abbrev W18 : Dev nD → Valuation τ sig (Elt F) := fun c => StableHlo.after hostOps2_14 (W17 m ρ c)
abbrev W19 : Dev nD → Valuation τ sig (Elt F) := fun c => StableHlo.after hostOps2_15 (W18 m ρ c)
abbrev W20 : Dev nD → Valuation τ sig (Elt F) := fun c => StableHlo.after hostOps2_16 (W19 m ρ c)
abbrev W21 : Dev nD → Valuation τ sig (Elt F) := fun c => StableHlo.after hostOps2_17 (W20 m ρ c)
abbrev W22 : Dev nD → Valuation τ sig (Elt F) := fun c => StableHlo.after hostOps2_18 (W21 m ρ c)
abbrev W23 : Dev nD → Valuation τ sig (Elt F) := fun c => StableHlo.after hostOps2_19 (W22 m ρ c)
abbrev W24 : Dev nD → Valuation τ sig (Elt F) := fun c => StableHlo.after hostOps2_20 (W23 m ρ c)
abbrev W25 : Dev nD → Valuation τ sig (Elt F) := fun c => StableHlo.after hostOps2_21 (W24 m ρ c)
abbrev W26 : Dev nD → Valuation τ sig (Elt F) := fun c => StableHlo.after hostOps2_22 (W25 m ρ c)
abbrev W27 : Dev nD → Valuation τ sig (Elt F) := fun c => StableHlo.after hostOps2_23 (W26 m ρ c)
abbrev W28 : Dev nD → Valuation τ sig (Elt F) := fun c => StableHlo.after hostOps2_24 (W27 m ρ c)
abbrev W29 : Dev nD → Valuation τ sig (Elt F) := fun c => StableHlo.after hostOps2_25 (W28 m ρ c)
abbrev W30 : Dev nD → Valuation τ sig (Elt F) := fun c => StableHlo.after hostOps2_26 (W29 m ρ c)
abbrev W31 : Dev nD → Valuation τ sig (Elt F) := fun c => StableHlo.after hostOps2_27 (W30 m ρ c)
abbrev W32 : Dev nD → Valuation τ sig (Elt F) := fun c => StableHlo.after hostOps2_28 (W31 m ρ c)
abbrev W33 : Dev nD → Valuation τ sig (Elt F) := fun c => StableHlo.after hostOps2_29 (W32 m ρ c)

/-- Core `c`'s buffers when @main returns. -/
abbrev Wend : Dev nD → Valuation τ sig (Elt F) := W33 m ρ

/-! ## What the regions leave -/

/-- Region 1 leaves every buffer but its two outputs as entered: an input window's array ends as it began. -/
theorem W3_eq_W2 (c : Dev nD) (b : Ref sig .tc) (h0 : b ≠ main_v21_0) (h1 : b ≠ main_v21_1) :
    W3 m ρ c (Proc.devRef .tc b) = W2 m ρ c (Proc.devRef .tc b) := by
  by_cases h : ∃ w, Pipeline.arrRef spec1 w = b
  · obtain ⟨w, rfl⟩ := h
    rw [W3_arr]
    match w with
    | ⟨0, _⟩ => exact ((dat1 (V2 m ρ) c).arrAt_in 0 rfl _).trans (A_eq1 (V2 m ρ) c 0)
    | ⟨1, _⟩ => exact ((dat1 (V2 m ρ) c).arrAt_in 1 rfl _).trans (A_eq1 (V2 m ρ) c 1)
    | ⟨2, _⟩ => exact ((dat1 (V2 m ρ) c).arrAt_in 2 rfl _).trans (A_eq1 (V2 m ρ) c 2)
    | ⟨3, _⟩ => exact absurd rfl h0
    | ⟨4, _⟩ => exact absurd rfl h1
  · exact W3_of_ne m ρ c b fun w e => h ⟨w, e⟩
/-- Region 0 likewise. -/
theorem W2_eq_W1 (c : Dev nD) (b : Ref sig .tc) (h0 : b ≠ main_v20_0) (h1 : b ≠ main_v20_1) :
    W2 m ρ c (Proc.devRef .tc b) = W1 m ρ c (Proc.devRef .tc b) := by
  by_cases h : ∃ w, Pipeline.arrRef spec0 w = b
  · obtain ⟨w, rfl⟩ := h
    rw [W2_arr]
    match w with
    | ⟨0, _⟩ => exact ((dat0 (V1 m ρ) c).arrAt_in 0 rfl _).trans (A_eq0 (V1 m ρ) c 0)
    | ⟨1, _⟩ => exact ((dat0 (V1 m ρ) c).arrAt_in 1 rfl _).trans (A_eq0 (V1 m ρ) c 1)
    | ⟨2, _⟩ => exact ((dat0 (V1 m ρ) c).arrAt_in 2 rfl _).trans (A_eq0 (V1 m ρ) c 2)
    | ⟨3, _⟩ => exact absurd rfl h0
    | ⟨4, _⟩ => exact absurd rfl h1
  · exact W2_of_ne m ρ c b fun w e => h ⟨w, e⟩

/-- After the regions the four region outputs hold what the pipelines' write-backs leave, -/
theorem Wregs_v20_0 (c : Dev nD) : Wregs m ρ c (Proc.devRef .tc main_v20_0) = (dat0 (V1 m ρ) c).arrAt 3 cfg0.N :=
  (W3_of_ne m ρ c main_v20_0 (by decide)).trans (W2_arr m ρ c 3)
theorem Wregs_v20_1 (c : Dev nD) : Wregs m ρ c (Proc.devRef .tc main_v20_1) = (dat0 (V1 m ρ) c).arrAt 4 cfg0.N :=
  (W3_of_ne m ρ c main_v20_1 (by decide)).trans (W2_arr m ρ c 4)
theorem Wregs_v21_0 (c : Dev nD) : Wregs m ρ c (Proc.devRef .tc main_v21_0) = (dat1 (V2 m ρ) c).arrAt 3 cfg1.N :=
  W3_arr m ρ c 3
theorem Wregs_v21_1 (c : Dev nD) : Wregs m ρ c (Proc.devRef .tc main_v21_1) = (dat1 (V2 m ρ) c).arrAt 4 cfg1.N :=
  W3_arr m ρ c 4
/-- and every other buffer what it held after the first host stretch. -/
theorem Wregs_of_ne (c : Dev nD) (b : Ref sig .tc) (h0 : b ≠ main_v20_0) (h1 : b ≠ main_v20_1) (h2 : b ≠ main_v21_0) (h3 : b ≠ main_v21_1) :
    Wregs m ρ c (Proc.devRef .tc b) = W1 m ρ c (Proc.devRef .tc b) :=
  (W3_eq_W2 m ρ c b h2 h3).trans (W2_eq_W1 m ρ c b h0 h1)
/-- Region 1's proof data see, at a reference region 0 does not write, what the first host stretch left. -/
theorem V2_of_ne (c : Dev nD) (b : Ref sig .tc) (h0 : b ≠ main_v20_0) (h1 : b ≠ main_v20_1) : V2 m ρ c b = V1 m ρ c b :=
  W2_eq_W1 m ρ c b h0 h1

/-! ## No host operation allocates a buffer -/

theorem hostOps0_fresh : (hostOps0 : List (HloOp τ sig (Elt F))).Forall fun op => op.fresh = ∅ := by
  simp only [List.Forall]; repeat' constructor
theorem hostOps2_fresh : (hostOps2 : List (HloOp τ sig (Elt F))).Forall fun op => op.fresh = ∅ := by
  simp only [List.Forall]; repeat' constructor
theorem hostOps2_1_fresh : (hostOps2_1 : List (HloOp τ sig (Elt F))).Forall fun op => op.fresh = ∅ := by
  simp only [List.Forall]; repeat' constructor
theorem hostOps2_2_fresh : (hostOps2_2 : List (HloOp τ sig (Elt F))).Forall fun op => op.fresh = ∅ := by
  simp only [List.Forall]; repeat' constructor
theorem hostOps2_3_fresh : (hostOps2_3 : List (HloOp τ sig (Elt F))).Forall fun op => op.fresh = ∅ := by
  simp only [List.Forall]; repeat' constructor
theorem hostOps2_4_fresh : (hostOps2_4 : List (HloOp τ sig (Elt F))).Forall fun op => op.fresh = ∅ := by
  simp only [List.Forall]; repeat' constructor
theorem hostOps2_5_fresh : (hostOps2_5 : List (HloOp τ sig (Elt F))).Forall fun op => op.fresh = ∅ := by
  simp only [List.Forall]; repeat' constructor
theorem hostOps2_6_fresh : (hostOps2_6 : List (HloOp τ sig (Elt F))).Forall fun op => op.fresh = ∅ := by
  simp only [List.Forall]; repeat' constructor
theorem hostOps2_7_fresh : (hostOps2_7 : List (HloOp τ sig (Elt F))).Forall fun op => op.fresh = ∅ := by
  simp only [List.Forall]; repeat' constructor
theorem hostOps2_8_fresh : (hostOps2_8 : List (HloOp τ sig (Elt F))).Forall fun op => op.fresh = ∅ := by
  simp only [List.Forall]; repeat' constructor
theorem hostOps2_9_fresh : (hostOps2_9 : List (HloOp τ sig (Elt F))).Forall fun op => op.fresh = ∅ := by
  simp only [List.Forall]; repeat' constructor
theorem hostOps2_10_fresh : (hostOps2_10 : List (HloOp τ sig (Elt F))).Forall fun op => op.fresh = ∅ := by
  simp only [List.Forall]; repeat' constructor
theorem hostOps2_11_fresh : (hostOps2_11 : List (HloOp τ sig (Elt F))).Forall fun op => op.fresh = ∅ := by
  simp only [List.Forall]; repeat' constructor
theorem hostOps2_12_fresh : (hostOps2_12 : List (HloOp τ sig (Elt F))).Forall fun op => op.fresh = ∅ := by
  simp only [List.Forall]; repeat' constructor
theorem hostOps2_13_fresh : (hostOps2_13 : List (HloOp τ sig (Elt F))).Forall fun op => op.fresh = ∅ := by
  simp only [List.Forall]; repeat' constructor
theorem hostOps2_14_fresh : (hostOps2_14 : List (HloOp τ sig (Elt F))).Forall fun op => op.fresh = ∅ := by
  simp only [List.Forall]; repeat' constructor
theorem hostOps2_15_fresh : (hostOps2_15 : List (HloOp τ sig (Elt F))).Forall fun op => op.fresh = ∅ := by
  simp only [List.Forall]; repeat' constructor
theorem hostOps2_16_fresh : (hostOps2_16 : List (HloOp τ sig (Elt F))).Forall fun op => op.fresh = ∅ := by
  simp only [List.Forall]; repeat' constructor
theorem hostOps2_17_fresh : (hostOps2_17 : List (HloOp τ sig (Elt F))).Forall fun op => op.fresh = ∅ := by
  simp only [List.Forall]; repeat' constructor
theorem hostOps2_18_fresh : (hostOps2_18 : List (HloOp τ sig (Elt F))).Forall fun op => op.fresh = ∅ := by
  simp only [List.Forall]; repeat' constructor
theorem hostOps2_19_fresh : (hostOps2_19 : List (HloOp τ sig (Elt F))).Forall fun op => op.fresh = ∅ := by
  simp only [List.Forall]; repeat' constructor
theorem hostOps2_20_fresh : (hostOps2_20 : List (HloOp τ sig (Elt F))).Forall fun op => op.fresh = ∅ := by
  simp only [List.Forall]; repeat' constructor
theorem hostOps2_21_fresh : (hostOps2_21 : List (HloOp τ sig (Elt F))).Forall fun op => op.fresh = ∅ := by
  simp only [List.Forall]; repeat' constructor
theorem hostOps2_22_fresh : (hostOps2_22 : List (HloOp τ sig (Elt F))).Forall fun op => op.fresh = ∅ := by
  simp only [List.Forall]; repeat' constructor
theorem hostOps2_23_fresh : (hostOps2_23 : List (HloOp τ sig (Elt F))).Forall fun op => op.fresh = ∅ := by
  simp only [List.Forall]; repeat' constructor
theorem hostOps2_24_fresh : (hostOps2_24 : List (HloOp τ sig (Elt F))).Forall fun op => op.fresh = ∅ := by
  simp only [List.Forall]; repeat' constructor
theorem hostOps2_25_fresh : (hostOps2_25 : List (HloOp τ sig (Elt F))).Forall fun op => op.fresh = ∅ := by
  simp only [List.Forall]; repeat' constructor
theorem hostOps2_26_fresh : (hostOps2_26 : List (HloOp τ sig (Elt F))).Forall fun op => op.fresh = ∅ := by
  simp only [List.Forall]; repeat' constructor
theorem hostOps2_27_fresh : (hostOps2_27 : List (HloOp τ sig (Elt F))).Forall fun op => op.fresh = ∅ := by
  simp only [List.Forall]; repeat' constructor
theorem hostOps2_28_fresh : (hostOps2_28 : List (HloOp τ sig (Elt F))).Forall fun op => op.fresh = ∅ := by
  simp only [List.Forall]; repeat' constructor
theorem hostOps2_29_fresh : (hostOps2_29 : List (HloOp τ sig (Elt F))).Forall fun op => op.fresh = ∅ := by
  simp only [List.Forall]; repeat' constructor

/-! ## The arguments end as launched: no host operation and no region writes one -/

/-- @main's seven arguments. -/
abbrev argRefs : List (Ref sig .tc) := [main_arg0, main_arg1, main_arg2, main_arg3, main_arg4, main_arg5, main_arg6]

omit [FloatOps F] in
/-- An operation whose one result buffer is no argument writes no argument. -/
theorem arg_not_written (y : Ref sig .tc) (hy : y ∉ (argRefs : List (Ref sig .tc))) (r : Ref sig .tc) (hr : r ∈ (argRefs : List (Ref sig .tc))) :
    (Proc.devRef .tc r : DevRef τ sig) ∉ ({Proc.devRef .tc y} : Finset (DevRef τ sig)) := fun h =>
  hy (Proc.devRef_injective _ (Finset.mem_singleton.mp h) ▸ hr)

/-- A line none of whose operations writes an argument leaves every argument's buffer as it was. -/
theorem after_arg (ops : List (HloOp τ sig (Elt F)))
    (h : ops.Forall fun op => ∀ r ∈ (argRefs : List (Ref sig .tc)), (Proc.devRef .tc r : DevRef τ sig) ∉ op.writes)
    (W : Valuation τ sig (Elt F)) (r : Ref sig .tc) (hr : r ∈ (argRefs : List (Ref sig .tc))) :
    StableHlo.after ops W (Proc.devRef .tc r) = W (Proc.devRef .tc r) :=
  StableHlo.after_of_forall_not_mem ops W fun op hop => (List.forall_iff_forall_mem.mp h) op hop r hr

local macro "keeps_args" : tactic => `(tactic| (
  simp only [List.Forall, StableHlo.nullary_writes, StableHlo.unary_writes, StableHlo.binary_writes, StableHlo.ternary_writes,
    StableHlo.quaternary_writes, StableHlo.reshape_writes, StableHlo.binaryIndexed_writes, StableHlo.unaryIndexed_writes, StableHlo.nary_writes]
  repeat' apply And.intro
  all_goals exact arg_not_written _ (by decide)))

theorem hostOps0_keeps : (hostOps0 : List (HloOp τ sig (Elt F))).Forall fun op => ∀ r ∈ (argRefs : List (Ref sig .tc)), (Proc.devRef .tc r : DevRef τ sig) ∉ op.writes := by
  keeps_args
theorem hostOps2_keeps : (hostOps2 : List (HloOp τ sig (Elt F))).Forall fun op => ∀ r ∈ (argRefs : List (Ref sig .tc)), (Proc.devRef .tc r : DevRef τ sig) ∉ op.writes := by
  keeps_args
theorem hostOps2_1_keeps : (hostOps2_1 : List (HloOp τ sig (Elt F))).Forall fun op => ∀ r ∈ (argRefs : List (Ref sig .tc)), (Proc.devRef .tc r : DevRef τ sig) ∉ op.writes := by
  keeps_args
theorem hostOps2_2_keeps : (hostOps2_2 : List (HloOp τ sig (Elt F))).Forall fun op => ∀ r ∈ (argRefs : List (Ref sig .tc)), (Proc.devRef .tc r : DevRef τ sig) ∉ op.writes := by
  keeps_args
theorem hostOps2_3_keeps : (hostOps2_3 : List (HloOp τ sig (Elt F))).Forall fun op => ∀ r ∈ (argRefs : List (Ref sig .tc)), (Proc.devRef .tc r : DevRef τ sig) ∉ op.writes := by
  keeps_args
theorem hostOps2_4_keeps : (hostOps2_4 : List (HloOp τ sig (Elt F))).Forall fun op => ∀ r ∈ (argRefs : List (Ref sig .tc)), (Proc.devRef .tc r : DevRef τ sig) ∉ op.writes := by
  keeps_args
theorem hostOps2_5_keeps : (hostOps2_5 : List (HloOp τ sig (Elt F))).Forall fun op => ∀ r ∈ (argRefs : List (Ref sig .tc)), (Proc.devRef .tc r : DevRef τ sig) ∉ op.writes := by
  keeps_args
theorem hostOps2_6_keeps : (hostOps2_6 : List (HloOp τ sig (Elt F))).Forall fun op => ∀ r ∈ (argRefs : List (Ref sig .tc)), (Proc.devRef .tc r : DevRef τ sig) ∉ op.writes := by
  keeps_args
theorem hostOps2_7_keeps : (hostOps2_7 : List (HloOp τ sig (Elt F))).Forall fun op => ∀ r ∈ (argRefs : List (Ref sig .tc)), (Proc.devRef .tc r : DevRef τ sig) ∉ op.writes := by
  keeps_args
theorem hostOps2_8_keeps : (hostOps2_8 : List (HloOp τ sig (Elt F))).Forall fun op => ∀ r ∈ (argRefs : List (Ref sig .tc)), (Proc.devRef .tc r : DevRef τ sig) ∉ op.writes := by
  keeps_args
theorem hostOps2_9_keeps : (hostOps2_9 : List (HloOp τ sig (Elt F))).Forall fun op => ∀ r ∈ (argRefs : List (Ref sig .tc)), (Proc.devRef .tc r : DevRef τ sig) ∉ op.writes := by
  keeps_args
theorem hostOps2_10_keeps : (hostOps2_10 : List (HloOp τ sig (Elt F))).Forall fun op => ∀ r ∈ (argRefs : List (Ref sig .tc)), (Proc.devRef .tc r : DevRef τ sig) ∉ op.writes := by
  keeps_args
theorem hostOps2_11_keeps : (hostOps2_11 : List (HloOp τ sig (Elt F))).Forall fun op => ∀ r ∈ (argRefs : List (Ref sig .tc)), (Proc.devRef .tc r : DevRef τ sig) ∉ op.writes := by
  keeps_args
theorem hostOps2_12_keeps : (hostOps2_12 : List (HloOp τ sig (Elt F))).Forall fun op => ∀ r ∈ (argRefs : List (Ref sig .tc)), (Proc.devRef .tc r : DevRef τ sig) ∉ op.writes := by
  keeps_args
theorem hostOps2_13_keeps : (hostOps2_13 : List (HloOp τ sig (Elt F))).Forall fun op => ∀ r ∈ (argRefs : List (Ref sig .tc)), (Proc.devRef .tc r : DevRef τ sig) ∉ op.writes := by
  keeps_args
theorem hostOps2_14_keeps : (hostOps2_14 : List (HloOp τ sig (Elt F))).Forall fun op => ∀ r ∈ (argRefs : List (Ref sig .tc)), (Proc.devRef .tc r : DevRef τ sig) ∉ op.writes := by
  keeps_args
theorem hostOps2_15_keeps : (hostOps2_15 : List (HloOp τ sig (Elt F))).Forall fun op => ∀ r ∈ (argRefs : List (Ref sig .tc)), (Proc.devRef .tc r : DevRef τ sig) ∉ op.writes := by
  keeps_args
theorem hostOps2_16_keeps : (hostOps2_16 : List (HloOp τ sig (Elt F))).Forall fun op => ∀ r ∈ (argRefs : List (Ref sig .tc)), (Proc.devRef .tc r : DevRef τ sig) ∉ op.writes := by
  keeps_args
theorem hostOps2_17_keeps : (hostOps2_17 : List (HloOp τ sig (Elt F))).Forall fun op => ∀ r ∈ (argRefs : List (Ref sig .tc)), (Proc.devRef .tc r : DevRef τ sig) ∉ op.writes := by
  keeps_args
theorem hostOps2_18_keeps : (hostOps2_18 : List (HloOp τ sig (Elt F))).Forall fun op => ∀ r ∈ (argRefs : List (Ref sig .tc)), (Proc.devRef .tc r : DevRef τ sig) ∉ op.writes := by
  keeps_args
theorem hostOps2_19_keeps : (hostOps2_19 : List (HloOp τ sig (Elt F))).Forall fun op => ∀ r ∈ (argRefs : List (Ref sig .tc)), (Proc.devRef .tc r : DevRef τ sig) ∉ op.writes := by
  keeps_args
theorem hostOps2_20_keeps : (hostOps2_20 : List (HloOp τ sig (Elt F))).Forall fun op => ∀ r ∈ (argRefs : List (Ref sig .tc)), (Proc.devRef .tc r : DevRef τ sig) ∉ op.writes := by
  keeps_args
theorem hostOps2_21_keeps : (hostOps2_21 : List (HloOp τ sig (Elt F))).Forall fun op => ∀ r ∈ (argRefs : List (Ref sig .tc)), (Proc.devRef .tc r : DevRef τ sig) ∉ op.writes := by
  keeps_args
theorem hostOps2_22_keeps : (hostOps2_22 : List (HloOp τ sig (Elt F))).Forall fun op => ∀ r ∈ (argRefs : List (Ref sig .tc)), (Proc.devRef .tc r : DevRef τ sig) ∉ op.writes := by
  keeps_args
theorem hostOps2_23_keeps : (hostOps2_23 : List (HloOp τ sig (Elt F))).Forall fun op => ∀ r ∈ (argRefs : List (Ref sig .tc)), (Proc.devRef .tc r : DevRef τ sig) ∉ op.writes := by
  keeps_args
theorem hostOps2_24_keeps : (hostOps2_24 : List (HloOp τ sig (Elt F))).Forall fun op => ∀ r ∈ (argRefs : List (Ref sig .tc)), (Proc.devRef .tc r : DevRef τ sig) ∉ op.writes := by
  keeps_args
theorem hostOps2_25_keeps : (hostOps2_25 : List (HloOp τ sig (Elt F))).Forall fun op => ∀ r ∈ (argRefs : List (Ref sig .tc)), (Proc.devRef .tc r : DevRef τ sig) ∉ op.writes := by
  keeps_args
theorem hostOps2_26_keeps : (hostOps2_26 : List (HloOp τ sig (Elt F))).Forall fun op => ∀ r ∈ (argRefs : List (Ref sig .tc)), (Proc.devRef .tc r : DevRef τ sig) ∉ op.writes := by
  keeps_args
theorem hostOps2_27_keeps : (hostOps2_27 : List (HloOp τ sig (Elt F))).Forall fun op => ∀ r ∈ (argRefs : List (Ref sig .tc)), (Proc.devRef .tc r : DevRef τ sig) ∉ op.writes := by
  keeps_args
theorem hostOps2_28_keeps : (hostOps2_28 : List (HloOp τ sig (Elt F))).Forall fun op => ∀ r ∈ (argRefs : List (Ref sig .tc)), (Proc.devRef .tc r : DevRef τ sig) ∉ op.writes := by
  keeps_args
theorem hostOps2_29_keeps : (hostOps2_29 : List (HloOp τ sig (Elt F))).Forall fun op => ∀ r ∈ (argRefs : List (Ref sig .tc)), (Proc.devRef .tc r : DevRef τ sig) ∉ op.writes := by
  keeps_args

/-- After the regions an argument's buffer holds its launch contents. -/
theorem Wregs_arg (c : Dev nD) (r : Ref sig .tc) (hr : r ∈ (argRefs : List (Ref sig .tc))) :
    Wregs m ρ c (Proc.devRef .tc r) = m ((c : Thread nD τ).loc r) := by
  have hne : r ≠ main_v20_0 ∧ r ≠ main_v20_1 ∧ r ≠ main_v21_0 ∧ r ≠ main_v21_1 := by
    refine ⟨?_, ?_, ?_, ?_⟩ <;> (intro e; subst e; revert hr; decide)
  exact (Wregs_of_ne m ρ c r hne.1 hne.2.1 hne.2.2.1 hne.2.2.2).trans (after_arg hostOps0 hostOps0_keeps _ r hr)

/-- When @main returns an argument's buffer holds its launch contents. -/
theorem Wend_arg (c : Dev nD) (r : Ref sig .tc) (hr : r ∈ (argRefs : List (Ref sig .tc))) :
    Wend m ρ c (Proc.devRef .tc r) = m ((c : Thread nD τ).loc r) :=
  (after_arg hostOps2_29 hostOps2_29_keeps _ r hr).trans <|
  (after_arg hostOps2_28 hostOps2_28_keeps _ r hr).trans <|
  (after_arg hostOps2_27 hostOps2_27_keeps _ r hr).trans <|
  (after_arg hostOps2_26 hostOps2_26_keeps _ r hr).trans <|
  (after_arg hostOps2_25 hostOps2_25_keeps _ r hr).trans <|
  (after_arg hostOps2_24 hostOps2_24_keeps _ r hr).trans <|
  (after_arg hostOps2_23 hostOps2_23_keeps _ r hr).trans <|
  (after_arg hostOps2_22 hostOps2_22_keeps _ r hr).trans <|
  (after_arg hostOps2_21 hostOps2_21_keeps _ r hr).trans <|
  (after_arg hostOps2_20 hostOps2_20_keeps _ r hr).trans <|
  (after_arg hostOps2_19 hostOps2_19_keeps _ r hr).trans <|
  (after_arg hostOps2_18 hostOps2_18_keeps _ r hr).trans <|
  (after_arg hostOps2_17 hostOps2_17_keeps _ r hr).trans <|
  (after_arg hostOps2_16 hostOps2_16_keeps _ r hr).trans <|
  (after_arg hostOps2_15 hostOps2_15_keeps _ r hr).trans <|
  (after_arg hostOps2_14 hostOps2_14_keeps _ r hr).trans <|
  (after_arg hostOps2_13 hostOps2_13_keeps _ r hr).trans <|
  (after_arg hostOps2_12 hostOps2_12_keeps _ r hr).trans <|
  (after_arg hostOps2_11 hostOps2_11_keeps _ r hr).trans <|
  (after_arg hostOps2_10 hostOps2_10_keeps _ r hr).trans <|
  (after_arg hostOps2_9 hostOps2_9_keeps _ r hr).trans <|
  (after_arg hostOps2_8 hostOps2_8_keeps _ r hr).trans <|
  (after_arg hostOps2_7 hostOps2_7_keeps _ r hr).trans <|
  (after_arg hostOps2_6 hostOps2_6_keeps _ r hr).trans <|
  (after_arg hostOps2_5 hostOps2_5_keeps _ r hr).trans <|
  (after_arg hostOps2_4 hostOps2_4_keeps _ r hr).trans <|
  (after_arg hostOps2_3 hostOps2_3_keeps _ r hr).trans <|
  (after_arg hostOps2_2 hostOps2_2_keeps _ r hr).trans <|
  (after_arg hostOps2_1 hostOps2_1_keeps _ r hr).trans <|
  (after_arg hostOps2 hostOps2_keeps _ r hr).trans <|
  Wregs_arg m ρ c r hr

theorem Wend_main_arg0 (c : Dev nD) : Wend m ρ c (Proc.devRef .tc main_arg0) = m ((c : Thread nD τ).loc main_arg0) :=
  Wend_arg m ρ c main_arg0 (by decide)
theorem Wend_main_arg1 (c : Dev nD) : Wend m ρ c (Proc.devRef .tc main_arg1) = m ((c : Thread nD τ).loc main_arg1) :=
  Wend_arg m ρ c main_arg1 (by decide)
theorem Wend_main_arg2 (c : Dev nD) : Wend m ρ c (Proc.devRef .tc main_arg2) = m ((c : Thread nD τ).loc main_arg2) :=
  Wend_arg m ρ c main_arg2 (by decide)
theorem Wend_main_arg3 (c : Dev nD) : Wend m ρ c (Proc.devRef .tc main_arg3) = m ((c : Thread nD τ).loc main_arg3) :=
  Wend_arg m ρ c main_arg3 (by decide)
theorem Wend_main_arg4 (c : Dev nD) : Wend m ρ c (Proc.devRef .tc main_arg4) = m ((c : Thread nD τ).loc main_arg4) :=
  Wend_arg m ρ c main_arg4 (by decide)
theorem Wend_main_arg5 (c : Dev nD) : Wend m ρ c (Proc.devRef .tc main_arg5) = m ((c : Thread nD τ).loc main_arg5) :=
  Wend_arg m ρ c main_arg5 (by decide)
theorem Wend_main_arg6 (c : Dev nD) : Wend m ρ c (Proc.devRef .tc main_arg6) = m ((c : Thread nD τ).loc main_arg6) :=
  Wend_arg m ρ c main_arg6 (by decide)

end Cert.KernelIdeal.Hand

end
-- ==== Proof.KIRun.lean ====
import proofs.«130992_j35871566856204_2_alg».proof.Proof.Gen.KernelIdeal.Launch
import proofs.«130992_j35871566856204_2_alg».proof.Proof.Gen.KernelIdeal.Skeleton
import proofs.«130992_j35871566856204_2_alg».proof.Proof.Gen.KernelIdeal.Points
import proofs.«130992_j35871566856204_2_alg».proof.Proof.KIFold
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The run of @main: one host stretch, the two kernel regions, thirty host stretches -/

variable (m : (ℓ : Loc nD τ sig) → Buf (Elt F) ℓ) (ρ : Dev nD → PrngReg)

/-- The prefetched tables' admissible contents: no pipeline has a table. -/
abbrev adm : (p : Fin 2) → (pcfgs (F := F) p).Adm := fun p => (cfgs p).toPCfg_adm
/-- Every pipeline's proof data, each at its region's entry contents. -/
def pdats : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V2 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state and its `owes`, at nothing. -/
abbrev R (c : Dev nD) : sProp 𝕄 := iprop((∃ r, prngReg c r) ∗ ∃ W, owes (c : Thread nD τ) (0 : CellTallies nD τ sig Unit) W)
/-- A host stretch as a segment over the unscoped references from the contents `W`, `R` riding along. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

omit [FloatOps F] in
/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`: every unscoped buffer at the last boundary's contents, the generator register at some state. -/
abbrev Tₙ (c : Dev nD) : sProp 𝕄 := iprop(StableHlo.held (c : Thread nD τ) (Pipeline.ucRefs τ sig) (Wend m ρ c) ∗ ∃ r, prngReg c r)

/-! ## The regions as segments -/

set_option backward.isDefEq.respectTransparency.types false in
/-- Region 0 over the thread state: entered from every unscoped buffer at `W1`, left at `W2`. Its arrays are split
    out of the unscoped buffers and put back at the exit contents; the generator register goes into the class invariant
    and comes out; nothing is owed; the kernel has no semaphore of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered from every unscoped buffer at `W2`, left at `W3`. Its arrays are split
    out of the unscoped buffers and put back at the exit contents; the generator register goes into the class invariant
    and comes out; nothing is owed; the kernel has no semaphore of its own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V2 m ρ) c).loose
  hwaits := Pipeline.hwaits_of_owed_zero _ _ _ _ L lv 1 fun _ _ => rfl
  pre c := iprop(StableHlo.held (c : Thread nD τ) (Pipeline.ucRefs τ sig) (W2 m ρ c) ∗ R c)
  post c := iprop(StableHlo.held (c : Thread nD τ) (Pipeline.ucRefs τ sig) (W3 m ρ c) ∗ R c)
  X c := iprop(∃ r, prngReg c r)
  Y c := iprop(∃ r, prngReg c r)
  Z c := Pipeline.unscopedRest (Ix := Unit) (Name := ℕ) (U := UR sig nD τ) (Lvl := ℕ) spec1 c (V2 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V2 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V2 m ρ c) (V3 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

/-- @main's 33 segments in order. -/
abbrev segs : List (Pipeline.Seg (pcfgs (F := F)) adm (pdats m ρ) () defs₀ 𝒱₀ L lv) :=
  [ .host (hseg hostOps0 hostOps0_sub hostOps0_fresh (W0 m ρ)),
    .region (reg0 m ρ),
    .region (reg1 m ρ),
    .host (hseg hostOps2 hostOps2_sub hostOps2_fresh (W3 m ρ)),
    .host (hseg hostOps2_1 hostOps2_1_sub hostOps2_1_fresh (W4 m ρ)),
    .host (hseg hostOps2_2 hostOps2_2_sub hostOps2_2_fresh (W5 m ρ)),
    .host (hseg hostOps2_3 hostOps2_3_sub hostOps2_3_fresh (W6 m ρ)),
    .host (hseg hostOps2_4 hostOps2_4_sub hostOps2_4_fresh (W7 m ρ)),
    .host (hseg hostOps2_5 hostOps2_5_sub hostOps2_5_fresh (W8 m ρ)),
    .host (hseg hostOps2_6 hostOps2_6_sub hostOps2_6_fresh (W9 m ρ)),
    .host (hseg hostOps2_7 hostOps2_7_sub hostOps2_7_fresh (W10 m ρ)),
    .host (hseg hostOps2_8 hostOps2_8_sub hostOps2_8_fresh (W11 m ρ)),
    .host (hseg hostOps2_9 hostOps2_9_sub hostOps2_9_fresh (W12 m ρ)),
    .host (hseg hostOps2_10 hostOps2_10_sub hostOps2_10_fresh (W13 m ρ)),
    .host (hseg hostOps2_11 hostOps2_11_sub hostOps2_11_fresh (W14 m ρ)),
    .host (hseg hostOps2_12 hostOps2_12_sub hostOps2_12_fresh (W15 m ρ)),
    .host (hseg hostOps2_13 hostOps2_13_sub hostOps2_13_fresh (W16 m ρ)),
    .host (hseg hostOps2_14 hostOps2_14_sub hostOps2_14_fresh (W17 m ρ)),
    .host (hseg hostOps2_15 hostOps2_15_sub hostOps2_15_fresh (W18 m ρ)),
    .host (hseg hostOps2_16 hostOps2_16_sub hostOps2_16_fresh (W19 m ρ)),
    .host (hseg hostOps2_17 hostOps2_17_sub hostOps2_17_fresh (W20 m ρ)),
    .host (hseg hostOps2_18 hostOps2_18_sub hostOps2_18_fresh (W21 m ρ)),
    .host (hseg hostOps2_19 hostOps2_19_sub hostOps2_19_fresh (W22 m ρ)),
    .host (hseg hostOps2_20 hostOps2_20_sub hostOps2_20_fresh (W23 m ρ)),
    .host (hseg hostOps2_21 hostOps2_21_sub hostOps2_21_fresh (W24 m ρ)),
    .host (hseg hostOps2_22 hostOps2_22_sub hostOps2_22_fresh (W25 m ρ)),
    .host (hseg hostOps2_23 hostOps2_23_sub hostOps2_23_fresh (W26 m ρ)),
    .host (hseg hostOps2_24 hostOps2_24_sub hostOps2_24_fresh (W27 m ρ)),
    .host (hseg hostOps2_25 hostOps2_25_sub hostOps2_25_fresh (W28 m ρ)),
    .host (hseg hostOps2_26 hostOps2_26_sub hostOps2_26_fresh (W29 m ρ)),
    .host (hseg hostOps2_27 hostOps2_27_sub hostOps2_27_fresh (W30 m ρ)),
    .host (hseg hostOps2_28 hostOps2_28_sub hostOps2_28_fresh (W31 m ρ)),
    .host (hseg hostOps2_29 hostOps2_29_sub hostOps2_29_fresh (W32 m ρ)) ]

/-- @main IS the run of the segments. -/
theorem main_run (c : Dev nD) : main (F := F) c = Pipeline.Seg.run (segs m ρ) := (main_chain c).trans (by chain_rfl)

set_option backward.isDefEq.respectTransparency.types false in
/-- The launch: at the compiled mesh, from any memory with zero counters, every weakly fair execution of @main on the
    TensorCores terminates, nothing faulting, and in every final state every unscoped buffer holds the fold `Wend` —
    whatever is then read off that (`hQ`). -/
theorem run_of {Q : PUnit × MemSt nD τ sig (Elt F) → Prop}
    (hQ : ∀ s : MemSt nD τ sig (Elt F), (∀ c : Dev nD, ∀ b ∈ Pipeline.ucRefs τ sig, s.mem (((c : Thread nD τ)).1, b) = Wend m ρ c b) → Q (⟨⟩, s)) :
    θ_run defs (onTc (τ := τ) (main (F := F))) ⟨m, fun _ => 0, ρ⟩ Q :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl,
      fun c => by
        show iprop(StableHlo.held (c : Thread nD τ) (Pipeline.ucRefs τ sig) (Wend m ρ c)
            ∗ (∃ r, prngReg c r) ∗ ∃ W, owes (c : Thread nD τ) (0 : CellTallies nD τ sig Unit) W)
          ⊢ iprop((StableHlo.held (c : Thread nD τ) (Pipeline.ucRefs τ sig) (Wend m ρ c) ∗ ∃ r, prngReg c r)
            ∗ ∃ W, owes (c : Thread nD τ) (0 : CellTallies nD τ sig Unit) W)
        iintro ⟨Hh, Hp, Ho⟩
        isplitl [Hh Hp]
        · isplitl [Hh]; · iexact Hh
          iexact Hp
        iexact Ho⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = Wend m ρ c b)
    (hfin := fun c s' => by
      iintro ⟨⟨Hh, -⟩, HSI⟩
      unfold StableHlo.held
      imodintro
      iapply (pointsTo_read_all (Pipeline.ucRefs τ sig) (fun b => (((c : Thread nD τ)).1, b)) (Wend m ρ c) s')
      isplitl [Hh] <;> iassumption)
    (hQ := hQ)

/-- Every unscoped buffer ends at the fold. -/
theorem run : θ_run defs (onTc (τ := τ) (main (F := F))) ⟨m, fun _ => 0, ρ⟩
    (fun r => ∀ c : Dev nD, ∀ b ∈ Pipeline.ucRefs τ sig, r.2.mem ((c : Thread nD τ).1, b) = Wend m ρ c b) :=
  run_of m ρ fun _ h => h

/-- The frame: every argument array ends holding its launch contents. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  run_of m ρ fun s h c =>
    ⟨(h c _ (mem_uc main_arg0 (by decide))).trans (Wend_main_arg0 m ρ c),
     (h c _ (mem_uc main_arg1 (by decide))).trans (Wend_main_arg1 m ρ c),
     (h c _ (mem_uc main_arg2 (by decide))).trans (Wend_main_arg2 m ρ c),
     (h c _ (mem_uc main_arg3 (by decide))).trans (Wend_main_arg3 m ρ c),
     (h c _ (mem_uc main_arg4 (by decide))).trans (Wend_main_arg4 m ρ c),
     (h c _ (mem_uc main_arg5 (by decide))).trans (Wend_main_arg5 m ρ c),
     (h c _ (mem_uc main_arg6 (by decide))).trans (Wend_main_arg6 m ρ c)⟩

end Cert.KernelIdeal.Hand

end
-- ==== Proof.RefOps.lean ====
/- The reference program's operations, in order, as consecutive named stretches, every call of a module-local
   function replaced by that function's operations over the call's own buffers (its record's), and the buffers
   each stretch writes. A transcription of the printed program: 269 operations; the printed windows of the
   entry function begin at operations 0, 72, 163 (counting from 0). -/
import proofs.«130992_j35871566856204_2_alg».proof.Proof.Gen.ReferenceIdeal
import Idealize.ShloMosaic.Lib.StableHlo.Run

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-- Operations 1 … 32 of 269, calls inlined. -/
abbrev opsA : List (HloOp τ sig (Elt F)) :=
  [ binary main_arg1 main_arg1 main_v0 ((fun a b => concatenate S800000x128 0 [⟨S400000x128, a⟩, ⟨S400000x128, b⟩] concatenates_S400000x128_S400000x128_S800000x128_d0) : (⟨S400000x128, .f32⟩ : BufTy).Contents (Elt F) → (⟨S400000x128, .f32⟩ : BufTy).Contents (Elt F) → (⟨S800000x128, .f32⟩ : BufTy).Contents (Elt F)),
    reshape main_arg2 main_v1 rfl shapeCasts_S1x2x400000_S400000x2,
    unary main_v1 main_v2 (Host.reverse [1] : (⟨S400000x2, .i32⟩ : BufTy).Contents (Elt F) → (⟨S400000x2, .i32⟩ : BufTy).Contents (Elt F)),
    binary main_v1 main_v2 main_v3 ((fun a b => concatenate S800000x2 0 [⟨S400000x2, a⟩, ⟨S400000x2, b⟩] concatenates_S400000x2_S400000x2_S800000x2_d0) : (⟨S400000x2, .i32⟩ : BufTy).Contents (Elt F) → (⟨S400000x2, .i32⟩ : BufTy).Contents (Elt F) → (⟨S800000x2, .i32⟩ : BufTy).Contents (Elt F)),
    unary main_v3 main_v4 ((extractStridedSlice S800000x1 ![0, 0] · slices_S800000x2_S800000x1_0_0) : (⟨S800000x2, .i32⟩ : BufTy).Contents (Elt F) → (⟨S800000x1, .i32⟩ : BufTy).Contents (Elt F)),
    reshape main_v4 main_v5 rfl shapeCasts_S800000x1_S800000,
    unary main_v3 main_v6 ((extractStridedSlice S800000x1 ![0, 1] · slices_S800000x2_S800000x1_0_1) : (⟨S800000x2, .i32⟩ : BufTy).Contents (Elt F) → (⟨S800000x1, .i32⟩ : BufTy).Contents (Elt F)),
    reshape main_v6 main_v7 rfl shapeCasts_S800000x1_S800000,
    binary main_arg0 main_arg3 main_v8 ((fun l r => Host.dotGeneral dot_S50000x256_S256x128_S50000x128_1_0_0_1_n_n none l r) : (⟨S50000x256, .f32⟩ : BufTy).Contents (Elt F) → (⟨S256x128, .f32⟩ : BufTy).Contents (Elt F) → (⟨S50000x128, .f32⟩ : BufTy).Contents (Elt F)),
    binary main_v0 main_arg4 main_v9 ((fun l r => Host.dotGeneral dot_S800000x128_S128x128_S800000x128_1_0_0_1_n_n none l r) : (⟨S800000x128, .f32⟩ : BufTy).Contents (Elt F) → (⟨S128x128, .f32⟩ : BufTy).Contents (Elt F) → (⟨S800000x128, .f32⟩ : BufTy).Contents (Elt F)),
    nullary main_c (constantI S_ 32 0#32),
    unary main_c main_v10 (broadcastInDim S800000x2 ![] bcast_S_S800000x2 : (⟨S_, .i32⟩ : BufTy).Contents (Elt F) → (⟨S800000x2, .i32⟩ : BufTy).Contents (Elt F)),
    binary main_v3 main_v10 main_v11 (cmpi .slt : (⟨S800000x2, .i32⟩ : BufTy).Contents (Elt F) → (⟨S800000x2, .i32⟩ : BufTy).Contents (Elt F) → (⟨S800000x2, .i1⟩ : BufTy).Contents (Elt F)),
    nullary main_c_0 (constantI S_ 32 50000#32),
    unary main_c_0 main_v12 (broadcastInDim S800000x2 ![] bcast_S_S800000x2 : (⟨S_, .i32⟩ : BufTy).Contents (Elt F) → (⟨S800000x2, .i32⟩ : BufTy).Contents (Elt F)),
    binary main_v3 main_v12 main_v13 (addi : (⟨S800000x2, .i32⟩ : BufTy).Contents (Elt F) → (⟨S800000x2, .i32⟩ : BufTy).Contents (Elt F) → (⟨S800000x2, .i32⟩ : BufTy).Contents (Elt F)),
    ternary main_v11 main_v13 main_v3 main_v14 (select : (⟨S800000x2, .i1⟩ : BufTy).Contents (Elt F) → (⟨S800000x2, .i32⟩ : BufTy).Contents (Elt F) → (⟨S800000x2, .i32⟩ : BufTy).Contents (Elt F) → (⟨S800000x2, .i32⟩ : BufTy).Contents (Elt F)),
    unary main_v14 main_v15 (broadcastInDim S800000x2x1 ![0, 1] bcast_S800000x2_S800000x2x1_0_1 : (⟨S800000x2, .i32⟩ : BufTy).Contents (Elt F) → (⟨S800000x2x1, .i32⟩ : BufTy).Contents (Elt F)),
    binary main_v8 main_v15 main_v16 ((fun x i => Host.gather gather_S50000x128_S800000x2x1_S800000x2x128_2_0_n_n_0_2_1128 x i) : (⟨S50000x128, .f32⟩ : BufTy).Contents (Elt F) → (⟨S800000x2x1, .i32⟩ : BufTy).Contents (Elt F) → (⟨S800000x2x128, .f32⟩ : BufTy).Contents (Elt F)),
    reshape main_v16 main_v17 rfl shapeCasts_S800000x2x128_S800000x256,
    nullary main_c_1 (constantI S_ 32 0#32),
    unary main_c_1 main_v18 (broadcastInDim S800000 ![] bcast_S_S800000 : (⟨S_, .i32⟩ : BufTy).Contents (Elt F) → (⟨S800000, .i32⟩ : BufTy).Contents (Elt F)),
    binary main_v5 main_v18 main_v19 (cmpi .slt : (⟨S800000, .i32⟩ : BufTy).Contents (Elt F) → (⟨S800000, .i32⟩ : BufTy).Contents (Elt F) → (⟨S800000, .i1⟩ : BufTy).Contents (Elt F)),
    nullary main_c_2 (constantI S_ 32 50000#32),
    unary main_c_2 main_v20 (broadcastInDim S800000 ![] bcast_S_S800000 : (⟨S_, .i32⟩ : BufTy).Contents (Elt F) → (⟨S800000, .i32⟩ : BufTy).Contents (Elt F)),
    binary main_v5 main_v20 main_v21 (addi : (⟨S800000, .i32⟩ : BufTy).Contents (Elt F) → (⟨S800000, .i32⟩ : BufTy).Contents (Elt F) → (⟨S800000, .i32⟩ : BufTy).Contents (Elt F)),
    ternary main_v19 main_v21 main_v5 main_v22 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v22 main_v23 (broadcastInDim S800000x1 ![0] bcast_S800000_S800000x1_0 : (⟨S800000, .i32⟩ : BufTy).Contents (Elt F) → (⟨S800000x1, .i32⟩ : BufTy).Contents (Elt F)),
    binary main_v8 main_v23 main_v24 ((fun x i => Host.gather gather_S50000x128_S800000x1_S800000x128_1_0_n_n_0_1_1128 x i) : (⟨S50000x128, .f32⟩ : BufTy).Contents (Elt F) → (⟨S800000x1, .i32⟩ : BufTy).Contents (Elt F) → (⟨S800000x128, .f32⟩ : BufTy).Contents (Elt F)),
    binary main_v24 main_v9 main_v25 ((fun a b => concatenate S800000x256 1 [⟨S800000x128, a⟩, ⟨S800000x128, b⟩] concatenates_S800000x128_S800000x128_S800000x256_d1) : (⟨S800000x128, .f32⟩ : BufTy).Contents (Elt F) → (⟨S800000x128, .f32⟩ : BufTy).Contents (Elt F) → (⟨S800000x256, .f32⟩ : BufTy).Contents (Elt F)),
    binary main_v17 main_arg5 main_v26 ((fun l r => Host.dotGeneral dot_S800000x256_S256x1_S800000x1_1_0_0_1_n_n none l r) : (⟨S800000x256, .f32⟩ : BufTy).Contents (Elt F) → (⟨S256x1, .f32⟩ : BufTy).Contents (Elt F) → (⟨S800000x1, .f32⟩ : BufTy).Contents (Elt F)),
    reshape main_v26 main_v27 rfl shapeCasts_S800000x1_S800000 ]

/-- The buffers those operations write, in order. -/
abbrev opsA_W : List (Ref sig .tc) :=
  [main_v0, main_v1, main_v2, main_v3, main_v4, main_v5, main_v6, main_v7, main_v8, main_v9, main_c, main_v10, main_v11, main_c_0, main_v12, main_v13, main_v14, main_v15, main_v16, main_v17, main_c_1, main_v18, main_v19, main_c_2, main_v20, main_v21, main_v22, main_v23, main_v24, main_v25, main_v26, main_v27]

set_option maxRecDepth 8192 in
/-- Each touches TensorCore references only. -/
theorem opsA_sub : (opsA : List (HloOp τ sig (Elt F))).Forall fun op => op.bufs ⊆ tcRefs τ sig :=
  ⟨binary_bufs_sub .., reshape_bufs_sub .., unary_bufs_sub .., binary_bufs_sub .., unary_bufs_sub .., reshape_bufs_sub .., unary_bufs_sub .., reshape_bufs_sub .., binary_bufs_sub .., binary_bufs_sub .., nullary_bufs_sub .., unary_bufs_sub .., binary_bufs_sub .., nullary_bufs_sub .., unary_bufs_sub .., binary_bufs_sub .., ternary_bufs_sub .., unary_bufs_sub .., binary_bufs_sub .., reshape_bufs_sub .., nullary_bufs_sub .., unary_bufs_sub .., binary_bufs_sub .., nullary_bufs_sub .., unary_bufs_sub .., binary_bufs_sub .., ternary_bufs_sub .., unary_bufs_sub .., binary_bufs_sub .., binary_bufs_sub .., binary_bufs_sub .., reshape_bufs_sub ..⟩

/-- Operations 33 … 69 of 269, calls inlined. -/
abbrev opsB : List (HloOp τ sig (Elt F)) :=
  [ nullary main_cst (constant S_ .f32 0x00000000#32),
    unary main_cst main_v28 (broadcastInDim S800000 ![] bcast_S_S800000 : (⟨S_, .f32⟩ : BufTy).Contents (Elt F) → (⟨S800000, .f32⟩ : BufTy).Contents (Elt F)),
    binary main_v27 main_v28 main_v29 (cmpf .oge : (⟨S800000, .f32⟩ : BufTy).Contents (Elt F) → (⟨S800000, .f32⟩ : BufTy).Contents (Elt F) → (⟨S800000, .i1⟩ : BufTy).Contents (Elt F)),
    nullary main_cst_3 (constant S_ .f32 0x3E4CCCCD#32),
    unary main_cst_3 main_v30 (broadcastInDim S800000 ![] bcast_S_S800000 : (⟨S_, .f32⟩ : BufTy).Contents (Elt F) → (⟨S800000, .f32⟩ : BufTy).Contents (Elt F)),
    binary main_v30 main_v27 main_v31 (mulf : (⟨S800000, .f32⟩ : BufTy).Contents (Elt F) → (⟨S800000, .f32⟩ : BufTy).Contents (Elt F) → (⟨S800000, .f32⟩ : BufTy).Contents (Elt F)),
    StableHlo.TRef.ternary (.of main_v29 : StableHlo.TRef sig ⟨S800000, .i1⟩) (.of main_v27 : StableHlo.TRef sig ⟨S800000, .f32⟩) (.of main_v31 : StableHlo.TRef sig ⟨S800000, .f32⟩) (.of main_v32 : StableHlo.TRef sig ⟨S800000, .f32⟩) select,
    nullary main_cst_4 (constant S_ .f32 0xC0000000#32),
    nullary main_cst_5 (constant S_ .f32 0x40000000#32),
    StableHlo.TRef.unary (.of main_cst_4 : StableHlo.TRef sig ⟨S_, .f32⟩) (.of main_call1_v0 : StableHlo.TRef sig ⟨S_, .f32⟩) id,
    StableHlo.TRef.unary (.of main_call1_v0 : StableHlo.TRef sig ⟨S_, .f32⟩) (.of main_call1_v1 : StableHlo.TRef sig ⟨S800000, .f32⟩) (broadcastInDim S800000 ![] bcast_S_S800000),
    StableHlo.TRef.binary (.of main_call1_v1 : StableHlo.TRef sig ⟨S800000, .f32⟩) (.of main_v32 : StableHlo.TRef sig ⟨S800000, .f32⟩) (.of main_call1_v2 : StableHlo.TRef sig ⟨S800000, .f32⟩) maximumf,
    StableHlo.TRef.unary (.of main_cst_5 : StableHlo.TRef sig ⟨S_, .f32⟩) (.of main_call1_v3 : StableHlo.TRef sig ⟨S_, .f32⟩) id,
    StableHlo.TRef.unary (.of main_call1_v3 : StableHlo.TRef sig ⟨S_, .f32⟩) (.of main_call1_v4 : StableHlo.TRef sig ⟨S800000, .f32⟩) (broadcastInDim S800000 ![] bcast_S_S800000),
    StableHlo.TRef.binary (.of main_call1_v4 : StableHlo.TRef sig ⟨S800000, .f32⟩) (.of main_call1_v2 : StableHlo.TRef sig ⟨S800000, .f32⟩) (.of main_v33 : StableHlo.TRef sig ⟨S800000, .f32⟩) minimumf,
    unary main_v33 main_v34 (Host.exp : (⟨S800000, .f32⟩ : BufTy).Contents (Elt F) → (⟨S800000, .f32⟩ : BufTy).Contents (Elt F)),
    binary main_v25 main_arg6 main_v35 ((fun l r => Host.dotGeneral dot_S800000x256_S256x1_S800000x1_1_0_0_1_n_n none l r) : (⟨S800000x256, .f32⟩ : BufTy).Contents (Elt F) → (⟨S256x1, .f32⟩ : BufTy).Contents (Elt F) → (⟨S800000x1, .f32⟩ : BufTy).Contents (Elt F)),
    reshape main_v35 main_v36 rfl shapeCasts_S800000x1_S800000,
    nullary main_cst_6 (constant S_ .f32 0x00000000#32),
    unary main_cst_6 main_v37 (broadcastInDim S800000 ![] bcast_S_S800000 : (⟨S_, .f32⟩ : BufTy).Contents (Elt F) → (⟨S800000, .f32⟩ : BufTy).Contents (Elt F)),
    binary main_v36 main_v37 main_v38 (cmpf .oge : (⟨S800000, .f32⟩ : BufTy).Contents (Elt F) → (⟨S800000, .f32⟩ : BufTy).Contents (Elt F) → (⟨S800000, .i1⟩ : BufTy).Contents (Elt F)),
    nullary main_cst_7 (constant S_ .f32 0x3E4CCCCD#32),
    unary main_cst_7 main_v39 (broadcastInDim S800000 ![] bcast_S_S800000 : (⟨S_, .f32⟩ : BufTy).Contents (Elt F) → (⟨S800000, .f32⟩ : BufTy).Contents (Elt F)),
    binary main_v39 main_v36 main_v40 (mulf : (⟨S800000, .f32⟩ : BufTy).Contents (Elt F) → (⟨S800000, .f32⟩ : BufTy).Contents (Elt F) → (⟨S800000, .f32⟩ : BufTy).Contents (Elt F)),
    StableHlo.TRef.ternary (.of main_v38 : StableHlo.TRef sig ⟨S800000, .i1⟩) (.of main_v36 : StableHlo.TRef sig ⟨S800000, .f32⟩) (.of main_v40 : StableHlo.TRef sig ⟨S800000, .f32⟩) (.of main_v41 : StableHlo.TRef sig ⟨S800000, .f32⟩) select,
    nullary main_cst_8 (constant S_ .f32 0xC0000000#32),
    nullary main_cst_9 (constant S_ .f32 0x40000000#32),
    StableHlo.TRef.unary (.of main_cst_8 : StableHlo.TRef sig ⟨S_, .f32⟩) (.of main_call3_v0 : StableHlo.TRef sig ⟨S_, .f32⟩) id,
    StableHlo.TRef.unary (.of main_call3_v0 : StableHlo.TRef sig ⟨S_, .f32⟩) (.of main_call3_v1 : StableHlo.TRef sig ⟨S800000, .f32⟩) (broadcastInDim S800000 ![] bcast_S_S800000),
    StableHlo.TRef.binary (.of main_call3_v1 : StableHlo.TRef sig ⟨S800000, .f32⟩) (.of main_v41 : StableHlo.TRef sig ⟨S800000, .f32⟩) (.of main_call3_v2 : StableHlo.TRef sig ⟨S800000, .f32⟩) maximumf,
    StableHlo.TRef.unary (.of main_cst_9 : StableHlo.TRef sig ⟨S_, .f32⟩) (.of main_call3_v3 : StableHlo.TRef sig ⟨S_, .f32⟩) id,
    StableHlo.TRef.unary (.of main_call3_v3 : StableHlo.TRef sig ⟨S_, .f32⟩) (.of main_call3_v4 : StableHlo.TRef sig ⟨S800000, .f32⟩) (broadcastInDim S800000 ![] bcast_S_S800000),
    StableHlo.TRef.binary (.of main_call3_v4 : StableHlo.TRef sig ⟨S800000, .f32⟩) (.of main_call3_v2 : StableHlo.TRef sig ⟨S800000, .f32⟩) (.of main_v42 : StableHlo.TRef sig ⟨S800000, .f32⟩) minimumf,
    unary main_v42 main_v43 (Host.exp : (⟨S800000, .f32⟩ : BufTy).Contents (Elt F) → (⟨S800000, .f32⟩ : BufTy).Contents (Elt F)),
    nullary main_c_10 (constantI S_ 32 0#32),
    unary main_c_10 main_v44 (broadcastInDim S50000 ![] bcast_S_S50000 : (⟨S_, .i32⟩ : BufTy).Contents (Elt F) → (⟨S50000, .i32⟩ : BufTy).Contents (Elt F)),
    nullary main_c_11 (constantI S_ 32 0#32) ]

/-- The buffers those operations write, in order. -/
abbrev opsB_W : List (Ref sig .tc) :=
  [main_cst, main_v28, main_v29, main_cst_3, main_v30, main_v31, main_v32, main_cst_4, main_cst_5, main_call1_v0, main_call1_v1, main_call1_v2, main_call1_v3, main_call1_v4, main_v33, main_v34, main_v35, main_v36, main_cst_6, main_v37, main_v38, main_cst_7, main_v39, main_v40, main_v41, main_cst_8, main_cst_9, main_call3_v0, main_call3_v1, main_call3_v2, main_call3_v3, main_call3_v4, main_v42, main_v43, main_c_10, main_v44, main_c_11]

set_option maxRecDepth 8192 in
/-- Each touches TensorCore references only. -/
theorem opsB_sub : (opsB : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., nullary_bufs_sub .., nullary_bufs_sub .., unary_bufs_sub .., unary_bufs_sub .., binary_bufs_sub .., unary_bufs_sub .., unary_bufs_sub .., binary_bufs_sub .., unary_bufs_sub .., binary_bufs_sub .., reshape_bufs_sub .., nullary_bufs_sub .., unary_bufs_sub .., binary_bufs_sub .., nullary_bufs_sub .., unary_bufs_sub .., binary_bufs_sub .., ternary_bufs_sub .., nullary_bufs_sub .., nullary_bufs_sub .., unary_bufs_sub .., unary_bufs_sub .., binary_bufs_sub .., unary_bufs_sub .., unary_bufs_sub .., binary_bufs_sub .., unary_bufs_sub .., nullary_bufs_sub .., unary_bufs_sub .., nullary_bufs_sub ..⟩

/-- Operations 70 … 196 of 269, calls inlined. -/
abbrev opsC : List (HloOp τ sig (Elt F)) :=
  [ StableHlo.TRef.unary (.of main_c_11 : StableHlo.TRef sig ⟨S_, .i32⟩) (.of main_call4_v0 : StableHlo.TRef sig ⟨S_, .i32⟩) id,
    StableHlo.TRef.unary (.of main_call4_v0 : StableHlo.TRef sig ⟨S_, .i32⟩) (.of main_call4_v1 : StableHlo.TRef sig ⟨S800000, .i32⟩) (broadcastInDim S800000 ![] bcast_S_S800000),
    StableHlo.TRef.binary (.of main_call4_v1 : StableHlo.TRef sig ⟨S800000, .i32⟩) (.of main_v5 : StableHlo.TRef sig ⟨S800000, .i32⟩) (.of main_v45 : StableHlo.TRef sig ⟨S800000, .i32⟩) maxsi,
    nullary main_c_12 (constantI S_ 32 0#32),
    unary main_c_12 main_v46 (broadcastInDim S800000 ![] bcast_S_S800000 : (⟨S_, .i32⟩ : BufTy).Contents (Elt F) → (⟨S800000, .i32⟩ : BufTy).Contents (Elt F)),
    binary main_v45 main_v46 main_v47 (cmpi .slt : (⟨S800000, .i32⟩ : BufTy).Contents (Elt F) → (⟨S800000, .i32⟩ : BufTy).Contents (Elt F) → (⟨S800000, .i1⟩ : BufTy).Contents (Elt F)),
    nullary main_c_13 (constantI S_ 32 50000#32),
    unary main_c_13 main_v48 (broadcastInDim S800000 ![] bcast_S_S800000 : (⟨S_, .i32⟩ : BufTy).Contents (Elt F) → (⟨S800000, .i32⟩ : BufTy).Contents (Elt F)),
    binary main_v45 main_v48 main_v49 (addi : (⟨S800000, .i32⟩ : BufTy).Contents (Elt F) → (⟨S800000, .i32⟩ : BufTy).Contents (Elt F) → (⟨S800000, .i32⟩ : BufTy).Contents (Elt F)),
    ternary main_v47 main_v49 main_v45 main_v50 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v50 main_v51 (broadcastInDim S800000x1 ![0] bcast_S800000_S800000x1_0 : (⟨S800000, .i32⟩ : BufTy).Contents (Elt F) → (⟨S800000x1, .i32⟩ : BufTy).Contents (Elt F)),
    nullary main_c_14 (constantI S_ 32 1#32),
    unary main_c_14 main_v52 (broadcastInDim S800000 ![] bcast_S_S800000 : (⟨S_, .i32⟩ : BufTy).Contents (Elt F) → (⟨S800000, .i32⟩ : BufTy).Contents (Elt F)),
    ternary main_v44 main_v51 main_v52 main_v53 ((fun x i u => Host.scatter scatter_S50000_S800000x1_S800000_n_0_0_1 IntOp.addi x i u) : (⟨S50000, .i32⟩ : BufTy).Contents (Elt F) → (⟨S800000x1, .i32⟩ : BufTy).Contents (Elt F) → (⟨S800000, .i32⟩ : BufTy).Contents (Elt F) → (⟨S50000, .i32⟩ : BufTy).Contents (Elt F)),
    nullary main_cst_15 (constant S_ .f32 0x00000000#32),
    unary main_cst_15 main_v54 (broadcastInDim S50000 ![] bcast_S_S50000 : (⟨S_, .f32⟩ : BufTy).Contents (Elt F) → (⟨S50000, .f32⟩ : BufTy).Contents (Elt F)),
    unary main_v5 main_v55 (broadcastInDim S800000x1 ![0] bcast_S800000_S800000x1_0 : (⟨S800000, .i32⟩ : BufTy).Contents (Elt F) → (⟨S800000x1, .i32⟩ : BufTy).Contents (Elt F)),
    ternary main_v54 main_v55 main_v34 main_v56 ((fun x i u => Host.scatterAdd scatter_S50000_S800000x1_S800000_n_0_0_1 x i u) : (⟨S50000, .f32⟩ : BufTy).Contents (Elt F) → (⟨S800000x1, .i32⟩ : BufTy).Contents (Elt F) → (⟨S800000, .f32⟩ : BufTy).Contents (Elt F) → (⟨S50000, .f32⟩ : BufTy).Contents (Elt F)),
    nullary main_cst_16 (constant S_ .f32 0x00000000#32),
    unary main_cst_16 main_v57 (broadcastInDim S50000 ![] bcast_S_S50000 : (⟨S_, .f32⟩ : BufTy).Contents (Elt F) → (⟨S50000, .f32⟩ : BufTy).Contents (Elt F)),
    unary main_v5 main_v58 (broadcastInDim S800000x1 ![0] bcast_S800000_S800000x1_0 : (⟨S800000, .i32⟩ : BufTy).Contents (Elt F) → (⟨S800000x1, .i32⟩ : BufTy).Contents (Elt F)),
    ternary main_v57 main_v58 main_v43 main_v59 ((fun x i u => Host.scatterAdd scatter_S50000_S800000x1_S800000_n_0_0_1 x i u) : (⟨S50000, .f32⟩ : BufTy).Contents (Elt F) → (⟨S800000x1, .i32⟩ : BufTy).Contents (Elt F) → (⟨S800000, .f32⟩ : BufTy).Contents (Elt F) → (⟨S50000, .f32⟩ : BufTy).Contents (Elt F)),
    StableHlo.TRef.unary (.of main_v53 : StableHlo.TRef sig ⟨S50000, .i32⟩) (.of main_call5_v0 : StableHlo.TRef sig ⟨S1, .i32⟩) (extractStridedSlice S1 ![49999] · slices_S50000_S1_49999),
    StableHlo.TRef.unary (.of main_v53 : StableHlo.TRef sig ⟨S50000, .i32⟩) (.of main_call5_v1 : StableHlo.TRef sig ⟨S49999, .i32⟩) (extractStridedSlice S49999 ![0] · slices_S50000_S49999_0),
    StableHlo.TRef.binary (.of main_call5_v0 : StableHlo.TRef sig ⟨S1, .i32⟩) (.of main_call5_v1 : StableHlo.TRef sig ⟨S49999, .i32⟩) (.of main_v60 : StableHlo.TRef sig ⟨S50000, .i32⟩) (fun a b => concatenate S50000 0 [⟨S1, a⟩, ⟨S49999, b⟩] concatenates_S1_S49999_S50000_d0),
    nullary main_c_17 (constantI S_ 32 0#32),
    unary main_c_17 main_v61 (broadcastInDim S1 ![] bcast_S_S1 : (⟨S_, .i32⟩ : BufTy).Contents (Elt F) → (⟨S1, .i32⟩ : BufTy).Contents (Elt F)),
    nullary main_c_18 (constantI S_ 32 0#32),
    ternary main_v60 main_v61 main_c_18 main_v62 ((fun x i u => Host.scatter scatter_S50000_S1_S__n_0_0_0 (fun _ b => b) x i u) : (⟨S50000, .i32⟩ : BufTy).Contents (Elt F) → (⟨S1, .i32⟩ : BufTy).Contents (Elt F) → (⟨S_, .i32⟩ : BufTy).Contents (Elt F) → (⟨S50000, .i32⟩ : BufTy).Contents (Elt F)),
    StableHlo.TRef.nullary (.of main_call6_call0_c : StableHlo.TRef sig ⟨S_, .i32⟩) (constantI S_ 32 0#32),
    StableHlo.TRef.unary (.of main_call6_call0_c : StableHlo.TRef sig ⟨S_, .i32⟩) (.of main_call6_call0_v0 : StableHlo.TRef sig ⟨S_, .i32⟩) (broadcastInDim S_ ![] bcast_S_S_),
    StableHlo.TRef.binary (.of main_v62 : StableHlo.TRef sig ⟨S50000, .i32⟩) (.of main_call6_call0_v0 : StableHlo.TRef sig ⟨S_, .i32⟩) (.of main_v63 : StableHlo.TRef sig ⟨S50000, .i32⟩) (fun x v => Host.reduceWindow IntOp.addi ![50000] ![1] ![49999] ![0] x v reduceWindows_S50000_S50000_w50000s1p49999_0 h_S_),
    nullary main_c_19 (constantI S_ 32 0#32),
    unary main_c_19 main_v64 (broadcastInDim S800000 ![] bcast_S_S800000 : (⟨S_, .i32⟩ : BufTy).Contents (Elt F) → (⟨S800000, .i32⟩ : BufTy).Contents (Elt F)),
    nullary main_c_20 (constantI S_ 32 0#32),
    unary main_c_20 main_v65 (broadcastInDim S50000 ![] bcast_S_S50000 : (⟨S_, .i32⟩ : BufTy).Contents (Elt F) → (⟨S50000, .i32⟩ : BufTy).Contents (Elt F)),
    binary main_v63 main_v65 main_v66 (cmpi .slt : (⟨S50000, .i32⟩ : BufTy).Contents (Elt F) → (⟨S50000, .i32⟩ : BufTy).Contents (Elt F) → (⟨S50000, .i1⟩ : BufTy).Contents (Elt F)),
    nullary main_c_21 (constantI S_ 32 800000#32),
    unary main_c_21 main_v67 (broadcastInDim S50000 ![] bcast_S_S50000 : (⟨S_, .i32⟩ : BufTy).Contents (Elt F) → (⟨S50000, .i32⟩ : BufTy).Contents (Elt F)),
    binary main_v63 main_v67 main_v68 (addi : (⟨S50000, .i32⟩ : BufTy).Contents (Elt F) → (⟨S50000, .i32⟩ : BufTy).Contents (Elt F) → (⟨S50000, .i32⟩ : BufTy).Contents (Elt F)),
    ternary main_v66 main_v68 main_v63 main_v69 (select : (⟨S50000, .i1⟩ : BufTy).Contents (Elt F) → (⟨S50000, .i32⟩ : BufTy).Contents (Elt F) → (⟨S50000, .i32⟩ : BufTy).Contents (Elt F) → (⟨S50000, .i32⟩ : BufTy).Contents (Elt F)),
    unary main_v69 main_v70 (broadcastInDim S50000x1 ![0] bcast_S50000_S50000x1_0 : (⟨S50000, .i32⟩ : BufTy).Contents (Elt F) → (⟨S50000x1, .i32⟩ : BufTy).Contents (Elt F)),
    nullary main_c_22 (constantI S_ 32 1#32),
    unary main_c_22 main_v71 (broadcastInDim S50000 ![] bcast_S_S50000 : (⟨S_, .i32⟩ : BufTy).Contents (Elt F) → (⟨S50000, .i32⟩ : BufTy).Contents (Elt F)),
    ternary main_v64 main_v70 main_v71 main_v72 ((fun x i u => Host.scatter scatter_S800000_S50000x1_S50000_n_0_0_1 IntOp.addi x i u) : (⟨S800000, .i32⟩ : BufTy).Contents (Elt F) → (⟨S50000x1, .i32⟩ : BufTy).Contents (Elt F) → (⟨S50000, .i32⟩ : BufTy).Contents (Elt F) → (⟨S800000, .i32⟩ : BufTy).Contents (Elt F)),
    StableHlo.TRef.nullary (.of main_call7_call0_c : StableHlo.TRef sig ⟨S_, .i32⟩) (constantI S_ 32 0#32),
    StableHlo.TRef.unary (.of main_call7_call0_c : StableHlo.TRef sig ⟨S_, .i32⟩) (.of main_call7_call0_v0 : StableHlo.TRef sig ⟨S_, .i32⟩) (broadcastInDim S_ ![] bcast_S_S_),
    StableHlo.TRef.binary (.of main_v72 : StableHlo.TRef sig ⟨S800000, .i32⟩) (.of main_call7_call0_v0 : StableHlo.TRef sig ⟨S_, .i32⟩) (.of main_v73 : StableHlo.TRef sig ⟨S800000, .i32⟩) (fun x v => Host.reduceWindow IntOp.addi ![800000] ![1] ![799999] ![0] x v reduceWindows_S800000_S800000_w800000s1p799999_0 h_S_),
    nullary main_c_23 (constantI S_ 32 1#32),
    unary main_c_23 main_v74 (broadcastInDim S800000 ![] bcast_S_S800000 : (⟨S_, .i32⟩ : BufTy).Contents (Elt F) → (⟨S800000, .i32⟩ : BufTy).Contents (Elt F)),
    binary main_v73 main_v74 main_v75 (subi : (⟨S800000, .i32⟩ : BufTy).Contents (Elt F) → (⟨S800000, .i32⟩ : BufTy).Contents (Elt F) → (⟨S800000, .i32⟩ : BufTy).Contents (Elt F)),
    StableHlo.TRef.nullary (.of main_call8_c : StableHlo.TRef sig ⟨S_, .i32⟩) (constantI S_ 32 0#32),
    StableHlo.TRef.unary (.of main_call8_c : StableHlo.TRef sig ⟨S_, .i32⟩) (.of main_call8_v0 : StableHlo.TRef sig ⟨S800000, .i32⟩) (broadcastInDim S800000 ![] bcast_S_S800000),
    StableHlo.TRef.binary (.of main_v75 : StableHlo.TRef sig ⟨S800000, .i32⟩) (.of main_call8_v0 : StableHlo.TRef sig ⟨S800000, .i32⟩) (.of main_call8_v1 : StableHlo.TRef sig ⟨S800000, .i1⟩) (cmpi .slt),
    StableHlo.TRef.nullary (.of main_call8_c_0 : StableHlo.TRef sig ⟨S_, .i32⟩) (constantI S_ 32 50000#32),
    StableHlo.TRef.unary (.of main_call8_c_0 : StableHlo.TRef sig ⟨S_, .i32⟩) (.of main_call8_v2 : StableHlo.TRef sig ⟨S800000, .i32⟩) (broadcastInDim S800000 ![] bcast_S_S800000),
    StableHlo.TRef.binary (.of main_v75 : StableHlo.TRef sig ⟨S800000, .i32⟩) (.of main_call8_v2 : StableHlo.TRef sig ⟨S800000, .i32⟩) (.of main_call8_v3 : StableHlo.TRef sig ⟨S800000, .i32⟩) addi,
    StableHlo.TRef.ternary (.of main_call8_v1 : StableHlo.TRef sig ⟨S800000, .i1⟩) (.of main_call8_v3 : StableHlo.TRef sig ⟨S800000, .i32⟩) (.of main_v75 : StableHlo.TRef sig ⟨S800000, .i32⟩) (.of main_call8_v4 : StableHlo.TRef sig ⟨S800000, .i32⟩) select,
    StableHlo.TRef.unary (.of main_call8_v4 : StableHlo.TRef sig ⟨S800000, .i32⟩) (.of main_call8_v5 : StableHlo.TRef sig ⟨S800000x1, .i32⟩) (broadcastInDim S800000x1 ![0] bcast_S800000_S800000x1_0),
    StableHlo.TRef.nullary (.of main_call8_c_1 : StableHlo.TRef sig ⟨S1, .i32⟩) (constantI S1 32 49999#32),
    StableHlo.TRef.nullary (.of main_call8_c_2 : StableHlo.TRef sig ⟨S_, .i32⟩) (constantI S_ 32 0#32),
    StableHlo.TRef.unary (.of main_call8_c_2 : StableHlo.TRef sig ⟨S_, .i32⟩) (.of main_call8_v6 : StableHlo.TRef sig ⟨S800000x1, .i32⟩) (broadcastInDim S800000x1 ![] bcast_S_S800000x1),
    StableHlo.TRef.binary (.of main_call8_v5 : StableHlo.TRef sig ⟨S800000x1, .i32⟩) (.of main_call8_v6 : StableHlo.TRef sig ⟨S800000x1, .i32⟩) (.of main_call8_v7 : StableHlo.TRef sig ⟨S800000x1, .i1⟩) (cmpi .sge),
    StableHlo.TRef.unary (.of main_call8_c_1 : StableHlo.TRef sig ⟨S1, .i32⟩) (.of main_call8_v8 : StableHlo.TRef sig ⟨S1x1, .i32⟩) (broadcastInDim S1x1 ![1] bcast_S1_S1x1_1),
    StableHlo.TRef.unary (.of main_call8_v8 : StableHlo.TRef sig ⟨S1x1, .i32⟩) (.of main_call8_v9 : StableHlo.TRef sig ⟨S800000x1, .i32⟩) (broadcastInDim S800000x1 ![0, 1] bcast_S1x1_S800000x1_0_1),
    StableHlo.TRef.binary (.of main_call8_v5 : StableHlo.TRef sig ⟨S800000x1, .i32⟩) (.of main_call8_v9 : StableHlo.TRef sig ⟨S800000x1, .i32⟩) (.of main_call8_v10 : StableHlo.TRef sig ⟨S800000x1, .i1⟩) (cmpi .sle),
    StableHlo.TRef.binary (.of main_call8_v7 : StableHlo.TRef sig ⟨S800000x1, .i1⟩) (.of main_call8_v10 : StableHlo.TRef sig ⟨S800000x1, .i1⟩) (.of main_call8_v11 : StableHlo.TRef sig ⟨S800000x1, .i1⟩) andi,
    StableHlo.TRef.nullary (.of main_call8_c_3 : StableHlo.TRef sig ⟨S_, .i1⟩) (constantI S_ 1 1#1),
    StableHlo.TRef.binary (.of main_call8_v11 : StableHlo.TRef sig ⟨S800000x1, .i1⟩) (.of main_call8_c_3 : StableHlo.TRef sig ⟨S_, .i1⟩) (.of main_call8_v12 : StableHlo.TRef sig ⟨S800000, .i1⟩) (fun x v => Host.reduce IntOp.andi x v reducesTo_S800000x1_S800000_d1 h_S_),
    StableHlo.TRef.binary (.of main_v56 : StableHlo.TRef sig ⟨S50000, .f32⟩) (.of main_call8_v5 : StableHlo.TRef sig ⟨S800000x1, .i32⟩) (.of main_call8_v13 : StableHlo.TRef sig ⟨S800000, .f32⟩) (fun x i => Host.gather gather_S50000_S800000x1_S800000_n_0_n_n_0_1_1 x i),
    StableHlo.TRef.nullary (.of main_call8_cst : StableHlo.TRef sig ⟨S_, .f32⟩) (constant S_ .f32 0x7FC00000#32),
    StableHlo.TRef.unary (.of main_call8_cst : StableHlo.TRef sig ⟨S_, .f32⟩) (.of main_call8_v14 : StableHlo.TRef sig ⟨S800000, .f32⟩) (broadcastInDim S800000 ![] bcast_S_S800000),
    StableHlo.TRef.ternary (.of main_call8_v12 : StableHlo.TRef sig ⟨S800000, .i1⟩) (.of main_call8_v13 : StableHlo.TRef sig ⟨S800000, .f32⟩) (.of main_call8_v14 : StableHlo.TRef sig ⟨S800000, .f32⟩) (.of main_v76 : StableHlo.TRef sig ⟨S800000, .f32⟩) select,
    StableHlo.TRef.unary (.of main_v53 : StableHlo.TRef sig ⟨S50000, .i32⟩) (.of main_call9_v0 : StableHlo.TRef sig ⟨S1, .i32⟩) (extractStridedSlice S1 ![49999] · slices_S50000_S1_49999),
    StableHlo.TRef.unary (.of main_v53 : StableHlo.TRef sig ⟨S50000, .i32⟩) (.of main_call9_v1 : StableHlo.TRef sig ⟨S49999, .i32⟩) (extractStridedSlice S49999 ![0] · slices_S50000_S49999_0),
    StableHlo.TRef.binary (.of main_call9_v0 : StableHlo.TRef sig ⟨S1, .i32⟩) (.of main_call9_v1 : StableHlo.TRef sig ⟨S49999, .i32⟩) (.of main_v77 : StableHlo.TRef sig ⟨S50000, .i32⟩) (fun a b => concatenate S50000 0 [⟨S1, a⟩, ⟨S49999, b⟩] concatenates_S1_S49999_S50000_d0),
    nullary main_c_24 (constantI S_ 32 0#32),
    unary main_c_24 main_v78 (broadcastInDim S1 ![] bcast_S_S1 : (⟨S_, .i32⟩ : BufTy).Contents (Elt F) → (⟨S1, .i32⟩ : BufTy).Contents (Elt F)),
    nullary main_c_25 (constantI S_ 32 0#32),
    ternary main_v77 main_v78 main_c_25 main_v79 ((fun x i u => Host.scatter scatter_S50000_S1_S__n_0_0_0 (fun _ b => b) x i u) : (⟨S50000, .i32⟩ : BufTy).Contents (Elt F) → (⟨S1, .i32⟩ : BufTy).Contents (Elt F) → (⟨S_, .i32⟩ : BufTy).Contents (Elt F) → (⟨S50000, .i32⟩ : BufTy).Contents (Elt F)),
    StableHlo.TRef.nullary (.of main_call10_call0_c : StableHlo.TRef sig ⟨S_, .i32⟩) (constantI S_ 32 0#32),
    StableHlo.TRef.unary (.of main_call10_call0_c : StableHlo.TRef sig ⟨S_, .i32⟩) (.of main_call10_call0_v0 : StableHlo.TRef sig ⟨S_, .i32⟩) (broadcastInDim S_ ![] bcast_S_S_),
    StableHlo.TRef.binary (.of main_v79 : StableHlo.TRef sig ⟨S50000, .i32⟩) (.of main_call10_call0_v0 : StableHlo.TRef sig ⟨S_, .i32⟩) (.of main_v80 : StableHlo.TRef sig ⟨S50000, .i32⟩) (fun x v => Host.reduceWindow IntOp.addi ![50000] ![1] ![49999] ![0] x v reduceWindows_S50000_S50000_w50000s1p49999_0 h_S_),
    nullary main_c_26 (constantI S_ 32 0#32),
    unary main_c_26 main_v81 (broadcastInDim S800000 ![] bcast_S_S800000 : (⟨S_, .i32⟩ : BufTy).Contents (Elt F) → (⟨S800000, .i32⟩ : BufTy).Contents (Elt F)),
    nullary main_c_27 (constantI S_ 32 0#32),
    unary main_c_27 main_v82 (broadcastInDim S50000 ![] bcast_S_S50000 : (⟨S_, .i32⟩ : BufTy).Contents (Elt F) → (⟨S50000, .i32⟩ : BufTy).Contents (Elt F)),
    binary main_v80 main_v82 main_v83 (cmpi .slt : (⟨S50000, .i32⟩ : BufTy).Contents (Elt F) → (⟨S50000, .i32⟩ : BufTy).Contents (Elt F) → (⟨S50000, .i1⟩ : BufTy).Contents (Elt F)),
    nullary main_c_28 (constantI S_ 32 800000#32),
    unary main_c_28 main_v84 (broadcastInDim S50000 ![] bcast_S_S50000 : (⟨S_, .i32⟩ : BufTy).Contents (Elt F) → (⟨S50000, .i32⟩ : BufTy).Contents (Elt F)),
    binary main_v80 main_v84 main_v85 (addi : (⟨S50000, .i32⟩ : BufTy).Contents (Elt F) → (⟨S50000, .i32⟩ : BufTy).Contents (Elt F) → (⟨S50000, .i32⟩ : BufTy).Contents (Elt F)),
    ternary main_v83 main_v85 main_v80 main_v86 (select : (⟨S50000, .i1⟩ : BufTy).Contents (Elt F) → (⟨S50000, .i32⟩ : BufTy).Contents (Elt F) → (⟨S50000, .i32⟩ : BufTy).Contents (Elt F) → (⟨S50000, .i32⟩ : BufTy).Contents (Elt F)),
    unary main_v86 main_v87 (broadcastInDim S50000x1 ![0] bcast_S50000_S50000x1_0 : (⟨S50000, .i32⟩ : BufTy).Contents (Elt F) → (⟨S50000x1, .i32⟩ : BufTy).Contents (Elt F)),
    nullary main_c_29 (constantI S_ 32 1#32),
    unary main_c_29 main_v88 (broadcastInDim S50000 ![] bcast_S_S50000 : (⟨S_, .i32⟩ : BufTy).Contents (Elt F) → (⟨S50000, .i32⟩ : BufTy).Contents (Elt F)),
    ternary main_v81 main_v87 main_v88 main_v89 ((fun x i u => Host.scatter scatter_S800000_S50000x1_S50000_n_0_0_1 IntOp.addi x i u) : (⟨S800000, .i32⟩ : BufTy).Contents (Elt F) → (⟨S50000x1, .i32⟩ : BufTy).Contents (Elt F) → (⟨S50000, .i32⟩ : BufTy).Contents (Elt F) → (⟨S800000, .i32⟩ : BufTy).Contents (Elt F)),
    StableHlo.TRef.nullary (.of main_call11_call0_c : StableHlo.TRef sig ⟨S_, .i32⟩) (constantI S_ 32 0#32),
    StableHlo.TRef.unary (.of main_call11_call0_c : StableHlo.TRef sig ⟨S_, .i32⟩) (.of main_call11_call0_v0 : StableHlo.TRef sig ⟨S_, .i32⟩) (broadcastInDim S_ ![] bcast_S_S_),
    StableHlo.TRef.binary (.of main_v89 : StableHlo.TRef sig ⟨S800000, .i32⟩) (.of main_call11_call0_v0 : StableHlo.TRef sig ⟨S_, .i32⟩) (.of main_v90 : StableHlo.TRef sig ⟨S800000, .i32⟩) (fun x v => Host.reduceWindow IntOp.addi ![800000] ![1] ![799999] ![0] x v reduceWindows_S800000_S800000_w800000s1p799999_0 h_S_),
    nullary main_c_30 (constantI S_ 32 1#32),
    unary main_c_30 main_v91 (broadcastInDim S800000 ![] bcast_S_S800000 : (⟨S_, .i32⟩ : BufTy).Contents (Elt F) → (⟨S800000, .i32⟩ : BufTy).Contents (Elt F)),
    binary main_v90 main_v91 main_v92 (subi : (⟨S800000, .i32⟩ : BufTy).Contents (Elt F) → (⟨S800000, .i32⟩ : BufTy).Contents (Elt F) → (⟨S800000, .i32⟩ : BufTy).Contents (Elt F)),
    StableHlo.TRef.nullary (.of main_call12_c : StableHlo.TRef sig ⟨S_, .i32⟩) (constantI S_ 32 0#32),
    StableHlo.TRef.unary (.of main_call12_c : StableHlo.TRef sig ⟨S_, .i32⟩) (.of main_call12_v0 : StableHlo.TRef sig ⟨S800000, .i32⟩) (broadcastInDim S800000 ![] bcast_S_S800000),
    StableHlo.TRef.binary (.of main_v92 : StableHlo.TRef sig ⟨S800000, .i32⟩) (.of main_call12_v0 : StableHlo.TRef sig ⟨S800000, .i32⟩) (.of main_call12_v1 : StableHlo.TRef sig ⟨S800000, .i1⟩) (cmpi .slt),
    StableHlo.TRef.nullary (.of main_call12_c_0 : StableHlo.TRef sig ⟨S_, .i32⟩) (constantI S_ 32 50000#32),
    StableHlo.TRef.unary (.of main_call12_c_0 : StableHlo.TRef sig ⟨S_, .i32⟩) (.of main_call12_v2 : StableHlo.TRef sig ⟨S800000, .i32⟩) (broadcastInDim S800000 ![] bcast_S_S800000),
    StableHlo.TRef.binary (.of main_v92 : StableHlo.TRef sig ⟨S800000, .i32⟩) (.of main_call12_v2 : StableHlo.TRef sig ⟨S800000, .i32⟩) (.of main_call12_v3 : StableHlo.TRef sig ⟨S800000, .i32⟩) addi,
    StableHlo.TRef.ternary (.of main_call12_v1 : StableHlo.TRef sig ⟨S800000, .i1⟩) (.of main_call12_v3 : StableHlo.TRef sig ⟨S800000, .i32⟩) (.of main_v92 : StableHlo.TRef sig ⟨S800000, .i32⟩) (.of main_call12_v4 : StableHlo.TRef sig ⟨S800000, .i32⟩) select,
    StableHlo.TRef.unary (.of main_call12_v4 : StableHlo.TRef sig ⟨S800000, .i32⟩) (.of main_call12_v5 : StableHlo.TRef sig ⟨S800000x1, .i32⟩) (broadcastInDim S800000x1 ![0] bcast_S800000_S800000x1_0),
    StableHlo.TRef.nullary (.of main_call12_c_1 : StableHlo.TRef sig ⟨S1, .i32⟩) (constantI S1 32 49999#32),
    StableHlo.TRef.nullary (.of main_call12_c_2 : StableHlo.TRef sig ⟨S_, .i32⟩) (constantI S_ 32 0#32),
    StableHlo.TRef.unary (.of main_call12_c_2 : StableHlo.TRef sig ⟨S_, .i32⟩) (.of main_call12_v6 : StableHlo.TRef sig ⟨S800000x1, .i32⟩) (broadcastInDim S800000x1 ![] bcast_S_S800000x1),
    StableHlo.TRef.binary (.of main_call12_v5 : StableHlo.TRef sig ⟨S800000x1, .i32⟩) (.of main_call12_v6 : StableHlo.TRef sig ⟨S800000x1, .i32⟩) (.of main_call12_v7 : StableHlo.TRef sig ⟨S800000x1, .i1⟩) (cmpi .sge),
    StableHlo.TRef.unary (.of main_call12_c_1 : StableHlo.TRef sig ⟨S1, .i32⟩) (.of main_call12_v8 : StableHlo.TRef sig ⟨S1x1, .i32⟩) (broadcastInDim S1x1 ![1] bcast_S1_S1x1_1),
    StableHlo.TRef.unary (.of main_call12_v8 : StableHlo.TRef sig ⟨S1x1, .i32⟩) (.of main_call12_v9 : StableHlo.TRef sig ⟨S800000x1, .i32⟩) (broadcastInDim S800000x1 ![0, 1] bcast_S1x1_S800000x1_0_1),
    StableHlo.TRef.binary (.of main_call12_v5 : StableHlo.TRef sig ⟨S800000x1, .i32⟩) (.of main_call12_v9 : StableHlo.TRef sig ⟨S800000x1, .i32⟩) (.of main_call12_v10 : StableHlo.TRef sig ⟨S800000x1, .i1⟩) (cmpi .sle),
    StableHlo.TRef.binary (.of main_call12_v7 : StableHlo.TRef sig ⟨S800000x1, .i1⟩) (.of main_call12_v10 : StableHlo.TRef sig ⟨S800000x1, .i1⟩) (.of main_call12_v11 : StableHlo.TRef sig ⟨S800000x1, .i1⟩) andi,
    StableHlo.TRef.nullary (.of main_call12_c_3 : StableHlo.TRef sig ⟨S_, .i1⟩) (constantI S_ 1 1#1),
    StableHlo.TRef.binary (.of main_call12_v11 : StableHlo.TRef sig ⟨S800000x1, .i1⟩) (.of main_call12_c_3 : StableHlo.TRef sig ⟨S_, .i1⟩) (.of main_call12_v12 : StableHlo.TRef sig ⟨S800000, .i1⟩) (fun x v => Host.reduce IntOp.andi x v reducesTo_S800000x1_S800000_d1 h_S_),
    StableHlo.TRef.binary (.of main_v59 : StableHlo.TRef sig ⟨S50000, .f32⟩) (.of main_call12_v5 : StableHlo.TRef sig ⟨S800000x1, .i32⟩) (.of main_call12_v13 : StableHlo.TRef sig ⟨S800000, .f32⟩) (fun x i => Host.gather gather_S50000_S800000x1_S800000_n_0_n_n_0_1_1 x i),
    StableHlo.TRef.nullary (.of main_call12_cst : StableHlo.TRef sig ⟨S_, .f32⟩) (constant S_ .f32 0x7FC00000#32),
    StableHlo.TRef.unary (.of main_call12_cst : StableHlo.TRef sig ⟨S_, .f32⟩) (.of main_call12_v14 : StableHlo.TRef sig ⟨S800000, .f32⟩) (broadcastInDim S800000 ![] bcast_S_S800000),
    StableHlo.TRef.ternary (.of main_call12_v12 : StableHlo.TRef sig ⟨S800000, .i1⟩) (.of main_call12_v13 : StableHlo.TRef sig ⟨S800000, .f32⟩) (.of main_call12_v14 : StableHlo.TRef sig ⟨S800000, .f32⟩) (.of main_v93 : StableHlo.TRef sig ⟨S800000, .f32⟩) select,
    binary main_v34 main_v76 main_v94 (Host.divf : (⟨S800000, .f32⟩ : BufTy).Contents (Elt F) → (⟨S800000, .f32⟩ : BufTy).Contents (Elt F) → (⟨S800000, .f32⟩ : BufTy).Contents (Elt F)),
    binary main_v43 main_v93 main_v95 (Host.divf : (⟨S800000, .f32⟩ : BufTy).Contents (Elt F) → (⟨S800000, .f32⟩ : BufTy).Contents (Elt F) → (⟨S800000, .f32⟩ : BufTy).Contents (Elt F)),
    nullary main_c_31 (constantI S_ 32 1#32) ]

/-- The buffers those operations write, in order. -/
abbrev opsC_W : List (Ref sig .tc) :=
  [main_call4_v0, main_call4_v1, main_v45, main_c_12, main_v46, main_v47, main_c_13, main_v48, main_v49, main_v50, main_v51, main_c_14, main_v52, main_v53, main_cst_15, main_v54, main_v55, main_v56, main_cst_16, main_v57, main_v58, main_v59, main_call5_v0, main_call5_v1, main_v60, main_c_17, main_v61, main_c_18, main_v62, main_call6_call0_c, main_call6_call0_v0, main_v63, main_c_19, main_v64, main_c_20, main_v65, main_v66, main_c_21, main_v67, main_v68, main_v69, main_v70, main_c_22, main_v71, main_v72, main_call7_call0_c, main_call7_call0_v0, main_v73, main_c_23, main_v74, main_v75, main_call8_c, main_call8_v0, main_call8_v1, main_call8_c_0, main_call8_v2, main_call8_v3, main_call8_v4, main_call8_v5, main_call8_c_1, main_call8_c_2, main_call8_v6, main_call8_v7, main_call8_v8, main_call8_v9, main_call8_v10, main_call8_v11, main_call8_c_3, main_call8_v12, main_call8_v13, main_call8_cst, main_call8_v14, main_v76, main_call9_v0, main_call9_v1, main_v77, main_c_24, main_v78, main_c_25, main_v79, main_call10_call0_c, main_call10_call0_v0, main_v80, main_c_26, main_v81, main_c_27, main_v82, main_v83, main_c_28, main_v84, main_v85, main_v86, main_v87, main_c_29, main_v88, main_v89, main_call11_call0_c, main_call11_call0_v0, main_v90, main_c_30, main_v91, main_v92, main_call12_c, main_call12_v0, main_call12_v1, main_call12_c_0, main_call12_v2, main_call12_v3, main_call12_v4, main_call12_v5, main_call12_c_1, main_call12_c_2, main_call12_v6, main_call12_v7, main_call12_v8, main_call12_v9, main_call12_v10, main_call12_v11, main_call12_c_3, main_call12_v12, main_call12_v13, main_call12_cst, main_call12_v14, main_v93, main_v94, main_v95, main_c_31]

set_option maxRecDepth 8192 in
/-- Each touches TensorCore references only. -/
theorem opsC_sub : (opsC : List (HloOp τ sig (Elt F))).Forall fun op => op.bufs ⊆ tcRefs τ sig :=
  ⟨unary_bufs_sub .., unary_bufs_sub .., binary_bufs_sub .., nullary_bufs_sub .., unary_bufs_sub .., binary_bufs_sub .., nullary_bufs_sub .., unary_bufs_sub .., binary_bufs_sub .., ternary_bufs_sub .., unary_bufs_sub .., nullary_bufs_sub .., unary_bufs_sub .., ternary_bufs_sub .., nullary_bufs_sub .., unary_bufs_sub .., unary_bufs_sub .., ternary_bufs_sub .., nullary_bufs_sub .., unary_bufs_sub .., unary_bufs_sub .., ternary_bufs_sub .., unary_bufs_sub .., unary_bufs_sub .., binary_bufs_sub .., nullary_bufs_sub .., unary_bufs_sub .., nullary_bufs_sub .., ternary_bufs_sub .., nullary_bufs_sub .., unary_bufs_sub .., binary_bufs_sub .., nullary_bufs_sub .., unary_bufs_sub .., nullary_bufs_sub .., unary_bufs_sub .., binary_bufs_sub .., nullary_bufs_sub .., unary_bufs_sub .., binary_bufs_sub .., ternary_bufs_sub .., unary_bufs_sub .., nullary_bufs_sub .., unary_bufs_sub .., ternary_bufs_sub .., nullary_bufs_sub .., unary_bufs_sub .., binary_bufs_sub .., nullary_bufs_sub .., unary_bufs_sub .., binary_bufs_sub .., nullary_bufs_sub .., unary_bufs_sub .., binary_bufs_sub .., nullary_bufs_sub .., unary_bufs_sub .., binary_bufs_sub .., ternary_bufs_sub .., unary_bufs_sub .., nullary_bufs_sub .., nullary_bufs_sub .., unary_bufs_sub .., binary_bufs_sub .., unary_bufs_sub .., unary_bufs_sub .., binary_bufs_sub .., binary_bufs_sub .., nullary_bufs_sub .., binary_bufs_sub .., binary_bufs_sub .., nullary_bufs_sub .., unary_bufs_sub .., ternary_bufs_sub .., unary_bufs_sub .., unary_bufs_sub .., binary_bufs_sub .., nullary_bufs_sub .., unary_bufs_sub .., nullary_bufs_sub .., ternary_bufs_sub .., nullary_bufs_sub .., unary_bufs_sub .., binary_bufs_sub .., nullary_bufs_sub .., unary_bufs_sub .., nullary_bufs_sub .., unary_bufs_sub .., binary_bufs_sub .., nullary_bufs_sub .., unary_bufs_sub .., binary_bufs_sub .., ternary_bufs_sub .., unary_bufs_sub .., nullary_bufs_sub .., unary_bufs_sub .., ternary_bufs_sub .., nullary_bufs_sub .., unary_bufs_sub .., binary_bufs_sub .., nullary_bufs_sub .., unary_bufs_sub .., binary_bufs_sub .., nullary_bufs_sub .., unary_bufs_sub .., binary_bufs_sub .., nullary_bufs_sub .., unary_bufs_sub .., binary_bufs_sub .., ternary_bufs_sub .., unary_bufs_sub .., nullary_bufs_sub .., nullary_bufs_sub .., unary_bufs_sub .., binary_bufs_sub .., unary_bufs_sub .., unary_bufs_sub .., binary_bufs_sub .., binary_bufs_sub .., nullary_bufs_sub .., binary_bufs_sub .., binary_bufs_sub .., nullary_bufs_sub .., unary_bufs_sub .., ternary_bufs_sub .., binary_bufs_sub .., binary_bufs_sub .., nullary_bufs_sub ..⟩

/-- Operations 197 … 237 of 269, calls inlined. -/
abbrev opsD : List (HloOp τ sig (Elt F)) :=
  [ StableHlo.TRef.nullary (.of main_call13_cst : StableHlo.TRef sig ⟨S_, .f32⟩) (constant S_ .f32 0x00000000#32),
    StableHlo.TRef.binary (.of main_v94 : StableHlo.TRef sig ⟨S800000, .f32⟩) (.of main_call13_cst : StableHlo.TRef sig ⟨S_, .f32⟩) (.of main_call13_v0 : StableHlo.TRef sig ⟨S_, .f32⟩) (fun x v => Host.reduceAdd x v reducesTo_S800000_S_d0 h_S_),
    StableHlo.TRef.unary (.of main_call13_v0 : StableHlo.TRef sig ⟨S_, .f32⟩) (.of main_call13_v1 : StableHlo.TRef sig ⟨S1, .f32⟩) (broadcastInDim S1 ![] bcast_S_S1),
    StableHlo.TRef.nullary (.of main_call13_cst_0 : StableHlo.TRef sig ⟨S_, .f32⟩) (constant S_ .f32 0x49435000#32),
    StableHlo.TRef.unary (.of main_call13_cst_0 : StableHlo.TRef sig ⟨S_, .f32⟩) (.of main_call13_v2 : StableHlo.TRef sig ⟨S1, .f32⟩) (broadcastInDim S1 ![] bcast_S_S1),
    StableHlo.TRef.binary (.of main_call13_v1 : StableHlo.TRef sig ⟨S1, .f32⟩) (.of main_call13_v2 : StableHlo.TRef sig ⟨S1, .f32⟩) (.of main_call13_v3 : StableHlo.TRef sig ⟨S1, .f32⟩) Host.divf,
    StableHlo.TRef.unary (.of main_call13_v3 : StableHlo.TRef sig ⟨S1, .f32⟩) (.of main_call13_v4 : StableHlo.TRef sig ⟨S800000, .f32⟩) (broadcastInDim S800000 ![0] bcast_S1_S800000_0),
    StableHlo.TRef.binary (.of main_v94 : StableHlo.TRef sig ⟨S800000, .f32⟩) (.of main_call13_v4 : StableHlo.TRef sig ⟨S800000, .f32⟩) (.of main_call13_v5 : StableHlo.TRef sig ⟨S800000, .f32⟩) subf,
    StableHlo.TRef.binary (.of main_call13_v5 : StableHlo.TRef sig ⟨S800000, .f32⟩) (.of main_call13_v5 : StableHlo.TRef sig ⟨S800000, .f32⟩) (.of main_call13_v6 : StableHlo.TRef sig ⟨S800000, .f32⟩) mulf,
    StableHlo.TRef.unary (.of main_c_31 : StableHlo.TRef sig ⟨S_, .i32⟩) (.of main_call13_v7 : StableHlo.TRef sig ⟨S_, .f32⟩) (sitofp .f32),
    StableHlo.TRef.nullary (.of main_call13_cst_1 : StableHlo.TRef sig ⟨S_, .f32⟩) (constant S_ .f32 0x49435000#32),
    StableHlo.TRef.binary (.of main_call13_cst_1 : StableHlo.TRef sig ⟨S_, .f32⟩) (.of main_call13_v7 : StableHlo.TRef sig ⟨S_, .f32⟩) (.of main_call13_v8 : StableHlo.TRef sig ⟨S_, .f32⟩) subf,
    StableHlo.TRef.nullary (.of main_call13_cst_2 : StableHlo.TRef sig ⟨S_, .f32⟩) (constant S_ .f32 0x00000000#32),
    StableHlo.TRef.binary (.of main_call13_v6 : StableHlo.TRef sig ⟨S800000, .f32⟩) (.of main_call13_cst_2 : StableHlo.TRef sig ⟨S_, .f32⟩) (.of main_call13_v9 : StableHlo.TRef sig ⟨S_, .f32⟩) (fun x v => Host.reduceAdd x v reducesTo_S800000_S_d0 h_S_),
    StableHlo.TRef.binary (.of main_call13_v9 : StableHlo.TRef sig ⟨S_, .f32⟩) (.of main_call13_v8 : StableHlo.TRef sig ⟨S_, .f32⟩) (.of main_call13_v10 : StableHlo.TRef sig ⟨S_, .f32⟩) Host.divf,
    StableHlo.TRef.nullary (.of main_call13_cst_3 : StableHlo.TRef sig ⟨S_, .f32⟩) (constant S_ .f32 0x00000000#32),
    StableHlo.TRef.binary (.of main_call13_v8 : StableHlo.TRef sig ⟨S_, .f32⟩) (.of main_call13_cst_3 : StableHlo.TRef sig ⟨S_, .f32⟩) (.of main_call13_v11 : StableHlo.TRef sig ⟨S_, .i1⟩) (cmpf .ogt),
    StableHlo.TRef.nullary (.of main_call13_cst_4 : StableHlo.TRef sig ⟨S_, .f32⟩) (constant S_ .f32 0x7FC00000#32),
    StableHlo.TRef.unary (.of main_call13_cst_4 : StableHlo.TRef sig ⟨S_, .f32⟩) (.of main_call13_call0_v0 : StableHlo.TRef sig ⟨S_, .f32⟩) id,
    StableHlo.TRef.ternary (.of main_call13_v11 : StableHlo.TRef sig ⟨S_, .i1⟩) (.of main_call13_v10 : StableHlo.TRef sig ⟨S_, .f32⟩) (.of main_call13_call0_v0 : StableHlo.TRef sig ⟨S_, .f32⟩) (.of main_v96 : StableHlo.TRef sig ⟨S_, .f32⟩) select,
    nullary main_c_32 (constantI S_ 32 1#32),
    StableHlo.TRef.nullary (.of main_call14_cst : StableHlo.TRef sig ⟨S_, .f32⟩) (constant S_ .f32 0x00000000#32),
    StableHlo.TRef.binary (.of main_v95 : StableHlo.TRef sig ⟨S800000, .f32⟩) (.of main_call14_cst : StableHlo.TRef sig ⟨S_, .f32⟩) (.of main_call14_v0 : StableHlo.TRef sig ⟨S_, .f32⟩) (fun x v => Host.reduceAdd x v reducesTo_S800000_S_d0 h_S_),
    StableHlo.TRef.unary (.of main_call14_v0 : StableHlo.TRef sig ⟨S_, .f32⟩) (.of main_call14_v1 : StableHlo.TRef sig ⟨S1, .f32⟩) (broadcastInDim S1 ![] bcast_S_S1),
    StableHlo.TRef.nullary (.of main_call14_cst_0 : StableHlo.TRef sig ⟨S_, .f32⟩) (constant S_ .f32 0x49435000#32),
    StableHlo.TRef.unary (.of main_call14_cst_0 : StableHlo.TRef sig ⟨S_, .f32⟩) (.of main_call14_v2 : StableHlo.TRef sig ⟨S1, .f32⟩) (broadcastInDim S1 ![] bcast_S_S1),
    StableHlo.TRef.binary (.of main_call14_v1 : StableHlo.TRef sig ⟨S1, .f32⟩) (.of main_call14_v2 : StableHlo.TRef sig ⟨S1, .f32⟩) (.of main_call14_v3 : StableHlo.TRef sig ⟨S1, .f32⟩) Host.divf,
    StableHlo.TRef.unary (.of main_call14_v3 : StableHlo.TRef sig ⟨S1, .f32⟩) (.of main_call14_v4 : StableHlo.TRef sig ⟨S800000, .f32⟩) (broadcastInDim S800000 ![0] bcast_S1_S800000_0),
    StableHlo.TRef.binary (.of main_v95 : StableHlo.TRef sig ⟨S800000, .f32⟩) (.of main_call14_v4 : StableHlo.TRef sig ⟨S800000, .f32⟩) (.of main_call14_v5 : StableHlo.TRef sig ⟨S800000, .f32⟩) subf,
    StableHlo.TRef.binary (.of main_call14_v5 : StableHlo.TRef sig ⟨S800000, .f32⟩) (.of main_call14_v5 : StableHlo.TRef sig ⟨S800000, .f32⟩) (.of main_call14_v6 : StableHlo.TRef sig ⟨S800000, .f32⟩) mulf,
    StableHlo.TRef.unary (.of main_c_32 : StableHlo.TRef sig ⟨S_, .i32⟩) (.of main_call14_v7 : StableHlo.TRef sig ⟨S_, .f32⟩) (sitofp .f32),
    StableHlo.TRef.nullary (.of main_call14_cst_1 : StableHlo.TRef sig ⟨S_, .f32⟩) (constant S_ .f32 0x49435000#32),
    StableHlo.TRef.binary (.of main_call14_cst_1 : StableHlo.TRef sig ⟨S_, .f32⟩) (.of main_call14_v7 : StableHlo.TRef sig ⟨S_, .f32⟩) (.of main_call14_v8 : StableHlo.TRef sig ⟨S_, .f32⟩) subf,
    StableHlo.TRef.nullary (.of main_call14_cst_2 : StableHlo.TRef sig ⟨S_, .f32⟩) (constant S_ .f32 0x00000000#32),
    StableHlo.TRef.binary (.of main_call14_v6 : StableHlo.TRef sig ⟨S800000, .f32⟩) (.of main_call14_cst_2 : StableHlo.TRef sig ⟨S_, .f32⟩) (.of main_call14_v9 : StableHlo.TRef sig ⟨S_, .f32⟩) (fun x v => Host.reduceAdd x v reducesTo_S800000_S_d0 h_S_),
    StableHlo.TRef.binary (.of main_call14_v9 : StableHlo.TRef sig ⟨S_, .f32⟩) (.of main_call14_v8 : StableHlo.TRef sig ⟨S_, .f32⟩) (.of main_call14_v10 : StableHlo.TRef sig ⟨S_, .f32⟩) Host.divf,
    StableHlo.TRef.nullary (.of main_call14_cst_3 : StableHlo.TRef sig ⟨S_, .f32⟩) (constant S_ .f32 0x00000000#32),
    StableHlo.TRef.binary (.of main_call14_v8 : StableHlo.TRef sig ⟨S_, .f32⟩) (.of main_call14_cst_3 : StableHlo.TRef sig ⟨S_, .f32⟩) (.of main_call14_v11 : StableHlo.TRef sig ⟨S_, .i1⟩) (cmpf .ogt),
    StableHlo.TRef.nullary (.of main_call14_cst_4 : StableHlo.TRef sig ⟨S_, .f32⟩) (constant S_ .f32 0x7FC00000#32),
    StableHlo.TRef.unary (.of main_call14_cst_4 : StableHlo.TRef sig ⟨S_, .f32⟩) (.of main_call14_call0_v0 : StableHlo.TRef sig ⟨S_, .f32⟩) id,
    StableHlo.TRef.ternary (.of main_call14_v11 : StableHlo.TRef sig ⟨S_, .i1⟩) (.of main_call14_v10 : StableHlo.TRef sig ⟨S_, .f32⟩) (.of main_call14_call0_v0 : StableHlo.TRef sig ⟨S_, .f32⟩) (.of main_v97 : StableHlo.TRef sig ⟨S_, .f32⟩) select ]

/-- The buffers those operations write, in order. -/
abbrev opsD_W : List (Ref sig .tc) :=
  [main_call13_cst, main_call13_v0, main_call13_v1, main_call13_cst_0, main_call13_v2, main_call13_v3, main_call13_v4, main_call13_v5, main_call13_v6, main_call13_v7, main_call13_cst_1, main_call13_v8, main_call13_cst_2, main_call13_v9, main_call13_v10, main_call13_cst_3, main_call13_v11, main_call13_cst_4, main_call13_call0_v0, main_v96, main_c_32, main_call14_cst, main_call14_v0, main_call14_v1, main_call14_cst_0, main_call14_v2, main_call14_v3, main_call14_v4, main_call14_v5, main_call14_v6, main_call14_v7, main_call14_cst_1, main_call14_v8, main_call14_cst_2, main_call14_v9, main_call14_v10, main_call14_cst_3, main_call14_v11, main_call14_cst_4, main_call14_call0_v0, main_v97]

set_option maxRecDepth 8192 in
/-- Each touches TensorCore references only. -/
theorem opsD_sub : (opsD : List (HloOp τ sig (Elt F))).Forall fun op => op.bufs ⊆ tcRefs τ sig :=
  ⟨nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., binary_bufs_sub .., nullary_bufs_sub .., binary_bufs_sub .., nullary_bufs_sub .., unary_bufs_sub .., ternary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., binary_bufs_sub .., nullary_bufs_sub .., binary_bufs_sub .., nullary_bufs_sub .., unary_bufs_sub .., ternary_bufs_sub ..⟩

/-- Operations 238 … 269 of 269, calls inlined. -/
abbrev opsE : List (HloOp τ sig (Elt F)) :=
  [ nullary main_c_33 (constantI S_ 32 0#32),
    unary main_c_33 main_v98 (broadcastInDim S800000 ![] bcast_S_S800000 : (⟨S_, .i32⟩ : BufTy).Contents (Elt F) → (⟨S800000, .i32⟩ : BufTy).Contents (Elt F)),
    binary main_v7 main_v98 main_v99 (cmpi .slt : (⟨S800000, .i32⟩ : BufTy).Contents (Elt F) → (⟨S800000, .i32⟩ : BufTy).Contents (Elt F) → (⟨S800000, .i1⟩ : BufTy).Contents (Elt F)),
    nullary main_c_34 (constantI S_ 32 50000#32),
    unary main_c_34 main_v100 (broadcastInDim S800000 ![] bcast_S_S800000 : (⟨S_, .i32⟩ : BufTy).Contents (Elt F) → (⟨S800000, .i32⟩ : BufTy).Contents (Elt F)),
    binary main_v7 main_v100 main_v101 (addi : (⟨S800000, .i32⟩ : BufTy).Contents (Elt F) → (⟨S800000, .i32⟩ : BufTy).Contents (Elt F) → (⟨S800000, .i32⟩ : BufTy).Contents (Elt F)),
    ternary main_v99 main_v101 main_v7 main_v102 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v102 main_v103 (broadcastInDim S800000x1 ![0] bcast_S800000_S800000x1_0 : (⟨S800000, .i32⟩ : BufTy).Contents (Elt F) → (⟨S800000x1, .i32⟩ : BufTy).Contents (Elt F)),
    binary main_v8 main_v103 main_v104 ((fun x i => Host.gather gather_S50000x128_S800000x1_S800000x128_1_0_n_n_0_1_1128 x i) : (⟨S50000x128, .f32⟩ : BufTy).Contents (Elt F) → (⟨S800000x1, .i32⟩ : BufTy).Contents (Elt F) → (⟨S800000x128, .f32⟩ : BufTy).Contents (Elt F)),
    unary main_v94 main_v105 (broadcastInDim S800000x1 ![0] bcast_S800000_S800000x1_0 : (⟨S800000, .f32⟩ : BufTy).Contents (Elt F) → (⟨S800000x1, .f32⟩ : BufTy).Contents (Elt F)),
    unary main_v105 main_v106 (broadcastInDim S800000x128 ![0, 1] bcast_S800000x1_S800000x128_0_1 : (⟨S800000x1, .f32⟩ : BufTy).Contents (Elt F) → (⟨S800000x128, .f32⟩ : BufTy).Contents (Elt F)),
    binary main_v104 main_v106 main_v107 (mulf : (⟨S800000x128, .f32⟩ : BufTy).Contents (Elt F) → (⟨S800000x128, .f32⟩ : BufTy).Contents (Elt F) → (⟨S800000x128, .f32⟩ : BufTy).Contents (Elt F)),
    nullary main_cst_35 (constant S_ .f32 0x00000000#32),
    unary main_cst_35 main_v108 (broadcastInDim S50000x128 ![] bcast_S_S50000x128 : (⟨S_, .f32⟩ : BufTy).Contents (Elt F) → (⟨S50000x128, .f32⟩ : BufTy).Contents (Elt F)),
    unary main_v5 main_v109 (broadcastInDim S800000x1 ![0] bcast_S800000_S800000x1_0 : (⟨S800000, .i32⟩ : BufTy).Contents (Elt F) → (⟨S800000x1, .i32⟩ : BufTy).Contents (Elt F)),
    ternary main_v108 main_v109 main_v107 main_v110 ((fun x i u => Host.scatterAdd scatter_S50000x128_S800000x1_S800000x128_1_0_0_1 x i u) : (⟨S50000x128, .f32⟩ : BufTy).Contents (Elt F) → (⟨S800000x1, .i32⟩ : BufTy).Contents (Elt F) → (⟨S800000x128, .f32⟩ : BufTy).Contents (Elt F) → (⟨S50000x128, .f32⟩ : BufTy).Contents (Elt F)),
    nullary main_c_36 (constantI S_ 32 0#32),
    unary main_c_36 main_v111 (broadcastInDim S800000 ![] bcast_S_S800000 : (⟨S_, .i32⟩ : BufTy).Contents (Elt F) → (⟨S800000, .i32⟩ : BufTy).Contents (Elt F)),
    binary main_v7 main_v111 main_v112 (cmpi .slt : (⟨S800000, .i32⟩ : BufTy).Contents (Elt F) → (⟨S800000, .i32⟩ : BufTy).Contents (Elt F) → (⟨S800000, .i1⟩ : BufTy).Contents (Elt F)),
    nullary main_c_37 (constantI S_ 32 800000#32),
    unary main_c_37 main_v113 (broadcastInDim S800000 ![] bcast_S_S800000 : (⟨S_, .i32⟩ : BufTy).Contents (Elt F) → (⟨S800000, .i32⟩ : BufTy).Contents (Elt F)),
    binary main_v7 main_v113 main_v114 (addi : (⟨S800000, .i32⟩ : BufTy).Contents (Elt F) → (⟨S800000, .i32⟩ : BufTy).Contents (Elt F) → (⟨S800000, .i32⟩ : BufTy).Contents (Elt F)),
    ternary main_v112 main_v114 main_v7 main_v115 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v115 main_v116 (broadcastInDim S800000x1 ![0] bcast_S800000_S800000x1_0 : (⟨S800000, .i32⟩ : BufTy).Contents (Elt F) → (⟨S800000x1, .i32⟩ : BufTy).Contents (Elt F)),
    binary main_v9 main_v116 main_v117 ((fun x i => Host.gather gather_S800000x128_S800000x1_S800000x128_1_0_n_n_0_1_1128 x i) : (⟨S800000x128, .f32⟩ : BufTy).Contents (Elt F) → (⟨S800000x1, .i32⟩ : BufTy).Contents (Elt F) → (⟨S800000x128, .f32⟩ : BufTy).Contents (Elt F)),
    unary main_v95 main_v118 (broadcastInDim S800000x1 ![0] bcast_S800000_S800000x1_0 : (⟨S800000, .f32⟩ : BufTy).Contents (Elt F) → (⟨S800000x1, .f32⟩ : BufTy).Contents (Elt F)),
    unary main_v118 main_v119 (broadcastInDim S800000x128 ![0, 1] bcast_S800000x1_S800000x128_0_1 : (⟨S800000x1, .f32⟩ : BufTy).Contents (Elt F) → (⟨S800000x128, .f32⟩ : BufTy).Contents (Elt F)),
    binary main_v117 main_v119 main_v120 (mulf : (⟨S800000x128, .f32⟩ : BufTy).Contents (Elt F) → (⟨S800000x128, .f32⟩ : BufTy).Contents (Elt F) → (⟨S800000x128, .f32⟩ : BufTy).Contents (Elt F)),
    nullary main_cst_38 (constant S_ .f32 0x00000000#32),
    unary main_cst_38 main_v121 (broadcastInDim S50000x128 ![] bcast_S_S50000x128 : (⟨S_, .f32⟩ : BufTy).Contents (Elt F) → (⟨S50000x128, .f32⟩ : BufTy).Contents (Elt F)),
    unary main_v5 main_v122 (broadcastInDim S800000x1 ![0] bcast_S800000_S800000x1_0 : (⟨S800000, .i32⟩ : BufTy).Contents (Elt F) → (⟨S800000x1, .i32⟩ : BufTy).Contents (Elt F)),
    ternary main_v121 main_v122 main_v120 main_v123 ((fun x i u => Host.scatterAdd scatter_S50000x128_S800000x1_S800000x128_1_0_0_1 x i u) : (⟨S50000x128, .f32⟩ : BufTy).Contents (Elt F) → (⟨S800000x1, .i32⟩ : BufTy).Contents (Elt F) → (⟨S800000x128, .f32⟩ : BufTy).Contents (Elt F) → (⟨S50000x128, .f32⟩ : BufTy).Contents (Elt F)) ]

/-- The buffers those operations write, in order. -/
abbrev opsE_W : List (Ref sig .tc) :=
  [main_c_33, main_v98, main_v99, main_c_34, main_v100, main_v101, main_v102, main_v103, main_v104, main_v105, main_v106, main_v107, main_cst_35, main_v108, main_v109, main_v110, main_c_36, main_v111, main_v112, main_c_37, main_v113, main_v114, main_v115, main_v116, main_v117, main_v118, main_v119, main_v120, main_cst_38, main_v121, main_v122, main_v123]

set_option maxRecDepth 8192 in
/-- Each touches TensorCore references only. -/
theorem opsE_sub : (opsE : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., binary_bufs_sub .., unary_bufs_sub .., unary_bufs_sub .., binary_bufs_sub .., nullary_bufs_sub .., unary_bufs_sub .., unary_bufs_sub .., ternary_bufs_sub .., nullary_bufs_sub .., unary_bufs_sub .., binary_bufs_sub .., nullary_bufs_sub .., unary_bufs_sub .., binary_bufs_sub .., ternary_bufs_sub .., unary_bufs_sub .., binary_bufs_sub .., unary_bufs_sub .., unary_bufs_sub .., binary_bufs_sub .., nullary_bufs_sub .., unary_bufs_sub .., unary_bufs_sub .., ternary_bufs_sub ..⟩

end Cert.ReferenceIdeal.Hand

end
-- ==== Proof.RefRun.lean ====
/- The reference program's run. Its entry function is a straight line of host operations once every call of a
   module-local function is replaced by the callee's operations over the call's own buffers (the five consecutive
   stretches of the operations module). This module proves that reading: each printed window of the entry function IS
   the sequence of its part of the line, the entry function the sequence of the whole line; so every weakly fair
   execution terminates with every buffer at the fold of the operations over the launch contents. -/
import proofs.«130992_j35871566856204_2_alg».proof.Proof.RefOps

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-- The entry function's operations, in order: the five stretches, one after the other. -/
abbrev ops : List (HloOp τ sig (Elt F)) := opsA ++ (opsB ++ (opsC ++ (opsD ++ opsE)))

/-! ## Each printed window is the sequence of its part of the line

The windows end at operations 72 and 163 of the line, both inside the third stretch (which begins at operation 69 and
has 127 operations): the first window is the first two stretches and three operations of the third, the second the
next 91 of the third, the last the third's remaining 33 and the last two stretches. Both sides of each equation are
one chain of host steps: a call unfolds to its callee's steps followed by a return of the unit, which sequencing
absorbs. -/

/-- Operations 1 … 72. -/
abbrev win0 : List (HloOp τ sig (Elt F)) := opsA ++ (opsB ++ opsC.take 3)
/-- Operations 73 … 163. -/
abbrev win1 : List (HloOp τ sig (Elt F)) := (opsC.drop 3).take 91
/-- Operations 164 … 269. -/
abbrev win2 : List (HloOp τ sig (Elt F)) := opsC.drop 94 ++ (opsD ++ opsE)

set_option maxRecDepth 8192 in
set_option maxHeartbeats 400000 in
theorem main_part0_eq (c : Dev nD) : main_part0 (F := F) c = seq win0 := rfl

set_option maxRecDepth 8192 in
set_option maxHeartbeats 400000 in
theorem main_part1_eq (c : Dev nD) : main_part1 (F := F) c = seq win1 := rfl

set_option maxRecDepth 8192 in
set_option maxHeartbeats 400000 in
theorem main_part2_eq (c : Dev nD) : main_part2 (F := F) c = seq win2 := rfl

/-- The third stretch is its three pieces. -/
theorem opsC_pieces :
    (opsC : List (HloOp τ sig (Elt F))) = opsC.take 3 ++ ((opsC.drop 3).take 91 ++ opsC.drop 94) := by
  rw [show (opsC : List (HloOp τ sig (Elt F))).drop 94 = (opsC.drop 3).drop 91 from by rw [List.drop_drop],
    List.take_append_drop, List.take_append_drop]

/-- The line is the three windows' parts, one after the other. -/
theorem ops_eq_windows : (ops : List (HloOp τ sig (Elt F))) = win0 ++ (win1 ++ win2) := by
  show opsA ++ (opsB ++ (opsC ++ (opsD ++ opsE)))
    = (opsA ++ (opsB ++ opsC.take 3)) ++ ((opsC.drop 3).take 91 ++ (opsC.drop 94 ++ (opsD ++ opsE)))
  conv_lhs => rw [opsC_pieces]
  simp only [List.append_assoc]

/-- The entry function is the sequence of all the operations: it runs its windows in order, and a sequence of a
    concatenation is the sequences one after the other. -/
theorem main_eq (c : Dev nD) : main (F := F) c = seq ops := by
  rw [ops_eq_windows, seq_append win0 (win1 ++ win2), seq_append win1 win2, ← main_part0_eq c, ← main_part1_eq c,
    ← main_part2_eq c]
  rfl

theorem scopedRefs_eq : (Finset.univ.filter fun b : Ref sig .tc => b.isScoped) = ∅ := by decide
theorem scopedSems_eq : (Finset.univ.filter fun sm : SemLoc sig => sm.isScoped .tc) = ∅ := by decide

/-- Membership in the line is membership in one of the stretches. -/
theorem mem_ops {op : HloOp τ sig (Elt F)} (h : op ∈ (ops : List (HloOp τ sig (Elt F)))) :
    op ∈ (opsA : List (HloOp τ sig (Elt F))) ∨ op ∈ (opsB : List (HloOp τ sig (Elt F)))
      ∨ op ∈ (opsC : List (HloOp τ sig (Elt F))) ∨ op ∈ (opsD : List (HloOp τ sig (Elt F)))
      ∨ op ∈ (opsE : List (HloOp τ sig (Elt F))) := by
  simpa only [ops, List.mem_append] using h

/-- Every operation touches TensorCore references only: stretch by stretch. -/
theorem ops_sub : (ops : List (HloOp τ sig (Elt F))).Forall fun op => op.bufs ⊆ tcRefs τ sig :=
  List.forall_iff_forall_mem.mpr fun op h => by
    rcases mem_ops h with h | h | h | h | h
    exacts [List.forall_iff_forall_mem.mp opsA_sub op h, List.forall_iff_forall_mem.mp opsB_sub op h,
      List.forall_iff_forall_mem.mp opsC_sub op h, List.forall_iff_forall_mem.mp opsD_sub op h,
      List.forall_iff_forall_mem.mp opsE_sub op h]

/-! ## No operation allocates: each determines its results -/

set_option maxRecDepth 8192 in
theorem opsA_fresh : (opsA : List (HloOp τ sig (Elt F))).Forall fun op => op.fresh = ∅ := by
  simp only [List.Forall]
  repeat' apply And.intro
  all_goals rfl

set_option maxRecDepth 8192 in
theorem opsB_fresh : (opsB : List (HloOp τ sig (Elt F))).Forall fun op => op.fresh = ∅ := by
  simp only [List.Forall]
  repeat' apply And.intro
  all_goals rfl

set_option maxRecDepth 8192 in
theorem opsC_fresh : (opsC : List (HloOp τ sig (Elt F))).Forall fun op => op.fresh = ∅ := by
  simp only [List.Forall]
  repeat' apply And.intro
  all_goals rfl

set_option maxRecDepth 8192 in
theorem opsD_fresh : (opsD : List (HloOp τ sig (Elt F))).Forall fun op => op.fresh = ∅ := by
  simp only [List.Forall]
  repeat' apply And.intro
  all_goals rfl

set_option maxRecDepth 8192 in
theorem opsE_fresh : (opsE : List (HloOp τ sig (Elt F))).Forall fun op => op.fresh = ∅ := by
  simp only [List.Forall]
  repeat' apply And.intro
  all_goals rfl

theorem ops_fresh : ∀ op ∈ (ops : List (HloOp τ sig (Elt F))), op.fresh = ∅ := fun op h => by
  rcases mem_ops h with h | h | h | h | h
  exacts [List.forall_iff_forall_mem.mp opsA_fresh op h, List.forall_iff_forall_mem.mp opsB_fresh op h,
    List.forall_iff_forall_mem.mp opsC_fresh op h, List.forall_iff_forall_mem.mp opsD_fresh op h,
    List.forall_iff_forall_mem.mp opsE_fresh op h]

/-! ## The run -/

/-- At the compiled mesh, for any float values, from any memory with zero counters: every weakly fair execution of the
    entry function on the TensorCores terminates, and every final state has each TensorCore buffer at the fold of
    the operations over the launch contents. -/
theorem run_fold (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc),
        r.2.mem ((c.tc : Thread nD τ).loc b) = after ops (launchContents m c) (Proc.devRef .tc b) :=
  run_seq scopedRefs_eq scopedSems_eq defs main (fun _ => ops) main_eq (fun _ => ops_sub) m ρ (fun _ => ops_fresh)

end Cert.ReferenceIdeal.Hand

end
-- ==== Proof.RefFrame.lean ====
/- The reference program's arguments end as they were launched. Each stretch of the line writes only the buffers of
   its list of written buffers (every operation writes exactly its result buffer), so a buffer outside all five lists
   holds after the whole line what it held before; the seven argument buffers are outside them. With the run
   (every buffer ends at the fold of the operations over the launch contents) this is the frame: every weakly fair
   execution terminates and the arguments are unchanged. -/
import proofs.«130992_j35871566856204_2_alg».proof.Proof.RefRun

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-- The fold over a concatenation is the folds one after the other. -/
theorem after_concat : ∀ (l₁ l₂ : List (HloOp τ sig (Elt F))) (V : Valuation τ sig (Elt F)),
    after (l₁ ++ l₂) V = after l₂ (after l₁ V)
  | [], _, _ => rfl
  | op :: l₁, l₂, V => by rw [List.cons_append, after_cons, after_cons, after_concat l₁ l₂]

/-- The fold over the whole line, stretch by stretch. -/
theorem after_ops (V : Valuation τ sig (Elt F)) :
    after ops V = after opsE (after opsD (after opsC (after opsB (after opsA V)))) := by
  rw [show (ops : List (HloOp τ sig (Elt F))) = opsA ++ (opsB ++ (opsC ++ (opsD ++ opsE))) from rfl,
    after_concat, after_concat, after_concat, after_concat]

/-! ## What each stretch writes -/

/-- An operation whose one written buffer is in the list writes inside the list. -/
theorem writes_sub_of {op : HloOp τ sig (Elt F)} {y : Ref sig .tc} {W : List (Ref sig .tc)}
    (h : op.writes = {Proc.devRef .tc y}) (hy : y ∈ W) :
    op.writes ⊆ (W.map (Proc.devRef (τ := τ) .tc)).toFinset := by
  rw [h, Finset.singleton_subset_iff, List.mem_toFinset]
  exact List.mem_map_of_mem hy

set_option maxRecDepth 8192 in
theorem opsA_writes : (opsA : List (HloOp τ sig (Elt F))).Forall fun op =>
    op.writes ⊆ (opsA_W.map (Proc.devRef (τ := τ) .tc)).toFinset := by
  simp only [List.Forall]
  repeat' apply And.intro
  all_goals exact writes_sub_of rfl (by decide)

set_option maxRecDepth 8192 in
theorem opsB_writes : (opsB : List (HloOp τ sig (Elt F))).Forall fun op =>
    op.writes ⊆ (opsB_W.map (Proc.devRef (τ := τ) .tc)).toFinset := by
  simp only [List.Forall]
  repeat' apply And.intro
  all_goals exact writes_sub_of rfl (by decide)

set_option maxRecDepth 8192 in
theorem opsC_writes : (opsC : List (HloOp τ sig (Elt F))).Forall fun op =>
    op.writes ⊆ (opsC_W.map (Proc.devRef (τ := τ) .tc)).toFinset := by
  simp only [List.Forall]
  repeat' apply And.intro
  all_goals exact writes_sub_of rfl (by decide)

set_option maxRecDepth 8192 in
theorem opsD_writes : (opsD : List (HloOp τ sig (Elt F))).Forall fun op =>
    op.writes ⊆ (opsD_W.map (Proc.devRef (τ := τ) .tc)).toFinset := by
  simp only [List.Forall]
  repeat' apply And.intro
  all_goals exact writes_sub_of rfl (by decide)

set_option maxRecDepth 8192 in
theorem opsE_writes : (opsE : List (HloOp τ sig (Elt F))).Forall fun op =>
    op.writes ⊆ (opsE_W.map (Proc.devRef (τ := τ) .tc)).toFinset := by
  simp only [List.Forall]
  repeat' apply And.intro
  all_goals exact writes_sub_of rfl (by decide)

/-! ## A buffer a stretch does not write keeps its contents through it -/

theorem opsA_keep (V : Valuation τ sig (Elt F)) (r : Ref sig .tc) (h : r ∉ opsA_W) :
    after opsA V (Proc.devRef .tc r) = V (Proc.devRef .tc r) := after_of_writes_sub opsA V opsA_writes h
theorem opsB_keep (V : Valuation τ sig (Elt F)) (r : Ref sig .tc) (h : r ∉ opsB_W) :
    after opsB V (Proc.devRef .tc r) = V (Proc.devRef .tc r) := after_of_writes_sub opsB V opsB_writes h
theorem opsC_keep (V : Valuation τ sig (Elt F)) (r : Ref sig .tc) (h : r ∉ opsC_W) :
    after opsC V (Proc.devRef .tc r) = V (Proc.devRef .tc r) := after_of_writes_sub opsC V opsC_writes h
theorem opsD_keep (V : Valuation τ sig (Elt F)) (r : Ref sig .tc) (h : r ∉ opsD_W) :
    after opsD V (Proc.devRef .tc r) = V (Proc.devRef .tc r) := after_of_writes_sub opsD V opsD_writes h
theorem opsE_keep (V : Valuation τ sig (Elt F)) (r : Ref sig .tc) (h : r ∉ opsE_W) :
    after opsE V (Proc.devRef .tc r) = V (Proc.devRef .tc r) := after_of_writes_sub opsE V opsE_writes h

/-- A buffer no stretch writes keeps its contents through the whole line. -/
theorem ops_keep (V : Valuation τ sig (Elt F)) (r : Ref sig .tc) (hA : r ∉ opsA_W) (hB : r ∉ opsB_W) (hC : r ∉ opsC_W)
    (hD : r ∉ opsD_W) (hE : r ∉ opsE_W) : after ops V (Proc.devRef .tc r) = V (Proc.devRef .tc r) := by
  rw [after_ops, opsE_keep _ r hE, opsD_keep _ r hD, opsC_keep _ r hC, opsB_keep _ r hB, opsA_keep _ r hA]

/-! ## The arguments: no operation writes one -/

theorem after_arg0 (V : Valuation τ sig (Elt F)) : after ops V (Proc.devRef .tc main_arg0) = V (Proc.devRef .tc main_arg0) :=
  ops_keep V main_arg0 (by decide) (by decide) (by decide) (by decide) (by decide)
theorem after_arg1 (V : Valuation τ sig (Elt F)) : after ops V (Proc.devRef .tc main_arg1) = V (Proc.devRef .tc main_arg1) :=
  ops_keep V main_arg1 (by decide) (by decide) (by decide) (by decide) (by decide)
theorem after_arg2 (V : Valuation τ sig (Elt F)) : after ops V (Proc.devRef .tc main_arg2) = V (Proc.devRef .tc main_arg2) :=
  ops_keep V main_arg2 (by decide) (by decide) (by decide) (by decide) (by decide)
theorem after_arg3 (V : Valuation τ sig (Elt F)) : after ops V (Proc.devRef .tc main_arg3) = V (Proc.devRef .tc main_arg3) :=
  ops_keep V main_arg3 (by decide) (by decide) (by decide) (by decide) (by decide)
theorem after_arg4 (V : Valuation τ sig (Elt F)) : after ops V (Proc.devRef .tc main_arg4) = V (Proc.devRef .tc main_arg4) :=
  ops_keep V main_arg4 (by decide) (by decide) (by decide) (by decide) (by decide)
theorem after_arg5 (V : Valuation τ sig (Elt F)) : after ops V (Proc.devRef .tc main_arg5) = V (Proc.devRef .tc main_arg5) :=
  ops_keep V main_arg5 (by decide) (by decide) (by decide) (by decide) (by decide)
theorem after_arg6 (V : Valuation τ sig (Elt F)) : after ops V (Proc.devRef .tc main_arg6) = V (Proc.devRef .tc main_arg6) :=
  ops_keep V main_arg6 (by decide) (by decide) (by decide) (by decide) (by decide)

/-! ## The frame -/

/-- At the compiled mesh, for any float values, from any memory with zero counters: every weakly fair execution of the
    entry function terminates, and the seven argument buffers end holding what they were launched with. -/
theorem frame (m : (ℓ : Loc nD τ sig) → Buf (Elt F) ℓ) (ρ : Dev nD → PrngReg) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c => ⟨(h c main_arg0).trans (after_arg0 _), (h c main_arg1).trans (after_arg1 _),
      (h c main_arg2).trans (after_arg2 _), (h c main_arg3).trans (after_arg3 _), (h c main_arg4).trans (after_arg4 _),
      (h c main_arg5).trans (after_arg5 _), (h c main_arg6).trans (after_arg6 _)⟩)
    (run_fold m ρ)

end Cert.ReferenceIdeal.Hand

end
-- ==== Proof.KIRunValues.lean ====
import proofs.«130992_j35871566856204_2_alg».proof.Proof.KIRun

set_option maxRecDepth 16384

noncomputable section

namespace Cert.KernelIdeal.Hand

open Cert.KernelIdeal Cert.KernelIdeal.Gen
open Idealize.ShloMosaic Idealize.ShloMosaic.TcCoe Idealize.SL.Sem

variable {F : FTy → Type} [FloatOps F]
variable (m : (ℓ : Loc nD τ sig) → Buf (Elt F) ℓ) (ρ : Dev nD → PrngReg)

/-- The run with its four results read off the fold and its seven arguments as launched: every weakly fair execution
    of @main terminates, nothing faulting, the four result buffers end at the fold `Wend` and the arguments unchanged. -/
theorem run_values : θ_run defs (onTc (τ := τ) (main (F := F))) ⟨m, fun _ => 0, ρ⟩ (fun r => ∀ c : Dev nD,
      r.2.mem ((c.tc : Thread nD τ).loc main_v141) = Wend m ρ c (Proc.devRef .tc main_v141)
      ∧ r.2.mem ((c.tc : Thread nD τ).loc main_v142) = Wend m ρ c (Proc.devRef .tc main_v142)
      ∧ r.2.mem ((c.tc : Thread nD τ).loc main_v120) = Wend m ρ c (Proc.devRef .tc main_v120)
      ∧ r.2.mem ((c.tc : Thread nD τ).loc main_v121) = Wend m ρ c (Proc.devRef .tc main_v121)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  run_of m ρ fun s h c =>
    ⟨h c _ (mem_uc main_v141 (by decide)), h c _ (mem_uc main_v142 (by decide)),
     h c _ (mem_uc main_v120 (by decide)), h c _ (mem_uc main_v121 (by decide)),
     (h c _ (mem_uc main_arg0 (by decide))).trans (Wend_main_arg0 m ρ c),
     (h c _ (mem_uc main_arg1 (by decide))).trans (Wend_main_arg1 m ρ c),
     (h c _ (mem_uc main_arg2 (by decide))).trans (Wend_main_arg2 m ρ c),
     (h c _ (mem_uc main_arg3 (by decide))).trans (Wend_main_arg3 m ρ c),
     (h c _ (mem_uc main_arg4 (by decide))).trans (Wend_main_arg4 m ρ c),
     (h c _ (mem_uc main_arg5 (by decide))).trans (Wend_main_arg5 m ρ c),
     (h c _ (mem_uc main_arg6 (by decide))).trans (Wend_main_arg6 m ρ c)⟩

end Cert.KernelIdeal.Hand

end
-- ==== Proof.RefRunValues.lean ====
import proofs.«130992_j35871566856204_2_alg».proof.Proof.RefFrame

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-- The run with its four results read off the fold of the operations over the launch contents and its seven
    arguments as launched. -/
theorem run_values (m : (ℓ : Loc nD τ sig) → Buf (Elt F) ℓ) (ρ : Dev nD → PrngReg) :
    θ_run defs (onTc (τ := τ) (main (F := F))) ⟨m, fun _ => 0, ρ⟩ (fun r => ∀ c : Dev nD,
      r.2.mem ((c.tc : Thread nD τ).loc main_v110) = after ops (launchContents m c) (Proc.devRef .tc main_v110)
      ∧ r.2.mem ((c.tc : Thread nD τ).loc main_v123) = after ops (launchContents m c) (Proc.devRef .tc main_v123)
      ∧ r.2.mem ((c.tc : Thread nD τ).loc main_v96) = after ops (launchContents m c) (Proc.devRef .tc main_v96)
      ∧ r.2.mem ((c.tc : Thread nD τ).loc main_v97) = after ops (launchContents m c) (Proc.devRef .tc main_v97)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c => ⟨h c main_v110, h c main_v123, h c main_v96, h c main_v97,
      (h c main_arg0).trans (after_arg0 _),
      (h c main_arg1).trans (after_arg1 _),
      (h c main_arg2).trans (after_arg2 _),
      (h c main_arg3).trans (after_arg3 _),
      (h c main_arg4).trans (after_arg4 _),
      (h c main_arg5).trans (after_arg5 _),
      (h c main_arg6).trans (after_arg6 _)⟩)
    (run_fold m ρ)

end Cert.ReferenceIdeal.Hand

end
-- ==== Proof.LibFoldSteps.lean ====
/-
  Two general steps for reading the fold of a line of host operations over the buffers' contents.
  `after_append`: the fold of a line cut in two is the second part's fold over the first part's fold.
  `results_by_rw`: reads a fold one operation at a time — each operation's result at its own buffer is its function of
  the operands' contents, and at any other buffer what was there before — also at places inside a list of operands (the
  pieces of a concatenation), where contents appear as members of a list of shaped arrays.
-/
import Idealize.ShloMosaic.Lib.StableHlo.Run

noncomputable section

namespace Cert.Lib

open Idealize.ShloMosaic Idealize.ShloMosaic.StableHlo

/-- Folding a line cut in two is folding the second part over the first part's fold. -/
theorem after_append {τ : Topo} {sig : RefSig} {Val : EltTy → Type} (l₁ l₂ : List (HloOp τ sig Val)) (V : Valuation τ sig Val) :
    after (l₁ ++ l₂) V = after l₂ (after l₁ V) := by
  induction l₁ generalizing V with
  | nil => rfl
  | cons op l ih => exact ih _

/-- The fold's steps, one rewrite at a time: each operation's result at its own buffer is its function of the operands'
    contents, at any other buffer what was there. -/
macro "results_by_rw" : tactic =>
  `(tactic| (repeat (first
               | rw [nullary_result] | rw [unary_result] | rw [binary_result] | rw [ternary_result]
               | rw [reshape_result]
               | (rw [nullary_result_ne]; rotate_left; decide)
               | (rw [unary_result_ne]; rotate_left; decide)
               | (rw [binary_result_ne]; rotate_left; decide)
               | (rw [ternary_result_ne]; rotate_left; decide)
               | (rw [reshape_result_ne]; rotate_left; decide))))

end Cert.Lib

end
-- ==== Proof.KStageA.lean ====
import proofs.«130992_j35871566856204_2_alg».proof.Proof.Gen.KernelIdeal.Launch
import proofs.«130992_j35871566856204_2_alg».proof.Proof.LibFoldSteps
import Idealize.ShloMosaic.Lib.StableHlo.Run

set_option pp.maxSteps 20000

noncomputable section
namespace Cert.KernelIdeal.Bridge
open Cert.KernelIdeal Cert.KernelIdeal.Gen Idealize.ShloMosaic Idealize.ShloMosaic.TcCoe Idealize.SL.Sem Idealize.ShloMosaic.StableHlo Cert.Lib

variable {F : FTy → Type} [FloatOps F]

/-! The kernel program's host operations after its two regions, read stretch by stretch: each named buffer as a
    function of the buffers the stretch starts from. The functions are the operations' own composed terms. -/

macro "fold_steps" : tactic => `(tactic| (after_results_simp; results_by_rw))

/-- The edge list's sources: the first column of the row-major [E, 2] reading of the edges followed by its reversal. -/
def srcK : { f : (IVec S1x2x400000 32) → IVec S800000 32 //
    ∀ V : Valuation τ sig (Elt F), StableHlo.after hostOps2 V (Proc.devRef .tc main_v26) = f (V (Proc.devRef .tc main_arg2)) } :=
  ⟨_, fun V => by
    fold_steps
    generalize V (Proc.devRef .tc main_arg2) = e
    rfl⟩

/-- The edge list's destinations: the second column. -/
def dstK : { f : (IVec S1x2x400000 32) → IVec S800000 32 //
    ∀ V : Valuation τ sig (Elt F), StableHlo.after hostOps2 V (Proc.devRef .tc main_v28) = f (V (Proc.devRef .tc main_arg2)) } :=
  ⟨_, fun V => by
    fold_steps
    generalize V (Proc.devRef .tc main_arg2) = e
    rfl⟩

/-- The node logits: the projection's column 0 at the source rows plus its column 1 at the destination rows. -/
def npreK : { f : (FVec F S50000x4 .f32) → (IVec S1x2x400000 32) → FVec F S800000 .f32 //
    ∀ V : Valuation τ sig (Elt F), StableHlo.after hostOps2 V (Proc.devRef .tc main_v52)
      = f (V (Proc.devRef .tc main_v20_1)) (V (Proc.devRef .tc main_arg2)) } :=
  ⟨_, fun V => by
    fold_steps
    generalize V (Proc.devRef .tc main_v20_1) = p
    generalize V (Proc.devRef .tc main_arg2) = e
    rfl⟩

/-- The edge logits: the node projection's column 2 at the source rows plus the edge projection's column 0, twice over. -/
def epreK : { f : (FVec F S50000x4 .f32) → (FVec F S400000x4 .f32) → (IVec S1x2x400000 32) → FVec F S800000 .f32 //
    ∀ V : Valuation τ sig (Elt F), StableHlo.after hostOps2 V (Proc.devRef .tc main_v53)
      = f (V (Proc.devRef .tc main_v20_1)) (V (Proc.devRef .tc main_v21_1)) (V (Proc.devRef .tc main_arg2)) } :=
  ⟨_, fun V => by
    fold_steps
    generalize V (Proc.devRef .tc main_v20_1) = p
    generalize V (Proc.devRef .tc main_v21_1) = q
    generalize V (Proc.devRef .tc main_arg2) = e
    rfl⟩

/-- The sign test of the node logits, over the node logits as the stretch leaves them. -/
theorem nposK (V : Valuation τ sig (Elt F)) : StableHlo.after hostOps2 V (Proc.devRef .tc main_v55)
      = cmpf .oge (StableHlo.after hostOps2 V (Proc.devRef .tc main_v52))
          (broadcastInDim S800000 ![] bcast_S_S800000 (constant S_ .f32 0x00000000#32)) := by
  fold_steps

/-- The node logits times the negative slope. -/
theorem nslopeK (V : Valuation τ sig (Elt F)) : StableHlo.after hostOps2 V (Proc.devRef .tc main_v57)
      = mulf (broadcastInDim S800000 ![] bcast_S_S800000 (constant S_ .f32 0x3E4CCCCD#32))
          (StableHlo.after hostOps2 V (Proc.devRef .tc main_v52)) := by
  fold_steps

end Cert.KernelIdeal.Bridge
end
-- ==== Proof.KStageM0.lean ====
import proofs.«130992_j35871566856204_2_alg».proof.Proof.Gen.KernelIdeal.Launch
import proofs.«130992_j35871566856204_2_alg».proof.Proof.LibFoldSteps
import Idealize.ShloMosaic.Lib.StableHlo.Run

noncomputable section
namespace Cert.KernelIdeal.Bridge
open Cert.KernelIdeal Cert.KernelIdeal.Gen Idealize.ShloMosaic Idealize.ShloMosaic.TcCoe Idealize.SL.Sem Idealize.ShloMosaic.StableHlo Cert.Lib

variable {F : FTy → Type} [FloatOps F]

/-! The host stretches between the logits and the two normalised attention vectors with their variances, as one line
    `midOps`, and that line cut into seventeen consecutive pieces, each ending at a buffer a later piece starts from. -/

abbrev midOps : List (HloOp τ sig (Elt F)) := hostOps2_1 ++ (hostOps2_2 ++ (hostOps2_3 ++ (hostOps2_4 ++ (hostOps2_5 ++ (hostOps2_6 ++ (hostOps2_7 ++ (hostOps2_8 ++ (hostOps2_9 ++ (hostOps2_10 ++ (hostOps2_11 ++ (hostOps2_12 ++ (hostOps2_13 ++ (hostOps2_14 ++ (hostOps2_15 ++ (hostOps2_16 ++ (hostOps2_17 ++ (hostOps2_18 ++ (hostOps2_19 ++ (hostOps2_20 ++ (hostOps2_21 ++ (hostOps2_22 ++ (hostOps2_23 ++ (hostOps2_24 ++ (hostOps2_25 ++ (hostOps2_26 ++ (hostOps2_27 ++ (hostOps2_28)))))))))))))))))))))))))))

/-- Piece 1: up to the operation writing `main_v60`. -/
abbrev mid1 : List (HloOp τ sig (Elt F)) := hostOps2_1 ++ (hostOps2_2 ++ (hostOps2_3 ++ (List.take 1 hostOps2_4)))
/-- Piece 2: up to the operation writing `main_v67`. -/
abbrev mid2 : List (HloOp τ sig (Elt F)) := List.drop 1 hostOps2_4 ++ (hostOps2_5 ++ (hostOps2_6 ++ (hostOps2_7 ++ (List.take 1 hostOps2_8))))
/-- Piece 3: up to the operation writing `main_c_15`. -/
abbrev mid3 : List (HloOp τ sig (Elt F)) := List.drop 1 hostOps2_8
/-- Piece 4: up to the operation writing `main_v77`. -/
abbrev mid4 : List (HloOp τ sig (Elt F)) := hostOps2_9 ++ (List.take 11 hostOps2_10)
/-- Piece 5: up to the operation writing `main_v80`. -/
abbrev mid5 : List (HloOp τ sig (Elt F)) := List.take 4 (List.drop 11 hostOps2_10)
/-- Piece 6: up to the operation writing `main_v83`. -/
abbrev mid6 : List (HloOp τ sig (Elt F)) := List.drop 15 hostOps2_10
/-- Piece 7: up to the operation writing `main_v86`. -/
abbrev mid7 : List (HloOp τ sig (Elt F)) := hostOps2_11 ++ (hostOps2_12)
/-- Piece 8: up to the operation writing `main_v96`. -/
abbrev mid8 : List (HloOp τ sig (Elt F)) := hostOps2_13 ++ (hostOps2_14)
/-- Piece 9: up to the operation writing `main_v99`. -/
abbrev mid9 : List (HloOp τ sig (Elt F)) := hostOps2_15 ++ (hostOps2_16)
/-- Piece 10: up to the operation writing `main_v100`. -/
abbrev mid10 : List (HloOp τ sig (Elt F)) := hostOps2_17
/-- Piece 11: up to the operation writing `main_v103`. -/
abbrev mid11 : List (HloOp τ sig (Elt F)) := hostOps2_18 ++ (hostOps2_19)
/-- Piece 12: up to the operation writing `main_v113`. -/
abbrev mid12 : List (HloOp τ sig (Elt F)) := hostOps2_20 ++ (hostOps2_21)
/-- Piece 13: up to the operation writing `main_v116`. -/
abbrev mid13 : List (HloOp τ sig (Elt F)) := hostOps2_22 ++ (hostOps2_23)
/-- Piece 14: up to the operation writing `main_v117`. -/
abbrev mid14 : List (HloOp τ sig (Elt F)) := hostOps2_24
/-- Piece 15: up to the operation writing `main_c_35`. -/
abbrev mid15 : List (HloOp τ sig (Elt F)) := hostOps2_25
/-- Piece 16: up to the operation writing `main_v120`. -/
abbrev mid16 : List (HloOp τ sig (Elt F)) := hostOps2_26
/-- Piece 17: up to the operation writing `main_v121`. -/
abbrev mid17 : List (HloOp τ sig (Elt F)) := hostOps2_27 ++ (hostOps2_28)

/-- The line is its pieces in order. -/
theorem midOps_eq : (midOps : List (HloOp τ sig (Elt F))) = mid1 ++ (mid2 ++ (mid3 ++ (mid4 ++ (mid5 ++ (mid6 ++ (mid7 ++ (mid8 ++ (mid9 ++ (mid10 ++ (mid11 ++ (mid12 ++ (mid13 ++ (mid14 ++ (mid15 ++ (mid16 ++ (mid17)))))))))))))))) := rfl

/-- The fold over the line is the pieces' folds, one over the other. -/
theorem after_midOps (V : Valuation τ sig (Elt F)) :
    StableHlo.after midOps V = StableHlo.after mid17 (StableHlo.after mid16 (StableHlo.after mid15 (StableHlo.after mid14 (StableHlo.after mid13 (StableHlo.after mid12 (StableHlo.after mid11 (StableHlo.after mid10 (StableHlo.after mid9 (StableHlo.after mid8 (StableHlo.after mid7 (StableHlo.after mid6 (StableHlo.after mid5 (StableHlo.after mid4 (StableHlo.after mid3 (StableHlo.after mid2 (StableHlo.after mid1 (V))))))))))))))))) := by
  rw [midOps_eq]; simp only [after_append]

/-! A line none of whose operations writes any of the references `S` leaves those buffers as they were. -/

/-- No operation of the line writes a reference of `S`. -/
def Keeps (S : List (Ref sig .tc)) (ops : List (HloOp τ sig (Elt F))) : Prop :=
  ops.Forall fun op => ∀ r ∈ S, (Proc.devRef .tc r : DevRef τ sig) ∉ op.writes

omit [FloatOps F] in
theorem not_written (S : List (Ref sig .tc)) (y : Ref sig .tc) (hy : y ∉ S) (r : Ref sig .tc) (hr : r ∈ S) :
    (Proc.devRef .tc r : DevRef τ sig) ∉ ({Proc.devRef .tc y} : Finset (DevRef τ sig)) := fun h =>
  hy (Proc.devRef_injective _ (Finset.mem_singleton.mp h) ▸ hr)

theorem after_keep (S : List (Ref sig .tc)) (ops : List (HloOp τ sig (Elt F))) (h : Keeps S ops)
    (W : Valuation τ sig (Elt F)) (r : Ref sig .tc) (hr : r ∈ S) :
    StableHlo.after ops W (Proc.devRef .tc r) = W (Proc.devRef .tc r) :=
  StableHlo.after_of_forall_not_mem ops W fun op hop => (List.forall_iff_forall_mem.mp h) op hop r hr

/-- Spells a piece as the literal list of its operations. -/
macro "flatten_piece" : tactic => `(tactic| simp only [mid1, mid2, mid3, mid4, mid5, mid6, mid7, mid8, mid9, mid10, mid11, mid12, mid13, mid14, mid15, mid16, mid17, hostOps2_1, hostOps2_2, hostOps2_3, hostOps2_4, hostOps2_5, hostOps2_6, hostOps2_7, hostOps2_8, hostOps2_9, hostOps2_10, hostOps2_11, hostOps2_12, hostOps2_13, hostOps2_14, hostOps2_15, hostOps2_16, hostOps2_17, hostOps2_18, hostOps2_19, hostOps2_20, hostOps2_21, hostOps2_22, hostOps2_23, hostOps2_24, hostOps2_25, hostOps2_26, hostOps2_27, hostOps2_28, List.take_succ_cons, List.take_zero, List.drop_succ_cons, List.drop_zero, List.cons_append, List.nil_append])

/-- Decides `Keeps S ops` operation by operation, on the literal list. -/
macro "keeps_piece" : tactic => `(tactic| (
  unfold Keeps
  flatten_piece
  simp only [List.Forall, StableHlo.nullary_writes, StableHlo.unary_writes, StableHlo.binary_writes, StableHlo.ternary_writes,
    StableHlo.quaternary_writes, StableHlo.reshape_writes, StableHlo.binaryIndexed_writes, StableHlo.unaryIndexed_writes, StableHlo.nary_writes]
  repeat' apply And.intro
  all_goals exact not_written _ _ (by decide)))

end Cert.KernelIdeal.Bridge
end
-- ==== Proof.KStageM1.lean ====
import proofs.«130992_j35871566856204_2_alg».proof.Proof.Gen.KernelIdeal.Launch
import proofs.«130992_j35871566856204_2_alg».proof.Proof.LibFoldSteps
import proofs.«130992_j35871566856204_2_alg».proof.Proof.KStageM0
import Idealize.ShloMosaic.Lib.StableHlo.Run

set_option pp.maxSteps 20000

noncomputable section
namespace Cert.KernelIdeal.Bridge
open Cert.KernelIdeal Cert.KernelIdeal.Gen Idealize.ShloMosaic Idealize.ShloMosaic.TcCoe Idealize.SL.Sem Idealize.ShloMosaic.StableHlo Cert.Lib

variable {F : FTy → Type} [FloatOps F]

local macro "fold_steps" : tactic => `(tactic| (after_results_simp; results_by_rw))

/-! The first nine pieces of the mid line: the two attention vectors before normalisation, the edge counts per node, the two per-node sums, and the node chain's sorted positions. Each is the piece's own composed term, as a function of the buffers the piece starts from. -/

set_option maxHeartbeats 4000000 in
/-- The node attention before normalisation: the exponential of the sloped node logits clipped to [-2, 2]. -/
def natt_K : { f : (FVec F S800000 .f32) → (IVec S800000 1) → (FVec F S800000 .f32) → FVec F S800000 .f32 //
    ∀ V : Valuation τ sig (Elt F), StableHlo.after mid1 V (Proc.devRef .tc main_v60) = f (V (Proc.devRef .tc main_v52)) (V (Proc.devRef .tc main_v55)) (V (Proc.devRef .tc main_v57)) } :=
  ⟨_, fun V => by
    flatten_piece
    fold_steps
    generalize V (Proc.devRef .tc main_v52) = x0
    generalize V (Proc.devRef .tc main_v55) = x1
    generalize V (Proc.devRef .tc main_v57) = x2
    rfl⟩

set_option maxHeartbeats 4000000 in
/-- The edge attention before normalisation: the exponential of the sloped edge logits clipped to [-2, 2]. -/
def eatt_K : { f : (FVec F S800000 .f32) → FVec F S800000 .f32 //
    ∀ V : Valuation τ sig (Elt F), StableHlo.after mid2 V (Proc.devRef .tc main_v67) = f (V (Proc.devRef .tc main_v53)) } :=
  ⟨_, fun V => by
    flatten_piece
    fold_steps
    generalize V (Proc.devRef .tc main_v53) = x0
    rfl⟩

set_option maxHeartbeats 4000000 in
/-- Fifty thousand zeros. -/
def zeros_K : { f : IVec S50000 32 //
    ∀ V : Valuation τ sig (Elt F), StableHlo.after mid3 V (Proc.devRef .tc main_v68) = f } :=
  ⟨_, fun V => by
    flatten_piece
    fold_steps
    rfl⟩

set_option maxHeartbeats 4000000 in
/-- The integer zero. -/
def c15_K : { f : IVec S_ 32 //
    ∀ V : Valuation τ sig (Elt F), StableHlo.after mid3 V (Proc.devRef .tc main_c_15) = f } :=
  ⟨_, fun V => by
    flatten_piece
    fold_steps
    rfl⟩

set_option maxHeartbeats 4000000 in
/-- How many edges leave each node: one added at every edge's (clamped) source. -/
def counts_K : { f : (IVec S800000 32) → (IVec S_ 32) → (IVec S50000 32) → IVec S50000 32 //
    ∀ V : Valuation τ sig (Elt F), StableHlo.after mid4 V (Proc.devRef .tc main_v77) = f (V (Proc.devRef .tc main_v26)) (V (Proc.devRef .tc main_c_15)) (V (Proc.devRef .tc main_v68)) } :=
  ⟨_, fun V => by
    flatten_piece
    fold_steps
    generalize V (Proc.devRef .tc main_v26) = x0
    generalize V (Proc.devRef .tc main_c_15) = x1
    generalize V (Proc.devRef .tc main_v68) = x2
    rfl⟩

set_option maxHeartbeats 4000000 in
/-- The node attention summed over the edges leaving each node. -/
def nsum_K : { f : (IVec S800000 32) → (FVec F S800000 .f32) → FVec F S50000 .f32 //
    ∀ V : Valuation τ sig (Elt F), StableHlo.after mid5 V (Proc.devRef .tc main_v80) = f (V (Proc.devRef .tc main_v26)) (V (Proc.devRef .tc main_v60)) } :=
  ⟨_, fun V => by
    flatten_piece
    fold_steps
    generalize V (Proc.devRef .tc main_v26) = x0
    generalize V (Proc.devRef .tc main_v60) = x1
    rfl⟩

set_option maxHeartbeats 4000000 in
/-- The edge attention summed over the edges leaving each node. -/
def esum_K : { f : (IVec S800000 32) → (FVec F S800000 .f32) → FVec F S50000 .f32 //
    ∀ V : Valuation τ sig (Elt F), StableHlo.after mid6 V (Proc.devRef .tc main_v83) = f (V (Proc.devRef .tc main_v26)) (V (Proc.devRef .tc main_v67)) } :=
  ⟨_, fun V => by
    flatten_piece
    fold_steps
    generalize V (Proc.devRef .tc main_v26) = x0
    generalize V (Proc.devRef .tc main_v67) = x1
    rfl⟩

set_option maxHeartbeats 4000000 in
/-- The counts rolled by one place, the first set to zero. -/
def rollA_K : { f : (IVec S50000 32) → IVec S50000 32 //
    ∀ V : Valuation τ sig (Elt F), StableHlo.after mid7 V (Proc.devRef .tc main_v86) = f (V (Proc.devRef .tc main_v77)) } :=
  ⟨_, fun V => by
    flatten_piece
    fold_steps
    generalize V (Proc.devRef .tc main_v77) = x0
    rfl⟩

set_option maxHeartbeats 4000000 in
/-- Ones scattered at the running sums of the rolled counts. -/
def cumA_K : { f : (IVec S50000 32) → IVec S800000 32 //
    ∀ V : Valuation τ sig (Elt F), StableHlo.after mid8 V (Proc.devRef .tc main_v96) = f (V (Proc.devRef .tc main_v86)) } :=
  ⟨_, fun V => by
    flatten_piece
    fold_steps
    generalize V (Proc.devRef .tc main_v86) = x0
    rfl⟩

set_option maxHeartbeats 4000000 in
/-- The running sum of those, minus one: each edge's node in the sorted order. -/
def idxA_K : { f : (IVec S800000 32) → IVec S800000 32 //
    ∀ V : Valuation τ sig (Elt F), StableHlo.after mid9 V (Proc.devRef .tc main_v99) = f (V (Proc.devRef .tc main_v96)) } :=
  ⟨_, fun V => by
    flatten_piece
    fold_steps
    generalize V (Proc.devRef .tc main_v96) = x0
    rfl⟩

end Cert.KernelIdeal.Bridge
end
-- ==== Proof.KStageM2.lean ====
import proofs.«130992_j35871566856204_2_alg».proof.Proof.Gen.KernelIdeal.Launch
import proofs.«130992_j35871566856204_2_alg».proof.Proof.LibFoldSteps
import proofs.«130992_j35871566856204_2_alg».proof.Proof.KStageM0
import Idealize.ShloMosaic.Lib.StableHlo.Run

set_option pp.maxSteps 20000

noncomputable section
namespace Cert.KernelIdeal.Bridge
open Cert.KernelIdeal Cert.KernelIdeal.Gen Idealize.ShloMosaic Idealize.ShloMosaic.TcCoe Idealize.SL.Sem Idealize.ShloMosaic.StableHlo Cert.Lib

variable {F : FTy → Type} [FloatOps F]

local macro "fold_steps" : tactic => `(tactic| (after_results_simp; results_by_rw))

/-! The last eight pieces of the mid line: the per-node sums taken back at the edges, the edge chain, the two quotients and their variances. Each is the piece's own composed term, as a function of the buffers the piece starts from. -/

set_option maxHeartbeats 4000000 in
/-- The per-node sums taken at each edge's node (not-a-number outside the range). -/
def takeA_K : { f : (FVec F S50000 .f32) → (IVec S800000 32) → FVec F S800000 .f32 //
    ∀ V : Valuation τ sig (Elt F), StableHlo.after mid10 V (Proc.devRef .tc main_v100) = f (V (Proc.devRef .tc main_v80)) (V (Proc.devRef .tc main_v99)) } :=
  ⟨_, fun V => by
    flatten_piece
    fold_steps
    generalize V (Proc.devRef .tc main_v80) = x0
    generalize V (Proc.devRef .tc main_v99) = x1
    rfl⟩

set_option maxHeartbeats 4000000 in
/-- The counts rolled by one place, the first set to zero (the edge chain's copy). -/
def rollB_K : { f : (IVec S50000 32) → IVec S50000 32 //
    ∀ V : Valuation τ sig (Elt F), StableHlo.after mid11 V (Proc.devRef .tc main_v103) = f (V (Proc.devRef .tc main_v77)) } :=
  ⟨_, fun V => by
    flatten_piece
    fold_steps
    generalize V (Proc.devRef .tc main_v77) = x0
    rfl⟩

set_option maxHeartbeats 4000000 in
/-- Ones scattered at the running sums of the rolled counts (the edge chain's copy). -/
def cumB_K : { f : (IVec S50000 32) → IVec S800000 32 //
    ∀ V : Valuation τ sig (Elt F), StableHlo.after mid12 V (Proc.devRef .tc main_v113) = f (V (Proc.devRef .tc main_v103)) } :=
  ⟨_, fun V => by
    flatten_piece
    fold_steps
    generalize V (Proc.devRef .tc main_v103) = x0
    rfl⟩

set_option maxHeartbeats 4000000 in
/-- The running sum of those, minus one (the edge chain's copy). -/
def idxB_K : { f : (IVec S800000 32) → IVec S800000 32 //
    ∀ V : Valuation τ sig (Elt F), StableHlo.after mid13 V (Proc.devRef .tc main_v116) = f (V (Proc.devRef .tc main_v113)) } :=
  ⟨_, fun V => by
    flatten_piece
    fold_steps
    generalize V (Proc.devRef .tc main_v113) = x0
    rfl⟩

set_option maxHeartbeats 4000000 in
/-- The per-node sums of the edge attention taken at each edge's node. -/
def takeB_K : { f : (FVec F S50000 .f32) → (IVec S800000 32) → FVec F S800000 .f32 //
    ∀ V : Valuation τ sig (Elt F), StableHlo.after mid14 V (Proc.devRef .tc main_v117) = f (V (Proc.devRef .tc main_v83)) (V (Proc.devRef .tc main_v116)) } :=
  ⟨_, fun V => by
    flatten_piece
    fold_steps
    generalize V (Proc.devRef .tc main_v83) = x0
    generalize V (Proc.devRef .tc main_v116) = x1
    rfl⟩

set_option maxHeartbeats 4000000 in
/-- The normalised node attention: the quotient. -/
def nnorm_K : { f : (FVec F S800000 .f32) → (FVec F S800000 .f32) → FVec F S800000 .f32 //
    ∀ V : Valuation τ sig (Elt F), StableHlo.after mid15 V (Proc.devRef .tc main_v118) = f (V (Proc.devRef .tc main_v60)) (V (Proc.devRef .tc main_v100)) } :=
  ⟨_, fun V => by
    flatten_piece
    fold_steps
    generalize V (Proc.devRef .tc main_v60) = x0
    generalize V (Proc.devRef .tc main_v100) = x1
    rfl⟩

set_option maxHeartbeats 4000000 in
/-- The normalised edge attention: the quotient. -/
def enorm_K : { f : (FVec F S800000 .f32) → (FVec F S800000 .f32) → FVec F S800000 .f32 //
    ∀ V : Valuation τ sig (Elt F), StableHlo.after mid15 V (Proc.devRef .tc main_v119) = f (V (Proc.devRef .tc main_v67)) (V (Proc.devRef .tc main_v117)) } :=
  ⟨_, fun V => by
    flatten_piece
    fold_steps
    generalize V (Proc.devRef .tc main_v67) = x0
    generalize V (Proc.devRef .tc main_v117) = x1
    rfl⟩

set_option maxHeartbeats 4000000 in
/-- The integer one. -/
def one_K : { f : IVec S_ 32 //
    ∀ V : Valuation τ sig (Elt F), StableHlo.after mid15 V (Proc.devRef .tc main_c_35) = f } :=
  ⟨_, fun V => by
    flatten_piece
    fold_steps
    rfl⟩

set_option maxHeartbeats 4000000 in
/-- The unbiased variance of the normalised node attention. -/
def nvar_K : { f : (FVec F S800000 .f32) → (IVec S_ 32) → FVec F S_ .f32 //
    ∀ V : Valuation τ sig (Elt F), StableHlo.after mid16 V (Proc.devRef .tc main_v120) = f (V (Proc.devRef .tc main_v118)) (V (Proc.devRef .tc main_c_35)) } :=
  ⟨_, fun V => by
    flatten_piece
    fold_steps
    generalize V (Proc.devRef .tc main_v118) = x0
    generalize V (Proc.devRef .tc main_c_35) = x1
    rfl⟩

set_option maxHeartbeats 4000000 in
/-- The unbiased variance of the normalised edge attention. -/
def evar_K : { f : (FVec F S800000 .f32) → FVec F S_ .f32 //
    ∀ V : Valuation τ sig (Elt F), StableHlo.after mid17 V (Proc.devRef .tc main_v121) = f (V (Proc.devRef .tc main_v119)) } :=
  ⟨_, fun V => by
    flatten_piece
    fold_steps
    generalize V (Proc.devRef .tc main_v119) = x0
    rfl⟩

end Cert.KernelIdeal.Bridge
end
-- ==== Proof.KStageM.lean ====
import proofs.«130992_j35871566856204_2_alg».proof.Proof.Gen.KernelIdeal.Launch
import proofs.«130992_j35871566856204_2_alg».proof.Proof.LibFoldSteps
import proofs.«130992_j35871566856204_2_alg».proof.Proof.KStageM0
import proofs.«130992_j35871566856204_2_alg».proof.Proof.KStageM1
import proofs.«130992_j35871566856204_2_alg».proof.Proof.KStageM2
import Idealize.ShloMosaic.Lib.StableHlo.Run

set_option pp.maxSteps 20000

noncomputable section
namespace Cert.KernelIdeal.Bridge
open Cert.KernelIdeal Cert.KernelIdeal.Gen Idealize.ShloMosaic Idealize.ShloMosaic.TcCoe Idealize.SL.Sem Idealize.ShloMosaic.StableHlo Cert.Lib

variable {F : FTy → Type} [FloatOps F]

local macro "fold_steps" : tactic => `(tactic| (after_results_simp; results_by_rw))

/-! The mid line read piece by piece: after each piece, every buffer a later piece (or the end) reads, as nested
    applications of the pieces' functions to the line's five inputs — the node logits `main_v52` with their sign test
    `main_v55` and sloped copy `main_v57`, the edge logits `main_v53`, the sources `main_v26`. -/

abbrev st1 (V : Valuation τ sig (Elt F)) : Valuation τ sig (Elt F) := StableHlo.after mid1 (V)
abbrev st2 (V : Valuation τ sig (Elt F)) : Valuation τ sig (Elt F) := StableHlo.after mid2 (st1 V)
abbrev st3 (V : Valuation τ sig (Elt F)) : Valuation τ sig (Elt F) := StableHlo.after mid3 (st2 V)
abbrev st4 (V : Valuation τ sig (Elt F)) : Valuation τ sig (Elt F) := StableHlo.after mid4 (st3 V)
abbrev st5 (V : Valuation τ sig (Elt F)) : Valuation τ sig (Elt F) := StableHlo.after mid5 (st4 V)
abbrev st6 (V : Valuation τ sig (Elt F)) : Valuation τ sig (Elt F) := StableHlo.after mid6 (st5 V)
abbrev st7 (V : Valuation τ sig (Elt F)) : Valuation τ sig (Elt F) := StableHlo.after mid7 (st6 V)
abbrev st8 (V : Valuation τ sig (Elt F)) : Valuation τ sig (Elt F) := StableHlo.after mid8 (st7 V)
abbrev st9 (V : Valuation τ sig (Elt F)) : Valuation τ sig (Elt F) := StableHlo.after mid9 (st8 V)
abbrev st10 (V : Valuation τ sig (Elt F)) : Valuation τ sig (Elt F) := StableHlo.after mid10 (st9 V)
abbrev st11 (V : Valuation τ sig (Elt F)) : Valuation τ sig (Elt F) := StableHlo.after mid11 (st10 V)
abbrev st12 (V : Valuation τ sig (Elt F)) : Valuation τ sig (Elt F) := StableHlo.after mid12 (st11 V)
abbrev st13 (V : Valuation τ sig (Elt F)) : Valuation τ sig (Elt F) := StableHlo.after mid13 (st12 V)
abbrev st14 (V : Valuation τ sig (Elt F)) : Valuation τ sig (Elt F) := StableHlo.after mid14 (st13 V)
abbrev st15 (V : Valuation τ sig (Elt F)) : Valuation τ sig (Elt F) := StableHlo.after mid15 (st14 V)
abbrev st16 (V : Valuation τ sig (Elt F)) : Valuation τ sig (Elt F) := StableHlo.after mid16 (st15 V)
abbrev st17 (V : Valuation τ sig (Elt F)) : Valuation τ sig (Elt F) := StableHlo.after mid17 (st16 V)

theorem keeps1 : Keeps [main_v53, main_v26] (mid1 : List (HloOp τ sig (Elt F))) := by keeps_piece
theorem at1_v53 (V : Valuation τ sig (Elt F)) : st1 V (Proc.devRef .tc main_v53) = V (Proc.devRef .tc main_v53) :=
  after_keep _ _ keeps1 V main_v53 (by decide)
theorem at1_v26 (V : Valuation τ sig (Elt F)) : st1 V (Proc.devRef .tc main_v26) = V (Proc.devRef .tc main_v26) :=
  after_keep _ _ keeps1 V main_v26 (by decide)
theorem at1_v60 (V : Valuation τ sig (Elt F)) : st1 V (Proc.devRef .tc main_v60) = (natt_K (F := F)).1 (V (Proc.devRef .tc main_v52)) (V (Proc.devRef .tc main_v55)) (V (Proc.devRef .tc main_v57)) :=
  (natt_K (F := F)).2 V

theorem keeps2 : Keeps [main_v26, main_v60] (mid2 : List (HloOp τ sig (Elt F))) := by keeps_piece
theorem at2_v26 (V : Valuation τ sig (Elt F)) : st2 V (Proc.devRef .tc main_v26) = V (Proc.devRef .tc main_v26) :=
  (after_keep _ _ keeps2 (st1 V) main_v26 (by decide)).trans (at1_v26 V)
theorem at2_v60 (V : Valuation τ sig (Elt F)) : st2 V (Proc.devRef .tc main_v60) = (natt_K (F := F)).1 (V (Proc.devRef .tc main_v52)) (V (Proc.devRef .tc main_v55)) (V (Proc.devRef .tc main_v57)) :=
  (after_keep _ _ keeps2 (st1 V) main_v60 (by decide)).trans (at1_v60 V)
theorem at2_v67 (V : Valuation τ sig (Elt F)) : st2 V (Proc.devRef .tc main_v67) = (eatt_K (F := F)).1 (V (Proc.devRef .tc main_v53)) :=
  ((eatt_K (F := F)).2 (st1 V)).trans (by rw [at1_v53 V])

theorem keeps3 : Keeps [main_v26, main_v60, main_v67] (mid3 : List (HloOp τ sig (Elt F))) := by keeps_piece
theorem at3_v26 (V : Valuation τ sig (Elt F)) : st3 V (Proc.devRef .tc main_v26) = V (Proc.devRef .tc main_v26) :=
  (after_keep _ _ keeps3 (st2 V) main_v26 (by decide)).trans (at2_v26 V)
theorem at3_v60 (V : Valuation τ sig (Elt F)) : st3 V (Proc.devRef .tc main_v60) = (natt_K (F := F)).1 (V (Proc.devRef .tc main_v52)) (V (Proc.devRef .tc main_v55)) (V (Proc.devRef .tc main_v57)) :=
  (after_keep _ _ keeps3 (st2 V) main_v60 (by decide)).trans (at2_v60 V)
theorem at3_v67 (V : Valuation τ sig (Elt F)) : st3 V (Proc.devRef .tc main_v67) = (eatt_K (F := F)).1 (V (Proc.devRef .tc main_v53)) :=
  (after_keep _ _ keeps3 (st2 V) main_v67 (by decide)).trans (at2_v67 V)
theorem at3_v68 (V : Valuation τ sig (Elt F)) : st3 V (Proc.devRef .tc main_v68) = (zeros_K (F := F)).1 :=
  (zeros_K (F := F)).2 (st2 V)
theorem at3_c_15 (V : Valuation τ sig (Elt F)) : st3 V (Proc.devRef .tc main_c_15) = (c15_K (F := F)).1 :=
  (c15_K (F := F)).2 (st2 V)

theorem keeps4 : Keeps [main_v26, main_v60, main_v67] (mid4 : List (HloOp τ sig (Elt F))) := by keeps_piece
theorem at4_v26 (V : Valuation τ sig (Elt F)) : st4 V (Proc.devRef .tc main_v26) = V (Proc.devRef .tc main_v26) :=
  (after_keep _ _ keeps4 (st3 V) main_v26 (by decide)).trans (at3_v26 V)
theorem at4_v60 (V : Valuation τ sig (Elt F)) : st4 V (Proc.devRef .tc main_v60) = (natt_K (F := F)).1 (V (Proc.devRef .tc main_v52)) (V (Proc.devRef .tc main_v55)) (V (Proc.devRef .tc main_v57)) :=
  (after_keep _ _ keeps4 (st3 V) main_v60 (by decide)).trans (at3_v60 V)
theorem at4_v67 (V : Valuation τ sig (Elt F)) : st4 V (Proc.devRef .tc main_v67) = (eatt_K (F := F)).1 (V (Proc.devRef .tc main_v53)) :=
  (after_keep _ _ keeps4 (st3 V) main_v67 (by decide)).trans (at3_v67 V)
theorem at4_v77 (V : Valuation τ sig (Elt F)) : st4 V (Proc.devRef .tc main_v77) = (counts_K (F := F)).1 (V (Proc.devRef .tc main_v26)) ((c15_K (F := F)).1) ((zeros_K (F := F)).1) :=
  ((counts_K (F := F)).2 (st3 V)).trans (by rw [at3_v26 V, at3_c_15 V, at3_v68 V])

theorem keeps5 : Keeps [main_v26, main_v60, main_v67, main_v77] (mid5 : List (HloOp τ sig (Elt F))) := by keeps_piece
theorem at5_v26 (V : Valuation τ sig (Elt F)) : st5 V (Proc.devRef .tc main_v26) = V (Proc.devRef .tc main_v26) :=
  (after_keep _ _ keeps5 (st4 V) main_v26 (by decide)).trans (at4_v26 V)
theorem at5_v60 (V : Valuation τ sig (Elt F)) : st5 V (Proc.devRef .tc main_v60) = (natt_K (F := F)).1 (V (Proc.devRef .tc main_v52)) (V (Proc.devRef .tc main_v55)) (V (Proc.devRef .tc main_v57)) :=
  (after_keep _ _ keeps5 (st4 V) main_v60 (by decide)).trans (at4_v60 V)
theorem at5_v67 (V : Valuation τ sig (Elt F)) : st5 V (Proc.devRef .tc main_v67) = (eatt_K (F := F)).1 (V (Proc.devRef .tc main_v53)) :=
  (after_keep _ _ keeps5 (st4 V) main_v67 (by decide)).trans (at4_v67 V)
theorem at5_v77 (V : Valuation τ sig (Elt F)) : st5 V (Proc.devRef .tc main_v77) = (counts_K (F := F)).1 (V (Proc.devRef .tc main_v26)) ((c15_K (F := F)).1) ((zeros_K (F := F)).1) :=
  (after_keep _ _ keeps5 (st4 V) main_v77 (by decide)).trans (at4_v77 V)
theorem at5_v80 (V : Valuation τ sig (Elt F)) : st5 V (Proc.devRef .tc main_v80) = (nsum_K (F := F)).1 (V (Proc.devRef .tc main_v26)) ((natt_K (F := F)).1 (V (Proc.devRef .tc main_v52)) (V (Proc.devRef .tc main_v55)) (V (Proc.devRef .tc main_v57))) :=
  ((nsum_K (F := F)).2 (st4 V)).trans (by rw [at4_v26 V, at4_v60 V])

theorem keeps6 : Keeps [main_v60, main_v67, main_v77, main_v80] (mid6 : List (HloOp τ sig (Elt F))) := by keeps_piece
theorem at6_v60 (V : Valuation τ sig (Elt F)) : st6 V (Proc.devRef .tc main_v60) = (natt_K (F := F)).1 (V (Proc.devRef .tc main_v52)) (V (Proc.devRef .tc main_v55)) (V (Proc.devRef .tc main_v57)) :=
  (after_keep _ _ keeps6 (st5 V) main_v60 (by decide)).trans (at5_v60 V)
theorem at6_v67 (V : Valuation τ sig (Elt F)) : st6 V (Proc.devRef .tc main_v67) = (eatt_K (F := F)).1 (V (Proc.devRef .tc main_v53)) :=
  (after_keep _ _ keeps6 (st5 V) main_v67 (by decide)).trans (at5_v67 V)
theorem at6_v77 (V : Valuation τ sig (Elt F)) : st6 V (Proc.devRef .tc main_v77) = (counts_K (F := F)).1 (V (Proc.devRef .tc main_v26)) ((c15_K (F := F)).1) ((zeros_K (F := F)).1) :=
  (after_keep _ _ keeps6 (st5 V) main_v77 (by decide)).trans (at5_v77 V)
theorem at6_v80 (V : Valuation τ sig (Elt F)) : st6 V (Proc.devRef .tc main_v80) = (nsum_K (F := F)).1 (V (Proc.devRef .tc main_v26)) ((natt_K (F := F)).1 (V (Proc.devRef .tc main_v52)) (V (Proc.devRef .tc main_v55)) (V (Proc.devRef .tc main_v57))) :=
  (after_keep _ _ keeps6 (st5 V) main_v80 (by decide)).trans (at5_v80 V)
theorem at6_v83 (V : Valuation τ sig (Elt F)) : st6 V (Proc.devRef .tc main_v83) = (esum_K (F := F)).1 (V (Proc.devRef .tc main_v26)) ((eatt_K (F := F)).1 (V (Proc.devRef .tc main_v53))) :=
  ((esum_K (F := F)).2 (st5 V)).trans (by rw [at5_v26 V, at5_v67 V])

theorem keeps7 : Keeps [main_v60, main_v67, main_v77, main_v80, main_v83] (mid7 : List (HloOp τ sig (Elt F))) := by keeps_piece
theorem at7_v60 (V : Valuation τ sig (Elt F)) : st7 V (Proc.devRef .tc main_v60) = (natt_K (F := F)).1 (V (Proc.devRef .tc main_v52)) (V (Proc.devRef .tc main_v55)) (V (Proc.devRef .tc main_v57)) :=
  (after_keep _ _ keeps7 (st6 V) main_v60 (by decide)).trans (at6_v60 V)
theorem at7_v67 (V : Valuation τ sig (Elt F)) : st7 V (Proc.devRef .tc main_v67) = (eatt_K (F := F)).1 (V (Proc.devRef .tc main_v53)) :=
  (after_keep _ _ keeps7 (st6 V) main_v67 (by decide)).trans (at6_v67 V)
theorem at7_v77 (V : Valuation τ sig (Elt F)) : st7 V (Proc.devRef .tc main_v77) = (counts_K (F := F)).1 (V (Proc.devRef .tc main_v26)) ((c15_K (F := F)).1) ((zeros_K (F := F)).1) :=
  (after_keep _ _ keeps7 (st6 V) main_v77 (by decide)).trans (at6_v77 V)
theorem at7_v80 (V : Valuation τ sig (Elt F)) : st7 V (Proc.devRef .tc main_v80) = (nsum_K (F := F)).1 (V (Proc.devRef .tc main_v26)) ((natt_K (F := F)).1 (V (Proc.devRef .tc main_v52)) (V (Proc.devRef .tc main_v55)) (V (Proc.devRef .tc main_v57))) :=
  (after_keep _ _ keeps7 (st6 V) main_v80 (by decide)).trans (at6_v80 V)
theorem at7_v83 (V : Valuation τ sig (Elt F)) : st7 V (Proc.devRef .tc main_v83) = (esum_K (F := F)).1 (V (Proc.devRef .tc main_v26)) ((eatt_K (F := F)).1 (V (Proc.devRef .tc main_v53))) :=
  (after_keep _ _ keeps7 (st6 V) main_v83 (by decide)).trans (at6_v83 V)
theorem at7_v86 (V : Valuation τ sig (Elt F)) : st7 V (Proc.devRef .tc main_v86) = (rollA_K (F := F)).1 ((counts_K (F := F)).1 (V (Proc.devRef .tc main_v26)) ((c15_K (F := F)).1) ((zeros_K (F := F)).1)) :=
  ((rollA_K (F := F)).2 (st6 V)).trans (by rw [at6_v77 V])

theorem keeps8 : Keeps [main_v60, main_v67, main_v77, main_v80, main_v83] (mid8 : List (HloOp τ sig (Elt F))) := by keeps_piece
theorem at8_v60 (V : Valuation τ sig (Elt F)) : st8 V (Proc.devRef .tc main_v60) = (natt_K (F := F)).1 (V (Proc.devRef .tc main_v52)) (V (Proc.devRef .tc main_v55)) (V (Proc.devRef .tc main_v57)) :=
  (after_keep _ _ keeps8 (st7 V) main_v60 (by decide)).trans (at7_v60 V)
theorem at8_v67 (V : Valuation τ sig (Elt F)) : st8 V (Proc.devRef .tc main_v67) = (eatt_K (F := F)).1 (V (Proc.devRef .tc main_v53)) :=
  (after_keep _ _ keeps8 (st7 V) main_v67 (by decide)).trans (at7_v67 V)
theorem at8_v77 (V : Valuation τ sig (Elt F)) : st8 V (Proc.devRef .tc main_v77) = (counts_K (F := F)).1 (V (Proc.devRef .tc main_v26)) ((c15_K (F := F)).1) ((zeros_K (F := F)).1) :=
  (after_keep _ _ keeps8 (st7 V) main_v77 (by decide)).trans (at7_v77 V)
theorem at8_v80 (V : Valuation τ sig (Elt F)) : st8 V (Proc.devRef .tc main_v80) = (nsum_K (F := F)).1 (V (Proc.devRef .tc main_v26)) ((natt_K (F := F)).1 (V (Proc.devRef .tc main_v52)) (V (Proc.devRef .tc main_v55)) (V (Proc.devRef .tc main_v57))) :=
  (after_keep _ _ keeps8 (st7 V) main_v80 (by decide)).trans (at7_v80 V)
theorem at8_v83 (V : Valuation τ sig (Elt F)) : st8 V (Proc.devRef .tc main_v83) = (esum_K (F := F)).1 (V (Proc.devRef .tc main_v26)) ((eatt_K (F := F)).1 (V (Proc.devRef .tc main_v53))) :=
  (after_keep _ _ keeps8 (st7 V) main_v83 (by decide)).trans (at7_v83 V)
theorem at8_v96 (V : Valuation τ sig (Elt F)) : st8 V (Proc.devRef .tc main_v96) = (cumA_K (F := F)).1 ((rollA_K (F := F)).1 ((counts_K (F := F)).1 (V (Proc.devRef .tc main_v26)) ((c15_K (F := F)).1) ((zeros_K (F := F)).1))) :=
  ((cumA_K (F := F)).2 (st7 V)).trans (by rw [at7_v86 V])

theorem keeps9 : Keeps [main_v60, main_v67, main_v77, main_v80, main_v83] (mid9 : List (HloOp τ sig (Elt F))) := by keeps_piece
theorem at9_v60 (V : Valuation τ sig (Elt F)) : st9 V (Proc.devRef .tc main_v60) = (natt_K (F := F)).1 (V (Proc.devRef .tc main_v52)) (V (Proc.devRef .tc main_v55)) (V (Proc.devRef .tc main_v57)) :=
  (after_keep _ _ keeps9 (st8 V) main_v60 (by decide)).trans (at8_v60 V)
theorem at9_v67 (V : Valuation τ sig (Elt F)) : st9 V (Proc.devRef .tc main_v67) = (eatt_K (F := F)).1 (V (Proc.devRef .tc main_v53)) :=
  (after_keep _ _ keeps9 (st8 V) main_v67 (by decide)).trans (at8_v67 V)
theorem at9_v77 (V : Valuation τ sig (Elt F)) : st9 V (Proc.devRef .tc main_v77) = (counts_K (F := F)).1 (V (Proc.devRef .tc main_v26)) ((c15_K (F := F)).1) ((zeros_K (F := F)).1) :=
  (after_keep _ _ keeps9 (st8 V) main_v77 (by decide)).trans (at8_v77 V)
theorem at9_v80 (V : Valuation τ sig (Elt F)) : st9 V (Proc.devRef .tc main_v80) = (nsum_K (F := F)).1 (V (Proc.devRef .tc main_v26)) ((natt_K (F := F)).1 (V (Proc.devRef .tc main_v52)) (V (Proc.devRef .tc main_v55)) (V (Proc.devRef .tc main_v57))) :=
  (after_keep _ _ keeps9 (st8 V) main_v80 (by decide)).trans (at8_v80 V)
theorem at9_v83 (V : Valuation τ sig (Elt F)) : st9 V (Proc.devRef .tc main_v83) = (esum_K (F := F)).1 (V (Proc.devRef .tc main_v26)) ((eatt_K (F := F)).1 (V (Proc.devRef .tc main_v53))) :=
  (after_keep _ _ keeps9 (st8 V) main_v83 (by decide)).trans (at8_v83 V)
theorem at9_v99 (V : Valuation τ sig (Elt F)) : st9 V (Proc.devRef .tc main_v99) = (idxA_K (F := F)).1 ((cumA_K (F := F)).1 ((rollA_K (F := F)).1 ((counts_K (F := F)).1 (V (Proc.devRef .tc main_v26)) ((c15_K (F := F)).1) ((zeros_K (F := F)).1)))) :=
  ((idxA_K (F := F)).2 (st8 V)).trans (by rw [at8_v96 V])

theorem keeps10 : Keeps [main_v60, main_v67, main_v77, main_v83] (mid10 : List (HloOp τ sig (Elt F))) := by keeps_piece
theorem at10_v60 (V : Valuation τ sig (Elt F)) : st10 V (Proc.devRef .tc main_v60) = (natt_K (F := F)).1 (V (Proc.devRef .tc main_v52)) (V (Proc.devRef .tc main_v55)) (V (Proc.devRef .tc main_v57)) :=
  (after_keep _ _ keeps10 (st9 V) main_v60 (by decide)).trans (at9_v60 V)
theorem at10_v67 (V : Valuation τ sig (Elt F)) : st10 V (Proc.devRef .tc main_v67) = (eatt_K (F := F)).1 (V (Proc.devRef .tc main_v53)) :=
  (after_keep _ _ keeps10 (st9 V) main_v67 (by decide)).trans (at9_v67 V)
theorem at10_v77 (V : Valuation τ sig (Elt F)) : st10 V (Proc.devRef .tc main_v77) = (counts_K (F := F)).1 (V (Proc.devRef .tc main_v26)) ((c15_K (F := F)).1) ((zeros_K (F := F)).1) :=
  (after_keep _ _ keeps10 (st9 V) main_v77 (by decide)).trans (at9_v77 V)
theorem at10_v83 (V : Valuation τ sig (Elt F)) : st10 V (Proc.devRef .tc main_v83) = (esum_K (F := F)).1 (V (Proc.devRef .tc main_v26)) ((eatt_K (F := F)).1 (V (Proc.devRef .tc main_v53))) :=
  (after_keep _ _ keeps10 (st9 V) main_v83 (by decide)).trans (at9_v83 V)
theorem at10_v100 (V : Valuation τ sig (Elt F)) : st10 V (Proc.devRef .tc main_v100) = (takeA_K (F := F)).1 ((nsum_K (F := F)).1 (V (Proc.devRef .tc main_v26)) ((natt_K (F := F)).1 (V (Proc.devRef .tc main_v52)) (V (Proc.devRef .tc main_v55)) (V (Proc.devRef .tc main_v57)))) ((idxA_K (F := F)).1 ((cumA_K (F := F)).1 ((rollA_K (F := F)).1 ((counts_K (F := F)).1 (V (Proc.devRef .tc main_v26)) ((c15_K (F := F)).1) ((zeros_K (F := F)).1))))) :=
  ((takeA_K (F := F)).2 (st9 V)).trans (by rw [at9_v80 V, at9_v99 V])

theorem keeps11 : Keeps [main_v60, main_v67, main_v83, main_v100] (mid11 : List (HloOp τ sig (Elt F))) := by keeps_piece
theorem at11_v60 (V : Valuation τ sig (Elt F)) : st11 V (Proc.devRef .tc main_v60) = (natt_K (F := F)).1 (V (Proc.devRef .tc main_v52)) (V (Proc.devRef .tc main_v55)) (V (Proc.devRef .tc main_v57)) :=
  (after_keep _ _ keeps11 (st10 V) main_v60 (by decide)).trans (at10_v60 V)
theorem at11_v67 (V : Valuation τ sig (Elt F)) : st11 V (Proc.devRef .tc main_v67) = (eatt_K (F := F)).1 (V (Proc.devRef .tc main_v53)) :=
  (after_keep _ _ keeps11 (st10 V) main_v67 (by decide)).trans (at10_v67 V)
theorem at11_v83 (V : Valuation τ sig (Elt F)) : st11 V (Proc.devRef .tc main_v83) = (esum_K (F := F)).1 (V (Proc.devRef .tc main_v26)) ((eatt_K (F := F)).1 (V (Proc.devRef .tc main_v53))) :=
  (after_keep _ _ keeps11 (st10 V) main_v83 (by decide)).trans (at10_v83 V)
theorem at11_v100 (V : Valuation τ sig (Elt F)) : st11 V (Proc.devRef .tc main_v100) = (takeA_K (F := F)).1 ((nsum_K (F := F)).1 (V (Proc.devRef .tc main_v26)) ((natt_K (F := F)).1 (V (Proc.devRef .tc main_v52)) (V (Proc.devRef .tc main_v55)) (V (Proc.devRef .tc main_v57)))) ((idxA_K (F := F)).1 ((cumA_K (F := F)).1 ((rollA_K (F := F)).1 ((counts_K (F := F)).1 (V (Proc.devRef .tc main_v26)) ((c15_K (F := F)).1) ((zeros_K (F := F)).1))))) :=
  (after_keep _ _ keeps11 (st10 V) main_v100 (by decide)).trans (at10_v100 V)
theorem at11_v103 (V : Valuation τ sig (Elt F)) : st11 V (Proc.devRef .tc main_v103) = (rollB_K (F := F)).1 ((counts_K (F := F)).1 (V (Proc.devRef .tc main_v26)) ((c15_K (F := F)).1) ((zeros_K (F := F)).1)) :=
  ((rollB_K (F := F)).2 (st10 V)).trans (by rw [at10_v77 V])

theorem keeps12 : Keeps [main_v60, main_v67, main_v83, main_v100] (mid12 : List (HloOp τ sig (Elt F))) := by keeps_piece
theorem at12_v60 (V : Valuation τ sig (Elt F)) : st12 V (Proc.devRef .tc main_v60) = (natt_K (F := F)).1 (V (Proc.devRef .tc main_v52)) (V (Proc.devRef .tc main_v55)) (V (Proc.devRef .tc main_v57)) :=
  (after_keep _ _ keeps12 (st11 V) main_v60 (by decide)).trans (at11_v60 V)
theorem at12_v67 (V : Valuation τ sig (Elt F)) : st12 V (Proc.devRef .tc main_v67) = (eatt_K (F := F)).1 (V (Proc.devRef .tc main_v53)) :=
  (after_keep _ _ keeps12 (st11 V) main_v67 (by decide)).trans (at11_v67 V)
theorem at12_v83 (V : Valuation τ sig (Elt F)) : st12 V (Proc.devRef .tc main_v83) = (esum_K (F := F)).1 (V (Proc.devRef .tc main_v26)) ((eatt_K (F := F)).1 (V (Proc.devRef .tc main_v53))) :=
  (after_keep _ _ keeps12 (st11 V) main_v83 (by decide)).trans (at11_v83 V)
theorem at12_v100 (V : Valuation τ sig (Elt F)) : st12 V (Proc.devRef .tc main_v100) = (takeA_K (F := F)).1 ((nsum_K (F := F)).1 (V (Proc.devRef .tc main_v26)) ((natt_K (F := F)).1 (V (Proc.devRef .tc main_v52)) (V (Proc.devRef .tc main_v55)) (V (Proc.devRef .tc main_v57)))) ((idxA_K (F := F)).1 ((cumA_K (F := F)).1 ((rollA_K (F := F)).1 ((counts_K (F := F)).1 (V (Proc.devRef .tc main_v26)) ((c15_K (F := F)).1) ((zeros_K (F := F)).1))))) :=
  (after_keep _ _ keeps12 (st11 V) main_v100 (by decide)).trans (at11_v100 V)
theorem at12_v113 (V : Valuation τ sig (Elt F)) : st12 V (Proc.devRef .tc main_v113) = (cumB_K (F := F)).1 ((rollB_K (F := F)).1 ((counts_K (F := F)).1 (V (Proc.devRef .tc main_v26)) ((c15_K (F := F)).1) ((zeros_K (F := F)).1))) :=
  ((cumB_K (F := F)).2 (st11 V)).trans (by rw [at11_v103 V])

theorem keeps13 : Keeps [main_v60, main_v67, main_v83, main_v100] (mid13 : List (HloOp τ sig (Elt F))) := by keeps_piece
theorem at13_v60 (V : Valuation τ sig (Elt F)) : st13 V (Proc.devRef .tc main_v60) = (natt_K (F := F)).1 (V (Proc.devRef .tc main_v52)) (V (Proc.devRef .tc main_v55)) (V (Proc.devRef .tc main_v57)) :=
  (after_keep _ _ keeps13 (st12 V) main_v60 (by decide)).trans (at12_v60 V)
theorem at13_v67 (V : Valuation τ sig (Elt F)) : st13 V (Proc.devRef .tc main_v67) = (eatt_K (F := F)).1 (V (Proc.devRef .tc main_v53)) :=
  (after_keep _ _ keeps13 (st12 V) main_v67 (by decide)).trans (at12_v67 V)
theorem at13_v83 (V : Valuation τ sig (Elt F)) : st13 V (Proc.devRef .tc main_v83) = (esum_K (F := F)).1 (V (Proc.devRef .tc main_v26)) ((eatt_K (F := F)).1 (V (Proc.devRef .tc main_v53))) :=
  (after_keep _ _ keeps13 (st12 V) main_v83 (by decide)).trans (at12_v83 V)
theorem at13_v100 (V : Valuation τ sig (Elt F)) : st13 V (Proc.devRef .tc main_v100) = (takeA_K (F := F)).1 ((nsum_K (F := F)).1 (V (Proc.devRef .tc main_v26)) ((natt_K (F := F)).1 (V (Proc.devRef .tc main_v52)) (V (Proc.devRef .tc main_v55)) (V (Proc.devRef .tc main_v57)))) ((idxA_K (F := F)).1 ((cumA_K (F := F)).1 ((rollA_K (F := F)).1 ((counts_K (F := F)).1 (V (Proc.devRef .tc main_v26)) ((c15_K (F := F)).1) ((zeros_K (F := F)).1))))) :=
  (after_keep _ _ keeps13 (st12 V) main_v100 (by decide)).trans (at12_v100 V)
theorem at13_v116 (V : Valuation τ sig (Elt F)) : st13 V (Proc.devRef .tc main_v116) = (idxB_K (F := F)).1 ((cumB_K (F := F)).1 ((rollB_K (F := F)).1 ((counts_K (F := F)).1 (V (Proc.devRef .tc main_v26)) ((c15_K (F := F)).1) ((zeros_K (F := F)).1)))) :=
  ((idxB_K (F := F)).2 (st12 V)).trans (by rw [at12_v113 V])

theorem keeps14 : Keeps [main_v60, main_v67, main_v100] (mid14 : List (HloOp τ sig (Elt F))) := by keeps_piece
theorem at14_v60 (V : Valuation τ sig (Elt F)) : st14 V (Proc.devRef .tc main_v60) = (natt_K (F := F)).1 (V (Proc.devRef .tc main_v52)) (V (Proc.devRef .tc main_v55)) (V (Proc.devRef .tc main_v57)) :=
  (after_keep _ _ keeps14 (st13 V) main_v60 (by decide)).trans (at13_v60 V)
theorem at14_v67 (V : Valuation τ sig (Elt F)) : st14 V (Proc.devRef .tc main_v67) = (eatt_K (F := F)).1 (V (Proc.devRef .tc main_v53)) :=
  (after_keep _ _ keeps14 (st13 V) main_v67 (by decide)).trans (at13_v67 V)
theorem at14_v100 (V : Valuation τ sig (Elt F)) : st14 V (Proc.devRef .tc main_v100) = (takeA_K (F := F)).1 ((nsum_K (F := F)).1 (V (Proc.devRef .tc main_v26)) ((natt_K (F := F)).1 (V (Proc.devRef .tc main_v52)) (V (Proc.devRef .tc main_v55)) (V (Proc.devRef .tc main_v57)))) ((idxA_K (F := F)).1 ((cumA_K (F := F)).1 ((rollA_K (F := F)).1 ((counts_K (F := F)).1 (V (Proc.devRef .tc main_v26)) ((c15_K (F := F)).1) ((zeros_K (F := F)).1))))) :=
  (after_keep _ _ keeps14 (st13 V) main_v100 (by decide)).trans (at13_v100 V)
theorem at14_v117 (V : Valuation τ sig (Elt F)) : st14 V (Proc.devRef .tc main_v117) = (takeB_K (F := F)).1 ((esum_K (F := F)).1 (V (Proc.devRef .tc main_v26)) ((eatt_K (F := F)).1 (V (Proc.devRef .tc main_v53)))) ((idxB_K (F := F)).1 ((cumB_K (F := F)).1 ((rollB_K (F := F)).1 ((counts_K (F := F)).1 (V (Proc.devRef .tc main_v26)) ((c15_K (F := F)).1) ((zeros_K (F := F)).1))))) :=
  ((takeB_K (F := F)).2 (st13 V)).trans (by rw [at13_v83 V, at13_v116 V])

theorem at15_v118 (V : Valuation τ sig (Elt F)) : st15 V (Proc.devRef .tc main_v118) = (nnorm_K (F := F)).1 ((natt_K (F := F)).1 (V (Proc.devRef .tc main_v52)) (V (Proc.devRef .tc main_v55)) (V (Proc.devRef .tc main_v57))) ((takeA_K (F := F)).1 ((nsum_K (F := F)).1 (V (Proc.devRef .tc main_v26)) ((natt_K (F := F)).1 (V (Proc.devRef .tc main_v52)) (V (Proc.devRef .tc main_v55)) (V (Proc.devRef .tc main_v57)))) ((idxA_K (F := F)).1 ((cumA_K (F := F)).1 ((rollA_K (F := F)).1 ((counts_K (F := F)).1 (V (Proc.devRef .tc main_v26)) ((c15_K (F := F)).1) ((zeros_K (F := F)).1)))))) :=
  ((nnorm_K (F := F)).2 (st14 V)).trans (by rw [at14_v60 V, at14_v100 V])
theorem at15_v119 (V : Valuation τ sig (Elt F)) : st15 V (Proc.devRef .tc main_v119) = (enorm_K (F := F)).1 ((eatt_K (F := F)).1 (V (Proc.devRef .tc main_v53))) ((takeB_K (F := F)).1 ((esum_K (F := F)).1 (V (Proc.devRef .tc main_v26)) ((eatt_K (F := F)).1 (V (Proc.devRef .tc main_v53)))) ((idxB_K (F := F)).1 ((cumB_K (F := F)).1 ((rollB_K (F := F)).1 ((counts_K (F := F)).1 (V (Proc.devRef .tc main_v26)) ((c15_K (F := F)).1) ((zeros_K (F := F)).1)))))) :=
  ((enorm_K (F := F)).2 (st14 V)).trans (by rw [at14_v67 V, at14_v117 V])
theorem at15_c_35 (V : Valuation τ sig (Elt F)) : st15 V (Proc.devRef .tc main_c_35) = (one_K (F := F)).1 :=
  (one_K (F := F)).2 (st14 V)

theorem keeps16 : Keeps [main_v118, main_v119] (mid16 : List (HloOp τ sig (Elt F))) := by keeps_piece
theorem at16_v118 (V : Valuation τ sig (Elt F)) : st16 V (Proc.devRef .tc main_v118) = (nnorm_K (F := F)).1 ((natt_K (F := F)).1 (V (Proc.devRef .tc main_v52)) (V (Proc.devRef .tc main_v55)) (V (Proc.devRef .tc main_v57))) ((takeA_K (F := F)).1 ((nsum_K (F := F)).1 (V (Proc.devRef .tc main_v26)) ((natt_K (F := F)).1 (V (Proc.devRef .tc main_v52)) (V (Proc.devRef .tc main_v55)) (V (Proc.devRef .tc main_v57)))) ((idxA_K (F := F)).1 ((cumA_K (F := F)).1 ((rollA_K (F := F)).1 ((counts_K (F := F)).1 (V (Proc.devRef .tc main_v26)) ((c15_K (F := F)).1) ((zeros_K (F := F)).1)))))) :=
  (after_keep _ _ keeps16 (st15 V) main_v118 (by decide)).trans (at15_v118 V)
theorem at16_v119 (V : Valuation τ sig (Elt F)) : st16 V (Proc.devRef .tc main_v119) = (enorm_K (F := F)).1 ((eatt_K (F := F)).1 (V (Proc.devRef .tc main_v53))) ((takeB_K (F := F)).1 ((esum_K (F := F)).1 (V (Proc.devRef .tc main_v26)) ((eatt_K (F := F)).1 (V (Proc.devRef .tc main_v53)))) ((idxB_K (F := F)).1 ((cumB_K (F := F)).1 ((rollB_K (F := F)).1 ((counts_K (F := F)).1 (V (Proc.devRef .tc main_v26)) ((c15_K (F := F)).1) ((zeros_K (F := F)).1)))))) :=
  (after_keep _ _ keeps16 (st15 V) main_v119 (by decide)).trans (at15_v119 V)
theorem at16_v120 (V : Valuation τ sig (Elt F)) : st16 V (Proc.devRef .tc main_v120) = (nvar_K (F := F)).1 ((nnorm_K (F := F)).1 ((natt_K (F := F)).1 (V (Proc.devRef .tc main_v52)) (V (Proc.devRef .tc main_v55)) (V (Proc.devRef .tc main_v57))) ((takeA_K (F := F)).1 ((nsum_K (F := F)).1 (V (Proc.devRef .tc main_v26)) ((natt_K (F := F)).1 (V (Proc.devRef .tc main_v52)) (V (Proc.devRef .tc main_v55)) (V (Proc.devRef .tc main_v57)))) ((idxA_K (F := F)).1 ((cumA_K (F := F)).1 ((rollA_K (F := F)).1 ((counts_K (F := F)).1 (V (Proc.devRef .tc main_v26)) ((c15_K (F := F)).1) ((zeros_K (F := F)).1))))))) ((one_K (F := F)).1) :=
  ((nvar_K (F := F)).2 (st15 V)).trans (by rw [at15_v118 V, at15_c_35 V])

theorem keeps17 : Keeps [main_v118, main_v119, main_v120] (mid17 : List (HloOp τ sig (Elt F))) := by keeps_piece
theorem at17_v118 (V : Valuation τ sig (Elt F)) : st17 V (Proc.devRef .tc main_v118) = (nnorm_K (F := F)).1 ((natt_K (F := F)).1 (V (Proc.devRef .tc main_v52)) (V (Proc.devRef .tc main_v55)) (V (Proc.devRef .tc main_v57))) ((takeA_K (F := F)).1 ((nsum_K (F := F)).1 (V (Proc.devRef .tc main_v26)) ((natt_K (F := F)).1 (V (Proc.devRef .tc main_v52)) (V (Proc.devRef .tc main_v55)) (V (Proc.devRef .tc main_v57)))) ((idxA_K (F := F)).1 ((cumA_K (F := F)).1 ((rollA_K (F := F)).1 ((counts_K (F := F)).1 (V (Proc.devRef .tc main_v26)) ((c15_K (F := F)).1) ((zeros_K (F := F)).1)))))) :=
  (after_keep _ _ keeps17 (st16 V) main_v118 (by decide)).trans (at16_v118 V)
theorem at17_v119 (V : Valuation τ sig (Elt F)) : st17 V (Proc.devRef .tc main_v119) = (enorm_K (F := F)).1 ((eatt_K (F := F)).1 (V (Proc.devRef .tc main_v53))) ((takeB_K (F := F)).1 ((esum_K (F := F)).1 (V (Proc.devRef .tc main_v26)) ((eatt_K (F := F)).1 (V (Proc.devRef .tc main_v53)))) ((idxB_K (F := F)).1 ((cumB_K (F := F)).1 ((rollB_K (F := F)).1 ((counts_K (F := F)).1 (V (Proc.devRef .tc main_v26)) ((c15_K (F := F)).1) ((zeros_K (F := F)).1)))))) :=
  (after_keep _ _ keeps17 (st16 V) main_v119 (by decide)).trans (at16_v119 V)
theorem at17_v120 (V : Valuation τ sig (Elt F)) : st17 V (Proc.devRef .tc main_v120) = (nvar_K (F := F)).1 ((nnorm_K (F := F)).1 ((natt_K (F := F)).1 (V (Proc.devRef .tc main_v52)) (V (Proc.devRef .tc main_v55)) (V (Proc.devRef .tc main_v57))) ((takeA_K (F := F)).1 ((nsum_K (F := F)).1 (V (Proc.devRef .tc main_v26)) ((natt_K (F := F)).1 (V (Proc.devRef .tc main_v52)) (V (Proc.devRef .tc main_v55)) (V (Proc.devRef .tc main_v57)))) ((idxA_K (F := F)).1 ((cumA_K (F := F)).1 ((rollA_K (F := F)).1 ((counts_K (F := F)).1 (V (Proc.devRef .tc main_v26)) ((c15_K (F := F)).1) ((zeros_K (F := F)).1))))))) ((one_K (F := F)).1) :=
  (after_keep _ _ keeps17 (st16 V) main_v120 (by decide)).trans (at16_v120 V)
theorem at17_v121 (V : Valuation τ sig (Elt F)) : st17 V (Proc.devRef .tc main_v121) = (evar_K (F := F)).1 ((enorm_K (F := F)).1 ((eatt_K (F := F)).1 (V (Proc.devRef .tc main_v53))) ((takeB_K (F := F)).1 ((esum_K (F := F)).1 (V (Proc.devRef .tc main_v26)) ((eatt_K (F := F)).1 (V (Proc.devRef .tc main_v53)))) ((idxB_K (F := F)).1 ((cumB_K (F := F)).1 ((rollB_K (F := F)).1 ((counts_K (F := F)).1 (V (Proc.devRef .tc main_v26)) ((c15_K (F := F)).1) ((zeros_K (F := F)).1))))))) :=
  ((evar_K (F := F)).2 (st16 V)).trans (by rw [at16_v119 V])

/-! ## The line's four results, as functions of its inputs -/

/-- The normalised node attention from the node logits `x`, their sign test `a`, their sloped copy `b` and the sources `s`. -/
abbrev nnormMid (x : FVec F S800000 .f32) (a : IVec S800000 1) (b : FVec F S800000 .f32) (s : IVec S800000 32) : FVec F S800000 .f32 :=
  (nnorm_K (F := F)).1 ((natt_K (F := F)).1 (x) (a) (b)) ((takeA_K (F := F)).1 ((nsum_K (F := F)).1 (s) ((natt_K (F := F)).1 (x) (a) (b))) ((idxA_K (F := F)).1 ((cumA_K (F := F)).1 ((rollA_K (F := F)).1 ((counts_K (F := F)).1 (s) ((c15_K (F := F)).1) ((zeros_K (F := F)).1))))))
/-- The normalised edge attention from the edge logits `y` and the sources `s`. -/
abbrev enormMid (y : FVec F S800000 .f32) (s : IVec S800000 32) : FVec F S800000 .f32 :=
  (enorm_K (F := F)).1 ((eatt_K (F := F)).1 (y)) ((takeB_K (F := F)).1 ((esum_K (F := F)).1 (s) ((eatt_K (F := F)).1 (y))) ((idxB_K (F := F)).1 ((cumB_K (F := F)).1 ((rollB_K (F := F)).1 ((counts_K (F := F)).1 (s) ((c15_K (F := F)).1) ((zeros_K (F := F)).1))))))
/-- The node attention's variance. -/
abbrev nvarMid (x : FVec F S800000 .f32) (a : IVec S800000 1) (b : FVec F S800000 .f32) (s : IVec S800000 32) : FVec F S_ .f32 :=
  (nvar_K (F := F)).1 (nnormMid x a b s) ((one_K (F := F)).1)
/-- The edge attention's variance. -/
abbrev evarMid (y : FVec F S800000 .f32) (s : IVec S800000 32) : FVec F S_ .f32 :=
  (evar_K (F := F)).1 (enormMid y s)

/-- The normalised node attention after the whole line. -/
theorem mid_v118 (V : Valuation τ sig (Elt F)) :
    StableHlo.after midOps V (Proc.devRef .tc main_v118) = nnormMid (V (Proc.devRef .tc main_v52)) (V (Proc.devRef .tc main_v55)) (V (Proc.devRef .tc main_v57)) (V (Proc.devRef .tc main_v26)) := by
  rw [after_midOps]; exact at17_v118 V

/-- The normalised edge attention after the whole line. -/
theorem mid_v119 (V : Valuation τ sig (Elt F)) :
    StableHlo.after midOps V (Proc.devRef .tc main_v119) = enormMid (V (Proc.devRef .tc main_v53)) (V (Proc.devRef .tc main_v26)) := by
  rw [after_midOps]; exact at17_v119 V

/-- The node attention's variance after the whole line. -/
theorem mid_v120 (V : Valuation τ sig (Elt F)) :
    StableHlo.after midOps V (Proc.devRef .tc main_v120) = nvarMid (V (Proc.devRef .tc main_v52)) (V (Proc.devRef .tc main_v55)) (V (Proc.devRef .tc main_v57)) (V (Proc.devRef .tc main_v26)) := by
  rw [after_midOps]; exact at17_v120 V

/-- The edge attention's variance after the whole line. -/
theorem mid_v121 (V : Valuation τ sig (Elt F)) :
    StableHlo.after midOps V (Proc.devRef .tc main_v121) = evarMid (V (Proc.devRef .tc main_v53)) (V (Proc.devRef .tc main_v26)) := by
  rw [after_midOps]; exact at17_v121 V

/-- The line writes none of the buffers the last stretch reads from before it. -/
theorem midOps_keeps : Keeps [main_v26, main_v28, main_v20_0, main_v21_0] (midOps : List (HloOp τ sig (Elt F))) := by
  unfold Keeps
  simp only [midOps, hostOps2_1, hostOps2_2, hostOps2_3, hostOps2_4, hostOps2_5, hostOps2_6, hostOps2_7, hostOps2_8, hostOps2_9, hostOps2_10, hostOps2_11, hostOps2_12, hostOps2_13, hostOps2_14, hostOps2_15, hostOps2_16, hostOps2_17, hostOps2_18, hostOps2_19, hostOps2_20, hostOps2_21, hostOps2_22, hostOps2_23, hostOps2_24, hostOps2_25, hostOps2_26, hostOps2_27, hostOps2_28, List.cons_append, List.nil_append]
  simp only [List.Forall, StableHlo.nullary_writes, StableHlo.unary_writes, StableHlo.binary_writes, StableHlo.ternary_writes,
    StableHlo.quaternary_writes, StableHlo.reshape_writes, StableHlo.binaryIndexed_writes, StableHlo.unaryIndexed_writes, StableHlo.nary_writes]
  repeat' apply And.intro
  all_goals exact not_written _ _ (by decide)

end Cert.KernelIdeal.Bridge
end
-- ==== Proof.KStageE.lean ====
import proofs.«130992_j35871566856204_2_alg».proof.Proof.Gen.KernelIdeal.Launch
import proofs.«130992_j35871566856204_2_alg».proof.Proof.LibFoldSteps
import Idealize.ShloMosaic.Lib.StableHlo.Run

set_option pp.maxSteps 20000

noncomputable section
namespace Cert.KernelIdeal.Bridge
open Cert.KernelIdeal Cert.KernelIdeal.Gen Idealize.ShloMosaic Idealize.ShloMosaic.TcCoe Idealize.SL.Sem Idealize.ShloMosaic.StableHlo Cert.Lib

variable {F : FTy → Type} [FloatOps F]

local macro "fold_steps" : tactic => `(tactic| (after_results_simp; results_by_rw))

/-! The last host stretch of the kernel program: the two results as functions of the regions' matmul outputs, the
    destinations, the two normalised attention vectors and the sources. The functions are the operations' own composed terms. -/

set_option maxHeartbeats 4000000 in
/-- The first half of the aggregated messages' columns: the gathered rows of the two matmul outputs side by side, scaled
    by the two attention vectors, summed into the source rows; columns 0 to 127. -/
def out0K : { f : (FVec F S50000x128 .bf16) → (FVec F S400000x128 .bf16) → (IVec S800000 32) → (FVec F S800000 .f32) → (FVec F S800000 .f32) → (IVec S800000 32) → FVec F S50000x128 .f32 //
    ∀ V : Valuation τ sig (Elt F), StableHlo.after hostOps2_29 V (Proc.devRef .tc main_v141)
      = f (V (Proc.devRef .tc main_v20_0)) (V (Proc.devRef .tc main_v21_0)) (V (Proc.devRef .tc main_v28))
          (V (Proc.devRef .tc main_v118)) (V (Proc.devRef .tc main_v119)) (V (Proc.devRef .tc main_v26)) } :=
  ⟨_, fun V => by
    fold_steps
    generalize V (Proc.devRef .tc main_v20_0) = h
    generalize V (Proc.devRef .tc main_v21_0) = g
    generalize V (Proc.devRef .tc main_v28) = d
    generalize V (Proc.devRef .tc main_v118) = n
    generalize V (Proc.devRef .tc main_v119) = e
    generalize V (Proc.devRef .tc main_v26) = s
    rfl⟩

set_option maxHeartbeats 4000000 in
/-- The second half: columns 128 to 255. -/
def out1K : { f : (FVec F S50000x128 .bf16) → (FVec F S400000x128 .bf16) → (IVec S800000 32) → (FVec F S800000 .f32) → (FVec F S800000 .f32) → (IVec S800000 32) → FVec F S50000x128 .f32 //
    ∀ V : Valuation τ sig (Elt F), StableHlo.after hostOps2_29 V (Proc.devRef .tc main_v142)
      = f (V (Proc.devRef .tc main_v20_0)) (V (Proc.devRef .tc main_v21_0)) (V (Proc.devRef .tc main_v28))
          (V (Proc.devRef .tc main_v118)) (V (Proc.devRef .tc main_v119)) (V (Proc.devRef .tc main_v26)) } :=
  ⟨_, fun V => by
    fold_steps
    generalize V (Proc.devRef .tc main_v20_0) = h
    generalize V (Proc.devRef .tc main_v21_0) = g
    generalize V (Proc.devRef .tc main_v28) = d
    generalize V (Proc.devRef .tc main_v118) = n
    generalize V (Proc.devRef .tc main_v119) = e
    generalize V (Proc.devRef .tc main_v26) = s
    rfl⟩

end Cert.KernelIdeal.Bridge
end
-- ==== Proof.KCompose.lean ====
import proofs.«130992_j35871566856204_2_alg».proof.Proof.KIFold
import proofs.«130992_j35871566856204_2_alg».proof.Proof.LibFoldSteps
import proofs.«130992_j35871566856204_2_alg».proof.Proof.KStageA
import proofs.«130992_j35871566856204_2_alg».proof.Proof.KStageM
import proofs.«130992_j35871566856204_2_alg».proof.Proof.KStageE
import Idealize.ShloMosaic.Lib.StableHlo.Run

set_option maxRecDepth 16384

noncomputable section
namespace Cert.KernelIdeal.Bridge
open Cert.KernelIdeal Cert.KernelIdeal.Gen Cert.KernelIdeal.Hand Idealize.ShloMosaic Idealize.ShloMosaic.TcCoe Idealize.SL.Sem Idealize.ShloMosaic.StableHlo Cert.Lib

variable {F : FTy → Type} [FloatOps F]
variable (m : (ℓ : Loc nD τ sig) → Buf (Elt F) ℓ) (ρ : Dev nD → PrngReg)

/-! # The four results of the kernel program's run, as functions of the regions' outputs and the edge list

The run ends with every unscoped buffer at the fold `Wend`. Read back through the thirty host stretches after the
regions — the first stretch (the logits and the edge columns), the mid line (the two normalised attention vectors and their
variances), the last stretch (the aggregation) — each result is the stages' functions applied to what the regions
left in their four outputs and to the edge list as launched. -/

/-- The edge list as launched. -/
abbrev edgesK (c : Dev nD) : IVec S1x2x400000 32 := m ((c : Thread nD τ).loc main_arg2)
/-- What the regions leave: the node projection, the edge projection, the node features, the edge features. -/
abbrev projNK (c : Dev nD) : FVec F S50000x4 .f32 := Wregs m ρ c (Proc.devRef .tc main_v20_1)
abbrev projEK (c : Dev nD) : FVec F S400000x4 .f32 := Wregs m ρ c (Proc.devRef .tc main_v21_1)
abbrev featNK (c : Dev nD) : FVec F S50000x128 .bf16 := Wregs m ρ c (Proc.devRef .tc main_v20_0)
abbrev featEK (c : Dev nD) : FVec F S400000x128 .bf16 := Wregs m ρ c (Proc.devRef .tc main_v21_0)
/-- The node logits, the edge logits, the sources, the destinations. -/
abbrev xK (c : Dev nD) : FVec F S800000 .f32 := (npreK (F := F)).1 (projNK m ρ c) (edgesK m c)
abbrev yK (c : Dev nD) : FVec F S800000 .f32 := (epreK (F := F)).1 (projNK m ρ c) (projEK m ρ c) (edgesK m c)
abbrev sK (c : Dev nD) : IVec S800000 32 := (srcK (F := F)).1 (edgesK m c)
abbrev dK (c : Dev nD) : IVec S800000 32 := (dstK (F := F)).1 (edgesK m c)
/-- The node logits' sign test and their sloped copy. -/
abbrev aK (c : Dev nD) : IVec S800000 1 :=
  cmpf .oge (xK m ρ c) (broadcastInDim S800000 ![] bcast_S_S800000 (constant S_ .f32 0x00000000#32))
abbrev bK (c : Dev nD) : FVec F S800000 .f32 :=
  mulf (broadcastInDim S800000 ![] bcast_S_S800000 (constant S_ .f32 0x3E4CCCCD#32)) (xK m ρ c)

/-! ## Buffers the stretches leave alone -/

local macro "keeps_line" : tactic => `(tactic| (
  unfold Keeps
  simp only [List.Forall, StableHlo.nullary_writes, StableHlo.unary_writes, StableHlo.binary_writes, StableHlo.ternary_writes,
    StableHlo.quaternary_writes, StableHlo.reshape_writes, StableHlo.binaryIndexed_writes, StableHlo.unaryIndexed_writes, StableHlo.nary_writes]
  repeat' apply And.intro
  all_goals exact not_written _ _ (by decide)))

/-- The first stretch after the regions writes neither feature output. -/
theorem hostOps2_keepsF : Keeps [main_v20_0, main_v21_0] (hostOps2 : List (HloOp τ sig (Elt F))) := by keeps_line
/-- The last stretch writes neither variance. -/
theorem hostOps2_29_keepsV : Keeps [main_v120, main_v121] (hostOps2_29 : List (HloOp τ sig (Elt F))) := by keeps_line

/-! ## The fold regrouped: the last stretch over the mid line over the first stretch -/

theorem W32_eq (c : Dev nD) : W32 m ρ c = StableHlo.after midOps (StableHlo.after hostOps2 (Wregs m ρ c)) := by
  have h : StableHlo.after midOps (StableHlo.after hostOps2 (Wregs m ρ c)) = StableHlo.after hostOps2_28 (StableHlo.after hostOps2_27 (StableHlo.after hostOps2_26 (StableHlo.after hostOps2_25 (StableHlo.after hostOps2_24 (StableHlo.after hostOps2_23 (StableHlo.after hostOps2_22 (StableHlo.after hostOps2_21 (StableHlo.after hostOps2_20 (StableHlo.after hostOps2_19 (StableHlo.after hostOps2_18 (StableHlo.after hostOps2_17 (StableHlo.after hostOps2_16 (StableHlo.after hostOps2_15 (StableHlo.after hostOps2_14 (StableHlo.after hostOps2_13 (StableHlo.after hostOps2_12 (StableHlo.after hostOps2_11 (StableHlo.after hostOps2_10 (StableHlo.after hostOps2_9 (StableHlo.after hostOps2_8 (StableHlo.after hostOps2_7 (StableHlo.after hostOps2_6 (StableHlo.after hostOps2_5 (StableHlo.after hostOps2_4 (StableHlo.after hostOps2_3 (StableHlo.after hostOps2_2 (StableHlo.after hostOps2_1 (StableHlo.after hostOps2 (Wregs m ρ c))))))))))))))))))))))))))))) := by
    simp only [midOps, Cert.Lib.after_append]
  exact h.symm

/-! ## After the first stretch -/

theorem v4_v52 (c : Dev nD) : (StableHlo.after hostOps2 (Wregs m ρ c)) (Proc.devRef .tc main_v52) = xK m ρ c :=
  ((npreK (F := F)).2 (Wregs m ρ c)).trans (by rw [Wregs_arg m ρ c main_arg2 (by decide)])
theorem v4_v53 (c : Dev nD) : (StableHlo.after hostOps2 (Wregs m ρ c)) (Proc.devRef .tc main_v53) = yK m ρ c :=
  ((epreK (F := F)).2 (Wregs m ρ c)).trans (by rw [Wregs_arg m ρ c main_arg2 (by decide)])
theorem v4_v26 (c : Dev nD) : (StableHlo.after hostOps2 (Wregs m ρ c)) (Proc.devRef .tc main_v26) = sK m c :=
  ((srcK (F := F)).2 (Wregs m ρ c)).trans (by rw [Wregs_arg m ρ c main_arg2 (by decide)])
theorem v4_v28 (c : Dev nD) : (StableHlo.after hostOps2 (Wregs m ρ c)) (Proc.devRef .tc main_v28) = dK m c :=
  ((dstK (F := F)).2 (Wregs m ρ c)).trans (by rw [Wregs_arg m ρ c main_arg2 (by decide)])
theorem v4_v55 (c : Dev nD) : (StableHlo.after hostOps2 (Wregs m ρ c)) (Proc.devRef .tc main_v55) = aK m ρ c :=
  (nposK (Wregs m ρ c)).trans (by rw [v4_v52 m ρ c])
theorem v4_v57 (c : Dev nD) : (StableHlo.after hostOps2 (Wregs m ρ c)) (Proc.devRef .tc main_v57) = bK m ρ c :=
  (nslopeK (Wregs m ρ c)).trans (by rw [v4_v52 m ρ c])
theorem v4_v20_0 (c : Dev nD) : (StableHlo.after hostOps2 (Wregs m ρ c)) (Proc.devRef .tc main_v20_0) = featNK m ρ c :=
  after_keep _ _ hostOps2_keepsF (Wregs m ρ c) main_v20_0 (by decide)
theorem v4_v21_0 (c : Dev nD) : (StableHlo.after hostOps2 (Wregs m ρ c)) (Proc.devRef .tc main_v21_0) = featEK m ρ c :=
  after_keep _ _ hostOps2_keepsF (Wregs m ρ c) main_v21_0 (by decide)

/-! ## After the mid line -/

theorem v32_v118 (c : Dev nD) : (StableHlo.after midOps (StableHlo.after hostOps2 (Wregs m ρ c))) (Proc.devRef .tc main_v118) = nnormMid (xK m ρ c) (aK m ρ c) (bK m ρ c) (sK m c) :=
  (mid_v118 (StableHlo.after hostOps2 (Wregs m ρ c))).trans (by rw [v4_v52 m ρ c, v4_v55 m ρ c, v4_v57 m ρ c, v4_v26 m ρ c])
theorem v32_v119 (c : Dev nD) : (StableHlo.after midOps (StableHlo.after hostOps2 (Wregs m ρ c))) (Proc.devRef .tc main_v119) = enormMid (yK m ρ c) (sK m c) :=
  (mid_v119 (StableHlo.after hostOps2 (Wregs m ρ c))).trans (by rw [v4_v53 m ρ c, v4_v26 m ρ c])
theorem v32_v120 (c : Dev nD) : (StableHlo.after midOps (StableHlo.after hostOps2 (Wregs m ρ c))) (Proc.devRef .tc main_v120) = nvarMid (xK m ρ c) (aK m ρ c) (bK m ρ c) (sK m c) :=
  (mid_v120 (StableHlo.after hostOps2 (Wregs m ρ c))).trans (by rw [v4_v52 m ρ c, v4_v55 m ρ c, v4_v57 m ρ c, v4_v26 m ρ c])
theorem v32_v121 (c : Dev nD) : (StableHlo.after midOps (StableHlo.after hostOps2 (Wregs m ρ c))) (Proc.devRef .tc main_v121) = evarMid (yK m ρ c) (sK m c) :=
  (mid_v121 (StableHlo.after hostOps2 (Wregs m ρ c))).trans (by rw [v4_v53 m ρ c, v4_v26 m ρ c])
theorem v32_v26 (c : Dev nD) : (StableHlo.after midOps (StableHlo.after hostOps2 (Wregs m ρ c))) (Proc.devRef .tc main_v26) = sK m c :=
  (after_keep _ _ midOps_keeps (StableHlo.after hostOps2 (Wregs m ρ c)) main_v26 (by decide)).trans (v4_v26 m ρ c)
theorem v32_v28 (c : Dev nD) : (StableHlo.after midOps (StableHlo.after hostOps2 (Wregs m ρ c))) (Proc.devRef .tc main_v28) = dK m c :=
  (after_keep _ _ midOps_keeps (StableHlo.after hostOps2 (Wregs m ρ c)) main_v28 (by decide)).trans (v4_v28 m ρ c)
theorem v32_v20_0 (c : Dev nD) : (StableHlo.after midOps (StableHlo.after hostOps2 (Wregs m ρ c))) (Proc.devRef .tc main_v20_0) = featNK m ρ c :=
  (after_keep _ _ midOps_keeps (StableHlo.after hostOps2 (Wregs m ρ c)) main_v20_0 (by decide)).trans (v4_v20_0 m ρ c)
theorem v32_v21_0 (c : Dev nD) : (StableHlo.after midOps (StableHlo.after hostOps2 (Wregs m ρ c))) (Proc.devRef .tc main_v21_0) = featEK m ρ c :=
  (after_keep _ _ midOps_keeps (StableHlo.after hostOps2 (Wregs m ρ c)) main_v21_0 (by decide)).trans (v4_v21_0 m ρ c)

/-! ## The four results -/

/-- The first half of the aggregated columns when @main returns. -/
theorem Wend_v141 (c : Dev nD) : Wend m ρ c (Proc.devRef .tc main_v141)
    = (out0K (F := F)).1 (featNK m ρ c) (featEK m ρ c) (dK m c)
        (nnormMid (xK m ρ c) (aK m ρ c) (bK m ρ c) (sK m c)) (enormMid (yK m ρ c) (sK m c)) (sK m c) := by
  show StableHlo.after hostOps2_29 (W32 m ρ c) (Proc.devRef .tc main_v141) = _
  rw [W32_eq m ρ c, (out0K (F := F)).2, v32_v20_0 m ρ c, v32_v21_0 m ρ c, v32_v28 m ρ c, v32_v118 m ρ c, v32_v119 m ρ c, v32_v26 m ρ c]

/-- The second half. -/
theorem Wend_v142 (c : Dev nD) : Wend m ρ c (Proc.devRef .tc main_v142)
    = (out1K (F := F)).1 (featNK m ρ c) (featEK m ρ c) (dK m c)
        (nnormMid (xK m ρ c) (aK m ρ c) (bK m ρ c) (sK m c)) (enormMid (yK m ρ c) (sK m c)) (sK m c) := by
  show StableHlo.after hostOps2_29 (W32 m ρ c) (Proc.devRef .tc main_v142) = _
  rw [W32_eq m ρ c, (out1K (F := F)).2, v32_v20_0 m ρ c, v32_v21_0 m ρ c, v32_v28 m ρ c, v32_v118 m ρ c, v32_v119 m ρ c, v32_v26 m ρ c]

/-- The node attention's variance. -/
theorem Wend_v120 (c : Dev nD) : Wend m ρ c (Proc.devRef .tc main_v120) = nvarMid (xK m ρ c) (aK m ρ c) (bK m ρ c) (sK m c) :=
  (after_keep _ _ hostOps2_29_keepsV (W32 m ρ c) main_v120 (by decide)).trans (by rw [W32_eq m ρ c, v32_v120 m ρ c])

/-- The edge attention's variance. -/
theorem Wend_v121 (c : Dev nD) : Wend m ρ c (Proc.devRef .tc main_v121) = evarMid (yK m ρ c) (sK m c) :=
  (after_keep _ _ hostOps2_29_keepsV (W32 m ρ c) main_v121 (by decide)).trans (by rw [W32_eq m ρ c, v32_v121 m ρ c])

end Cert.KernelIdeal.Bridge
end
-- ==== Proof.LibPlainMatmul.lean ====
/-
  The matrix unit's product over the plain dimension numbers, read at an entry. For any dimension record equal to the
  plain one — an `[m, k]` array against a `[k, n]` array, contracting the shared axis, no batch axis — the product
  accumulated into the zero splat is, at `(a, b)` and at the ideal values, the sum over `c : Fin k` of
  `A (a, c) * B (c, b)`.
-/
import Idealize.ShloMosaic.Lib.ValueIdx
import Idealize.ShloMosaic.PureOps.Ideal.Laws
import Idealize.ShloMosaic.Lib.StackMember

noncomputable section

namespace Idealize.ShloMosaic.PlainMatmul

open Idealize.ShloMosaic Idealize.ShloMosaic.ValueIdx

/-- The product into the zero splat is the host's product (which has no accumulator), and that one read at an entry is
    the sum over the contracted coordinate. -/
theorem matmul_apply_of_plain {m k n : Nat} {φ₁ φ₂ : FTy} (d : DotDims ⟨2, ![m, k]⟩ ⟨2, ![k, n]⟩ ⟨2, ![m, n]⟩)
    (hd : d = DotDims.plain m k n) (prec : Option ContractPrecision)
    (A : FVec Ideal ⟨2, ![m, k]⟩ φ₁) (B : FVec Ideal ⟨2, ![k, n]⟩ φ₂) (a : Fin m) (b : Fin n) :
    matmul d prec A B (constant (F := Ideal) ⟨2, ![m, n]⟩ .f32 0x00000000#32) (ix2 a b)
      = ∑ c : Fin k, A (ix2 a c) * B (ix2 c b) := by
  subst hd
  rw [matmul_zero_eq_dotGeneral]
  exact StackMember.dotGeneral_plain_apply prec A B a b

end Idealize.ShloMosaic.PlainMatmul

end
-- ==== Proof.KIArr0.lean ====
/-
  What region 0 of the kernel program (the node projection) leaves in its two output arrays, as whole-array functions of the three arrays
  it reads, at the ideal values. The grid has 10 points; point `t` reads rows `5000·t … 5000·t + 4999` of the [50000,256]
  array `x`, all of the [256,128] array `w` and all of the [128,4] array `a`, and writes back rows `5000·t … 5000·t + 4999` of
  `h = x · w` ([50000,128]) and of `p = (x · w) · a` ([50000,4]). The row blocks tile the arrays (row `r` is in the block of
  point `r / 5000`), so after the last point
      h (r, j) = ∑ k, x (r, k) * w (k, j)        and        p (r, q) = ∑ j, (∑ k, x (r, k) * w (k, j)) * a (j, q).
  Steps: the body's payloads read at an entry (two matrix products into the zero splat; the roundings to the narrower
  format are the identity at the ideal values); each input block read where the output's row block says; what a point
  writes back is its block of the whole-array function; the cover; the whole array.
-/
import proofs.«130992_j35871566856204_2_alg».proof.Proof.KIBody0
import proofs.«130992_j35871566856204_2_alg».proof.Proof.LibPlainMatmul
import Idealize.ShloMosaic.Lib.Pipeline.Value
import Idealize.ShloMosaic.Lib.ValueIdx
import Idealize.ShloMosaic.PureOps.Ideal.Laws

set_option maxRecDepth 16384

noncomputable section

namespace Cert.KernelIdeal.HandValue

open Cert.KernelIdeal Cert.KernelIdeal.Gen Cert.KernelIdeal.Hand
open Idealize.ShloMosaic Idealize.ShloMosaic.TcCoe Idealize.SL.Sem
open Idealize.ShloMosaic.Pipeline (Dat)
open Idealize.ShloMosaic.ValueIdx Idealize.ShloMosaic.PlainMatmul

/-! ## The whole-array functions -/

/-- Entry (r, j) of the product of a [50000,256] matrix and a [256,128] matrix. -/
abbrev prodAt0 (X : S50000x256.Idx → EReal) (W : S256x128.Idx → EReal) (r : Fin 50000) (j : Fin 128) : EReal :=
  ∑ k : Fin 256, X (ix2 r k) * W (ix2 k j)

/-- Entry (r, q) of that product times a [128,4] matrix. -/
abbrev projAt0 (X : S50000x256.Idx → EReal) (W : S256x128.Idx → EReal) (A : S128x4.Idx → EReal) (r : Fin 50000) (q : Fin 4) : EReal :=
  ∑ j : Fin 128, (∑ k : Fin 256, X (ix2 r k) * W (ix2 k j)) * A (ix2 j q)

/-- The product of the two matrices as an array, entry by entry. -/
def prod0 (X : S50000x256.Idx → EReal) (W : S256x128.Idx → EReal) : S50000x128.Idx → EReal :=
  fun i => ∑ k : Fin 256, X (ix2 ⟨(i 0).val, idx2_lt0 i⟩ k) * W (ix2 k ⟨(i 1).val, idx2_lt1 i⟩)

/-- The product projected by the third matrix as an array, entry by entry. -/
def proj0 (X : S50000x256.Idx → EReal) (W : S256x128.Idx → EReal) (A : S128x4.Idx → EReal) : S50000x4.Idx → EReal :=
  fun i => ∑ j : Fin 128, (∑ k : Fin 256, X (ix2 ⟨(i 0).val, idx2_lt0 i⟩ k) * W (ix2 k j)) * A (ix2 j ⟨(i 1).val, idx2_lt1 i⟩)

/-! ## The body's payloads at an entry -/

/-- The first matrix product at (p, j): row `p` of the row block against column `j` of `w`. -/
theorem k0_pay1_apply (x : Vec Ideal S5000x256 .f32) (w : Vec Ideal S256x128 .f32) (p : Fin 5000) (j : Fin 128) :
    k0_pay1 x w (ix2 p j) = ∑ k : Fin 256, x (ix2 p k) * w (ix2 k j) := by
  unfold k0_pay1
  exact matmul_apply_of_plain dot_S5000x256_S256x128_S5000x128_1_0_0_1_n_n rfl none _ _ p j

/-- Its rounding to the narrower format: the same entry. -/
theorem k0_pay2_apply (x : Vec Ideal S5000x256 .f32) (w : Vec Ideal S256x128 .f32) (p : Fin 5000) (j : Fin 128) :
    k0_pay2 x w (ix2 p j) = ∑ k : Fin 256, x (ix2 p k) * w (ix2 k j) := by
  unfold k0_pay2
  exact k0_pay1_apply x w p j

/-- The second matrix product at (p, q): row `p` of the first product against column `q` of `a`. -/
theorem k0_pay3_apply (x : Vec Ideal S5000x256 .f32) (w : Vec Ideal S256x128 .f32) (a : Vec Ideal S128x4 .f32) (p : Fin 5000) (q : Fin 4) :
    k0_pay3 x w a (ix2 p q) = ∑ j : Fin 128, (∑ k : Fin 256, x (ix2 p k) * w (ix2 k j)) * a (ix2 j q) := by
  unfold k0_pay3
  refine (matmul_apply_of_plain dot_S5000x128_S128x4_S5000x4_1_0_0_1_n_n rfl (some .fp32) _ _ p q).trans ?_
  refine Finset.sum_congr rfl fun j _ => ?_
  rw [k0_pay1_apply, shapeCast_self]

/-- The first output block of a row block whose rows are rows `b * 5000 + p` of `X`: the same rows of the product. -/
theorem k0_pay2_blk (x : Vec Ideal S5000x256 .f32) (w : Vec Ideal S256x128 .f32)
    (X : S50000x256.Idx → EReal) (W : S256x128.Idx → EReal) (b : Nat)
    (hx : ∀ (y : S5000x256.Idx) (k : S50000x256.Idx), (k 0).val = b * 5000 + (y 0).val → (k 1).val = (y 1).val → x y = X k)
    (hw : ∀ y : S256x128.Idx, w y = W y)
    (y : S5000x128.Idx) (i : S50000x128.Idx) (h0 : (i 0).val = b * 5000 + (y 0).val) (h1 : (i 1).val = (y 1).val) :
    k0_pay2 x w y = prod0 X W i := by
  obtain ⟨p, j, rfl⟩ : ∃ (p : Fin 5000) (j : Fin 128), y = ix2 p j := ⟨y 0, y 1, eq_ix2 y⟩
  rw [k0_pay2_apply]
  unfold prod0
  refine Finset.sum_congr rfl fun k _ => ?_
  rw [hx (ix2 p k) (ix2 ⟨(i 0).val, idx2_lt0 i⟩ k) h0 rfl, hw]
  exact congrArg (fun z => X (ix2 ⟨(i 0).val, idx2_lt0 i⟩ k) * W (ix2 k z)) (Fin.ext h1.symm)

/-- The second output block of such a row block: the same rows of the projected product. -/
theorem k0_pay3_blk (x : Vec Ideal S5000x256 .f32) (w : Vec Ideal S256x128 .f32) (a : Vec Ideal S128x4 .f32)
    (X : S50000x256.Idx → EReal) (W : S256x128.Idx → EReal) (A : S128x4.Idx → EReal) (b : Nat)
    (hx : ∀ (y : S5000x256.Idx) (k : S50000x256.Idx), (k 0).val = b * 5000 + (y 0).val → (k 1).val = (y 1).val → x y = X k)
    (hw : ∀ y : S256x128.Idx, w y = W y) (ha : ∀ y : S128x4.Idx, a y = A y)
    (y : S5000x4.Idx) (i : S50000x4.Idx) (h0 : (i 0).val = b * 5000 + (y 0).val) (h1 : (i 1).val = (y 1).val) :
    k0_pay3 x w a y = proj0 X W A i := by
  obtain ⟨p, q, rfl⟩ : ∃ (p : Fin 5000) (q : Fin 4), y = ix2 p q := ⟨y 0, y 1, eq_ix2 y⟩
  rw [k0_pay3_apply]
  unfold proj0
  refine Finset.sum_congr rfl fun j _ => ?_
  rw [ha]
  refine congrArg₂ (· * ·) (Finset.sum_congr rfl fun k _ => ?_) (congrArg (fun z => A (ix2 j z)) (Fin.ext h1.symm))
  rw [hx (ix2 p k) (ix2 ⟨(i 0).val, idx2_lt0 i⟩ k) h0 rfl, hw]

/-! ## The index maps, decided over the grid -/

/-- The row-blocked windows (the first input and the two outputs) are at block (t, 0) at point `t`; the two whole-array
    windows at block (0, 0). -/
theorem idx0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0
    ∧ win0_4.index t (0 : Fin 2) = t.val ∧ win0_4.index t (1 : Fin 2) = 0 :=
  (by decide +kernel : ∀ t : Fin grid0.N, _)

theorem zero_offsets0 : (![0, 0] : Fin 2 → Nat) = fun _ => 0 := funext fun a => by fin_cases a <;> rfl

section Region
-- the buffer contents when the region is entered
variable (V : (c : Dev nD) → (b : Ref sig .tc) → Buf (Elt Ideal) ((c : Thread nD τ).loc b))

/-! ## Each input block, read off its array -/

set_option maxHeartbeats 400000 in
/-- Row `p` of the first input's block at point `t` is row `t * 5000 + p` of the array. -/
theorem iblk0_0_apply (c : Dev nD) (t : Fin cfg0.N) (x : S5000x256.Idx) (k : S50000x256.Idx)
    (hk0 : (k 0).val = t.val * 5000 + (x 0).val) (hk1 : (k 1).val = (x 1).val) :
    (iblk0 V c 0 t : Vec Ideal S5000x256 .f32) x = (V c main_arg0 : S50000x256.Idx → EReal) k := by
  obtain ⟨e0, e1, -⟩ := idx0 t
  unfold iblk0
  rw [View.read_apply]
  show V c main_arg0 _ = V c main_arg0 _
  congr 1
  funext a; apply Fin.ext
  match a with
  | ⟨0, _⟩ => show win0_0.index t 0 * 5000 + 1 * (x 0).val = (k 0).val; rw [e0, hk0]; omega
  | ⟨1, _⟩ => show win0_0.index t 1 * 256 + 1 * (x 1).val = (k 1).val; rw [e1, hk1]; omega

set_option maxHeartbeats 400000 in
/-- The second input's block is its whole array at every point. -/
theorem iblk0_1_apply (c : Dev nD) (t : Fin cfg0.N) (x : S256x128.Idx) :
    (iblk0 V c 1 t : Vec Ideal S256x128 .f32) x = (V c main_arg3 : S256x128.Idx → EReal) x := by
  obtain ⟨-, -, e0, e1, -⟩ := idx0 t
  unfold iblk0
  rw [View.read_apply]
  show V c main_arg3 _ = V c main_arg3 _
  congr 1
  funext a; apply Fin.ext
  match a with
  | ⟨0, _⟩ => show win0_1.index t 0 * 256 + 1 * (x 0).val = (x 0).val; rw [e0]; omega
  | ⟨1, _⟩ => show win0_1.index t 1 * 128 + 1 * (x 1).val = (x 1).val; rw [e1]; omega

set_option maxHeartbeats 400000 in
/-- The third input's block is its whole array at every point. -/
theorem iblk0_2_apply (c : Dev nD) (t : Fin cfg0.N) (x : S128x4.Idx) :
    (iblk0 V c 2 t : Vec Ideal S128x4 .f32) x = (V c main_v10 : S128x4.Idx → EReal) x := by
  obtain ⟨-, -, -, -, e0, e1, -⟩ := idx0 t
  unfold iblk0
  rw [View.read_apply]
  show V c main_v10 _ = V c main_v10 _
  congr 1
  funext a; apply Fin.ext
  match a with
  | ⟨0, _⟩ => show win0_2.index t 0 * 128 + 1 * (x 0).val = (x 0).val; rw [e0]; omega
  | ⟨1, _⟩ => show win0_2.index t 1 * 4 + 1 * (x 1).val = (x 1).val; rw [e1]; omega

/-! ## What a point writes back -/

set_option maxHeartbeats 400000 in
/-- What point `t` writes back to the first output array is block `t` of the product of the argument matrices. -/
theorem flushed0_3_eq (c : Dev nD) (t : Fin cfg0.N) :
    (dat0 V c).flushed 3 t = ((cfg0.win 3).blk t).view.read (Elt Ideal) (prod0 (V c main_arg0) (V c main_arg3)) := by
  show (cfg0.win 3).cut (grid0.coords t) ((dat0 V c).after 3 t) = _
  rw [after0_3]
  unfold out0_3
  rw [View.canon_unit_zero zero_offsets0]
  simp only [View.ld_unit_zero (S := S5000x256) zero_offsets0, View.ld_unit_zero (S := S256x128) zero_offsets0]
  obtain ⟨-, -, -, -, -, -, e0, e1, -⟩ := idx0 t
  funext y
  rw [View.read_apply]
  refine k0_pay2_blk (iblk0 V c 0 t) (iblk0 V c 1 t) (V c main_arg0) (V c main_arg3) t.val
    (fun y k h0 h1 => iblk0_0_apply V c t y k h0 h1) (fun y => iblk0_1_apply V c t y)
    ((win0 3).xinj (grid0.coords t) y) _ ?_ ?_
  · show win0_3.index t 0 * 5000 + 1 * (y 0).val = t.val * 5000 + (y 0).val
    rw [e0]; omega
  · show win0_3.index t 1 * 128 + 1 * (y 1).val = (y 1).val
    rw [e1]; omega

set_option maxHeartbeats 400000 in
/-- What point `t` writes back to the second output array is block `t` of the projected product. -/
theorem flushed0_4_eq (c : Dev nD) (t : Fin cfg0.N) :
    (dat0 V c).flushed 4 t = ((cfg0.win 4).blk t).view.read (Elt Ideal) (proj0 (V c main_arg0) (V c main_arg3) (V c main_v10)) := by
  show (cfg0.win 4).cut (grid0.coords t) ((dat0 V c).after 4 t) = _
  rw [after0_4]
  unfold out0_4
  rw [View.canon_unit_zero zero_offsets0]
  simp only [View.ld_unit_zero (S := S5000x256) zero_offsets0, View.ld_unit_zero (S := S256x128) zero_offsets0, View.ld_unit_zero (S := S128x4) zero_offsets0]
  obtain ⟨-, -, -, -, -, -, -, -, e0, e1⟩ := idx0 t
  funext y
  rw [View.read_apply]
  refine k0_pay3_blk (iblk0 V c 0 t) (iblk0 V c 1 t) (iblk0 V c 2 t) (V c main_arg0) (V c main_arg3) (V c main_v10) t.val
    (fun y k h0 h1 => iblk0_0_apply V c t y k h0 h1) (fun y => iblk0_1_apply V c t y) (fun y => iblk0_2_apply V c t y)
    ((win0 4).xinj (grid0.coords t) y) _ ?_ ?_
  · show win0_4.index t 0 * 5000 + 1 * (y 0).val = t.val * 5000 + (y 0).val
    rw [e0]; omega
  · show win0_4.index t 1 * 4 + 1 * (y 1).val = (y 1).val
    rw [e1]; omega

/-! ## The row blocks tile the output arrays -/

/-- An index of an output array is in point `t`'s block iff each coordinate is in the block's range on its axis. -/
theorem mem_blk0_3 (t : Fin cfg0.N) (i : S50000x128.Idx) :
    i ∈ ((cfg0.win 3).blk t).view.set ↔ ∀ a : Fin 2, win0_3.index t a * S5000x128.size a ≤ (i a).val ∧ (i a).val < win0_3.index t a * S5000x128.size a + S5000x128.size a := by
  show i ∈ ((View.whole main_v20_0).slice (win0_3.rect t)).set ↔ _
  rw [View.set_slice_whole, Rect.mem_set_unit]
  exact Iff.rfl
theorem mem_blk0_4 (t : Fin cfg0.N) (i : S50000x4.Idx) :
    i ∈ ((cfg0.win 4).blk t).view.set ↔ ∀ a : Fin 2, win0_4.index t a * S5000x4.size a ≤ (i a).val ∧ (i a).val < win0_4.index t a * S5000x4.size a + S5000x4.size a := by
  show i ∈ ((View.whole main_v20_1).slice (win0_4.rect t)).set ↔ _
  rw [View.set_slice_whole, Rect.mem_set_unit]
  exact Iff.rfl

set_option maxHeartbeats 400000 in
/-- Row `r` of the first output array is in the block of point `r / 5000`. -/
theorem covered0_3 (i : S50000x128.Idx) : ∃ t : Fin cfg0.N, (cfg0.win 3).flush t = true ∧ i ∈ ((cfg0.win 3).blk t).view.set := by
  have hi0 : (i 0).val < 50000 := idx2_lt0 i
  have hi1 : (i 1).val < 128 := idx2_lt1 i
  refine ⟨⟨(i 0).val / 5000, by show (i 0).val / 5000 < 10; omega⟩, flush0_3 _, ?_⟩
  rw [mem_blk0_3]
  obtain ⟨-, -, -, -, -, -, e0, e1, -⟩ := idx0 ⟨(i 0).val / 5000, by show (i 0).val / 5000 < 10; omega⟩
  intro a
  match a with
  | ⟨0, _⟩ => show win0_3.index _ 0 * 5000 ≤ (i 0).val ∧ (i 0).val < win0_3.index _ 0 * 5000 + 5000; rw [e0]; show (i 0).val / 5000 * 5000 ≤ (i 0).val ∧ (i 0).val < (i 0).val / 5000 * 5000 + 5000; omega
  | ⟨1, _⟩ => show win0_3.index _ 1 * 128 ≤ (i 1).val ∧ (i 1).val < win0_3.index _ 1 * 128 + 128; rw [e1]; omega

set_option maxHeartbeats 400000 in
/-- Likewise for the second output array. -/
theorem covered0_4 (i : S50000x4.Idx) : ∃ t : Fin cfg0.N, (cfg0.win 4).flush t = true ∧ i ∈ ((cfg0.win 4).blk t).view.set := by
  have hi0 : (i 0).val < 50000 := idx2_lt0 i
  have hi1 : (i 1).val < 4 := idx2_lt1 i
  refine ⟨⟨(i 0).val / 5000, by show (i 0).val / 5000 < 10; omega⟩, flush0_4 _, ?_⟩
  rw [mem_blk0_4]
  obtain ⟨-, -, -, -, -, -, -, -, e0, e1⟩ := idx0 ⟨(i 0).val / 5000, by show (i 0).val / 5000 < 10; omega⟩
  intro a
  match a with
  | ⟨0, _⟩ => show win0_4.index _ 0 * 5000 ≤ (i 0).val ∧ (i 0).val < win0_4.index _ 0 * 5000 + 5000; rw [e0]; show (i 0).val / 5000 * 5000 ≤ (i 0).val ∧ (i 0).val < (i 0).val / 5000 * 5000 + 5000; omega
  | ⟨1, _⟩ => show win0_4.index _ 1 * 4 ≤ (i 1).val ∧ (i 1).val < win0_4.index _ 1 * 4 + 4; rw [e1]; omega

/-! ## The output arrays after the region -/

/-- The first output array after the region: the product of the argument matrices. -/
theorem arr0_3_eq (c : Dev nD) : (dat0 V c).arrAt 3 cfg0.N = prod0 (V c main_arg0) (V c main_arg3) :=
  (dat0 V c).arrAt_eq_of_cover 3 (prod0 (V c main_arg0) (V c main_arg3)) (fun t _ => flushed0_3_eq V c t) covered0_3

/-- The second output array after the region: the projected product. -/
theorem arr0_4_eq (c : Dev nD) : (dat0 V c).arrAt 4 cfg0.N = proj0 (V c main_arg0) (V c main_arg3) (V c main_v10) :=
  (dat0 V c).arrAt_eq_of_cover 4 (proj0 (V c main_arg0) (V c main_arg3) (V c main_v10)) (fun t _ => flushed0_4_eq V c t) covered0_4

/-- Entry (r, j) of the first output array: row `r` of the first argument against column `j` of the second. -/
theorem arr0_3 (c : Dev nD) (r : Fin 50000) (j : Fin 128) :
    (dat0 V c).arrAt 3 cfg0.N (ix2 r j) = prodAt0 (V c main_arg0) (V c main_arg3) r j := by
  rw [arr0_3_eq]; rfl

/-- Entry (r, q) of the second output array: row `r` of the product against column `q` of the projection matrix. -/
theorem arr0_4 (c : Dev nD) (r : Fin 50000) (q : Fin 4) :
    (dat0 V c).arrAt 4 cfg0.N (ix2 r q) = projAt0 (V c main_arg0) (V c main_arg3) (V c main_v10) r q := by
  rw [arr0_4_eq]; rfl

end Region

end Cert.KernelIdeal.HandValue

end
-- ==== Proof.KIArr1.lean ====
/-
  What region 1 of the kernel program (the edge projection) leaves in its two output arrays, as whole-array functions of the three arrays
  it reads, at the ideal values. The grid has 50 points; point `t` reads rows `8000·t … 8000·t + 7999` of the [400000,128]
  array `x`, all of the [128,128] array `w` and all of the [128,4] array `a`, and writes back rows `8000·t … 8000·t + 7999` of
  `h = x · w` ([400000,128]) and of `p = (x · w) · a` ([400000,4]). The row blocks tile the arrays (row `r` is in the block of
  point `r / 8000`), so after the last point
      h (r, j) = ∑ k, x (r, k) * w (k, j)        and        p (r, q) = ∑ j, (∑ k, x (r, k) * w (k, j)) * a (j, q).
  Steps: the body's payloads read at an entry (two matrix products into the zero splat; the roundings to the narrower
  format are the identity at the ideal values); each input block read where the output's row block says; what a point
  writes back is its block of the whole-array function; the cover; the whole array.
-/
import proofs.«130992_j35871566856204_2_alg».proof.Proof.KIBody1
import proofs.«130992_j35871566856204_2_alg».proof.Proof.LibPlainMatmul
import Idealize.ShloMosaic.Lib.Pipeline.Value
import Idealize.ShloMosaic.Lib.ValueIdx
import Idealize.ShloMosaic.PureOps.Ideal.Laws

set_option maxRecDepth 16384

noncomputable section

namespace Cert.KernelIdeal.HandValue

open Cert.KernelIdeal Cert.KernelIdeal.Gen Cert.KernelIdeal.Hand
open Idealize.ShloMosaic Idealize.ShloMosaic.TcCoe Idealize.SL.Sem
open Idealize.ShloMosaic.Pipeline (Dat)
open Idealize.ShloMosaic.ValueIdx Idealize.ShloMosaic.PlainMatmul

/-! ## The whole-array functions -/

/-- Entry (r, j) of the product of a [400000,128] matrix and a [128,128] matrix. -/
abbrev prodAt1 (X : S400000x128.Idx → EReal) (W : S128x128.Idx → EReal) (r : Fin 400000) (j : Fin 128) : EReal :=
  ∑ k : Fin 128, X (ix2 r k) * W (ix2 k j)

/-- Entry (r, q) of that product times a [128,4] matrix. -/
abbrev projAt1 (X : S400000x128.Idx → EReal) (W : S128x128.Idx → EReal) (A : S128x4.Idx → EReal) (r : Fin 400000) (q : Fin 4) : EReal :=
  ∑ j : Fin 128, (∑ k : Fin 128, X (ix2 r k) * W (ix2 k j)) * A (ix2 j q)

/-- The product of the two matrices as an array, entry by entry. -/
def prod1 (X : S400000x128.Idx → EReal) (W : S128x128.Idx → EReal) : S400000x128.Idx → EReal :=
  fun i => ∑ k : Fin 128, X (ix2 ⟨(i 0).val, idx2_lt0 i⟩ k) * W (ix2 k ⟨(i 1).val, idx2_lt1 i⟩)

/-- The product projected by the third matrix as an array, entry by entry. -/
def proj1 (X : S400000x128.Idx → EReal) (W : S128x128.Idx → EReal) (A : S128x4.Idx → EReal) : S400000x4.Idx → EReal :=
  fun i => ∑ j : Fin 128, (∑ k : Fin 128, X (ix2 ⟨(i 0).val, idx2_lt0 i⟩ k) * W (ix2 k j)) * A (ix2 j ⟨(i 1).val, idx2_lt1 i⟩)

/-! ## The body's payloads at an entry -/

/-- The first matrix product at (p, j): row `p` of the row block against column `j` of `w`. -/
theorem k1_pay1_apply (x : Vec Ideal S8000x128 .f32) (w : Vec Ideal S128x128 .f32) (p : Fin 8000) (j : Fin 128) :
    k1_pay1 x w (ix2 p j) = ∑ k : Fin 128, x (ix2 p k) * w (ix2 k j) := by
  unfold k1_pay1
  exact matmul_apply_of_plain dot_S8000x128_S128x128_S8000x128_1_0_0_1_n_n rfl none _ _ p j

/-- Its rounding to the narrower format: the same entry. -/
theorem k1_pay2_apply (x : Vec Ideal S8000x128 .f32) (w : Vec Ideal S128x128 .f32) (p : Fin 8000) (j : Fin 128) :
    k1_pay2 x w (ix2 p j) = ∑ k : Fin 128, x (ix2 p k) * w (ix2 k j) := by
  unfold k1_pay2
  exact k1_pay1_apply x w p j

/-- The second matrix product at (p, q): row `p` of the first product against column `q` of `a`. -/
theorem k1_pay3_apply (x : Vec Ideal S8000x128 .f32) (w : Vec Ideal S128x128 .f32) (a : Vec Ideal S128x4 .f32) (p : Fin 8000) (q : Fin 4) :
    k1_pay3 x w a (ix2 p q) = ∑ j : Fin 128, (∑ k : Fin 128, x (ix2 p k) * w (ix2 k j)) * a (ix2 j q) := by
  unfold k1_pay3
  refine (matmul_apply_of_plain dot_S8000x128_S128x4_S8000x4_1_0_0_1_n_n rfl (some .fp32) _ _ p q).trans ?_
  refine Finset.sum_congr rfl fun j _ => ?_
  rw [k1_pay1_apply, shapeCast_self]

/-- The first output block of a row block whose rows are rows `b * 8000 + p` of `X`: the same rows of the product. -/
theorem k1_pay2_blk (x : Vec Ideal S8000x128 .f32) (w : Vec Ideal S128x128 .f32)
    (X : S400000x128.Idx → EReal) (W : S128x128.Idx → EReal) (b : Nat)
    (hx : ∀ (y : S8000x128.Idx) (k : S400000x128.Idx), (k 0).val = b * 8000 + (y 0).val → (k 1).val = (y 1).val → x y = X k)
    (hw : ∀ y : S128x128.Idx, w y = W y)
    (y : S8000x128.Idx) (i : S400000x128.Idx) (h0 : (i 0).val = b * 8000 + (y 0).val) (h1 : (i 1).val = (y 1).val) :
    k1_pay2 x w y = prod1 X W i := by
  obtain ⟨p, j, rfl⟩ : ∃ (p : Fin 8000) (j : Fin 128), y = ix2 p j := ⟨y 0, y 1, eq_ix2 y⟩
  rw [k1_pay2_apply]
  unfold prod1
  refine Finset.sum_congr rfl fun k _ => ?_
  rw [hx (ix2 p k) (ix2 ⟨(i 0).val, idx2_lt0 i⟩ k) h0 rfl, hw]
  exact congrArg (fun z => X (ix2 ⟨(i 0).val, idx2_lt0 i⟩ k) * W (ix2 k z)) (Fin.ext h1.symm)

/-- The second output block of such a row block: the same rows of the projected product. -/
theorem k1_pay3_blk (x : Vec Ideal S8000x128 .f32) (w : Vec Ideal S128x128 .f32) (a : Vec Ideal S128x4 .f32)
    (X : S400000x128.Idx → EReal) (W : S128x128.Idx → EReal) (A : S128x4.Idx → EReal) (b : Nat)
    (hx : ∀ (y : S8000x128.Idx) (k : S400000x128.Idx), (k 0).val = b * 8000 + (y 0).val → (k 1).val = (y 1).val → x y = X k)
    (hw : ∀ y : S128x128.Idx, w y = W y) (ha : ∀ y : S128x4.Idx, a y = A y)
    (y : S8000x4.Idx) (i : S400000x4.Idx) (h0 : (i 0).val = b * 8000 + (y 0).val) (h1 : (i 1).val = (y 1).val) :
    k1_pay3 x w a y = proj1 X W A i := by
  obtain ⟨p, q, rfl⟩ : ∃ (p : Fin 8000) (q : Fin 4), y = ix2 p q := ⟨y 0, y 1, eq_ix2 y⟩
  rw [k1_pay3_apply]
  unfold proj1
  refine Finset.sum_congr rfl fun j _ => ?_
  rw [ha]
  refine congrArg₂ (· * ·) (Finset.sum_congr rfl fun k _ => ?_) (congrArg (fun z => A (ix2 j z)) (Fin.ext h1.symm))
  rw [hx (ix2 p k) (ix2 ⟨(i 0).val, idx2_lt0 i⟩ k) h0 rfl, hw]

/-! ## The index maps, decided over the grid -/

/-- The row-blocked windows (the first input and the two outputs) are at block (t, 0) at point `t`; the two whole-array
    windows at block (0, 0). -/
theorem idx1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0
    ∧ win1_4.index t (0 : Fin 2) = t.val ∧ win1_4.index t (1 : Fin 2) = 0 :=
  (by decide +kernel : ∀ t : Fin grid1.N, _)

theorem zero_offsets1 : (![0, 0] : Fin 2 → Nat) = fun _ => 0 := funext fun a => by fin_cases a <;> rfl

section Region
-- the buffer contents when the region is entered
variable (V : (c : Dev nD) → (b : Ref sig .tc) → Buf (Elt Ideal) ((c : Thread nD τ).loc b))

/-! ## Each input block, read off its array -/

set_option maxHeartbeats 400000 in
/-- Row `p` of the first input's block at point `t` is row `t * 8000 + p` of the array. -/
theorem iblk1_0_apply (c : Dev nD) (t : Fin cfg1.N) (x : S8000x128.Idx) (k : S400000x128.Idx)
    (hk0 : (k 0).val = t.val * 8000 + (x 0).val) (hk1 : (k 1).val = (x 1).val) :
    (iblk1 V c 0 t : Vec Ideal S8000x128 .f32) x = (V c main_arg1 : S400000x128.Idx → EReal) k := by
  obtain ⟨e0, e1, -⟩ := idx1 t
  unfold iblk1
  rw [View.read_apply]
  show V c main_arg1 _ = V c main_arg1 _
  congr 1
  funext a; apply Fin.ext
  match a with
  | ⟨0, _⟩ => show win1_0.index t 0 * 8000 + 1 * (x 0).val = (k 0).val; rw [e0, hk0]; omega
  | ⟨1, _⟩ => show win1_0.index t 1 * 128 + 1 * (x 1).val = (k 1).val; rw [e1, hk1]; omega

set_option maxHeartbeats 400000 in
/-- The second input's block is its whole array at every point. -/
theorem iblk1_1_apply (c : Dev nD) (t : Fin cfg1.N) (x : S128x128.Idx) :
    (iblk1 V c 1 t : Vec Ideal S128x128 .f32) x = (V c main_arg4 : S128x128.Idx → EReal) x := by
  obtain ⟨-, -, e0, e1, -⟩ := idx1 t
  unfold iblk1
  rw [View.read_apply]
  show V c main_arg4 _ = V c main_arg4 _
  congr 1
  funext a; apply Fin.ext
  match a with
  | ⟨0, _⟩ => show win1_1.index t 0 * 128 + 1 * (x 0).val = (x 0).val; rw [e0]; omega
  | ⟨1, _⟩ => show win1_1.index t 1 * 128 + 1 * (x 1).val = (x 1).val; rw [e1]; omega

set_option maxHeartbeats 400000 in
/-- The third input's block is its whole array at every point. -/
theorem iblk1_2_apply (c : Dev nD) (t : Fin cfg1.N) (x : S128x4.Idx) :
    (iblk1 V c 2 t : Vec Ideal S128x4 .f32) x = (V c main_v19 : S128x4.Idx → EReal) x := by
  obtain ⟨-, -, -, -, e0, e1, -⟩ := idx1 t
  unfold iblk1
  rw [View.read_apply]
  show V c main_v19 _ = V c main_v19 _
  congr 1
  funext a; apply Fin.ext
  match a with
  | ⟨0, _⟩ => show win1_2.index t 0 * 128 + 1 * (x 0).val = (x 0).val; rw [e0]; omega
  | ⟨1, _⟩ => show win1_2.index t 1 * 4 + 1 * (x 1).val = (x 1).val; rw [e1]; omega

/-! ## What a point writes back -/

set_option maxHeartbeats 400000 in
/-- What point `t` writes back to the first output array is block `t` of the product of the argument matrices. -/
theorem flushed1_3_eq (c : Dev nD) (t : Fin cfg1.N) :
    (dat1 V c).flushed 3 t = ((cfg1.win 3).blk t).view.read (Elt Ideal) (prod1 (V c main_arg1) (V c main_arg4)) := by
  show (cfg1.win 3).cut (grid1.coords t) ((dat1 V c).after 3 t) = _
  rw [after1_3]
  unfold out1_3
  rw [View.canon_unit_zero zero_offsets1]
  simp only [View.ld_unit_zero (S := S8000x128) zero_offsets1, View.ld_unit_zero (S := S128x128) zero_offsets1]
  obtain ⟨-, -, -, -, -, -, e0, e1, -⟩ := idx1 t
  funext y
  rw [View.read_apply]
  refine k1_pay2_blk (iblk1 V c 0 t) (iblk1 V c 1 t) (V c main_arg1) (V c main_arg4) t.val
    (fun y k h0 h1 => iblk1_0_apply V c t y k h0 h1) (fun y => iblk1_1_apply V c t y)
    ((win1 3).xinj (grid1.coords t) y) _ ?_ ?_
  · show win1_3.index t 0 * 8000 + 1 * (y 0).val = t.val * 8000 + (y 0).val
    rw [e0]; omega
  · show win1_3.index t 1 * 128 + 1 * (y 1).val = (y 1).val
    rw [e1]; omega

set_option maxHeartbeats 400000 in
/-- What point `t` writes back to the second output array is block `t` of the projected product. -/
theorem flushed1_4_eq (c : Dev nD) (t : Fin cfg1.N) :
    (dat1 V c).flushed 4 t = ((cfg1.win 4).blk t).view.read (Elt Ideal) (proj1 (V c main_arg1) (V c main_arg4) (V c main_v19)) := by
  show (cfg1.win 4).cut (grid1.coords t) ((dat1 V c).after 4 t) = _
  rw [after1_4]
  unfold out1_4
  rw [View.canon_unit_zero zero_offsets1]
  simp only [View.ld_unit_zero (S := S8000x128) zero_offsets1, View.ld_unit_zero (S := S128x128) zero_offsets1, View.ld_unit_zero (S := S128x4) zero_offsets1]
  obtain ⟨-, -, -, -, -, -, -, -, e0, e1⟩ := idx1 t
  funext y
  rw [View.read_apply]
  refine k1_pay3_blk (iblk1 V c 0 t) (iblk1 V c 1 t) (iblk1 V c 2 t) (V c main_arg1) (V c main_arg4) (V c main_v19) t.val
    (fun y k h0 h1 => iblk1_0_apply V c t y k h0 h1) (fun y => iblk1_1_apply V c t y) (fun y => iblk1_2_apply V c t y)
    ((win1 4).xinj (grid1.coords t) y) _ ?_ ?_
  · show win1_4.index t 0 * 8000 + 1 * (y 0).val = t.val * 8000 + (y 0).val
    rw [e0]; omega
  · show win1_4.index t 1 * 4 + 1 * (y 1).val = (y 1).val
    rw [e1]; omega

/-! ## The row blocks tile the output arrays -/

/-- An index of an output array is in point `t`'s block iff each coordinate is in the block's range on its axis. -/
theorem mem_blk1_3 (t : Fin cfg1.N) (i : S400000x128.Idx) :
    i ∈ ((cfg1.win 3).blk t).view.set ↔ ∀ a : Fin 2, win1_3.index t a * S8000x128.size a ≤ (i a).val ∧ (i a).val < win1_3.index t a * S8000x128.size a + S8000x128.size a := by
  show i ∈ ((View.whole main_v21_0).slice (win1_3.rect t)).set ↔ _
  rw [View.set_slice_whole, Rect.mem_set_unit]
  exact Iff.rfl
theorem mem_blk1_4 (t : Fin cfg1.N) (i : S400000x4.Idx) :
    i ∈ ((cfg1.win 4).blk t).view.set ↔ ∀ a : Fin 2, win1_4.index t a * S8000x4.size a ≤ (i a).val ∧ (i a).val < win1_4.index t a * S8000x4.size a + S8000x4.size a := by
  show i ∈ ((View.whole main_v21_1).slice (win1_4.rect t)).set ↔ _
  rw [View.set_slice_whole, Rect.mem_set_unit]
  exact Iff.rfl

set_option maxHeartbeats 400000 in
/-- Row `r` of the first output array is in the block of point `r / 8000`. -/
theorem covered1_3 (i : S400000x128.Idx) : ∃ t : Fin cfg1.N, (cfg1.win 3).flush t = true ∧ i ∈ ((cfg1.win 3).blk t).view.set := by
  have hi0 : (i 0).val < 400000 := idx2_lt0 i
  have hi1 : (i 1).val < 128 := idx2_lt1 i
  refine ⟨⟨(i 0).val / 8000, by show (i 0).val / 8000 < 50; omega⟩, flush1_3 _, ?_⟩
  rw [mem_blk1_3]
  obtain ⟨-, -, -, -, -, -, e0, e1, -⟩ := idx1 ⟨(i 0).val / 8000, by show (i 0).val / 8000 < 50; omega⟩
  intro a
  match a with
  | ⟨0, _⟩ => show win1_3.index _ 0 * 8000 ≤ (i 0).val ∧ (i 0).val < win1_3.index _ 0 * 8000 + 8000; rw [e0]; show (i 0).val / 8000 * 8000 ≤ (i 0).val ∧ (i 0).val < (i 0).val / 8000 * 8000 + 8000; omega
  | ⟨1, _⟩ => show win1_3.index _ 1 * 128 ≤ (i 1).val ∧ (i 1).val < win1_3.index _ 1 * 128 + 128; rw [e1]; omega

set_option maxHeartbeats 400000 in
/-- Likewise for the second output array. -/
theorem covered1_4 (i : S400000x4.Idx) : ∃ t : Fin cfg1.N, (cfg1.win 4).flush t = true ∧ i ∈ ((cfg1.win 4).blk t).view.set := by
  have hi0 : (i 0).val < 400000 := idx2_lt0 i
  have hi1 : (i 1).val < 4 := idx2_lt1 i
  refine ⟨⟨(i 0).val / 8000, by show (i 0).val / 8000 < 50; omega⟩, flush1_4 _, ?_⟩
  rw [mem_blk1_4]
  obtain ⟨-, -, -, -, -, -, -, -, e0, e1⟩ := idx1 ⟨(i 0).val / 8000, by show (i 0).val / 8000 < 50; omega⟩
  intro a
  match a with
  | ⟨0, _⟩ => show win1_4.index _ 0 * 8000 ≤ (i 0).val ∧ (i 0).val < win1_4.index _ 0 * 8000 + 8000; rw [e0]; show (i 0).val / 8000 * 8000 ≤ (i 0).val ∧ (i 0).val < (i 0).val / 8000 * 8000 + 8000; omega
  | ⟨1, _⟩ => show win1_4.index _ 1 * 4 ≤ (i 1).val ∧ (i 1).val < win1_4.index _ 1 * 4 + 4; rw [e1]; omega

/-! ## The output arrays after the region -/

/-- The first output array after the region: the product of the argument matrices. -/
theorem arr1_3_eq (c : Dev nD) : (dat1 V c).arrAt 3 cfg1.N = prod1 (V c main_arg1) (V c main_arg4) :=
  (dat1 V c).arrAt_eq_of_cover 3 (prod1 (V c main_arg1) (V c main_arg4)) (fun t _ => flushed1_3_eq V c t) covered1_3

/-- The second output array after the region: the projected product. -/
theorem arr1_4_eq (c : Dev nD) : (dat1 V c).arrAt 4 cfg1.N = proj1 (V c main_arg1) (V c main_arg4) (V c main_v19) :=
  (dat1 V c).arrAt_eq_of_cover 4 (proj1 (V c main_arg1) (V c main_arg4) (V c main_v19)) (fun t _ => flushed1_4_eq V c t) covered1_4

/-- Entry (r, j) of the first output array: row `r` of the first argument against column `j` of the second. -/
theorem arr1_3 (c : Dev nD) (r : Fin 400000) (j : Fin 128) :
    (dat1 V c).arrAt 3 cfg1.N (ix2 r j) = prodAt1 (V c main_arg1) (V c main_arg4) r j := by
  rw [arr1_3_eq]; rfl

/-- Entry (r, q) of the second output array: row `r` of the product against column `q` of the projection matrix. -/
theorem arr1_4 (c : Dev nD) (r : Fin 400000) (q : Fin 4) :
    (dat1 V c).arrAt 4 cfg1.N (ix2 r q) = projAt1 (V c main_arg1) (V c main_arg4) (V c main_v19) r q := by
  rw [arr1_4_eq]; rfl

end Region

end Cert.KernelIdeal.HandValue

end
-- ==== Proof.LibColumns.lean ====
/-
  Small layout operations read at an index given by coordinates: a column `[a, 1]` cast to `[a]`, an `[a]` array
  broadcast to the column `[a, 1]`, a column `[a, 1]` broadcast along its rows to `[a, b]`, a scalar broadcast to
  any shape, the middle axis of `[m, 2, d]` merged into the last (`[m, 2 * d]`), and a sum over `Fin (d + d)` cut
  in its two halves.
-/
import Idealize.ShloMosaic.Lib.Pipeline.Value
import Idealize.ShloMosaic.Lib.ValueIdx

open scoped BigOperators

namespace Idealize.ShloMosaic.Columns

open Idealize.ShloMosaic.ValueIdx

variable {α : Type}

/-- A column `[a, 1]` cast to `[a]` reads, at `i`, the column's entry of row `i`. -/
theorem shapeCast_a1_a_apply {a : ℕ} (x : (⟨2, ![a, 1]⟩ : Shape).Idx → α) (h : (⟨2, ![a, 1]⟩ : Shape).ShapeCasts ⟨1, ![a]⟩)
    (i : Fin a) : shapeCast ⟨1, ![a]⟩ x h (ix1 i) = x (ix2 i (0 : Fin 1)) :=
  shapeCast_apply x h _ _ (by
    rw [Shape.rowMajor_val_two, Shape.rowMajor_val_one]
    show i.val * 1 + 0 = i.val
    omega)

/-- An `[a]` array broadcast to the column `[a, 1]` reads, at `(i, u)`, the array at `i`. -/
theorem broadcastInDim_a_a1_apply {a : ℕ} (x : (⟨1, ![a]⟩ : Shape).Idx → α)
    (h : (⟨1, ![a]⟩ : Shape).BroadcastsInDim ⟨2, ![a, 1]⟩ ![0]) (i : Fin a) (u : Fin 1) :
    broadcastInDim ⟨2, ![a, 1]⟩ ![0] h x (ix2 i u) = x (ix1 i) := by
  refine broadcastInDim_apply _ h x (ix2 i u) (ix1 i) fun ax => ?_
  match ax with
  | ⟨0, _⟩ =>
    show i.val = if a = 1 then 0 else i.val
    split
    · have := i.isLt; omega
    · rfl

/-- A column `[a, 1]` broadcast along its rows to `[a, b]` reads, at `(p, c)`, the column's entry of row `p`. -/
theorem broadcastInDim_a1_ab_apply {a b : ℕ} (x : (⟨2, ![a, 1]⟩ : Shape).Idx → α)
    (h : (⟨2, ![a, 1]⟩ : Shape).BroadcastsInDim ⟨2, ![a, b]⟩ ![0, 1]) (p : Fin a) (c : Fin b) :
    broadcastInDim ⟨2, ![a, b]⟩ ![0, 1] h x (ix2 p c) = x (ix2 p (0 : Fin 1)) := by
  refine broadcastInDim_apply _ h x (ix2 p c) (ix2 p (0 : Fin 1)) fun ax => ?_
  match ax with
  | ⟨0, _⟩ =>
    show p.val = if a = 1 then 0 else p.val
    split
    · have := p.isLt; omega
    · rfl
  | ⟨1, _⟩ => rfl

/-- A scalar broadcast to any shape reads the scalar everywhere. -/
theorem broadcastInDim_scalar_apply {t : Shape} (x : (⟨0, ![]⟩ : Shape).Idx → α)
    (h : (⟨0, ![]⟩ : Shape).BroadcastsInDim t ![]) (j : t.Idx) :
    broadcastInDim t ![] h x j = x ix0 :=
  broadcastInDim_apply _ h x j ix0 fun ax => ax.elim0

/-- `[m, 2, d]` cast to `[m, d + d]` reads, at `(i, k)`, the source at `(i, k / d, k % d)`. -/
theorem shapeCast_m2d_apply {m d : ℕ} (hd : 0 < d) (x : (⟨3, ![m, 2, d]⟩ : Shape).Idx → α)
    (h : (⟨3, ![m, 2, d]⟩ : Shape).ShapeCasts ⟨2, ![m, d + d]⟩) (i : Fin m) (k : Fin (d + d)) :
    shapeCast ⟨2, ![m, d + d]⟩ x h (ix2 i k)
      = x (ix3 i ⟨k.val / d, by have := k.isLt; exact Nat.div_lt_of_lt_mul (by omega)⟩ ⟨k.val % d, Nat.mod_lt _ hd⟩) :=
  shapeCast_apply x h _ _ (by
    rw [Shape.rowMajor_val_three, Shape.rowMajor_val_two]
    show (i.val * 2 + k.val / d) * d + k.val % d = i.val * (d + d) + k.val
    have := Nat.div_add_mod k.val d
    have h2 : k.val / d * d = d * (k.val / d) := Nat.mul_comm _ _
    rw [Nat.add_mul, Nat.mul_assoc, Nat.two_mul, Nat.add_assoc, h2, this])

/-- A sum over `Fin (d + d)` is the sum over the first half plus the sum over the second. -/
theorem sum_halves {M : Type*} [AddCommMonoid M] {d : ℕ} (f : Fin (d + d) → M) :
    ∑ k : Fin (d + d), f k = ∑ j : Fin d, f (Fin.castAdd d j) + ∑ j : Fin d, f (Fin.natAdd d j) :=
  Fin.sum_univ_add f

end Idealize.ShloMosaic.Columns
-- ==== Proof.KIdxW.lean ====
/-
  The two [128,4] projection matrices the kernel program builds on the host before its two regions, read at their
  entries. From the two [256,1] arguments `a_node` and `a_edge` (each flattened to [256], cut in two halves of 128, each
  half stood up as a [128,1] column) and zero columns, laid side by side along axis 1:
      first matrix   = [ a_node[0:128] | a_node[128:256] | a_edge[0:128] | 0 ],
      second matrix  = [ a_edge[128:256] | 0 | 0 | 0 ].
  So entry (j, 0) of the first is a_node (j, 0), entry (j, 1) is a_node (128 + j, 0), entry (j, 2) is a_edge (j, 0);
  entry (j, 0) of the second is a_edge (128 + j, 0); every other entry is the zero constant. No arithmetic is
  involved, so everything holds at any float instance. Steps: the fold of the host line at each matrix's buffer is the
  composed term (`v10_eq`, `v19_eq`); a concatenation of four columns read at column `q` is the `q`-th column; a column
  read at row `j` is the flattened argument at `off + j`, which is the argument at (`off + j`, 0).
-/
import proofs.«130992_j35871566856204_2_alg».proof.Proof.Gen.KernelIdeal.Launch
import proofs.«130992_j35871566856204_2_alg».proof.Proof.LibColumns
import Idealize.ShloMosaic.Lib.StableHlo.Run
import Idealize.ShloMosaic.Lib.Pipeline.Value
import Idealize.ShloMosaic.Lib.ValueLayout
import Idealize.ShloMosaic.Lib.ValueIdx
import Idealize.ShloMosaic.PureOps.Ideal.Laws

set_option maxRecDepth 16384

noncomputable section

namespace Cert.KernelIdeal.Bridge

open Cert.KernelIdeal Cert.KernelIdeal.Gen
open Idealize.ShloMosaic Idealize.ShloMosaic.TcCoe Idealize.ShloMosaic.StableHlo
open Idealize.ShloMosaic.ValueIdx Idealize.ShloMosaic.Columns

variable {F : FTy → Type} [FloatOps F]

/-- The fold of a line of host operations, read at one buffer: each operation's result at its own buffer is its
    function of the operands' contents, at any other buffer what was there; the operands named inside a four-piece
    concatenation are read at their literal references first. -/
local macro "fold_steps" : tactic =>
  `(tactic| (after_results_simp
             dsimp only [Matrix.cons_val]
             repeat (first
               | rw [nullary_result] | rw [unary_result] | rw [reshape_result]
               | (rw [nullary_result_ne]; rotate_left; decide)
               | (rw [unary_result_ne]; rotate_left; decide)
               | (rw [reshape_result_ne]; rotate_left; decide)
               | (rw [nary_result_ne]; rotate_left; decide))))

/-! ## One column: half of a [256,1] argument, as a [128,1] column -/

/-- Rows `off … off + 127` of a [256,1] array, flattened, cut out and stood up again as a [128,1] column. -/
abbrev halfCol {α : Type} (x : S256x1.Idx → α) (off : Nat) (hs : S256.Slices ![off] S128) : S128x1.Idx → α :=
  broadcastInDim S128x1 ![0] bcast_S128_S128x1_0 (extractStridedSlice S128 ![off] (shapeCast S256 x shapeCasts_S256x1_S256) hs)

/-- The zero column. -/
abbrev zeroCol : S128x1.Idx → Elt F .f32 :=
  broadcastInDim S128x1 ![0] bcast_S128_S128x1_0 (broadcastInDim S128 ![] bcast_S_S128 (constant (F := F) S_ .f32 0x00000000#32))

/-- Row `j` of such a column is row `off + j` of the array. -/
theorem halfCol_apply {α : Type} (x : S256x1.Idx → α) (off : Nat) (hoff : off + 128 ≤ 256) (hs : S256.Slices ![off] S128) (j : Fin 128) :
    halfCol x off hs (ix2 j (0 : Fin 1)) = x (ix2 ⟨off + j.val, by omega⟩ (0 : Fin 1)) := by
  refine (broadcastInDim_a_a1_apply _ bcast_S128_S128x1_0 j (0 : Fin 1)).trans ?_
  refine (extractStridedSlice_apply ![off] _ hs (ix1 j) (ix1 ⟨off + j.val, by omega⟩) fun a => ?_).trans ?_
  · match a with
    | ⟨0, _⟩ => rfl
  · exact shapeCast_a1_a_apply x shapeCasts_S256x1_S256 ⟨off + j.val, by omega⟩

/-! ## Four columns side by side, read at a column -/

section Concat
variable {α : Type} (c0 c1 c2 c3 : S128x1.Idx → α)
  (h : Shape.Concatenates [S128x1, S128x1, S128x1, S128x1] S128x4 1) (j : Fin 128)

theorem concat4_col0 : concatenate S128x4 1 [⟨S128x1, c0⟩, ⟨S128x1, c1⟩, ⟨S128x1, c2⟩, ⟨S128x1, c3⟩] h (ix2 j (0 : Fin 4)) = c0 (ix2 j (0 : Fin 1)) :=
  concatenate_apply_piece (t := S128x4) (1 : Fin 2) [⟨S128x1, c0⟩, ⟨S128x1, c1⟩, ⟨S128x1, c2⟩, ⟨S128x1, c3⟩] h (ix2 j (0 : Fin 4)) 0 (by show (0 : Nat) < 4; omega) S128x1 c0 rfl rfl 0 (by rfl)
    (ix2 j (0 : Fin 1)) (fun b hb => by match b with | ⟨0, _⟩ => rfl | ⟨1, _⟩ => exact absurd rfl hb) (by rfl)

theorem concat4_col1 : concatenate S128x4 1 [⟨S128x1, c0⟩, ⟨S128x1, c1⟩, ⟨S128x1, c2⟩, ⟨S128x1, c3⟩] h (ix2 j (1 : Fin 4)) = c1 (ix2 j (0 : Fin 1)) :=
  concatenate_apply_piece (t := S128x4) (1 : Fin 2) [⟨S128x1, c0⟩, ⟨S128x1, c1⟩, ⟨S128x1, c2⟩, ⟨S128x1, c3⟩] h (ix2 j (1 : Fin 4)) 1 (by show (1 : Nat) < 4; omega) S128x1 c1 rfl rfl 1 (by rfl)
    (ix2 j (0 : Fin 1)) (fun b hb => by match b with | ⟨0, _⟩ => rfl | ⟨1, _⟩ => exact absurd rfl hb) (by rfl)

theorem concat4_col2 : concatenate S128x4 1 [⟨S128x1, c0⟩, ⟨S128x1, c1⟩, ⟨S128x1, c2⟩, ⟨S128x1, c3⟩] h (ix2 j (2 : Fin 4)) = c2 (ix2 j (0 : Fin 1)) :=
  concatenate_apply_piece (t := S128x4) (1 : Fin 2) [⟨S128x1, c0⟩, ⟨S128x1, c1⟩, ⟨S128x1, c2⟩, ⟨S128x1, c3⟩] h (ix2 j (2 : Fin 4)) 2 (by show (2 : Nat) < 4; omega) S128x1 c2 rfl rfl 2 (by rfl)
    (ix2 j (0 : Fin 1)) (fun b hb => by match b with | ⟨0, _⟩ => rfl | ⟨1, _⟩ => exact absurd rfl hb) (by rfl)

theorem concat4_col3 : concatenate S128x4 1 [⟨S128x1, c0⟩, ⟨S128x1, c1⟩, ⟨S128x1, c2⟩, ⟨S128x1, c3⟩] h (ix2 j (3 : Fin 4)) = c3 (ix2 j (0 : Fin 1)) :=
  concatenate_apply_piece (t := S128x4) (1 : Fin 2) [⟨S128x1, c0⟩, ⟨S128x1, c1⟩, ⟨S128x1, c2⟩, ⟨S128x1, c3⟩] h (ix2 j (3 : Fin 4)) 3 (by show (3 : Nat) < 4; omega) S128x1 c3 rfl rfl 3 (by rfl)
    (ix2 j (0 : Fin 1)) (fun b hb => by match b with | ⟨0, _⟩ => rfl | ⟨1, _⟩ => exact absurd rfl hb) (by rfl)

end Concat

/-! ## The two projection matrices the host builds before the regions -/

section Built
variable (V : Valuation τ sig (Elt F))

set_option maxHeartbeats 1000000 in
/-- The first projection matrix: the two halves of the first [256,1] argument, the first half of the second, a zero column. -/
theorem v10_eq :
    (StableHlo.after (hostOps0 (F := F)) V (Proc.devRef .tc main_v10) : S128x4.Idx → Elt F .f32)
      = concatenate S128x4 1
          [⟨S128x1, halfCol (V (Proc.devRef .tc main_arg5) : S256x1.Idx → Elt F .f32) 0 slices_S256_S128_0⟩,
           ⟨S128x1, halfCol (V (Proc.devRef .tc main_arg5) : S256x1.Idx → Elt F .f32) 128 slices_S256_S128_128⟩,
           ⟨S128x1, halfCol (V (Proc.devRef .tc main_arg6) : S256x1.Idx → Elt F .f32) 0 slices_S256_S128_0⟩,
           ⟨S128x1, zeroCol (F := F)⟩]
          concatenates_S128x1_S128x1_S128x1_S128x1_S128x4_d1 := by
  fold_steps
  rfl

set_option maxHeartbeats 1000000 in
/-- The second projection matrix: the second half of the second [256,1] argument, then three zero columns. -/
theorem v19_eq :
    (StableHlo.after (hostOps0 (F := F)) V (Proc.devRef .tc main_v19) : S128x4.Idx → Elt F .f32)
      = concatenate S128x4 1
          [⟨S128x1, halfCol (V (Proc.devRef .tc main_arg6) : S256x1.Idx → Elt F .f32) 128 slices_S256_S128_128⟩,
           ⟨S128x1, zeroCol (F := F)⟩, ⟨S128x1, zeroCol (F := F)⟩, ⟨S128x1, zeroCol (F := F)⟩]
          concatenates_S128x1_S128x1_S128x1_S128x1_S128x4_d1 := by
  fold_steps
  rfl

/-- Column 0 of the first projection matrix: rows 0 … 127 of the first [256,1] argument. -/
theorem v10_col0 (j : Fin 128) :
    (StableHlo.after (hostOps0 (F := F)) V (Proc.devRef .tc main_v10) : S128x4.Idx → Elt F .f32) (ix2 j (0 : Fin 4))
      = (V (Proc.devRef .tc main_arg5) : S256x1.Idx → Elt F .f32) (ix2 ⟨j.val, by omega⟩ (0 : Fin 1)) := by
  rw [v10_eq]
  refine (concat4_col0 _ _ _ _ _ j).trans ((halfCol_apply _ 0 (by omega) _ j).trans ?_)
  exact congrArg (fun r => (V (Proc.devRef .tc main_arg5) : S256x1.Idx → Elt F .f32) (ix2 r (0 : Fin 1))) (Fin.ext (Nat.zero_add _))

/-- Column 1: rows 128 … 255 of the first [256,1] argument. -/
theorem v10_col1 (j : Fin 128) :
    (StableHlo.after (hostOps0 (F := F)) V (Proc.devRef .tc main_v10) : S128x4.Idx → Elt F .f32) (ix2 j (1 : Fin 4))
      = (V (Proc.devRef .tc main_arg5) : S256x1.Idx → Elt F .f32) (ix2 ⟨128 + j.val, by omega⟩ (0 : Fin 1)) := by
  rw [v10_eq]
  exact (concat4_col1 _ _ _ _ _ j).trans (halfCol_apply _ 128 (by omega) _ j)

/-- Column 2: rows 0 … 127 of the second [256,1] argument. -/
theorem v10_col2 (j : Fin 128) :
    (StableHlo.after (hostOps0 (F := F)) V (Proc.devRef .tc main_v10) : S128x4.Idx → Elt F .f32) (ix2 j (2 : Fin 4))
      = (V (Proc.devRef .tc main_arg6) : S256x1.Idx → Elt F .f32) (ix2 ⟨j.val, by omega⟩ (0 : Fin 1)) := by
  rw [v10_eq]
  refine (concat4_col2 _ _ _ _ _ j).trans ((halfCol_apply _ 0 (by omega) _ j).trans ?_)
  exact congrArg (fun r => (V (Proc.devRef .tc main_arg6) : S256x1.Idx → Elt F .f32) (ix2 r (0 : Fin 1))) (Fin.ext (Nat.zero_add _))

/-- Column 0 of the second projection matrix: rows 128 … 255 of the second [256,1] argument. -/
theorem v19_col0 (j : Fin 128) :
    (StableHlo.after (hostOps0 (F := F)) V (Proc.devRef .tc main_v19) : S128x4.Idx → Elt F .f32) (ix2 j (0 : Fin 4))
      = (V (Proc.devRef .tc main_arg6) : S256x1.Idx → Elt F .f32) (ix2 ⟨128 + j.val, by omega⟩ (0 : Fin 1)) := by
  rw [v19_eq]
  exact (concat4_col0 _ _ _ _ _ j).trans (halfCol_apply _ 128 (by omega) _ j)

end Built

/-! ## The zero columns -/

/-- Every entry of the zero column is the scalar zero constant. -/
theorem zeroCol_apply (j : Fin 128) :
    zeroCol (F := F) (ix2 j (0 : Fin 1)) = (constant (F := F) S_ .f32 0x00000000#32 : S_.Idx → Elt F .f32) ix0 := by
  refine (broadcastInDim_a_a1_apply _ bcast_S128_S128x1_0 j (0 : Fin 1)).trans ?_
  exact broadcastInDim_scalar_apply _ bcast_S_S128 (ix1 j)

section BuiltZero
variable (V : Valuation τ sig (Elt F))

/-- Column 3 of the first projection matrix is zero. -/
theorem v10_col3 (j : Fin 128) :
    (StableHlo.after (hostOps0 (F := F)) V (Proc.devRef .tc main_v10) : S128x4.Idx → Elt F .f32) (ix2 j (3 : Fin 4))
      = (constant (F := F) S_ .f32 0x00000000#32 : S_.Idx → Elt F .f32) ix0 := by
  rw [v10_eq]
  exact (concat4_col3 _ _ _ _ _ j).trans (zeroCol_apply j)

/-- Columns 1, 2, 3 of the second projection matrix are zero. -/
theorem v19_col1 (j : Fin 128) :
    (StableHlo.after (hostOps0 (F := F)) V (Proc.devRef .tc main_v19) : S128x4.Idx → Elt F .f32) (ix2 j (1 : Fin 4))
      = (constant (F := F) S_ .f32 0x00000000#32 : S_.Idx → Elt F .f32) ix0 := by
  rw [v19_eq]
  exact (concat4_col1 _ _ _ _ _ j).trans (zeroCol_apply j)
theorem v19_col2 (j : Fin 128) :
    (StableHlo.after (hostOps0 (F := F)) V (Proc.devRef .tc main_v19) : S128x4.Idx → Elt F .f32) (ix2 j (2 : Fin 4))
      = (constant (F := F) S_ .f32 0x00000000#32 : S_.Idx → Elt F .f32) ix0 := by
  rw [v19_eq]
  exact (concat4_col2 _ _ _ _ _ j).trans (zeroCol_apply j)
theorem v19_col3 (j : Fin 128) :
    (StableHlo.after (hostOps0 (F := F)) V (Proc.devRef .tc main_v19) : S128x4.Idx → Elt F .f32) (ix2 j (3 : Fin 4))
      = (constant (F := F) S_ .f32 0x00000000#32 : S_.Idx → Elt F .f32) ix0 := by
  rw [v19_eq]
  exact (concat4_col3 _ _ _ _ _ j).trans (zeroCol_apply j)

end BuiltZero

/-- At the ideal values the scalar zero constant is the extended real zero. -/
theorem zero_const_ideal : (constant (F := Ideal) S_ .f32 0x00000000#32 : S_.Idx → EReal) ix0 = 0 :=
  Ideal.ofBits_zero_f32

end Cert.KernelIdeal.Bridge

end
-- ==== Proof.KIdxV.lean ====
/-
  What the two regions find in the buffers they read, in terms of the launch memory `m`. No host operation and no
  region writes an argument, so after the first host stretch (region 0's entry) and after region 0 (region 1's entry)
  every argument's buffer holds its launch contents; the two projection matrices are the first host stretch's, read at
  their entries off the [256,1] arguments `a_node` and `a_edge`:
      first matrix   (j, 0) = a_node (j, 0),   (j, 1) = a_node (128 + j, 0),   (j, 2) = a_edge (j, 0),   (j, 3) = 0;
      second matrix  (j, 0) = a_edge (128 + j, 0),   (j, 1) = (j, 2) = (j, 3) = 0,
  and region 0 writes neither, so region 1 finds the second matrix as the first host stretch left it.
-/
import proofs.«130992_j35871566856204_2_alg».proof.Proof.KIFold
import proofs.«130992_j35871566856204_2_alg».proof.Proof.KIdxW

set_option maxRecDepth 16384

noncomputable section

namespace Cert.KernelIdeal.Bridge

open Cert.KernelIdeal Cert.KernelIdeal.Gen Cert.KernelIdeal.Hand
open Idealize.ShloMosaic Idealize.ShloMosaic.TcCoe Idealize.ShloMosaic.StableHlo Idealize.SL.Sem
open Idealize.ShloMosaic.ValueIdx

variable {F : FTy → Type} [FloatOps F]
variable (m : (ℓ : Loc nD τ sig) → Buf (Elt F) ℓ) (ρ : Dev nD → PrngReg)

/-! ## The arguments, as the regions find them -/

/-- At region 0's entry an argument's buffer holds its launch contents. -/
theorem V1_arg (c : Dev nD) (r : Ref sig .tc) (hr : r ∈ (argRefs : List (Ref sig .tc))) :
    V1 m ρ c r = m ((c : Thread nD τ).loc r) :=
  after_arg hostOps0 hostOps0_keeps _ r hr

/-- At region 1's entry likewise: region 0 writes its two output arrays only. -/
theorem V2_arg (c : Dev nD) (r : Ref sig .tc) (hr : r ∈ (argRefs : List (Ref sig .tc))) :
    V2 m ρ c r = m ((c : Thread nD τ).loc r) := by
  have hne : r ≠ main_v20_0 ∧ r ≠ main_v20_1 := by
    refine ⟨?_, ?_⟩ <;> (intro e; subst e; revert hr; decide)
  exact (V2_of_ne m ρ c r hne.1 hne.2).trans (V1_arg m ρ c r hr)

theorem V1_main_arg0 (c : Dev nD) : V1 m ρ c main_arg0 = m ((c : Thread nD τ).loc main_arg0) := V1_arg m ρ c main_arg0 (by decide)
theorem V1_main_arg1 (c : Dev nD) : V1 m ρ c main_arg1 = m ((c : Thread nD τ).loc main_arg1) := V1_arg m ρ c main_arg1 (by decide)
theorem V1_main_arg3 (c : Dev nD) : V1 m ρ c main_arg3 = m ((c : Thread nD τ).loc main_arg3) := V1_arg m ρ c main_arg3 (by decide)
theorem V1_main_arg4 (c : Dev nD) : V1 m ρ c main_arg4 = m ((c : Thread nD τ).loc main_arg4) := V1_arg m ρ c main_arg4 (by decide)
theorem V1_main_arg5 (c : Dev nD) : V1 m ρ c main_arg5 = m ((c : Thread nD τ).loc main_arg5) := V1_arg m ρ c main_arg5 (by decide)
theorem V1_main_arg6 (c : Dev nD) : V1 m ρ c main_arg6 = m ((c : Thread nD τ).loc main_arg6) := V1_arg m ρ c main_arg6 (by decide)
theorem V2_main_arg1 (c : Dev nD) : V2 m ρ c main_arg1 = m ((c : Thread nD τ).loc main_arg1) := V2_arg m ρ c main_arg1 (by decide)
theorem V2_main_arg4 (c : Dev nD) : V2 m ρ c main_arg4 = m ((c : Thread nD τ).loc main_arg4) := V2_arg m ρ c main_arg4 (by decide)

/-- Region 1 finds the second projection matrix as the first host stretch left it. -/
theorem V2_main_v19 (c : Dev nD) : V2 m ρ c main_v19 = V1 m ρ c main_v19 :=
  V2_of_ne m ρ c main_v19 (by decide) (by decide)

/-! ## The projection matrices, as the regions find them -/

theorem V1_v10_col0 (c : Dev nD) (j : Fin 128) :
    (V1 m ρ c main_v10 : S128x4.Idx → Elt F .f32) (ix2 j (0 : Fin 4))
      = (m ((c : Thread nD τ).loc main_arg5) : S256x1.Idx → Elt F .f32) (ix2 ⟨j.val, by omega⟩ (0 : Fin 1)) :=
  v10_col0 (W0 m ρ c) j
theorem V1_v10_col1 (c : Dev nD) (j : Fin 128) :
    (V1 m ρ c main_v10 : S128x4.Idx → Elt F .f32) (ix2 j (1 : Fin 4))
      = (m ((c : Thread nD τ).loc main_arg5) : S256x1.Idx → Elt F .f32) (ix2 ⟨128 + j.val, by omega⟩ (0 : Fin 1)) :=
  v10_col1 (W0 m ρ c) j
theorem V1_v10_col2 (c : Dev nD) (j : Fin 128) :
    (V1 m ρ c main_v10 : S128x4.Idx → Elt F .f32) (ix2 j (2 : Fin 4))
      = (m ((c : Thread nD τ).loc main_arg6) : S256x1.Idx → Elt F .f32) (ix2 ⟨j.val, by omega⟩ (0 : Fin 1)) :=
  v10_col2 (W0 m ρ c) j
theorem V1_v10_col3 (c : Dev nD) (j : Fin 128) :
    (V1 m ρ c main_v10 : S128x4.Idx → Elt F .f32) (ix2 j (3 : Fin 4))
      = (constant (F := F) S_ .f32 0x00000000#32 : S_.Idx → Elt F .f32) ix0 :=
  v10_col3 (W0 m ρ c) j

theorem V2_v19_col0 (c : Dev nD) (j : Fin 128) :
    (V2 m ρ c main_v19 : S128x4.Idx → Elt F .f32) (ix2 j (0 : Fin 4))
      = (m ((c : Thread nD τ).loc main_arg6) : S256x1.Idx → Elt F .f32) (ix2 ⟨128 + j.val, by omega⟩ (0 : Fin 1)) := by
  rw [V2_main_v19]; exact v19_col0 (W0 m ρ c) j
theorem V2_v19_col1 (c : Dev nD) (j : Fin 128) :
    (V2 m ρ c main_v19 : S128x4.Idx → Elt F .f32) (ix2 j (1 : Fin 4))
      = (constant (F := F) S_ .f32 0x00000000#32 : S_.Idx → Elt F .f32) ix0 := by
  rw [V2_main_v19]; exact v19_col1 (W0 m ρ c) j
theorem V2_v19_col2 (c : Dev nD) (j : Fin 128) :
    (V2 m ρ c main_v19 : S128x4.Idx → Elt F .f32) (ix2 j (2 : Fin 4))
      = (constant (F := F) S_ .f32 0x00000000#32 : S_.Idx → Elt F .f32) ix0 := by
  rw [V2_main_v19]; exact v19_col2 (W0 m ρ c) j
theorem V2_v19_col3 (c : Dev nD) (j : Fin 128) :
    (V2 m ρ c main_v19 : S128x4.Idx → Elt F .f32) (ix2 j (3 : Fin 4))
      = (constant (F := F) S_ .f32 0x00000000#32 : S_.Idx → Elt F .f32) ix0 := by
  rw [V2_main_v19]; exact v19_col3 (W0 m ρ c) j

end Cert.KernelIdeal.Bridge

end
-- ==== Proof.KFacts.lean ====
import proofs.«130992_j35871566856204_2_alg».proof.Proof.KCompose
import proofs.«130992_j35871566856204_2_alg».proof.Proof.KIArr0
import proofs.«130992_j35871566856204_2_alg».proof.Proof.KIArr1
import proofs.«130992_j35871566856204_2_alg».proof.Proof.KIdxV

open scoped BigOperators

noncomputable section
namespace Cert.KernelIdeal.Bridge
open Cert.KernelIdeal Cert.KernelIdeal.Gen Cert.KernelIdeal.Hand Cert.KernelIdeal.HandValue
open Idealize.ShloMosaic Idealize.ShloMosaic.TcCoe Idealize.SL.Sem Idealize.ShloMosaic.StableHlo
open Idealize.ShloMosaic.ValueIdx

/-! What the two regions leave, over the launch memory: the projected features `x · W`, and the small projections'
    columns as sums of projected features times the halves of the attention vectors. -/

variable (m : (ℓ : Loc nD τ sig) → Buf (Elt Ideal) ℓ) (ρ : Dev nD → PrngReg)

abbrev argX (c : Dev nD) : FVec Ideal S50000x256 .f32 := m ((c : Thread nD τ).loc main_arg0)
abbrev argY (c : Dev nD) : FVec Ideal S400000x128 .f32 := m ((c : Thread nD τ).loc main_arg1)
abbrev argW (c : Dev nD) : FVec Ideal S256x128 .f32 := m ((c : Thread nD τ).loc main_arg3)
abbrev argWe (c : Dev nD) : FVec Ideal S128x128 .f32 := m ((c : Thread nD τ).loc main_arg4)
abbrev argAn (c : Dev nD) : FVec Ideal S256x1 .f32 := m ((c : Thread nD τ).loc main_arg5)
abbrev argAe (c : Dev nD) : FVec Ideal S256x1 .f32 := m ((c : Thread nD τ).loc main_arg6)

/-- The node projection's column `q`, for a column `q` of the small matrix that is a half `a` of an attention vector. -/
theorem projNK_col (c : Dev nD) (r : Fin 50000) (q : Fin 4) (a : Fin 128 → EReal)
    (ha : ∀ j : Fin 128, (V1 m ρ c main_v10 : S128x4.Idx → EReal) (ix2 j q) = a j) :
    (projNK (F := Ideal) m ρ c : S50000x4.Idx → EReal) (ix2 r q)
      = ∑ j : Fin 128, (∑ k : Fin 256, argX m c (ix2 r k) * argW m c (ix2 k j)) * a j := by
  show (Wregs m ρ c (Proc.devRef .tc main_v20_1) : S50000x4.Idx → EReal) (ix2 r q) = _
  rw [Wregs_v20_1]
  have h := arr0_4 (V1 m ρ) c r q
  rw [V1_main_arg0, V1_main_arg3] at h
  exact Eq.trans (α := EReal) h (Finset.sum_congr rfl fun j _ => congrArg _ (ha j))

theorem projNK_col0 (c : Dev nD) (r : Fin 50000) :
    (projNK (F := Ideal) m ρ c : S50000x4.Idx → EReal) (ix2 r (0 : Fin 4))
      = ∑ j : Fin 128, (∑ k : Fin 256, argX m c (ix2 r k) * argW m c (ix2 k j)) * argAn m c (ix2 ⟨j.val, by omega⟩ (0 : Fin 1)) :=
  projNK_col m ρ c r 0 _ (fun j => V1_v10_col0 m ρ c j)

theorem projNK_col1 (c : Dev nD) (r : Fin 50000) :
    (projNK (F := Ideal) m ρ c : S50000x4.Idx → EReal) (ix2 r (1 : Fin 4))
      = ∑ j : Fin 128, (∑ k : Fin 256, argX m c (ix2 r k) * argW m c (ix2 k j)) * argAn m c (ix2 ⟨128 + j.val, by omega⟩ (0 : Fin 1)) :=
  projNK_col m ρ c r 1 _ (fun j => V1_v10_col1 m ρ c j)

theorem projNK_col2 (c : Dev nD) (r : Fin 50000) :
    (projNK (F := Ideal) m ρ c : S50000x4.Idx → EReal) (ix2 r (2 : Fin 4))
      = ∑ j : Fin 128, (∑ k : Fin 256, argX m c (ix2 r k) * argW m c (ix2 k j)) * argAe m c (ix2 ⟨j.val, by omega⟩ (0 : Fin 1)) :=
  projNK_col m ρ c r 2 _ (fun j => V1_v10_col2 m ρ c j)

/-- The edge projection's column 0. -/
theorem projEK_col0 (c : Dev nD) (r : Fin 400000) :
    (projEK (F := Ideal) m ρ c : S400000x4.Idx → EReal) (ix2 r (0 : Fin 4))
      = ∑ j : Fin 128, (∑ k : Fin 128, argY m c (ix2 r k) * argWe m c (ix2 k j)) * argAe m c (ix2 ⟨128 + j.val, by omega⟩ (0 : Fin 1)) := by
  show (Wregs m ρ c (Proc.devRef .tc main_v21_1) : S400000x4.Idx → EReal) (ix2 r (0 : Fin 4)) = _
  rw [Wregs_v21_1]
  have h := arr1_4 (V2 m ρ) c r 0
  rw [V2_main_arg1, V2_main_arg4] at h
  exact Eq.trans (α := EReal) h (Finset.sum_congr rfl fun j _ => congrArg _ (V2_v19_col0 m ρ c j))

/-- The projected node features the first region leaves. -/
theorem featNK_apply (c : Dev nD) (r : Fin 50000) (j : Fin 128) :
    (featNK (F := Ideal) m ρ c : S50000x128.Idx → EReal) (ix2 r j) = ∑ k : Fin 256, argX m c (ix2 r k) * argW m c (ix2 k j) := by
  show (Wregs m ρ c (Proc.devRef .tc main_v20_0) : S50000x128.Idx → EReal) (ix2 r j) = _
  rw [Wregs_v20_0]
  have h := arr0_3 (V1 m ρ) c r j
  rw [V1_main_arg0, V1_main_arg3] at h
  exact h

/-- The projected edge features the second region leaves. -/
theorem featEK_apply (c : Dev nD) (r : Fin 400000) (j : Fin 128) :
    (featEK (F := Ideal) m ρ c : S400000x128.Idx → EReal) (ix2 r j) = ∑ k : Fin 128, argY m c (ix2 r k) * argWe m c (ix2 k j) := by
  show (Wregs m ρ c (Proc.devRef .tc main_v21_0) : S400000x128.Idx → EReal) (ix2 r j) = _
  rw [Wregs_v21_0]
  have h := arr1_3 (V2 m ρ) c r j
  rw [V2_main_arg1, V2_main_arg4] at h
  exact h

end Cert.KernelIdeal.Bridge
end
-- ==== Proof.RStageA.lean ====
/- The reference program's first stretch, read as functions of the buffers it starts from: the edge list's two
   columns, the two projections, the node logits and the concatenated edge features, each the operations' own composed
   term. -/
import proofs.«130992_j35871566856204_2_alg».proof.Proof.RefOps
import proofs.«130992_j35871566856204_2_alg».proof.Proof.LibFoldSteps
import Idealize.ShloMosaic.Lib.StableHlo.Run

set_option pp.maxSteps 20000

noncomputable section
namespace Cert.ReferenceIdeal.Bridge
open Cert.ReferenceIdeal Cert.ReferenceIdeal.Gen Cert.ReferenceIdeal.Hand Idealize.ShloMosaic Idealize.ShloMosaic.TcCoe Idealize.SL.Sem Idealize.ShloMosaic.StableHlo Cert.Lib

variable {F : FTy → Type} [FloatOps F]

macro "fold_stepsA" : tactic => `(tactic| (after_results_simp; results_by_rw))

/-- The edge list's sources: the first column of the row-major [E, 2] reading of the edges followed by its reversal. -/
def srcR : { f : (IVec S1x2x400000 32) → IVec S800000 32 //
    ∀ V : Valuation τ sig (Elt F), StableHlo.after opsA V (Proc.devRef .tc main_v5) = f (V (Proc.devRef .tc main_arg2)) } :=
  ⟨_, fun V => by
    fold_stepsA
    generalize V (Proc.devRef .tc main_arg2) = e
    rfl⟩

/-- The edge list's destinations: the second column. -/
def dstR : { f : (IVec S1x2x400000 32) → IVec S800000 32 //
    ∀ V : Valuation τ sig (Elt F), StableHlo.after opsA V (Proc.devRef .tc main_v7) = f (V (Proc.devRef .tc main_arg2)) } :=
  ⟨_, fun V => by
    fold_stepsA
    generalize V (Proc.devRef .tc main_arg2) = e
    rfl⟩

/-- The node projection: the node features times the node weights. -/
theorem hvR (V : Valuation τ sig (Elt F)) : StableHlo.after opsA V (Proc.devRef .tc main_v8)
    = Host.dotGeneral dot_S50000x256_S256x128_S50000x128_1_0_0_1_n_n none
        (V (Proc.devRef .tc main_arg0)) (V (Proc.devRef .tc main_arg3)) := by
  fold_stepsA

/-- The edge projection: the edge features, twice over, times the edge weights. -/
theorem evR (V : Valuation τ sig (Elt F)) : StableHlo.after opsA V (Proc.devRef .tc main_v9)
    = Host.dotGeneral dot_S800000x128_S128x128_S800000x128_1_0_0_1_n_n none
        (concatenate S800000x128 0 [⟨S400000x128, V (Proc.devRef .tc main_arg1)⟩, ⟨S400000x128, V (Proc.devRef .tc main_arg1)⟩]
          concatenates_S400000x128_S400000x128_S800000x128_d0)
        (V (Proc.devRef .tc main_arg4)) := by
  fold_stepsA

/-- The node logits: each edge's two endpoint rows of the node projection, side by side, against the node attention
    vector. -/
def npreR : { f : (FVec F S50000x128 .f32) → (IVec S1x2x400000 32) → (FVec F S256x1 .f32) → FVec F S800000 .f32 //
    ∀ V : Valuation τ sig (Elt F), StableHlo.after opsA V (Proc.devRef .tc main_v27)
      = f (Host.dotGeneral dot_S50000x256_S256x128_S50000x128_1_0_0_1_n_n none
            (V (Proc.devRef .tc main_arg0)) (V (Proc.devRef .tc main_arg3)))
          (V (Proc.devRef .tc main_arg2)) (V (Proc.devRef .tc main_arg5)) } :=
  ⟨_, fun V => by
    fold_stepsA
    generalize Host.dotGeneral dot_S50000x256_S256x128_S50000x128_1_0_0_1_n_n none
      (V (Proc.devRef .tc main_arg0)) (V (Proc.devRef .tc main_arg3)) = h
    generalize V (Proc.devRef .tc main_arg2) = e
    generalize V (Proc.devRef .tc main_arg5) = a
    rfl⟩

set_option maxHeartbeats 1000000 in
/-- The edge features: each edge's source row of the node projection beside its row of the edge projection. -/
def eexpR : { f : (FVec F S50000x128 .f32) → (FVec F S800000x128 .f32) → (IVec S1x2x400000 32) → FVec F S800000x256 .f32 //
    ∀ V : Valuation τ sig (Elt F), StableHlo.after opsA V (Proc.devRef .tc main_v25)
      = f (Host.dotGeneral dot_S50000x256_S256x128_S50000x128_1_0_0_1_n_n none
            (V (Proc.devRef .tc main_arg0)) (V (Proc.devRef .tc main_arg3)))
          (Host.dotGeneral dot_S800000x128_S128x128_S800000x128_1_0_0_1_n_n none
            (concatenate S800000x128 0 [⟨S400000x128, V (Proc.devRef .tc main_arg1)⟩, ⟨S400000x128, V (Proc.devRef .tc main_arg1)⟩]
              concatenates_S400000x128_S400000x128_S800000x128_d0)
            (V (Proc.devRef .tc main_arg4)))
          (V (Proc.devRef .tc main_arg2)) } :=
  ⟨_, fun V => by
    fold_stepsA
    generalize Host.dotGeneral dot_S50000x256_S256x128_S50000x128_1_0_0_1_n_n none
      (V (Proc.devRef .tc main_arg0)) (V (Proc.devRef .tc main_arg3)) = h
    generalize Host.dotGeneral dot_S800000x128_S128x128_S800000x128_1_0_0_1_n_n none
      (concatenate S800000x128 0 [⟨S400000x128, V (Proc.devRef .tc main_arg1)⟩, ⟨S400000x128, V (Proc.devRef .tc main_arg1)⟩]
        concatenates_S400000x128_S400000x128_S800000x128_d0)
      (V (Proc.devRef .tc main_arg4)) = g
    generalize V (Proc.devRef .tc main_arg2) = e
    rfl⟩

end Cert.ReferenceIdeal.Bridge
end
-- ==== Proof.RefOpsM.lean ====
/- The reference program's operations, in order, as consecutive named stretches, every call of a module-local
   function replaced by that function's operations over the call's own buffers (its record's), and the buffers
   each stretch writes. A transcription of the printed program: 269 operations; the printed windows of the
   entry function begin at operations 0, 72, 163 (counting from 0). -/
import proofs.«130992_j35871566856204_2_alg».proof.Proof.Gen.ReferenceIdeal
import Idealize.ShloMosaic.Lib.StableHlo.Run

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-- Operations 33 … 48 of 269, calls inlined. -/
abbrev mid1 : List (HloOp τ sig (Elt F)) :=
  [ nullary main_cst (constant S_ .f32 0x00000000#32),
    unary main_cst main_v28 (broadcastInDim S800000 ![] bcast_S_S800000 : (⟨S_, .f32⟩ : BufTy).Contents (Elt F) → (⟨S800000, .f32⟩ : BufTy).Contents (Elt F)),
    binary main_v27 main_v28 main_v29 (cmpf .oge : (⟨S800000, .f32⟩ : BufTy).Contents (Elt F) → (⟨S800000, .f32⟩ : BufTy).Contents (Elt F) → (⟨S800000, .i1⟩ : BufTy).Contents (Elt F)),
    nullary main_cst_3 (constant S_ .f32 0x3E4CCCCD#32),
    unary main_cst_3 main_v30 (broadcastInDim S800000 ![] bcast_S_S800000 : (⟨S_, .f32⟩ : BufTy).Contents (Elt F) → (⟨S800000, .f32⟩ : BufTy).Contents (Elt F)),
    binary main_v30 main_v27 main_v31 (mulf : (⟨S800000, .f32⟩ : BufTy).Contents (Elt F) → (⟨S800000, .f32⟩ : BufTy).Contents (Elt F) → (⟨S800000, .f32⟩ : BufTy).Contents (Elt F)),
    StableHlo.TRef.ternary (.of main_v29 : StableHlo.TRef sig ⟨S800000, .i1⟩) (.of main_v27 : StableHlo.TRef sig ⟨S800000, .f32⟩) (.of main_v31 : StableHlo.TRef sig ⟨S800000, .f32⟩) (.of main_v32 : StableHlo.TRef sig ⟨S800000, .f32⟩) select,
    nullary main_cst_4 (constant S_ .f32 0xC0000000#32),
    nullary main_cst_5 (constant S_ .f32 0x40000000#32),
    StableHlo.TRef.unary (.of main_cst_4 : StableHlo.TRef sig ⟨S_, .f32⟩) (.of main_call1_v0 : StableHlo.TRef sig ⟨S_, .f32⟩) id,
    StableHlo.TRef.unary (.of main_call1_v0 : StableHlo.TRef sig ⟨S_, .f32⟩) (.of main_call1_v1 : StableHlo.TRef sig ⟨S800000, .f32⟩) (broadcastInDim S800000 ![] bcast_S_S800000),
    StableHlo.TRef.binary (.of main_call1_v1 : StableHlo.TRef sig ⟨S800000, .f32⟩) (.of main_v32 : StableHlo.TRef sig ⟨S800000, .f32⟩) (.of main_call1_v2 : StableHlo.TRef sig ⟨S800000, .f32⟩) maximumf,
    StableHlo.TRef.unary (.of main_cst_5 : StableHlo.TRef sig ⟨S_, .f32⟩) (.of main_call1_v3 : StableHlo.TRef sig ⟨S_, .f32⟩) id,
    StableHlo.TRef.unary (.of main_call1_v3 : StableHlo.TRef sig ⟨S_, .f32⟩) (.of main_call1_v4 : StableHlo.TRef sig ⟨S800000, .f32⟩) (broadcastInDim S800000 ![] bcast_S_S800000),
    StableHlo.TRef.binary (.of main_call1_v4 : StableHlo.TRef sig ⟨S800000, .f32⟩) (.of main_call1_v2 : StableHlo.TRef sig ⟨S800000, .f32⟩) (.of main_v33 : StableHlo.TRef sig ⟨S800000, .f32⟩) minimumf,
    unary main_v33 main_v34 (Host.exp : (⟨S800000, .f32⟩ : BufTy).Contents (Elt F) → (⟨S800000, .f32⟩ : BufTy).Contents (Elt F)) ]

/-- The buffers those operations write, in order. -/
abbrev mid1_W : List (Ref sig .tc) :=
  [main_cst, main_v28, main_v29, main_cst_3, main_v30, main_v31, main_v32, main_cst_4, main_cst_5, main_call1_v0, main_call1_v1, main_call1_v2, main_call1_v3, main_call1_v4, main_v33, main_v34]

set_option maxRecDepth 8192 in
/-- Each touches TensorCore references only. -/
theorem mid1_sub : (mid1 : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., nullary_bufs_sub .., nullary_bufs_sub .., unary_bufs_sub .., unary_bufs_sub .., binary_bufs_sub .., unary_bufs_sub .., unary_bufs_sub .., binary_bufs_sub .., unary_bufs_sub ..⟩

/-- Operations 49 … 66 of 269, calls inlined. -/
abbrev mid2 : List (HloOp τ sig (Elt F)) :=
  [ binary main_v25 main_arg6 main_v35 ((fun l r => Host.dotGeneral dot_S800000x256_S256x1_S800000x1_1_0_0_1_n_n none l r) : (⟨S800000x256, .f32⟩ : BufTy).Contents (Elt F) → (⟨S256x1, .f32⟩ : BufTy).Contents (Elt F) → (⟨S800000x1, .f32⟩ : BufTy).Contents (Elt F)),
    reshape main_v35 main_v36 rfl shapeCasts_S800000x1_S800000,
    nullary main_cst_6 (constant S_ .f32 0x00000000#32),
    unary main_cst_6 main_v37 (broadcastInDim S800000 ![] bcast_S_S800000 : (⟨S_, .f32⟩ : BufTy).Contents (Elt F) → (⟨S800000, .f32⟩ : BufTy).Contents (Elt F)),
    binary main_v36 main_v37 main_v38 (cmpf .oge : (⟨S800000, .f32⟩ : BufTy).Contents (Elt F) → (⟨S800000, .f32⟩ : BufTy).Contents (Elt F) → (⟨S800000, .i1⟩ : BufTy).Contents (Elt F)),
    nullary main_cst_7 (constant S_ .f32 0x3E4CCCCD#32),
    unary main_cst_7 main_v39 (broadcastInDim S800000 ![] bcast_S_S800000 : (⟨S_, .f32⟩ : BufTy).Contents (Elt F) → (⟨S800000, .f32⟩ : BufTy).Contents (Elt F)),
    binary main_v39 main_v36 main_v40 (mulf : (⟨S800000, .f32⟩ : BufTy).Contents (Elt F) → (⟨S800000, .f32⟩ : BufTy).Contents (Elt F) → (⟨S800000, .f32⟩ : BufTy).Contents (Elt F)),
    StableHlo.TRef.ternary (.of main_v38 : StableHlo.TRef sig ⟨S800000, .i1⟩) (.of main_v36 : StableHlo.TRef sig ⟨S800000, .f32⟩) (.of main_v40 : StableHlo.TRef sig ⟨S800000, .f32⟩) (.of main_v41 : StableHlo.TRef sig ⟨S800000, .f32⟩) select,
    nullary main_cst_8 (constant S_ .f32 0xC0000000#32),
    nullary main_cst_9 (constant S_ .f32 0x40000000#32),
    StableHlo.TRef.unary (.of main_cst_8 : StableHlo.TRef sig ⟨S_, .f32⟩) (.of main_call3_v0 : StableHlo.TRef sig ⟨S_, .f32⟩) id,
    StableHlo.TRef.unary (.of main_call3_v0 : StableHlo.TRef sig ⟨S_, .f32⟩) (.of main_call3_v1 : StableHlo.TRef sig ⟨S800000, .f32⟩) (broadcastInDim S800000 ![] bcast_S_S800000),
    StableHlo.TRef.binary (.of main_call3_v1 : StableHlo.TRef sig ⟨S800000, .f32⟩) (.of main_v41 : StableHlo.TRef sig ⟨S800000, .f32⟩) (.of main_call3_v2 : StableHlo.TRef sig ⟨S800000, .f32⟩) maximumf,
    StableHlo.TRef.unary (.of main_cst_9 : StableHlo.TRef sig ⟨S_, .f32⟩) (.of main_call3_v3 : StableHlo.TRef sig ⟨S_, .f32⟩) id,
    StableHlo.TRef.unary (.of main_call3_v3 : StableHlo.TRef sig ⟨S_, .f32⟩) (.of main_call3_v4 : StableHlo.TRef sig ⟨S800000, .f32⟩) (broadcastInDim S800000 ![] bcast_S_S800000),
    StableHlo.TRef.binary (.of main_call3_v4 : StableHlo.TRef sig ⟨S800000, .f32⟩) (.of main_call3_v2 : StableHlo.TRef sig ⟨S800000, .f32⟩) (.of main_v42 : StableHlo.TRef sig ⟨S800000, .f32⟩) minimumf,
    unary main_v42 main_v43 (Host.exp : (⟨S800000, .f32⟩ : BufTy).Contents (Elt F) → (⟨S800000, .f32⟩ : BufTy).Contents (Elt F)) ]

/-- The buffers those operations write, in order. -/
abbrev mid2_W : List (Ref sig .tc) :=
  [main_v35, main_v36, main_cst_6, main_v37, main_v38, main_cst_7, main_v39, main_v40, main_v41, main_cst_8, main_cst_9, main_call3_v0, main_call3_v1, main_call3_v2, main_call3_v3, main_call3_v4, main_v42, main_v43]

set_option maxRecDepth 8192 in
/-- Each touches TensorCore references only. -/
theorem mid2_sub : (mid2 : List (HloOp τ sig (Elt F))).Forall fun op => op.bufs ⊆ tcRefs τ sig :=
  ⟨binary_bufs_sub .., reshape_bufs_sub .., nullary_bufs_sub .., unary_bufs_sub .., binary_bufs_sub .., nullary_bufs_sub .., unary_bufs_sub .., binary_bufs_sub .., ternary_bufs_sub .., nullary_bufs_sub .., nullary_bufs_sub .., unary_bufs_sub .., unary_bufs_sub .., binary_bufs_sub .., unary_bufs_sub .., unary_bufs_sub .., binary_bufs_sub .., unary_bufs_sub ..⟩

/-- Operations 67 … 69 of 269, calls inlined. -/
abbrev mid3 : List (HloOp τ sig (Elt F)) :=
  [ nullary main_c_10 (constantI S_ 32 0#32),
    unary main_c_10 main_v44 (broadcastInDim S50000 ![] bcast_S_S50000 : (⟨S_, .i32⟩ : BufTy).Contents (Elt F) → (⟨S50000, .i32⟩ : BufTy).Contents (Elt F)),
    nullary main_c_11 (constantI S_ 32 0#32) ]

/-- The buffers those operations write, in order. -/
abbrev mid3_W : List (Ref sig .tc) :=
  [main_c_10, main_v44, main_c_11]

set_option maxRecDepth 8192 in
/-- Each touches TensorCore references only. -/
theorem mid3_sub : (mid3 : List (HloOp τ sig (Elt F))).Forall fun op => op.bufs ⊆ tcRefs τ sig :=
  ⟨nullary_bufs_sub .., unary_bufs_sub .., nullary_bufs_sub ..⟩

/-- Operations 70 … 83 of 269, calls inlined. -/
abbrev mid4 : List (HloOp τ sig (Elt F)) :=
  [ StableHlo.TRef.unary (.of main_c_11 : StableHlo.TRef sig ⟨S_, .i32⟩) (.of main_call4_v0 : StableHlo.TRef sig ⟨S_, .i32⟩) id,
    StableHlo.TRef.unary (.of main_call4_v0 : StableHlo.TRef sig ⟨S_, .i32⟩) (.of main_call4_v1 : StableHlo.TRef sig ⟨S800000, .i32⟩) (broadcastInDim S800000 ![] bcast_S_S800000),
    StableHlo.TRef.binary (.of main_call4_v1 : StableHlo.TRef sig ⟨S800000, .i32⟩) (.of main_v5 : StableHlo.TRef sig ⟨S800000, .i32⟩) (.of main_v45 : StableHlo.TRef sig ⟨S800000, .i32⟩) maxsi,
    nullary main_c_12 (constantI S_ 32 0#32),
    unary main_c_12 main_v46 (broadcastInDim S800000 ![] bcast_S_S800000 : (⟨S_, .i32⟩ : BufTy).Contents (Elt F) → (⟨S800000, .i32⟩ : BufTy).Contents (Elt F)),
    binary main_v45 main_v46 main_v47 (cmpi .slt : (⟨S800000, .i32⟩ : BufTy).Contents (Elt F) → (⟨S800000, .i32⟩ : BufTy).Contents (Elt F) → (⟨S800000, .i1⟩ : BufTy).Contents (Elt F)),
    nullary main_c_13 (constantI S_ 32 50000#32),
    unary main_c_13 main_v48 (broadcastInDim S800000 ![] bcast_S_S800000 : (⟨S_, .i32⟩ : BufTy).Contents (Elt F) → (⟨S800000, .i32⟩ : BufTy).Contents (Elt F)),
    binary main_v45 main_v48 main_v49 (addi : (⟨S800000, .i32⟩ : BufTy).Contents (Elt F) → (⟨S800000, .i32⟩ : BufTy).Contents (Elt F) → (⟨S800000, .i32⟩ : BufTy).Contents (Elt F)),
    ternary main_v47 main_v49 main_v45 main_v50 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v50 main_v51 (broadcastInDim S800000x1 ![0] bcast_S800000_S800000x1_0 : (⟨S800000, .i32⟩ : BufTy).Contents (Elt F) → (⟨S800000x1, .i32⟩ : BufTy).Contents (Elt F)),
    nullary main_c_14 (constantI S_ 32 1#32),
    unary main_c_14 main_v52 (broadcastInDim S800000 ![] bcast_S_S800000 : (⟨S_, .i32⟩ : BufTy).Contents (Elt F) → (⟨S800000, .i32⟩ : BufTy).Contents (Elt F)),
    ternary main_v44 main_v51 main_v52 main_v53 ((fun x i u => Host.scatter scatter_S50000_S800000x1_S800000_n_0_0_1 IntOp.addi x i u) : (⟨S50000, .i32⟩ : BufTy).Contents (Elt F) → (⟨S800000x1, .i32⟩ : BufTy).Contents (Elt F) → (⟨S800000, .i32⟩ : BufTy).Contents (Elt F) → (⟨S50000, .i32⟩ : BufTy).Contents (Elt F)) ]

/-- The buffers those operations write, in order. -/
abbrev mid4_W : List (Ref sig .tc) :=
  [main_call4_v0, main_call4_v1, main_v45, main_c_12, main_v46, main_v47, main_c_13, main_v48, main_v49, main_v50, main_v51, main_c_14, main_v52, main_v53]

set_option maxRecDepth 8192 in
/-- Each touches TensorCore references only. -/
theorem mid4_sub : (mid4 : List (HloOp τ sig (Elt F))).Forall fun op => op.bufs ⊆ tcRefs τ sig :=
  ⟨unary_bufs_sub .., unary_bufs_sub .., binary_bufs_sub .., nullary_bufs_sub .., unary_bufs_sub .., binary_bufs_sub .., nullary_bufs_sub .., unary_bufs_sub .., binary_bufs_sub .., ternary_bufs_sub .., unary_bufs_sub .., nullary_bufs_sub .., unary_bufs_sub .., ternary_bufs_sub ..⟩

/-- Operations 84 … 87 of 269, calls inlined. -/
abbrev mid5 : List (HloOp τ sig (Elt F)) :=
  [ nullary main_cst_15 (constant S_ .f32 0x00000000#32),
    unary main_cst_15 main_v54 (broadcastInDim S50000 ![] bcast_S_S50000 : (⟨S_, .f32⟩ : BufTy).Contents (Elt F) → (⟨S50000, .f32⟩ : BufTy).Contents (Elt F)),
    unary main_v5 main_v55 (broadcastInDim S800000x1 ![0] bcast_S800000_S800000x1_0 : (⟨S800000, .i32⟩ : BufTy).Contents (Elt F) → (⟨S800000x1, .i32⟩ : BufTy).Contents (Elt F)),
    ternary main_v54 main_v55 main_v34 main_v56 ((fun x i u => Host.scatterAdd scatter_S50000_S800000x1_S800000_n_0_0_1 x i u) : (⟨S50000, .f32⟩ : BufTy).Contents (Elt F) → (⟨S800000x1, .i32⟩ : BufTy).Contents (Elt F) → (⟨S800000, .f32⟩ : BufTy).Contents (Elt F) → (⟨S50000, .f32⟩ : BufTy).Contents (Elt F)) ]

/-- The buffers those operations write, in order. -/
abbrev mid5_W : List (Ref sig .tc) :=
  [main_cst_15, main_v54, main_v55, main_v56]

set_option maxRecDepth 8192 in
/-- Each touches TensorCore references only. -/
theorem mid5_sub : (mid5 : List (HloOp τ sig (Elt F))).Forall fun op => op.bufs ⊆ tcRefs τ sig :=
  ⟨nullary_bufs_sub .., unary_bufs_sub .., unary_bufs_sub .., ternary_bufs_sub ..⟩

/-- Operations 88 … 91 of 269, calls inlined. -/
abbrev mid6 : List (HloOp τ sig (Elt F)) :=
  [ nullary main_cst_16 (constant S_ .f32 0x00000000#32),
    unary main_cst_16 main_v57 (broadcastInDim S50000 ![] bcast_S_S50000 : (⟨S_, .f32⟩ : BufTy).Contents (Elt F) → (⟨S50000, .f32⟩ : BufTy).Contents (Elt F)),
    unary main_v5 main_v58 (broadcastInDim S800000x1 ![0] bcast_S800000_S800000x1_0 : (⟨S800000, .i32⟩ : BufTy).Contents (Elt F) → (⟨S800000x1, .i32⟩ : BufTy).Contents (Elt F)),
    ternary main_v57 main_v58 main_v43 main_v59 ((fun x i u => Host.scatterAdd scatter_S50000_S800000x1_S800000_n_0_0_1 x i u) : (⟨S50000, .f32⟩ : BufTy).Contents (Elt F) → (⟨S800000x1, .i32⟩ : BufTy).Contents (Elt F) → (⟨S800000, .f32⟩ : BufTy).Contents (Elt F) → (⟨S50000, .f32⟩ : BufTy).Contents (Elt F)) ]

/-- The buffers those operations write, in order. -/
abbrev mid6_W : List (Ref sig .tc) :=
  [main_cst_16, main_v57, main_v58, main_v59]

set_option maxRecDepth 8192 in
/-- Each touches TensorCore references only. -/
theorem mid6_sub : (mid6 : List (HloOp τ sig (Elt F))).Forall fun op => op.bufs ⊆ tcRefs τ sig :=
  ⟨nullary_bufs_sub .., unary_bufs_sub .., unary_bufs_sub .., ternary_bufs_sub ..⟩

/-- Operations 92 … 98 of 269, calls inlined. -/
abbrev mid7 : List (HloOp τ sig (Elt F)) :=
  [ StableHlo.TRef.unary (.of main_v53 : StableHlo.TRef sig ⟨S50000, .i32⟩) (.of main_call5_v0 : StableHlo.TRef sig ⟨S1, .i32⟩) (extractStridedSlice S1 ![49999] · slices_S50000_S1_49999),
    StableHlo.TRef.unary (.of main_v53 : StableHlo.TRef sig ⟨S50000, .i32⟩) (.of main_call5_v1 : StableHlo.TRef sig ⟨S49999, .i32⟩) (extractStridedSlice S49999 ![0] · slices_S50000_S49999_0),
    StableHlo.TRef.binary (.of main_call5_v0 : StableHlo.TRef sig ⟨S1, .i32⟩) (.of main_call5_v1 : StableHlo.TRef sig ⟨S49999, .i32⟩) (.of main_v60 : StableHlo.TRef sig ⟨S50000, .i32⟩) (fun a b => concatenate S50000 0 [⟨S1, a⟩, ⟨S49999, b⟩] concatenates_S1_S49999_S50000_d0),
    nullary main_c_17 (constantI S_ 32 0#32),
    unary main_c_17 main_v61 (broadcastInDim S1 ![] bcast_S_S1 : (⟨S_, .i32⟩ : BufTy).Contents (Elt F) → (⟨S1, .i32⟩ : BufTy).Contents (Elt F)),
    nullary main_c_18 (constantI S_ 32 0#32),
    ternary main_v60 main_v61 main_c_18 main_v62 ((fun x i u => Host.scatter scatter_S50000_S1_S__n_0_0_0 (fun _ b => b) x i u) : (⟨S50000, .i32⟩ : BufTy).Contents (Elt F) → (⟨S1, .i32⟩ : BufTy).Contents (Elt F) → (⟨S_, .i32⟩ : BufTy).Contents (Elt F) → (⟨S50000, .i32⟩ : BufTy).Contents (Elt F)) ]

/-- The buffers those operations write, in order. -/
abbrev mid7_W : List (Ref sig .tc) :=
  [main_call5_v0, main_call5_v1, main_v60, main_c_17, main_v61, main_c_18, main_v62]

set_option maxRecDepth 8192 in
/-- Each touches TensorCore references only. -/
theorem mid7_sub : (mid7 : List (HloOp τ sig (Elt F))).Forall fun op => op.bufs ⊆ tcRefs τ sig :=
  ⟨unary_bufs_sub .., unary_bufs_sub .., binary_bufs_sub .., nullary_bufs_sub .., unary_bufs_sub .., nullary_bufs_sub .., ternary_bufs_sub ..⟩

/-- Operations 99 … 114 of 269, calls inlined. -/
abbrev mid8 : List (HloOp τ sig (Elt F)) :=
  [ StableHlo.TRef.nullary (.of main_call6_call0_c : StableHlo.TRef sig ⟨S_, .i32⟩) (constantI S_ 32 0#32),
    StableHlo.TRef.unary (.of main_call6_call0_c : StableHlo.TRef sig ⟨S_, .i32⟩) (.of main_call6_call0_v0 : StableHlo.TRef sig ⟨S_, .i32⟩) (broadcastInDim S_ ![] bcast_S_S_),
    StableHlo.TRef.binary (.of main_v62 : StableHlo.TRef sig ⟨S50000, .i32⟩) (.of main_call6_call0_v0 : StableHlo.TRef sig ⟨S_, .i32⟩) (.of main_v63 : StableHlo.TRef sig ⟨S50000, .i32⟩) (fun x v => Host.reduceWindow IntOp.addi ![50000] ![1] ![49999] ![0] x v reduceWindows_S50000_S50000_w50000s1p49999_0 h_S_),
    nullary main_c_19 (constantI S_ 32 0#32),
    unary main_c_19 main_v64 (broadcastInDim S800000 ![] bcast_S_S800000 : (⟨S_, .i32⟩ : BufTy).Contents (Elt F) → (⟨S800000, .i32⟩ : BufTy).Contents (Elt F)),
    nullary main_c_20 (constantI S_ 32 0#32),
    unary main_c_20 main_v65 (broadcastInDim S50000 ![] bcast_S_S50000 : (⟨S_, .i32⟩ : BufTy).Contents (Elt F) → (⟨S50000, .i32⟩ : BufTy).Contents (Elt F)),
    binary main_v63 main_v65 main_v66 (cmpi .slt : (⟨S50000, .i32⟩ : BufTy).Contents (Elt F) → (⟨S50000, .i32⟩ : BufTy).Contents (Elt F) → (⟨S50000, .i1⟩ : BufTy).Contents (Elt F)),
    nullary main_c_21 (constantI S_ 32 800000#32),
    unary main_c_21 main_v67 (broadcastInDim S50000 ![] bcast_S_S50000 : (⟨S_, .i32⟩ : BufTy).Contents (Elt F) → (⟨S50000, .i32⟩ : BufTy).Contents (Elt F)),
    binary main_v63 main_v67 main_v68 (addi : (⟨S50000, .i32⟩ : BufTy).Contents (Elt F) → (⟨S50000, .i32⟩ : BufTy).Contents (Elt F) → (⟨S50000, .i32⟩ : BufTy).Contents (Elt F)),
    ternary main_v66 main_v68 main_v63 main_v69 (select : (⟨S50000, .i1⟩ : BufTy).Contents (Elt F) → (⟨S50000, .i32⟩ : BufTy).Contents (Elt F) → (⟨S50000, .i32⟩ : BufTy).Contents (Elt F) → (⟨S50000, .i32⟩ : BufTy).Contents (Elt F)),
    unary main_v69 main_v70 (broadcastInDim S50000x1 ![0] bcast_S50000_S50000x1_0 : (⟨S50000, .i32⟩ : BufTy).Contents (Elt F) → (⟨S50000x1, .i32⟩ : BufTy).Contents (Elt F)),
    nullary main_c_22 (constantI S_ 32 1#32),
    unary main_c_22 main_v71 (broadcastInDim S50000 ![] bcast_S_S50000 : (⟨S_, .i32⟩ : BufTy).Contents (Elt F) → (⟨S50000, .i32⟩ : BufTy).Contents (Elt F)),
    ternary main_v64 main_v70 main_v71 main_v72 ((fun x i u => Host.scatter scatter_S800000_S50000x1_S50000_n_0_0_1 IntOp.addi x i u) : (⟨S800000, .i32⟩ : BufTy).Contents (Elt F) → (⟨S50000x1, .i32⟩ : BufTy).Contents (Elt F) → (⟨S50000, .i32⟩ : BufTy).Contents (Elt F) → (⟨S800000, .i32⟩ : BufTy).Contents (Elt F)) ]

/-- The buffers those operations write, in order. -/
abbrev mid8_W : List (Ref sig .tc) :=
  [main_call6_call0_c, main_call6_call0_v0, main_v63, main_c_19, main_v64, main_c_20, main_v65, main_v66, main_c_21, main_v67, main_v68, main_v69, main_v70, main_c_22, main_v71, main_v72]

set_option maxRecDepth 8192 in
/-- Each touches TensorCore references only. -/
theorem mid8_sub : (mid8 : List (HloOp τ sig (Elt F))).Forall fun op => op.bufs ⊆ tcRefs τ sig :=
  ⟨nullary_bufs_sub .., unary_bufs_sub .., binary_bufs_sub .., nullary_bufs_sub .., unary_bufs_sub .., nullary_bufs_sub .., unary_bufs_sub .., binary_bufs_sub .., nullary_bufs_sub .., unary_bufs_sub .., binary_bufs_sub .., ternary_bufs_sub .., unary_bufs_sub .., nullary_bufs_sub .., unary_bufs_sub .., ternary_bufs_sub ..⟩

/-- Operations 115 … 120 of 269, calls inlined. -/
abbrev mid9 : List (HloOp τ sig (Elt F)) :=
  [ StableHlo.TRef.nullary (.of main_call7_call0_c : StableHlo.TRef sig ⟨S_, .i32⟩) (constantI S_ 32 0#32),
    StableHlo.TRef.unary (.of main_call7_call0_c : StableHlo.TRef sig ⟨S_, .i32⟩) (.of main_call7_call0_v0 : StableHlo.TRef sig ⟨S_, .i32⟩) (broadcastInDim S_ ![] bcast_S_S_),
    StableHlo.TRef.binary (.of main_v72 : StableHlo.TRef sig ⟨S800000, .i32⟩) (.of main_call7_call0_v0 : StableHlo.TRef sig ⟨S_, .i32⟩) (.of main_v73 : StableHlo.TRef sig ⟨S800000, .i32⟩) (fun x v => Host.reduceWindow IntOp.addi ![800000] ![1] ![799999] ![0] x v reduceWindows_S800000_S800000_w800000s1p799999_0 h_S_),
    nullary main_c_23 (constantI S_ 32 1#32),
    unary main_c_23 main_v74 (broadcastInDim S800000 ![] bcast_S_S800000 : (⟨S_, .i32⟩ : BufTy).Contents (Elt F) → (⟨S800000, .i32⟩ : BufTy).Contents (Elt F)),
    binary main_v73 main_v74 main_v75 (subi : (⟨S800000, .i32⟩ : BufTy).Contents (Elt F) → (⟨S800000, .i32⟩ : BufTy).Contents (Elt F) → (⟨S800000, .i32⟩ : BufTy).Contents (Elt F)) ]

/-- The buffers those operations write, in order. -/
abbrev mid9_W : List (Ref sig .tc) :=
  [main_call7_call0_c, main_call7_call0_v0, main_v73, main_c_23, main_v74, main_v75]

set_option maxRecDepth 8192 in
/-- Each touches TensorCore references only. -/
theorem mid9_sub : (mid9 : List (HloOp τ sig (Elt F))).Forall fun op => op.bufs ⊆ tcRefs τ sig :=
  ⟨nullary_bufs_sub .., unary_bufs_sub .., binary_bufs_sub .., nullary_bufs_sub .., unary_bufs_sub .., binary_bufs_sub ..⟩

/-- Operations 121 … 142 of 269, calls inlined. -/
abbrev mid10 : List (HloOp τ sig (Elt F)) :=
  [ StableHlo.TRef.nullary (.of main_call8_c : StableHlo.TRef sig ⟨S_, .i32⟩) (constantI S_ 32 0#32),
    StableHlo.TRef.unary (.of main_call8_c : StableHlo.TRef sig ⟨S_, .i32⟩) (.of main_call8_v0 : StableHlo.TRef sig ⟨S800000, .i32⟩) (broadcastInDim S800000 ![] bcast_S_S800000),
    StableHlo.TRef.binary (.of main_v75 : StableHlo.TRef sig ⟨S800000, .i32⟩) (.of main_call8_v0 : StableHlo.TRef sig ⟨S800000, .i32⟩) (.of main_call8_v1 : StableHlo.TRef sig ⟨S800000, .i1⟩) (cmpi .slt),
    StableHlo.TRef.nullary (.of main_call8_c_0 : StableHlo.TRef sig ⟨S_, .i32⟩) (constantI S_ 32 50000#32),
    StableHlo.TRef.unary (.of main_call8_c_0 : StableHlo.TRef sig ⟨S_, .i32⟩) (.of main_call8_v2 : StableHlo.TRef sig ⟨S800000, .i32⟩) (broadcastInDim S800000 ![] bcast_S_S800000),
    StableHlo.TRef.binary (.of main_v75 : StableHlo.TRef sig ⟨S800000, .i32⟩) (.of main_call8_v2 : StableHlo.TRef sig ⟨S800000, .i32⟩) (.of main_call8_v3 : StableHlo.TRef sig ⟨S800000, .i32⟩) addi,
    StableHlo.TRef.ternary (.of main_call8_v1 : StableHlo.TRef sig ⟨S800000, .i1⟩) (.of main_call8_v3 : StableHlo.TRef sig ⟨S800000, .i32⟩) (.of main_v75 : StableHlo.TRef sig ⟨S800000, .i32⟩) (.of main_call8_v4 : StableHlo.TRef sig ⟨S800000, .i32⟩) select,
    StableHlo.TRef.unary (.of main_call8_v4 : StableHlo.TRef sig ⟨S800000, .i32⟩) (.of main_call8_v5 : StableHlo.TRef sig ⟨S800000x1, .i32⟩) (broadcastInDim S800000x1 ![0] bcast_S800000_S800000x1_0),
    StableHlo.TRef.nullary (.of main_call8_c_1 : StableHlo.TRef sig ⟨S1, .i32⟩) (constantI S1 32 49999#32),
    StableHlo.TRef.nullary (.of main_call8_c_2 : StableHlo.TRef sig ⟨S_, .i32⟩) (constantI S_ 32 0#32),
    StableHlo.TRef.unary (.of main_call8_c_2 : StableHlo.TRef sig ⟨S_, .i32⟩) (.of main_call8_v6 : StableHlo.TRef sig ⟨S800000x1, .i32⟩) (broadcastInDim S800000x1 ![] bcast_S_S800000x1),
    StableHlo.TRef.binary (.of main_call8_v5 : StableHlo.TRef sig ⟨S800000x1, .i32⟩) (.of main_call8_v6 : StableHlo.TRef sig ⟨S800000x1, .i32⟩) (.of main_call8_v7 : StableHlo.TRef sig ⟨S800000x1, .i1⟩) (cmpi .sge),
    StableHlo.TRef.unary (.of main_call8_c_1 : StableHlo.TRef sig ⟨S1, .i32⟩) (.of main_call8_v8 : StableHlo.TRef sig ⟨S1x1, .i32⟩) (broadcastInDim S1x1 ![1] bcast_S1_S1x1_1),
    StableHlo.TRef.unary (.of main_call8_v8 : StableHlo.TRef sig ⟨S1x1, .i32⟩) (.of main_call8_v9 : StableHlo.TRef sig ⟨S800000x1, .i32⟩) (broadcastInDim S800000x1 ![0, 1] bcast_S1x1_S800000x1_0_1),
    StableHlo.TRef.binary (.of main_call8_v5 : StableHlo.TRef sig ⟨S800000x1, .i32⟩) (.of main_call8_v9 : StableHlo.TRef sig ⟨S800000x1, .i32⟩) (.of main_call8_v10 : StableHlo.TRef sig ⟨S800000x1, .i1⟩) (cmpi .sle),
    StableHlo.TRef.binary (.of main_call8_v7 : StableHlo.TRef sig ⟨S800000x1, .i1⟩) (.of main_call8_v10 : StableHlo.TRef sig ⟨S800000x1, .i1⟩) (.of main_call8_v11 : StableHlo.TRef sig ⟨S800000x1, .i1⟩) andi,
    StableHlo.TRef.nullary (.of main_call8_c_3 : StableHlo.TRef sig ⟨S_, .i1⟩) (constantI S_ 1 1#1),
    StableHlo.TRef.binary (.of main_call8_v11 : StableHlo.TRef sig ⟨S800000x1, .i1⟩) (.of main_call8_c_3 : StableHlo.TRef sig ⟨S_, .i1⟩) (.of main_call8_v12 : StableHlo.TRef sig ⟨S800000, .i1⟩) (fun x v => Host.reduce IntOp.andi x v reducesTo_S800000x1_S800000_d1 h_S_),
    StableHlo.TRef.binary (.of main_v56 : StableHlo.TRef sig ⟨S50000, .f32⟩) (.of main_call8_v5 : StableHlo.TRef sig ⟨S800000x1, .i32⟩) (.of main_call8_v13 : StableHlo.TRef sig ⟨S800000, .f32⟩) (fun x i => Host.gather gather_S50000_S800000x1_S800000_n_0_n_n_0_1_1 x i),
    StableHlo.TRef.nullary (.of main_call8_cst : StableHlo.TRef sig ⟨S_, .f32⟩) (constant S_ .f32 0x7FC00000#32),
    StableHlo.TRef.unary (.of main_call8_cst : StableHlo.TRef sig ⟨S_, .f32⟩) (.of main_call8_v14 : StableHlo.TRef sig ⟨S800000, .f32⟩) (broadcastInDim S800000 ![] bcast_S_S800000),
    StableHlo.TRef.ternary (.of main_call8_v12 : StableHlo.TRef sig ⟨S800000, .i1⟩) (.of main_call8_v13 : StableHlo.TRef sig ⟨S800000, .f32⟩) (.of main_call8_v14 : StableHlo.TRef sig ⟨S800000, .f32⟩) (.of main_v76 : StableHlo.TRef sig ⟨S800000, .f32⟩) select ]

/-- The buffers those operations write, in order. -/
abbrev mid10_W : List (Ref sig .tc) :=
  [main_call8_c, main_call8_v0, main_call8_v1, main_call8_c_0, main_call8_v2, main_call8_v3, main_call8_v4, main_call8_v5, main_call8_c_1, main_call8_c_2, main_call8_v6, main_call8_v7, main_call8_v8, main_call8_v9, main_call8_v10, main_call8_v11, main_call8_c_3, main_call8_v12, main_call8_v13, main_call8_cst, main_call8_v14, main_v76]

set_option maxRecDepth 8192 in
/-- Each touches TensorCore references only. -/
theorem mid10_sub : (mid10 : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., nullary_bufs_sub .., nullary_bufs_sub .., unary_bufs_sub .., binary_bufs_sub .., unary_bufs_sub .., unary_bufs_sub .., binary_bufs_sub .., binary_bufs_sub .., nullary_bufs_sub .., binary_bufs_sub .., binary_bufs_sub .., nullary_bufs_sub .., unary_bufs_sub .., ternary_bufs_sub ..⟩

/-- Operations 143 … 149 of 269, calls inlined. -/
abbrev mid11 : List (HloOp τ sig (Elt F)) :=
  [ StableHlo.TRef.unary (.of main_v53 : StableHlo.TRef sig ⟨S50000, .i32⟩) (.of main_call9_v0 : StableHlo.TRef sig ⟨S1, .i32⟩) (extractStridedSlice S1 ![49999] · slices_S50000_S1_49999),
    StableHlo.TRef.unary (.of main_v53 : StableHlo.TRef sig ⟨S50000, .i32⟩) (.of main_call9_v1 : StableHlo.TRef sig ⟨S49999, .i32⟩) (extractStridedSlice S49999 ![0] · slices_S50000_S49999_0),
    StableHlo.TRef.binary (.of main_call9_v0 : StableHlo.TRef sig ⟨S1, .i32⟩) (.of main_call9_v1 : StableHlo.TRef sig ⟨S49999, .i32⟩) (.of main_v77 : StableHlo.TRef sig ⟨S50000, .i32⟩) (fun a b => concatenate S50000 0 [⟨S1, a⟩, ⟨S49999, b⟩] concatenates_S1_S49999_S50000_d0),
    nullary main_c_24 (constantI S_ 32 0#32),
    unary main_c_24 main_v78 (broadcastInDim S1 ![] bcast_S_S1 : (⟨S_, .i32⟩ : BufTy).Contents (Elt F) → (⟨S1, .i32⟩ : BufTy).Contents (Elt F)),
    nullary main_c_25 (constantI S_ 32 0#32),
    ternary main_v77 main_v78 main_c_25 main_v79 ((fun x i u => Host.scatter scatter_S50000_S1_S__n_0_0_0 (fun _ b => b) x i u) : (⟨S50000, .i32⟩ : BufTy).Contents (Elt F) → (⟨S1, .i32⟩ : BufTy).Contents (Elt F) → (⟨S_, .i32⟩ : BufTy).Contents (Elt F) → (⟨S50000, .i32⟩ : BufTy).Contents (Elt F)) ]

/-- The buffers those operations write, in order. -/
abbrev mid11_W : List (Ref sig .tc) :=
  [main_call9_v0, main_call9_v1, main_v77, main_c_24, main_v78, main_c_25, main_v79]

set_option maxRecDepth 8192 in
/-- Each touches TensorCore references only. -/
theorem mid11_sub : (mid11 : List (HloOp τ sig (Elt F))).Forall fun op => op.bufs ⊆ tcRefs τ sig :=
  ⟨unary_bufs_sub .., unary_bufs_sub .., binary_bufs_sub .., nullary_bufs_sub .., unary_bufs_sub .., nullary_bufs_sub .., ternary_bufs_sub ..⟩

/-- Operations 150 … 165 of 269, calls inlined. -/
abbrev mid12 : List (HloOp τ sig (Elt F)) :=
  [ StableHlo.TRef.nullary (.of main_call10_call0_c : StableHlo.TRef sig ⟨S_, .i32⟩) (constantI S_ 32 0#32),
    StableHlo.TRef.unary (.of main_call10_call0_c : StableHlo.TRef sig ⟨S_, .i32⟩) (.of main_call10_call0_v0 : StableHlo.TRef sig ⟨S_, .i32⟩) (broadcastInDim S_ ![] bcast_S_S_),
    StableHlo.TRef.binary (.of main_v79 : StableHlo.TRef sig ⟨S50000, .i32⟩) (.of main_call10_call0_v0 : StableHlo.TRef sig ⟨S_, .i32⟩) (.of main_v80 : StableHlo.TRef sig ⟨S50000, .i32⟩) (fun x v => Host.reduceWindow IntOp.addi ![50000] ![1] ![49999] ![0] x v reduceWindows_S50000_S50000_w50000s1p49999_0 h_S_),
    nullary main_c_26 (constantI S_ 32 0#32),
    unary main_c_26 main_v81 (broadcastInDim S800000 ![] bcast_S_S800000 : (⟨S_, .i32⟩ : BufTy).Contents (Elt F) → (⟨S800000, .i32⟩ : BufTy).Contents (Elt F)),
    nullary main_c_27 (constantI S_ 32 0#32),
    unary main_c_27 main_v82 (broadcastInDim S50000 ![] bcast_S_S50000 : (⟨S_, .i32⟩ : BufTy).Contents (Elt F) → (⟨S50000, .i32⟩ : BufTy).Contents (Elt F)),
    binary main_v80 main_v82 main_v83 (cmpi .slt : (⟨S50000, .i32⟩ : BufTy).Contents (Elt F) → (⟨S50000, .i32⟩ : BufTy).Contents (Elt F) → (⟨S50000, .i1⟩ : BufTy).Contents (Elt F)),
    nullary main_c_28 (constantI S_ 32 800000#32),
    unary main_c_28 main_v84 (broadcastInDim S50000 ![] bcast_S_S50000 : (⟨S_, .i32⟩ : BufTy).Contents (Elt F) → (⟨S50000, .i32⟩ : BufTy).Contents (Elt F)),
    binary main_v80 main_v84 main_v85 (addi : (⟨S50000, .i32⟩ : BufTy).Contents (Elt F) → (⟨S50000, .i32⟩ : BufTy).Contents (Elt F) → (⟨S50000, .i32⟩ : BufTy).Contents (Elt F)),
    ternary main_v83 main_v85 main_v80 main_v86 (select : (⟨S50000, .i1⟩ : BufTy).Contents (Elt F) → (⟨S50000, .i32⟩ : BufTy).Contents (Elt F) → (⟨S50000, .i32⟩ : BufTy).Contents (Elt F) → (⟨S50000, .i32⟩ : BufTy).Contents (Elt F)),
    unary main_v86 main_v87 (broadcastInDim S50000x1 ![0] bcast_S50000_S50000x1_0 : (⟨S50000, .i32⟩ : BufTy).Contents (Elt F) → (⟨S50000x1, .i32⟩ : BufTy).Contents (Elt F)),
    nullary main_c_29 (constantI S_ 32 1#32),
    unary main_c_29 main_v88 (broadcastInDim S50000 ![] bcast_S_S50000 : (⟨S_, .i32⟩ : BufTy).Contents (Elt F) → (⟨S50000, .i32⟩ : BufTy).Contents (Elt F)),
    ternary main_v81 main_v87 main_v88 main_v89 ((fun x i u => Host.scatter scatter_S800000_S50000x1_S50000_n_0_0_1 IntOp.addi x i u) : (⟨S800000, .i32⟩ : BufTy).Contents (Elt F) → (⟨S50000x1, .i32⟩ : BufTy).Contents (Elt F) → (⟨S50000, .i32⟩ : BufTy).Contents (Elt F) → (⟨S800000, .i32⟩ : BufTy).Contents (Elt F)) ]

/-- The buffers those operations write, in order. -/
abbrev mid12_W : List (Ref sig .tc) :=
  [main_call10_call0_c, main_call10_call0_v0, main_v80, main_c_26, main_v81, main_c_27, main_v82, main_v83, main_c_28, main_v84, main_v85, main_v86, main_v87, main_c_29, main_v88, main_v89]

set_option maxRecDepth 8192 in
/-- Each touches TensorCore references only. -/
theorem mid12_sub : (mid12 : List (HloOp τ sig (Elt F))).Forall fun op => op.bufs ⊆ tcRefs τ sig :=
  ⟨nullary_bufs_sub .., unary_bufs_sub .., binary_bufs_sub .., nullary_bufs_sub .., unary_bufs_sub .., nullary_bufs_sub .., unary_bufs_sub .., binary_bufs_sub .., nullary_bufs_sub .., unary_bufs_sub .., binary_bufs_sub .., ternary_bufs_sub .., unary_bufs_sub .., nullary_bufs_sub .., unary_bufs_sub .., ternary_bufs_sub ..⟩

/-- Operations 166 … 171 of 269, calls inlined. -/
abbrev mid13 : List (HloOp τ sig (Elt F)) :=
  [ StableHlo.TRef.nullary (.of main_call11_call0_c : StableHlo.TRef sig ⟨S_, .i32⟩) (constantI S_ 32 0#32),
    StableHlo.TRef.unary (.of main_call11_call0_c : StableHlo.TRef sig ⟨S_, .i32⟩) (.of main_call11_call0_v0 : StableHlo.TRef sig ⟨S_, .i32⟩) (broadcastInDim S_ ![] bcast_S_S_),
    StableHlo.TRef.binary (.of main_v89 : StableHlo.TRef sig ⟨S800000, .i32⟩) (.of main_call11_call0_v0 : StableHlo.TRef sig ⟨S_, .i32⟩) (.of main_v90 : StableHlo.TRef sig ⟨S800000, .i32⟩) (fun x v => Host.reduceWindow IntOp.addi ![800000] ![1] ![799999] ![0] x v reduceWindows_S800000_S800000_w800000s1p799999_0 h_S_),
    nullary main_c_30 (constantI S_ 32 1#32),
    unary main_c_30 main_v91 (broadcastInDim S800000 ![] bcast_S_S800000 : (⟨S_, .i32⟩ : BufTy).Contents (Elt F) → (⟨S800000, .i32⟩ : BufTy).Contents (Elt F)),
    binary main_v90 main_v91 main_v92 (subi : (⟨S800000, .i32⟩ : BufTy).Contents (Elt F) → (⟨S800000, .i32⟩ : BufTy).Contents (Elt F) → (⟨S800000, .i32⟩ : BufTy).Contents (Elt F)) ]

/-- The buffers those operations write, in order. -/
abbrev mid13_W : List (Ref sig .tc) :=
  [main_call11_call0_c, main_call11_call0_v0, main_v90, main_c_30, main_v91, main_v92]

set_option maxRecDepth 8192 in
/-- Each touches TensorCore references only. -/
theorem mid13_sub : (mid13 : List (HloOp τ sig (Elt F))).Forall fun op => op.bufs ⊆ tcRefs τ sig :=
  ⟨nullary_bufs_sub .., unary_bufs_sub .., binary_bufs_sub .., nullary_bufs_sub .., unary_bufs_sub .., binary_bufs_sub ..⟩

/-- Operations 172 … 193 of 269, calls inlined. -/
abbrev mid14 : List (HloOp τ sig (Elt F)) :=
  [ StableHlo.TRef.nullary (.of main_call12_c : StableHlo.TRef sig ⟨S_, .i32⟩) (constantI S_ 32 0#32),
    StableHlo.TRef.unary (.of main_call12_c : StableHlo.TRef sig ⟨S_, .i32⟩) (.of main_call12_v0 : StableHlo.TRef sig ⟨S800000, .i32⟩) (broadcastInDim S800000 ![] bcast_S_S800000),
    StableHlo.TRef.binary (.of main_v92 : StableHlo.TRef sig ⟨S800000, .i32⟩) (.of main_call12_v0 : StableHlo.TRef sig ⟨S800000, .i32⟩) (.of main_call12_v1 : StableHlo.TRef sig ⟨S800000, .i1⟩) (cmpi .slt),
    StableHlo.TRef.nullary (.of main_call12_c_0 : StableHlo.TRef sig ⟨S_, .i32⟩) (constantI S_ 32 50000#32),
    StableHlo.TRef.unary (.of main_call12_c_0 : StableHlo.TRef sig ⟨S_, .i32⟩) (.of main_call12_v2 : StableHlo.TRef sig ⟨S800000, .i32⟩) (broadcastInDim S800000 ![] bcast_S_S800000),
    StableHlo.TRef.binary (.of main_v92 : StableHlo.TRef sig ⟨S800000, .i32⟩) (.of main_call12_v2 : StableHlo.TRef sig ⟨S800000, .i32⟩) (.of main_call12_v3 : StableHlo.TRef sig ⟨S800000, .i32⟩) addi,
    StableHlo.TRef.ternary (.of main_call12_v1 : StableHlo.TRef sig ⟨S800000, .i1⟩) (.of main_call12_v3 : StableHlo.TRef sig ⟨S800000, .i32⟩) (.of main_v92 : StableHlo.TRef sig ⟨S800000, .i32⟩) (.of main_call12_v4 : StableHlo.TRef sig ⟨S800000, .i32⟩) select,
    StableHlo.TRef.unary (.of main_call12_v4 : StableHlo.TRef sig ⟨S800000, .i32⟩) (.of main_call12_v5 : StableHlo.TRef sig ⟨S800000x1, .i32⟩) (broadcastInDim S800000x1 ![0] bcast_S800000_S800000x1_0),
    StableHlo.TRef.nullary (.of main_call12_c_1 : StableHlo.TRef sig ⟨S1, .i32⟩) (constantI S1 32 49999#32),
    StableHlo.TRef.nullary (.of main_call12_c_2 : StableHlo.TRef sig ⟨S_, .i32⟩) (constantI S_ 32 0#32),
    StableHlo.TRef.unary (.of main_call12_c_2 : StableHlo.TRef sig ⟨S_, .i32⟩) (.of main_call12_v6 : StableHlo.TRef sig ⟨S800000x1, .i32⟩) (broadcastInDim S800000x1 ![] bcast_S_S800000x1),
    StableHlo.TRef.binary (.of main_call12_v5 : StableHlo.TRef sig ⟨S800000x1, .i32⟩) (.of main_call12_v6 : StableHlo.TRef sig ⟨S800000x1, .i32⟩) (.of main_call12_v7 : StableHlo.TRef sig ⟨S800000x1, .i1⟩) (cmpi .sge),
    StableHlo.TRef.unary (.of main_call12_c_1 : StableHlo.TRef sig ⟨S1, .i32⟩) (.of main_call12_v8 : StableHlo.TRef sig ⟨S1x1, .i32⟩) (broadcastInDim S1x1 ![1] bcast_S1_S1x1_1),
    StableHlo.TRef.unary (.of main_call12_v8 : StableHlo.TRef sig ⟨S1x1, .i32⟩) (.of main_call12_v9 : StableHlo.TRef sig ⟨S800000x1, .i32⟩) (broadcastInDim S800000x1 ![0, 1] bcast_S1x1_S800000x1_0_1),
    StableHlo.TRef.binary (.of main_call12_v5 : StableHlo.TRef sig ⟨S800000x1, .i32⟩) (.of main_call12_v9 : StableHlo.TRef sig ⟨S800000x1, .i32⟩) (.of main_call12_v10 : StableHlo.TRef sig ⟨S800000x1, .i1⟩) (cmpi .sle),
    StableHlo.TRef.binary (.of main_call12_v7 : StableHlo.TRef sig ⟨S800000x1, .i1⟩) (.of main_call12_v10 : StableHlo.TRef sig ⟨S800000x1, .i1⟩) (.of main_call12_v11 : StableHlo.TRef sig ⟨S800000x1, .i1⟩) andi,
    StableHlo.TRef.nullary (.of main_call12_c_3 : StableHlo.TRef sig ⟨S_, .i1⟩) (constantI S_ 1 1#1),
    StableHlo.TRef.binary (.of main_call12_v11 : StableHlo.TRef sig ⟨S800000x1, .i1⟩) (.of main_call12_c_3 : StableHlo.TRef sig ⟨S_, .i1⟩) (.of main_call12_v12 : StableHlo.TRef sig ⟨S800000, .i1⟩) (fun x v => Host.reduce IntOp.andi x v reducesTo_S800000x1_S800000_d1 h_S_),
    StableHlo.TRef.binary (.of main_v59 : StableHlo.TRef sig ⟨S50000, .f32⟩) (.of main_call12_v5 : StableHlo.TRef sig ⟨S800000x1, .i32⟩) (.of main_call12_v13 : StableHlo.TRef sig ⟨S800000, .f32⟩) (fun x i => Host.gather gather_S50000_S800000x1_S800000_n_0_n_n_0_1_1 x i),
    StableHlo.TRef.nullary (.of main_call12_cst : StableHlo.TRef sig ⟨S_, .f32⟩) (constant S_ .f32 0x7FC00000#32),
    StableHlo.TRef.unary (.of main_call12_cst : StableHlo.TRef sig ⟨S_, .f32⟩) (.of main_call12_v14 : StableHlo.TRef sig ⟨S800000, .f32⟩) (broadcastInDim S800000 ![] bcast_S_S800000),
    StableHlo.TRef.ternary (.of main_call12_v12 : StableHlo.TRef sig ⟨S800000, .i1⟩) (.of main_call12_v13 : StableHlo.TRef sig ⟨S800000, .f32⟩) (.of main_call12_v14 : StableHlo.TRef sig ⟨S800000, .f32⟩) (.of main_v93 : StableHlo.TRef sig ⟨S800000, .f32⟩) select ]

/-- The buffers those operations write, in order. -/
abbrev mid14_W : List (Ref sig .tc) :=
  [main_call12_c, main_call12_v0, main_call12_v1, main_call12_c_0, main_call12_v2, main_call12_v3, main_call12_v4, main_call12_v5, main_call12_c_1, main_call12_c_2, main_call12_v6, main_call12_v7, main_call12_v8, main_call12_v9, main_call12_v10, main_call12_v11, main_call12_c_3, main_call12_v12, main_call12_v13, main_call12_cst, main_call12_v14, main_v93]

set_option maxRecDepth 8192 in
/-- Each touches TensorCore references only. -/
theorem mid14_sub : (mid14 : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., nullary_bufs_sub .., nullary_bufs_sub .., unary_bufs_sub .., binary_bufs_sub .., unary_bufs_sub .., unary_bufs_sub .., binary_bufs_sub .., binary_bufs_sub .., nullary_bufs_sub .., binary_bufs_sub .., binary_bufs_sub .., nullary_bufs_sub .., unary_bufs_sub .., ternary_bufs_sub ..⟩

/-- Operations 194 … 196 of 269, calls inlined. -/
abbrev mid15 : List (HloOp τ sig (Elt F)) :=
  [ binary main_v34 main_v76 main_v94 (Host.divf : (⟨S800000, .f32⟩ : BufTy).Contents (Elt F) → (⟨S800000, .f32⟩ : BufTy).Contents (Elt F) → (⟨S800000, .f32⟩ : BufTy).Contents (Elt F)),
    binary main_v43 main_v93 main_v95 (Host.divf : (⟨S800000, .f32⟩ : BufTy).Contents (Elt F) → (⟨S800000, .f32⟩ : BufTy).Contents (Elt F) → (⟨S800000, .f32⟩ : BufTy).Contents (Elt F)),
    nullary main_c_31 (constantI S_ 32 1#32) ]

/-- The buffers those operations write, in order. -/
abbrev mid15_W : List (Ref sig .tc) :=
  [main_v94, main_v95, main_c_31]

set_option maxRecDepth 8192 in
/-- Each touches TensorCore references only. -/
theorem mid15_sub : (mid15 : List (HloOp τ sig (Elt F))).Forall fun op => op.bufs ⊆ tcRefs τ sig :=
  ⟨binary_bufs_sub .., binary_bufs_sub .., nullary_bufs_sub ..⟩

/-- Operations 197 … 216 of 269, calls inlined. -/
abbrev mid16 : List (HloOp τ sig (Elt F)) :=
  [ StableHlo.TRef.nullary (.of main_call13_cst : StableHlo.TRef sig ⟨S_, .f32⟩) (constant S_ .f32 0x00000000#32),
    StableHlo.TRef.binary (.of main_v94 : StableHlo.TRef sig ⟨S800000, .f32⟩) (.of main_call13_cst : StableHlo.TRef sig ⟨S_, .f32⟩) (.of main_call13_v0 : StableHlo.TRef sig ⟨S_, .f32⟩) (fun x v => Host.reduceAdd x v reducesTo_S800000_S_d0 h_S_),
    StableHlo.TRef.unary (.of main_call13_v0 : StableHlo.TRef sig ⟨S_, .f32⟩) (.of main_call13_v1 : StableHlo.TRef sig ⟨S1, .f32⟩) (broadcastInDim S1 ![] bcast_S_S1),
    StableHlo.TRef.nullary (.of main_call13_cst_0 : StableHlo.TRef sig ⟨S_, .f32⟩) (constant S_ .f32 0x49435000#32),
    StableHlo.TRef.unary (.of main_call13_cst_0 : StableHlo.TRef sig ⟨S_, .f32⟩) (.of main_call13_v2 : StableHlo.TRef sig ⟨S1, .f32⟩) (broadcastInDim S1 ![] bcast_S_S1),
    StableHlo.TRef.binary (.of main_call13_v1 : StableHlo.TRef sig ⟨S1, .f32⟩) (.of main_call13_v2 : StableHlo.TRef sig ⟨S1, .f32⟩) (.of main_call13_v3 : StableHlo.TRef sig ⟨S1, .f32⟩) Host.divf,
    StableHlo.TRef.unary (.of main_call13_v3 : StableHlo.TRef sig ⟨S1, .f32⟩) (.of main_call13_v4 : StableHlo.TRef sig ⟨S800000, .f32⟩) (broadcastInDim S800000 ![0] bcast_S1_S800000_0),
    StableHlo.TRef.binary (.of main_v94 : StableHlo.TRef sig ⟨S800000, .f32⟩) (.of main_call13_v4 : StableHlo.TRef sig ⟨S800000, .f32⟩) (.of main_call13_v5 : StableHlo.TRef sig ⟨S800000, .f32⟩) subf,
    StableHlo.TRef.binary (.of main_call13_v5 : StableHlo.TRef sig ⟨S800000, .f32⟩) (.of main_call13_v5 : StableHlo.TRef sig ⟨S800000, .f32⟩) (.of main_call13_v6 : StableHlo.TRef sig ⟨S800000, .f32⟩) mulf,
    StableHlo.TRef.unary (.of main_c_31 : StableHlo.TRef sig ⟨S_, .i32⟩) (.of main_call13_v7 : StableHlo.TRef sig ⟨S_, .f32⟩) (sitofp .f32),
    StableHlo.TRef.nullary (.of main_call13_cst_1 : StableHlo.TRef sig ⟨S_, .f32⟩) (constant S_ .f32 0x49435000#32),
    StableHlo.TRef.binary (.of main_call13_cst_1 : StableHlo.TRef sig ⟨S_, .f32⟩) (.of main_call13_v7 : StableHlo.TRef sig ⟨S_, .f32⟩) (.of main_call13_v8 : StableHlo.TRef sig ⟨S_, .f32⟩) subf,
    StableHlo.TRef.nullary (.of main_call13_cst_2 : StableHlo.TRef sig ⟨S_, .f32⟩) (constant S_ .f32 0x00000000#32),
    StableHlo.TRef.binary (.of main_call13_v6 : StableHlo.TRef sig ⟨S800000, .f32⟩) (.of main_call13_cst_2 : StableHlo.TRef sig ⟨S_, .f32⟩) (.of main_call13_v9 : StableHlo.TRef sig ⟨S_, .f32⟩) (fun x v => Host.reduceAdd x v reducesTo_S800000_S_d0 h_S_),
    StableHlo.TRef.binary (.of main_call13_v9 : StableHlo.TRef sig ⟨S_, .f32⟩) (.of main_call13_v8 : StableHlo.TRef sig ⟨S_, .f32⟩) (.of main_call13_v10 : StableHlo.TRef sig ⟨S_, .f32⟩) Host.divf,
    StableHlo.TRef.nullary (.of main_call13_cst_3 : StableHlo.TRef sig ⟨S_, .f32⟩) (constant S_ .f32 0x00000000#32),
    StableHlo.TRef.binary (.of main_call13_v8 : StableHlo.TRef sig ⟨S_, .f32⟩) (.of main_call13_cst_3 : StableHlo.TRef sig ⟨S_, .f32⟩) (.of main_call13_v11 : StableHlo.TRef sig ⟨S_, .i1⟩) (cmpf .ogt),
    StableHlo.TRef.nullary (.of main_call13_cst_4 : StableHlo.TRef sig ⟨S_, .f32⟩) (constant S_ .f32 0x7FC00000#32),
    StableHlo.TRef.unary (.of main_call13_cst_4 : StableHlo.TRef sig ⟨S_, .f32⟩) (.of main_call13_call0_v0 : StableHlo.TRef sig ⟨S_, .f32⟩) id,
    StableHlo.TRef.ternary (.of main_call13_v11 : StableHlo.TRef sig ⟨S_, .i1⟩) (.of main_call13_v10 : StableHlo.TRef sig ⟨S_, .f32⟩) (.of main_call13_call0_v0 : StableHlo.TRef sig ⟨S_, .f32⟩) (.of main_v96 : StableHlo.TRef sig ⟨S_, .f32⟩) select ]

/-- The buffers those operations write, in order. -/
abbrev mid16_W : List (Ref sig .tc) :=
  [main_call13_cst, main_call13_v0, main_call13_v1, main_call13_cst_0, main_call13_v2, main_call13_v3, main_call13_v4, main_call13_v5, main_call13_v6, main_call13_v7, main_call13_cst_1, main_call13_v8, main_call13_cst_2, main_call13_v9, main_call13_v10, main_call13_cst_3, main_call13_v11, main_call13_cst_4, main_call13_call0_v0, main_v96]

set_option maxRecDepth 8192 in
/-- Each touches TensorCore references only. -/
theorem mid16_sub : (mid16 : List (HloOp τ sig (Elt F))).Forall fun op => op.bufs ⊆ tcRefs τ sig :=
  ⟨nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., binary_bufs_sub .., nullary_bufs_sub .., binary_bufs_sub .., nullary_bufs_sub .., unary_bufs_sub .., ternary_bufs_sub ..⟩

/-- Operations 217 … 237 of 269, calls inlined. -/
abbrev mid17 : List (HloOp τ sig (Elt F)) :=
  [ nullary main_c_32 (constantI S_ 32 1#32),
    StableHlo.TRef.nullary (.of main_call14_cst : StableHlo.TRef sig ⟨S_, .f32⟩) (constant S_ .f32 0x00000000#32),
    StableHlo.TRef.binary (.of main_v95 : StableHlo.TRef sig ⟨S800000, .f32⟩) (.of main_call14_cst : StableHlo.TRef sig ⟨S_, .f32⟩) (.of main_call14_v0 : StableHlo.TRef sig ⟨S_, .f32⟩) (fun x v => Host.reduceAdd x v reducesTo_S800000_S_d0 h_S_),
    StableHlo.TRef.unary (.of main_call14_v0 : StableHlo.TRef sig ⟨S_, .f32⟩) (.of main_call14_v1 : StableHlo.TRef sig ⟨S1, .f32⟩) (broadcastInDim S1 ![] bcast_S_S1),
    StableHlo.TRef.nullary (.of main_call14_cst_0 : StableHlo.TRef sig ⟨S_, .f32⟩) (constant S_ .f32 0x49435000#32),
    StableHlo.TRef.unary (.of main_call14_cst_0 : StableHlo.TRef sig ⟨S_, .f32⟩) (.of main_call14_v2 : StableHlo.TRef sig ⟨S1, .f32⟩) (broadcastInDim S1 ![] bcast_S_S1),
    StableHlo.TRef.binary (.of main_call14_v1 : StableHlo.TRef sig ⟨S1, .f32⟩) (.of main_call14_v2 : StableHlo.TRef sig ⟨S1, .f32⟩) (.of main_call14_v3 : StableHlo.TRef sig ⟨S1, .f32⟩) Host.divf,
    StableHlo.TRef.unary (.of main_call14_v3 : StableHlo.TRef sig ⟨S1, .f32⟩) (.of main_call14_v4 : StableHlo.TRef sig ⟨S800000, .f32⟩) (broadcastInDim S800000 ![0] bcast_S1_S800000_0),
    StableHlo.TRef.binary (.of main_v95 : StableHlo.TRef sig ⟨S800000, .f32⟩) (.of main_call14_v4 : StableHlo.TRef sig ⟨S800000, .f32⟩) (.of main_call14_v5 : StableHlo.TRef sig ⟨S800000, .f32⟩) subf,
    StableHlo.TRef.binary (.of main_call14_v5 : StableHlo.TRef sig ⟨S800000, .f32⟩) (.of main_call14_v5 : StableHlo.TRef sig ⟨S800000, .f32⟩) (.of main_call14_v6 : StableHlo.TRef sig ⟨S800000, .f32⟩) mulf,
    StableHlo.TRef.unary (.of main_c_32 : StableHlo.TRef sig ⟨S_, .i32⟩) (.of main_call14_v7 : StableHlo.TRef sig ⟨S_, .f32⟩) (sitofp .f32),
    StableHlo.TRef.nullary (.of main_call14_cst_1 : StableHlo.TRef sig ⟨S_, .f32⟩) (constant S_ .f32 0x49435000#32),
    StableHlo.TRef.binary (.of main_call14_cst_1 : StableHlo.TRef sig ⟨S_, .f32⟩) (.of main_call14_v7 : StableHlo.TRef sig ⟨S_, .f32⟩) (.of main_call14_v8 : StableHlo.TRef sig ⟨S_, .f32⟩) subf,
    StableHlo.TRef.nullary (.of main_call14_cst_2 : StableHlo.TRef sig ⟨S_, .f32⟩) (constant S_ .f32 0x00000000#32),
    StableHlo.TRef.binary (.of main_call14_v6 : StableHlo.TRef sig ⟨S800000, .f32⟩) (.of main_call14_cst_2 : StableHlo.TRef sig ⟨S_, .f32⟩) (.of main_call14_v9 : StableHlo.TRef sig ⟨S_, .f32⟩) (fun x v => Host.reduceAdd x v reducesTo_S800000_S_d0 h_S_),
    StableHlo.TRef.binary (.of main_call14_v9 : StableHlo.TRef sig ⟨S_, .f32⟩) (.of main_call14_v8 : StableHlo.TRef sig ⟨S_, .f32⟩) (.of main_call14_v10 : StableHlo.TRef sig ⟨S_, .f32⟩) Host.divf,
    StableHlo.TRef.nullary (.of main_call14_cst_3 : StableHlo.TRef sig ⟨S_, .f32⟩) (constant S_ .f32 0x00000000#32),
    StableHlo.TRef.binary (.of main_call14_v8 : StableHlo.TRef sig ⟨S_, .f32⟩) (.of main_call14_cst_3 : StableHlo.TRef sig ⟨S_, .f32⟩) (.of main_call14_v11 : StableHlo.TRef sig ⟨S_, .i1⟩) (cmpf .ogt),
    StableHlo.TRef.nullary (.of main_call14_cst_4 : StableHlo.TRef sig ⟨S_, .f32⟩) (constant S_ .f32 0x7FC00000#32),
    StableHlo.TRef.unary (.of main_call14_cst_4 : StableHlo.TRef sig ⟨S_, .f32⟩) (.of main_call14_call0_v0 : StableHlo.TRef sig ⟨S_, .f32⟩) id,
    StableHlo.TRef.ternary (.of main_call14_v11 : StableHlo.TRef sig ⟨S_, .i1⟩) (.of main_call14_v10 : StableHlo.TRef sig ⟨S_, .f32⟩) (.of main_call14_call0_v0 : StableHlo.TRef sig ⟨S_, .f32⟩) (.of main_v97 : StableHlo.TRef sig ⟨S_, .f32⟩) select ]

/-- The buffers those operations write, in order. -/
abbrev mid17_W : List (Ref sig .tc) :=
  [main_c_32, main_call14_cst, main_call14_v0, main_call14_v1, main_call14_cst_0, main_call14_v2, main_call14_v3, main_call14_v4, main_call14_v5, main_call14_v6, main_call14_v7, main_call14_cst_1, main_call14_v8, main_call14_cst_2, main_call14_v9, main_call14_v10, main_call14_cst_3, main_call14_v11, main_call14_cst_4, main_call14_call0_v0, main_v97]

set_option maxRecDepth 8192 in
/-- Each touches TensorCore references only. -/
theorem mid17_sub : (mid17 : List (HloOp τ sig (Elt F))).Forall fun op => op.bufs ⊆ tcRefs τ sig :=
  ⟨nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., binary_bufs_sub .., nullary_bufs_sub .., binary_bufs_sub .., nullary_bufs_sub .., unary_bufs_sub .., ternary_bufs_sub ..⟩

end Cert.ReferenceIdeal.Hand

end
-- ==== Proof.RStageM.lean ====
/- The reference program's middle stretches, read as functions of the buffers they start from. The 205 operations are
   cut into seventeen short pieces; each piece's outputs are functions of the piece's inputs (the operations' own
   composed terms), a buffer a piece does not write keeps its contents through
   it, and the normalized attentions and their sample variances over the whole middle are the pieces' functions
   composed. -/
import proofs.«130992_j35871566856204_2_alg».proof.Proof.RefFrame
import proofs.«130992_j35871566856204_2_alg».proof.Proof.RefOpsM
import proofs.«130992_j35871566856204_2_alg».proof.Proof.LibFoldSteps

set_option pp.maxSteps 20000

noncomputable section
namespace Cert.ReferenceIdeal.Bridge
open Cert.ReferenceIdeal Cert.ReferenceIdeal.Gen Cert.ReferenceIdeal.Hand Idealize.ShloMosaic Idealize.ShloMosaic.TcCoe Idealize.SL.Sem Idealize.ShloMosaic.StableHlo Cert.Lib

variable {F : FTy → Type} [FloatOps F]

/-- The second, third and fourth stretches of the line, one after the other. -/
abbrev midOps : List (HloOp τ sig (Elt F)) := opsB ++ (opsC ++ opsD)

set_option maxRecDepth 8192 in
/-- The middle of the line is the seventeen pieces, one after the other (the same operations, cut finer). -/
theorem midOps_eq : (midOps : List (HloOp τ sig (Elt F)))
    = mid1 ++ (mid2 ++ (mid3 ++ (mid4 ++ (mid5 ++ (mid6 ++ (mid7 ++ (mid8 ++ (mid9 ++ (mid10 ++ (mid11 ++ (mid12
        ++ (mid13 ++ (mid14 ++ (mid15 ++ (mid16 ++ mid17))))))))))))))) := rfl

/-- The fold over the middle, piece by piece. -/
theorem after_mid (V : Valuation τ sig (Elt F)) : after midOps V
    = after mid17 (after mid16 (after mid15 (after mid14 (after mid13 (after mid12 (after mid11 (after mid10 (after mid9
        (after mid8 (after mid7 (after mid6 (after mid5 (after mid4 (after mid3 (after mid2 (after mid1 V)))))))))))))))) := by
  rw [midOps_eq]
  iterate 16 rw [after_concat]

macro "fold_stepsM" : tactic => `(tactic| (after_results_simp; results_by_rw))

/-! ## The pieces as functions -/

/-- The node attention: the node logits through the leaky slope, clipped to [-2, 2], exponentiated. -/
def natt_R : { f : (FVec F S800000 .f32) → FVec F S800000 .f32 //
    ∀ V : Valuation τ sig (Elt F), after mid1 V (Proc.devRef .tc main_v34) = f (V (Proc.devRef .tc main_v27)) } :=
  ⟨_, fun V => by
    fold_stepsM
    generalize V (Proc.devRef .tc main_v27) = x
    rfl⟩

/-- The edge attention: the edge features against the edge attention vector, then as the node attention. -/
def eatt_R : { f : (FVec F S800000x256 .f32) → (FVec F S256x1 .f32) → FVec F S800000 .f32 //
    ∀ V : Valuation τ sig (Elt F), after mid2 V (Proc.devRef .tc main_v43)
      = f (V (Proc.devRef .tc main_v25)) (V (Proc.devRef .tc main_arg6)) } :=
  ⟨_, fun V => by
    fold_stepsM
    generalize V (Proc.devRef .tc main_v25) = x
    generalize V (Proc.devRef .tc main_arg6) = a
    rfl⟩

/-- The counts' starting array of zeros. -/
def consts_v44_R : { c : IVec S50000 32 //
    ∀ V : Valuation τ sig (Elt F), after mid3 V (Proc.devRef .tc main_v44) = c } :=
  ⟨_, fun V => by
    fold_stepsM
    rfl⟩

/-- The lower clipping bound of the sources, zero. -/
def consts_c11_R : { c : IVec S_ 32 //
    ∀ V : Valuation τ sig (Elt F), after mid3 V (Proc.devRef .tc main_c_11) = c } :=
  ⟨_, fun V => by
    fold_stepsM
    rfl⟩

/-- The sources' counts: how many edges name each node as source. -/
def counts_R : { f : (IVec S_ 32) → (IVec S800000 32) → (IVec S50000 32) → IVec S50000 32 //
    ∀ V : Valuation τ sig (Elt F), after mid4 V (Proc.devRef .tc main_v53)
      = f (V (Proc.devRef .tc main_c_11)) (V (Proc.devRef .tc main_v5)) (V (Proc.devRef .tc main_v44)) } :=
  ⟨_, fun V => by
    fold_stepsM
    generalize V (Proc.devRef .tc main_c_11) = z
    generalize V (Proc.devRef .tc main_v5) = s
    generalize V (Proc.devRef .tc main_v44) = c
    rfl⟩

/-- The node attention summed by source. -/
def nsum_R : { f : (IVec S800000 32) → (FVec F S800000 .f32) → FVec F S50000 .f32 //
    ∀ V : Valuation τ sig (Elt F), after mid5 V (Proc.devRef .tc main_v56)
      = f (V (Proc.devRef .tc main_v5)) (V (Proc.devRef .tc main_v34)) } :=
  ⟨_, fun V => by
    fold_stepsM
    generalize V (Proc.devRef .tc main_v5) = s
    generalize V (Proc.devRef .tc main_v34) = w
    rfl⟩

/-- The edge attention summed by source. -/
def esum_R : { f : (IVec S800000 32) → (FVec F S800000 .f32) → FVec F S50000 .f32 //
    ∀ V : Valuation τ sig (Elt F), after mid6 V (Proc.devRef .tc main_v59)
      = f (V (Proc.devRef .tc main_v5)) (V (Proc.devRef .tc main_v43)) } :=
  ⟨_, fun V => by
    fold_stepsM
    generalize V (Proc.devRef .tc main_v5) = s
    generalize V (Proc.devRef .tc main_v43) = w
    rfl⟩

/-- The counts rolled by one place, the first set to zero (node chain). -/
def rollA_R : { f : (IVec S50000 32) → IVec S50000 32 //
    ∀ V : Valuation τ sig (Elt F), after mid7 V (Proc.devRef .tc main_v62) = f (V (Proc.devRef .tc main_v53)) } :=
  ⟨_, fun V => by
    fold_stepsM
    generalize V (Proc.devRef .tc main_v53) = c
    rfl⟩

/-- The running sums of those, marked by ones at their positions among the edges (node chain). -/
def cumA_R : { f : (IVec S50000 32) → IVec S800000 32 //
    ∀ V : Valuation τ sig (Elt F), after mid8 V (Proc.devRef .tc main_v72) = f (V (Proc.devRef .tc main_v62)) } :=
  ⟨_, fun V => by
    fold_stepsM
    generalize V (Proc.devRef .tc main_v62) = c
    rfl⟩

/-- The running sums of the marks, less one: each position's segment (node chain). -/
def idxA_R : { f : (IVec S800000 32) → IVec S800000 32 //
    ∀ V : Valuation τ sig (Elt F), after mid9 V (Proc.devRef .tc main_v75) = f (V (Proc.devRef .tc main_v72)) } :=
  ⟨_, fun V => by
    fold_stepsM
    generalize V (Proc.devRef .tc main_v72) = c
    rfl⟩

/-- The node sums taken at the positions' segments: each position's denominator. -/
def takeA_R : { f : (IVec S800000 32) → (FVec F S50000 .f32) → FVec F S800000 .f32 //
    ∀ V : Valuation τ sig (Elt F), after mid10 V (Proc.devRef .tc main_v76)
      = f (V (Proc.devRef .tc main_v75)) (V (Proc.devRef .tc main_v56)) } :=
  ⟨_, fun V => by
    fold_stepsM
    generalize V (Proc.devRef .tc main_v75) = i
    generalize V (Proc.devRef .tc main_v56) = t
    rfl⟩

/-- The counts rolled by one place, the first set to zero (edge chain). -/
def rollB_R : { f : (IVec S50000 32) → IVec S50000 32 //
    ∀ V : Valuation τ sig (Elt F), after mid11 V (Proc.devRef .tc main_v79) = f (V (Proc.devRef .tc main_v53)) } :=
  ⟨_, fun V => by
    fold_stepsM
    generalize V (Proc.devRef .tc main_v53) = c
    rfl⟩

/-- The running sums of those, marked by ones at their positions among the edges (edge chain). -/
def cumB_R : { f : (IVec S50000 32) → IVec S800000 32 //
    ∀ V : Valuation τ sig (Elt F), after mid12 V (Proc.devRef .tc main_v89) = f (V (Proc.devRef .tc main_v79)) } :=
  ⟨_, fun V => by
    fold_stepsM
    generalize V (Proc.devRef .tc main_v79) = c
    rfl⟩

/-- The running sums of the marks, less one: each position's segment (edge chain). -/
def idxB_R : { f : (IVec S800000 32) → IVec S800000 32 //
    ∀ V : Valuation τ sig (Elt F), after mid13 V (Proc.devRef .tc main_v92) = f (V (Proc.devRef .tc main_v89)) } :=
  ⟨_, fun V => by
    fold_stepsM
    generalize V (Proc.devRef .tc main_v89) = c
    rfl⟩

/-- The edge sums taken at the positions' segments: each position's denominator. -/
def takeB_R : { f : (IVec S800000 32) → (FVec F S50000 .f32) → FVec F S800000 .f32 //
    ∀ V : Valuation τ sig (Elt F), after mid14 V (Proc.devRef .tc main_v93)
      = f (V (Proc.devRef .tc main_v92)) (V (Proc.devRef .tc main_v59)) } :=
  ⟨_, fun V => by
    fold_stepsM
    generalize V (Proc.devRef .tc main_v92) = i
    generalize V (Proc.devRef .tc main_v59) = t
    rfl⟩

/-- The normalized node attention: the attention over its denominator. -/
def nnorm_R : { f : (FVec F S800000 .f32) → (FVec F S800000 .f32) → FVec F S800000 .f32 //
    ∀ V : Valuation τ sig (Elt F), after mid15 V (Proc.devRef .tc main_v94)
      = f (V (Proc.devRef .tc main_v34)) (V (Proc.devRef .tc main_v76)) } :=
  ⟨_, fun V => by
    fold_stepsM
    generalize V (Proc.devRef .tc main_v34) = w
    generalize V (Proc.devRef .tc main_v76) = d
    rfl⟩

/-- The normalized edge attention. -/
def enorm_R : { f : (FVec F S800000 .f32) → (FVec F S800000 .f32) → FVec F S800000 .f32 //
    ∀ V : Valuation τ sig (Elt F), after mid15 V (Proc.devRef .tc main_v95)
      = f (V (Proc.devRef .tc main_v43)) (V (Proc.devRef .tc main_v93)) } :=
  ⟨_, fun V => by
    fold_stepsM
    generalize V (Proc.devRef .tc main_v43) = w
    generalize V (Proc.devRef .tc main_v93) = d
    rfl⟩

/-- The variance's degrees-of-freedom correction, one. -/
def consts_c31_R : { c : IVec S_ 32 //
    ∀ V : Valuation τ sig (Elt F), after mid15 V (Proc.devRef .tc main_c_31) = c } :=
  ⟨_, fun V => by
    fold_stepsM
    rfl⟩

/-- The sample variance of the normalized node attention. -/
def nvar_R : { f : (FVec F S800000 .f32) → (IVec S_ 32) → FVec F S_ .f32 //
    ∀ V : Valuation τ sig (Elt F), after mid16 V (Proc.devRef .tc main_v96)
      = f (V (Proc.devRef .tc main_v94)) (V (Proc.devRef .tc main_c_31)) } :=
  ⟨_, fun V => by
    fold_stepsM
    generalize V (Proc.devRef .tc main_v94) = w
    generalize V (Proc.devRef .tc main_c_31) = k
    rfl⟩

/-- The sample variance of the normalized edge attention (its correction constant is the piece's own). -/
def evar_R : { f : (FVec F S800000 .f32) → FVec F S_ .f32 //
    ∀ V : Valuation τ sig (Elt F), after mid17 V (Proc.devRef .tc main_v97) = f (V (Proc.devRef .tc main_v95)) } :=
  ⟨_, fun V => by
    fold_stepsM
    generalize V (Proc.devRef .tc main_v95) = w
    rfl⟩

/-! ## A buffer a piece does not write keeps its contents through it

Every operation writes exactly its result buffer, which is in the piece's list of written buffers. -/

macro "writes_in_list" : tactic =>
  `(tactic| (simp only [List.Forall]; (repeat' apply And.intro); all_goals exact writes_sub_of rfl (by decide)))

set_option maxRecDepth 8192 in
theorem mid1_writes : (mid1 : List (HloOp τ sig (Elt F))).Forall fun op =>
    op.writes ⊆ (mid1_W.map (Proc.devRef (τ := τ) .tc)).toFinset := by writes_in_list
theorem mid1_keep (V : Valuation τ sig (Elt F)) (r : Ref sig .tc) (h : r ∉ mid1_W) :
    after mid1 V (no_index (Proc.devRef .tc r)) = V (Proc.devRef .tc r) := after_of_writes_sub mid1 V mid1_writes h

set_option maxRecDepth 8192 in
theorem mid2_writes : (mid2 : List (HloOp τ sig (Elt F))).Forall fun op =>
    op.writes ⊆ (mid2_W.map (Proc.devRef (τ := τ) .tc)).toFinset := by writes_in_list
theorem mid2_keep (V : Valuation τ sig (Elt F)) (r : Ref sig .tc) (h : r ∉ mid2_W) :
    after mid2 V (no_index (Proc.devRef .tc r)) = V (Proc.devRef .tc r) := after_of_writes_sub mid2 V mid2_writes h

set_option maxRecDepth 8192 in
theorem mid3_writes : (mid3 : List (HloOp τ sig (Elt F))).Forall fun op =>
    op.writes ⊆ (mid3_W.map (Proc.devRef (τ := τ) .tc)).toFinset := by writes_in_list
theorem mid3_keep (V : Valuation τ sig (Elt F)) (r : Ref sig .tc) (h : r ∉ mid3_W) :
    after mid3 V (no_index (Proc.devRef .tc r)) = V (Proc.devRef .tc r) := after_of_writes_sub mid3 V mid3_writes h

set_option maxRecDepth 8192 in
theorem mid4_writes : (mid4 : List (HloOp τ sig (Elt F))).Forall fun op =>
    op.writes ⊆ (mid4_W.map (Proc.devRef (τ := τ) .tc)).toFinset := by writes_in_list
theorem mid4_keep (V : Valuation τ sig (Elt F)) (r : Ref sig .tc) (h : r ∉ mid4_W) :
    after mid4 V (no_index (Proc.devRef .tc r)) = V (Proc.devRef .tc r) := after_of_writes_sub mid4 V mid4_writes h

set_option maxRecDepth 8192 in
theorem mid5_writes : (mid5 : List (HloOp τ sig (Elt F))).Forall fun op =>
    op.writes ⊆ (mid5_W.map (Proc.devRef (τ := τ) .tc)).toFinset := by writes_in_list
theorem mid5_keep (V : Valuation τ sig (Elt F)) (r : Ref sig .tc) (h : r ∉ mid5_W) :
    after mid5 V (no_index (Proc.devRef .tc r)) = V (Proc.devRef .tc r) := after_of_writes_sub mid5 V mid5_writes h

set_option maxRecDepth 8192 in
theorem mid6_writes : (mid6 : List (HloOp τ sig (Elt F))).Forall fun op =>
    op.writes ⊆ (mid6_W.map (Proc.devRef (τ := τ) .tc)).toFinset := by writes_in_list
theorem mid6_keep (V : Valuation τ sig (Elt F)) (r : Ref sig .tc) (h : r ∉ mid6_W) :
    after mid6 V (no_index (Proc.devRef .tc r)) = V (Proc.devRef .tc r) := after_of_writes_sub mid6 V mid6_writes h

set_option maxRecDepth 8192 in
theorem mid7_writes : (mid7 : List (HloOp τ sig (Elt F))).Forall fun op =>
    op.writes ⊆ (mid7_W.map (Proc.devRef (τ := τ) .tc)).toFinset := by writes_in_list
theorem mid7_keep (V : Valuation τ sig (Elt F)) (r : Ref sig .tc) (h : r ∉ mid7_W) :
    after mid7 V (no_index (Proc.devRef .tc r)) = V (Proc.devRef .tc r) := after_of_writes_sub mid7 V mid7_writes h

set_option maxRecDepth 8192 in
theorem mid8_writes : (mid8 : List (HloOp τ sig (Elt F))).Forall fun op =>
    op.writes ⊆ (mid8_W.map (Proc.devRef (τ := τ) .tc)).toFinset := by writes_in_list
theorem mid8_keep (V : Valuation τ sig (Elt F)) (r : Ref sig .tc) (h : r ∉ mid8_W) :
    after mid8 V (no_index (Proc.devRef .tc r)) = V (Proc.devRef .tc r) := after_of_writes_sub mid8 V mid8_writes h

set_option maxRecDepth 8192 in
theorem mid9_writes : (mid9 : List (HloOp τ sig (Elt F))).Forall fun op =>
    op.writes ⊆ (mid9_W.map (Proc.devRef (τ := τ) .tc)).toFinset := by writes_in_list
theorem mid9_keep (V : Valuation τ sig (Elt F)) (r : Ref sig .tc) (h : r ∉ mid9_W) :
    after mid9 V (no_index (Proc.devRef .tc r)) = V (Proc.devRef .tc r) := after_of_writes_sub mid9 V mid9_writes h

set_option maxRecDepth 8192 in
theorem mid10_writes : (mid10 : List (HloOp τ sig (Elt F))).Forall fun op =>
    op.writes ⊆ (mid10_W.map (Proc.devRef (τ := τ) .tc)).toFinset := by writes_in_list
theorem mid10_keep (V : Valuation τ sig (Elt F)) (r : Ref sig .tc) (h : r ∉ mid10_W) :
    after mid10 V (no_index (Proc.devRef .tc r)) = V (Proc.devRef .tc r) := after_of_writes_sub mid10 V mid10_writes h

set_option maxRecDepth 8192 in
theorem mid11_writes : (mid11 : List (HloOp τ sig (Elt F))).Forall fun op =>
    op.writes ⊆ (mid11_W.map (Proc.devRef (τ := τ) .tc)).toFinset := by writes_in_list
theorem mid11_keep (V : Valuation τ sig (Elt F)) (r : Ref sig .tc) (h : r ∉ mid11_W) :
    after mid11 V (no_index (Proc.devRef .tc r)) = V (Proc.devRef .tc r) := after_of_writes_sub mid11 V mid11_writes h

set_option maxRecDepth 8192 in
theorem mid12_writes : (mid12 : List (HloOp τ sig (Elt F))).Forall fun op =>
    op.writes ⊆ (mid12_W.map (Proc.devRef (τ := τ) .tc)).toFinset := by writes_in_list
theorem mid12_keep (V : Valuation τ sig (Elt F)) (r : Ref sig .tc) (h : r ∉ mid12_W) :
    after mid12 V (no_index (Proc.devRef .tc r)) = V (Proc.devRef .tc r) := after_of_writes_sub mid12 V mid12_writes h

set_option maxRecDepth 8192 in
theorem mid13_writes : (mid13 : List (HloOp τ sig (Elt F))).Forall fun op =>
    op.writes ⊆ (mid13_W.map (Proc.devRef (τ := τ) .tc)).toFinset := by writes_in_list
theorem mid13_keep (V : Valuation τ sig (Elt F)) (r : Ref sig .tc) (h : r ∉ mid13_W) :
    after mid13 V (no_index (Proc.devRef .tc r)) = V (Proc.devRef .tc r) := after_of_writes_sub mid13 V mid13_writes h

set_option maxRecDepth 8192 in
theorem mid14_writes : (mid14 : List (HloOp τ sig (Elt F))).Forall fun op =>
    op.writes ⊆ (mid14_W.map (Proc.devRef (τ := τ) .tc)).toFinset := by writes_in_list
theorem mid14_keep (V : Valuation τ sig (Elt F)) (r : Ref sig .tc) (h : r ∉ mid14_W) :
    after mid14 V (no_index (Proc.devRef .tc r)) = V (Proc.devRef .tc r) := after_of_writes_sub mid14 V mid14_writes h

set_option maxRecDepth 8192 in
theorem mid15_writes : (mid15 : List (HloOp τ sig (Elt F))).Forall fun op =>
    op.writes ⊆ (mid15_W.map (Proc.devRef (τ := τ) .tc)).toFinset := by writes_in_list
theorem mid15_keep (V : Valuation τ sig (Elt F)) (r : Ref sig .tc) (h : r ∉ mid15_W) :
    after mid15 V (no_index (Proc.devRef .tc r)) = V (Proc.devRef .tc r) := after_of_writes_sub mid15 V mid15_writes h

set_option maxRecDepth 8192 in
theorem mid16_writes : (mid16 : List (HloOp τ sig (Elt F))).Forall fun op =>
    op.writes ⊆ (mid16_W.map (Proc.devRef (τ := τ) .tc)).toFinset := by writes_in_list
theorem mid16_keep (V : Valuation τ sig (Elt F)) (r : Ref sig .tc) (h : r ∉ mid16_W) :
    after mid16 V (no_index (Proc.devRef .tc r)) = V (Proc.devRef .tc r) := after_of_writes_sub mid16 V mid16_writes h

set_option maxRecDepth 8192 in
theorem mid17_writes : (mid17 : List (HloOp τ sig (Elt F))).Forall fun op =>
    op.writes ⊆ (mid17_W.map (Proc.devRef (τ := τ) .tc)).toFinset := by writes_in_list
theorem mid17_keep (V : Valuation τ sig (Elt F)) (r : Ref sig .tc) (h : r ∉ mid17_W) :
    after mid17 V (no_index (Proc.devRef .tc r)) = V (Proc.devRef .tc r) := after_of_writes_sub mid17 V mid17_writes h

/-! ## The pieces' equations, stated for rewriting at any contents -/

theorem natt_R_eq (V : Valuation τ sig (Elt F)) : after mid1 V (no_index (Proc.devRef .tc main_v34))
    = natt_R.1 (V (Proc.devRef .tc main_v27)) := natt_R.2 V
theorem eatt_R_eq (V : Valuation τ sig (Elt F)) : after mid2 V (no_index (Proc.devRef .tc main_v43))
    = eatt_R.1 (V (Proc.devRef .tc main_v25)) (V (Proc.devRef .tc main_arg6)) := eatt_R.2 V
theorem consts_v44_R_eq (V : Valuation τ sig (Elt F)) : after mid3 V (no_index (Proc.devRef .tc main_v44))
    = (consts_v44_R (F := F)).1 := consts_v44_R.2 V
theorem consts_c11_R_eq (V : Valuation τ sig (Elt F)) : after mid3 V (no_index (Proc.devRef .tc main_c_11))
    = (consts_c11_R (F := F)).1 := consts_c11_R.2 V
theorem counts_R_eq (V : Valuation τ sig (Elt F)) : after mid4 V (no_index (Proc.devRef .tc main_v53))
    = (counts_R (F := F)).1 (V (Proc.devRef .tc main_c_11)) (V (Proc.devRef .tc main_v5)) (V (Proc.devRef .tc main_v44)) :=
  counts_R.2 V
theorem nsum_R_eq (V : Valuation τ sig (Elt F)) : after mid5 V (no_index (Proc.devRef .tc main_v56))
    = nsum_R.1 (V (Proc.devRef .tc main_v5)) (V (Proc.devRef .tc main_v34)) := nsum_R.2 V
theorem esum_R_eq (V : Valuation τ sig (Elt F)) : after mid6 V (no_index (Proc.devRef .tc main_v59))
    = esum_R.1 (V (Proc.devRef .tc main_v5)) (V (Proc.devRef .tc main_v43)) := esum_R.2 V
theorem rollA_R_eq (V : Valuation τ sig (Elt F)) : after mid7 V (no_index (Proc.devRef .tc main_v62))
    = (rollA_R (F := F)).1 (V (Proc.devRef .tc main_v53)) := rollA_R.2 V
theorem cumA_R_eq (V : Valuation τ sig (Elt F)) : after mid8 V (no_index (Proc.devRef .tc main_v72))
    = (cumA_R (F := F)).1 (V (Proc.devRef .tc main_v62)) := cumA_R.2 V
theorem idxA_R_eq (V : Valuation τ sig (Elt F)) : after mid9 V (no_index (Proc.devRef .tc main_v75))
    = (idxA_R (F := F)).1 (V (Proc.devRef .tc main_v72)) := idxA_R.2 V
theorem takeA_R_eq (V : Valuation τ sig (Elt F)) : after mid10 V (no_index (Proc.devRef .tc main_v76))
    = takeA_R.1 (V (Proc.devRef .tc main_v75)) (V (Proc.devRef .tc main_v56)) := takeA_R.2 V
theorem rollB_R_eq (V : Valuation τ sig (Elt F)) : after mid11 V (no_index (Proc.devRef .tc main_v79))
    = (rollB_R (F := F)).1 (V (Proc.devRef .tc main_v53)) := rollB_R.2 V
theorem cumB_R_eq (V : Valuation τ sig (Elt F)) : after mid12 V (no_index (Proc.devRef .tc main_v89))
    = (cumB_R (F := F)).1 (V (Proc.devRef .tc main_v79)) := cumB_R.2 V
theorem idxB_R_eq (V : Valuation τ sig (Elt F)) : after mid13 V (no_index (Proc.devRef .tc main_v92))
    = (idxB_R (F := F)).1 (V (Proc.devRef .tc main_v89)) := idxB_R.2 V
theorem takeB_R_eq (V : Valuation τ sig (Elt F)) : after mid14 V (no_index (Proc.devRef .tc main_v93))
    = takeB_R.1 (V (Proc.devRef .tc main_v92)) (V (Proc.devRef .tc main_v59)) := takeB_R.2 V
theorem nnorm_R_eq (V : Valuation τ sig (Elt F)) : after mid15 V (no_index (Proc.devRef .tc main_v94))
    = nnorm_R.1 (V (Proc.devRef .tc main_v34)) (V (Proc.devRef .tc main_v76)) := nnorm_R.2 V
theorem enorm_R_eq (V : Valuation τ sig (Elt F)) : after mid15 V (no_index (Proc.devRef .tc main_v95))
    = enorm_R.1 (V (Proc.devRef .tc main_v43)) (V (Proc.devRef .tc main_v93)) := enorm_R.2 V
theorem consts_c31_R_eq (V : Valuation τ sig (Elt F)) : after mid15 V (no_index (Proc.devRef .tc main_c_31))
    = (consts_c31_R (F := F)).1 := consts_c31_R.2 V
theorem nvar_R_eq (V : Valuation τ sig (Elt F)) : after mid16 V (no_index (Proc.devRef .tc main_v96))
    = nvar_R.1 (V (Proc.devRef .tc main_v94)) (V (Proc.devRef .tc main_c_31)) := nvar_R.2 V
theorem evar_R_eq (V : Valuation τ sig (Elt F)) : after mid17 V (no_index (Proc.devRef .tc main_v97))
    = evar_R.1 (V (Proc.devRef .tc main_v95)) := evar_R.2 V

/-! ## The middle composed

The four results of the middle as the pieces' functions applied to one another, over the node logits, the
concatenated edge features, the edge attention vector and the sources. -/

/-- The sources' counts. -/
abbrev countsF (s : IVec S800000 32) : IVec S50000 32 :=
  (counts_R (F := F)).1 (consts_c11_R (F := F)).1 s (consts_v44_R (F := F)).1

/-- The normalized node attention. -/
abbrev nnormF (x : FVec F S800000 .f32) (s : IVec S800000 32) : FVec F S800000 .f32 :=
  nnorm_R.1 (natt_R.1 x)
    (takeA_R.1 ((idxA_R (F := F)).1 ((cumA_R (F := F)).1 ((rollA_R (F := F)).1 (countsF (F := F) s))))
      (nsum_R.1 s (natt_R.1 x)))

/-- The normalized edge attention. -/
abbrev enormF (y : FVec F S800000x256 .f32) (a : FVec F S256x1 .f32) (s : IVec S800000 32) : FVec F S800000 .f32 :=
  enorm_R.1 (eatt_R.1 y a)
    (takeB_R.1 ((idxB_R (F := F)).1 ((cumB_R (F := F)).1 ((rollB_R (F := F)).1 (countsF (F := F) s))))
      (esum_R.1 s (eatt_R.1 y a)))

/-- The node attention's sample variance. -/
abbrev nvarF (x : FVec F S800000 .f32) (s : IVec S800000 32) : FVec F S_ .f32 :=
  nvar_R.1 (nnormF x s) (consts_c31_R (F := F)).1

/-- The edge attention's sample variance. -/
abbrev evarF (y : FVec F S800000x256 .f32) (a : FVec F S256x1 .f32) (s : IVec S800000 32) : FVec F S_ .f32 :=
  evar_R.1 (enormF y a s)

macro "compose_pieces" : tactic =>
  `(tactic| (rw [after_mid]; simp (disch := decide) only [nnormF, enormF, nvarF, evarF, countsF,
                  natt_R_eq, eatt_R_eq, consts_v44_R_eq, consts_c11_R_eq, counts_R_eq, nsum_R_eq, esum_R_eq, rollA_R_eq,
                  cumA_R_eq, idxA_R_eq, takeA_R_eq, rollB_R_eq, cumB_R_eq, idxB_R_eq, takeB_R_eq, nnorm_R_eq, enorm_R_eq,
                  consts_c31_R_eq, nvar_R_eq, evar_R_eq,
                  mid1_keep, mid2_keep, mid3_keep, mid4_keep, mid5_keep, mid6_keep, mid7_keep, mid8_keep, mid9_keep,
                  mid10_keep, mid11_keep, mid12_keep, mid13_keep, mid14_keep, mid15_keep, mid16_keep, mid17_keep]))

set_option maxHeartbeats 1000000 in
theorem nnormR (V : Valuation τ sig (Elt F)) : after midOps V (Proc.devRef .tc main_v94)
    = nnormF (V (Proc.devRef .tc main_v27)) (V (Proc.devRef .tc main_v5)) := by
  compose_pieces

set_option maxHeartbeats 1000000 in
theorem enormR (V : Valuation τ sig (Elt F)) : after midOps V (Proc.devRef .tc main_v95)
    = enormF (V (Proc.devRef .tc main_v25)) (V (Proc.devRef .tc main_arg6)) (V (Proc.devRef .tc main_v5)) := by
  compose_pieces

set_option maxHeartbeats 1000000 in
theorem nvarR (V : Valuation τ sig (Elt F)) : after midOps V (Proc.devRef .tc main_v96)
    = nvarF (V (Proc.devRef .tc main_v27)) (V (Proc.devRef .tc main_v5)) := by
  compose_pieces

set_option maxHeartbeats 1000000 in
theorem evarR (V : Valuation τ sig (Elt F)) : after midOps V (Proc.devRef .tc main_v97)
    = evarF (V (Proc.devRef .tc main_v25)) (V (Proc.devRef .tc main_arg6)) (V (Proc.devRef .tc main_v5)) := by
  compose_pieces

end Cert.ReferenceIdeal.Bridge
end
-- ==== Proof.RStageE.lean ====
/- The reference program's last stretch, read as functions of the buffers it starts from: each of the two array
   results is the rows of a projection at the destinations, scaled by the normalized attention, summed by source
   (the operations' own composed term). -/
import proofs.«130992_j35871566856204_2_alg».proof.Proof.RefOps
import proofs.«130992_j35871566856204_2_alg».proof.Proof.LibFoldSteps
import Idealize.ShloMosaic.Lib.StableHlo.Run

set_option pp.maxSteps 20000

noncomputable section
namespace Cert.ReferenceIdeal.Bridge
open Cert.ReferenceIdeal Cert.ReferenceIdeal.Gen Cert.ReferenceIdeal.Hand Idealize.ShloMosaic Idealize.ShloMosaic.TcCoe Idealize.SL.Sem Idealize.ShloMosaic.StableHlo Cert.Lib

variable {F : FTy → Type} [FloatOps F]

macro "fold_stepsE" : tactic => `(tactic| (after_results_simp; results_by_rw))

set_option maxHeartbeats 1000000 in
/-- The node result: the node projection's rows at the destinations, each scaled by its edge's normalized node
    attention, summed into the row of the edge's source. -/
def out0R : { f : (FVec F S50000x128 .f32) → (IVec S800000 32) → (FVec F S800000 .f32) → (IVec S800000 32) → FVec F S50000x128 .f32 //
    ∀ V : Valuation τ sig (Elt F), StableHlo.after opsE V (Proc.devRef .tc main_v110)
      = f (V (Proc.devRef .tc main_v8)) (V (Proc.devRef .tc main_v7)) (V (Proc.devRef .tc main_v94)) (V (Proc.devRef .tc main_v5)) } :=
  ⟨_, fun V => by
    fold_stepsE
    generalize V (Proc.devRef .tc main_v8) = h
    generalize V (Proc.devRef .tc main_v7) = d
    generalize V (Proc.devRef .tc main_v94) = w
    generalize V (Proc.devRef .tc main_v5) = s
    rfl⟩

set_option maxHeartbeats 1000000 in
/-- The edge result: the edge projection's rows at the destinations, each scaled by its edge's normalized edge
    attention, summed into the row of the edge's source. -/
def out1R : { f : (FVec F S800000x128 .f32) → (IVec S800000 32) → (FVec F S800000 .f32) → (IVec S800000 32) → FVec F S50000x128 .f32 //
    ∀ V : Valuation τ sig (Elt F), StableHlo.after opsE V (Proc.devRef .tc main_v123)
      = f (V (Proc.devRef .tc main_v9)) (V (Proc.devRef .tc main_v7)) (V (Proc.devRef .tc main_v95)) (V (Proc.devRef .tc main_v5)) } :=
  ⟨_, fun V => by
    fold_stepsE
    generalize V (Proc.devRef .tc main_v9) = g
    generalize V (Proc.devRef .tc main_v7) = d
    generalize V (Proc.devRef .tc main_v95) = w
    generalize V (Proc.devRef .tc main_v5) = s
    rfl⟩

end Cert.ReferenceIdeal.Bridge
end
-- ==== Proof.RCompose.lean ====
/- The reference program's four results over the whole line, for any launch contents: the first stretch's functions
   of the arguments, the middle's composed functions of those, and the last stretch's functions of both, one inside
   the other. The line's fold is the last stretch's over the middle's over the first's; a buffer a stretch does not
   write is read through it. -/
import proofs.«130992_j35871566856204_2_alg».proof.Proof.RStageA
import proofs.«130992_j35871566856204_2_alg».proof.Proof.RStageM
import proofs.«130992_j35871566856204_2_alg».proof.Proof.RStageE

noncomputable section
namespace Cert.ReferenceIdeal.Bridge
open Cert.ReferenceIdeal Cert.ReferenceIdeal.Gen Cert.ReferenceIdeal.Hand Idealize.ShloMosaic Idealize.ShloMosaic.TcCoe Idealize.SL.Sem Idealize.ShloMosaic.StableHlo Cert.Lib

variable {F : FTy → Type} [FloatOps F]

/-- The fold over the whole line: the last stretch's over the middle's over the first's. -/
theorem after_ops_mid (V : Valuation τ sig (Elt F)) : after ops V = after opsE (after midOps (after opsA V)) := by
  rw [after_ops, show (midOps : List (HloOp τ sig (Elt F))) = opsB ++ (opsC ++ opsD) from rfl, after_concat, after_concat]

/-- A buffer the middle does not write keeps its contents through it. -/
theorem midOps_keep (V : Valuation τ sig (Elt F)) (r : Ref sig .tc) (hB : r ∉ opsB_W) (hC : r ∉ opsC_W) (hD : r ∉ opsD_W) :
    after midOps V (Proc.devRef .tc r) = V (Proc.devRef .tc r) := by
  rw [show (midOps : List (HloOp τ sig (Elt F))) = opsB ++ (opsC ++ opsD) from rfl, after_concat, after_concat,
    opsD_keep _ r hD, opsC_keep _ r hC, opsB_keep _ r hB]

/-- The node projection of the arguments. -/
abbrev hvF (V : Valuation τ sig (Elt F)) : FVec F S50000x128 .f32 :=
  Host.dotGeneral dot_S50000x256_S256x128_S50000x128_1_0_0_1_n_n none
    (V (Proc.devRef .tc main_arg0)) (V (Proc.devRef .tc main_arg3))

/-- The edge projection of the arguments. -/
abbrev evF (V : Valuation τ sig (Elt F)) : FVec F S800000x128 .f32 :=
  Host.dotGeneral dot_S800000x128_S128x128_S800000x128_1_0_0_1_n_n none
    (concatenate S800000x128 0 [⟨S400000x128, V (Proc.devRef .tc main_arg1)⟩, ⟨S400000x128, V (Proc.devRef .tc main_arg1)⟩]
      concatenates_S400000x128_S400000x128_S800000x128_d0)
    (V (Proc.devRef .tc main_arg4))

/-- The sources, the destinations, the node logits and the concatenated edge features of the arguments. -/
abbrev srcF (V : Valuation τ sig (Elt F)) : IVec S800000 32 := (srcR (F := F)).1 (V (Proc.devRef .tc main_arg2))
abbrev dstF (V : Valuation τ sig (Elt F)) : IVec S800000 32 := (dstR (F := F)).1 (V (Proc.devRef .tc main_arg2))
abbrev npreF (V : Valuation τ sig (Elt F)) : FVec F S800000 .f32 :=
  npreR.1 (hvF V) (V (Proc.devRef .tc main_arg2)) (V (Proc.devRef .tc main_arg5))
abbrev eexpF (V : Valuation τ sig (Elt F)) : FVec F S800000x256 .f32 :=
  eexpR.1 (hvF V) (evF V) (V (Proc.devRef .tc main_arg2))

/-! ## What the middle is read from: the first stretch's buffers, and the one argument it reads itself -/

theorem mid_v27 (V : Valuation τ sig (Elt F)) : after opsA V (Proc.devRef .tc main_v27) = npreF V := npreR.2 V
theorem mid_v25 (V : Valuation τ sig (Elt F)) : after opsA V (Proc.devRef .tc main_v25) = eexpF V := eexpR.2 V
theorem mid_v5 (V : Valuation τ sig (Elt F)) : after opsA V (Proc.devRef .tc main_v5) = srcF V := srcR.2 V
theorem mid_v7 (V : Valuation τ sig (Elt F)) : after opsA V (Proc.devRef .tc main_v7) = dstF V := dstR.2 V
theorem mid_arg6 (V : Valuation τ sig (Elt F)) : after opsA V (Proc.devRef .tc main_arg6) = V (Proc.devRef .tc main_arg6) :=
  opsA_keep V main_arg6 (by decide)

/-! ## The four results -/

/-- The normalized node attention after the middle, over the arguments. -/
theorem nnorm_args (V : Valuation τ sig (Elt F)) :
    after midOps (after opsA V) (Proc.devRef .tc main_v94) = nnormF (npreF V) (srcF V) := by
  rw [nnormR, mid_v27, mid_v5]

/-- The normalized edge attention after the middle, over the arguments. -/
theorem enorm_args (V : Valuation τ sig (Elt F)) :
    after midOps (after opsA V) (Proc.devRef .tc main_v95)
      = enormF (eexpF V) (V (Proc.devRef .tc main_arg6)) (srcF V) := by
  rw [enormR, mid_v25, mid_arg6, mid_v5]

/-- The node result. -/
theorem out0_args (V : Valuation τ sig (Elt F)) : after ops V (Proc.devRef .tc main_v110)
    = out0R.1 (hvF V) (dstF V) (nnormF (npreF V) (srcF V)) (srcF V) := by
  rw [after_ops_mid, out0R.2, nnorm_args,
    midOps_keep _ main_v8 (by decide) (by decide) (by decide), midOps_keep _ main_v7 (by decide) (by decide) (by decide),
    midOps_keep _ main_v5 (by decide) (by decide) (by decide), hvR, mid_v7, mid_v5]

/-- The edge result. -/
theorem out1_args (V : Valuation τ sig (Elt F)) : after ops V (Proc.devRef .tc main_v123)
    = out1R.1 (evF V) (dstF V) (enormF (eexpF V) (V (Proc.devRef .tc main_arg6)) (srcF V)) (srcF V) := by
  rw [after_ops_mid, out1R.2, enorm_args,
    midOps_keep _ main_v9 (by decide) (by decide) (by decide), midOps_keep _ main_v7 (by decide) (by decide) (by decide),
    midOps_keep _ main_v5 (by decide) (by decide) (by decide), evR, mid_v7, mid_v5]

/-- The node attention's variance. -/
theorem nvar_args (V : Valuation τ sig (Elt F)) : after ops V (Proc.devRef .tc main_v96) = nvarF (npreF V) (srcF V) := by
  rw [after_ops_mid, opsE_keep _ main_v96 (by decide), nvarR, mid_v27, mid_v5]

/-- The edge attention's variance. -/
theorem evar_args (V : Valuation τ sig (Elt F)) : after ops V (Proc.devRef .tc main_v97)
    = evarF (eexpF V) (V (Proc.devRef .tc main_arg6)) (srcF V) := by
  rw [after_ops_mid, opsE_keep _ main_v97 (by decide), evarR, mid_v25, mid_arg6, mid_v5]

end Cert.ReferenceIdeal.Bridge
end
-- ==== Proof.LibGatherRows.lean ====
/-
  Gathering whole rows of a matrix. `x[idx]` for a matrix `x : [N, D]` and a column of start indices
  `idx : [M, 1]` (offset axis 1, axis 0 collapsed and named by the start index, slice sizes `[1, D]`):
  result element `(t, c)` is `x` at row `idx[t, 0]` — read as a signed integer and clamped into
  `[0, N − 1]` — and column `c`. The same for a rank-3 result `[M, S, D]` gathered at start indices
  `[M, S, 1]`. A start index that is already a row number names that row.
-/
import Idealize.ShloMosaic.Lib.ValueIdx

namespace Idealize.ShloMosaic.GatherRows

open Idealize.ShloMosaic.ValueIdx

variable {α : Type}

/-- The row a start index names among `N` rows: the index read signed, clamped into `[0, N − 1]`. -/
def rowOf (N : Nat) (hN : 0 < N) {w : Nat} (v : BitVec w) : Fin N := ⟨min v.toInt.toNat (N - 1), by omega⟩

/-- A start index that is a row number (non-negative as a signed integer and below `N`) names that row. -/
theorem rowOf_val_of_lt {N : Nat} (hN : 0 < N) {w : Nat} (v : BitVec w) (h0 : 0 ≤ v.toInt) (h1 : v.toInt < N) :
    (rowOf N hN v).val = v.toInt.toNat := by
  unfold rowOf
  show min v.toInt.toNat (N - 1) = _
  omega

/-- The dimension numbers of a row gather: operand `[N, D]`, start indices `[M, 1]`, result `[M, D]`. -/
abbrev rowsDims (N D M : Nat)
    (wf : GatherDims.WF ⟨2, ![N, D]⟩ ⟨2, ![M, 1]⟩ ⟨2, ![M, D]⟩ [1] [0] [] [0] [] 1 ![1, D]) :
    GatherDims ⟨2, ![N, D]⟩ ⟨2, ![M, 1]⟩ ⟨2, ![M, D]⟩ where
  offsetDims := [1]
  collapsedSliceDims := [0]
  operandBatchingDims := []
  startIndicesBatchingDims := []
  startIndexMap := [0]
  indexVectorDim := 1
  sliceSizes := ![1, D]
  wf := wf

/-- THE ROW GATHER READ AT `(t, c)`: the operand at the row the start index `idx[t, 0]` names, column `c`. -/
theorem gather_rows_apply {N D M w : Nat} (hN : 0 < N)
    (wf : GatherDims.WF ⟨2, ![N, D]⟩ ⟨2, ![M, 1]⟩ ⟨2, ![M, D]⟩ [1] [0] [] [0] [] 1 ![1, D])
    (x : (⟨2, ![N, D]⟩ : Shape).Idx → α) (idx : IVec ⟨2, ![M, 1]⟩ w) (t : Fin M) (c : Fin D) :
    Host.gather (rowsDims N D M wf) x idx (ix2 t c) = x (ix2 (rowOf N hN (idx (ix2 t (0 : Fin 1)))) c) := by
  unfold Host.gather
  congr 1
  funext a
  refine Fin.ext ?_
  show (rowsDims N D M wf).start (ix2 t c) idx a + (rowsDims N D M wf).batchCoord (ix2 t c) a
    + (rowsDims N D M wf).offCoord (ix2 t c) a = _
  rw [GatherDims.batchCoord_eq_zero _ _ _ List.not_mem_nil]
  match a with
  | ⟨0, _⟩ =>
    rw [GatherDims.offCoord_eq_zero _ _ _ (fun h => ((GatherDims.mem_sKept _ _).mp h).1 (List.mem_singleton.mpr rfl))]
    simp only [Nat.add_zero]
    unfold GatherDims.start
    rw [dif_pos (show (⟨0, by decide⟩ : Fin 2) ∈ (rowsDims N D M wf).startIndexMap from List.mem_singleton.mpr rfl)]
    have hsi : (rowsDims N D M wf).siIdx (ix2 t c) ⟨List.idxOf (⟨0, by decide⟩ : Fin 2) (rowsDims N D M wf).startIndexMap,
        List.idxOf_lt_length_iff.2 (List.mem_singleton.mpr rfl)⟩ = ix2 t (0 : Fin 1) := by
      funext b; refine Fin.ext ?_
      match b with
      | ⟨0, _⟩ => rfl
      | ⟨1, _⟩ => rfl
    rw [hsi]
    rfl
  | ⟨1, h1⟩ =>
    have hs : (rowsDims N D M wf).start (ix2 t c) idx ⟨1, h1⟩ = 0 := by
      unfold GatherDims.start
      rw [dif_neg (fun h => absurd (Fin.ext_iff.mp (List.mem_singleton.mp h)) Nat.one_ne_zero)]
    have hk : (⟨1, h1⟩ : Fin 2) ∈ (rowsDims N D M wf).sKept :=
      (GatherDims.mem_sKept _ _).mpr
        ⟨fun h => absurd (Fin.ext_iff.mp (List.mem_singleton.mp h)) Nat.one_ne_zero, List.not_mem_nil⟩
    have hkept : (rowsDims N D M wf).sKept = [(⟨1, h1⟩ : Fin 2)] := rfl
    rw [hs]
    unfold GatherDims.offCoord
    rw [dif_pos hk]
    simp only [hkept, Nat.zero_add]
    rfl

end Idealize.ShloMosaic.GatherRows
-- ==== Proof.KIdxA.lean ====
import proofs.«130992_j35871566856204_2_alg».proof.Proof.KStageA
import proofs.«130992_j35871566856204_2_alg».proof.Proof.LibGatherRows
import proofs.«130992_j35871566856204_2_alg».proof.Proof.LibColumns
import Idealize.ShloMosaic.Lib.ValueLayout

set_option pp.maxSteps 20000

open scoped BigOperators

noncomputable section
namespace Cert.KernelIdeal.Bridge
open Cert.KernelIdeal Cert.KernelIdeal.Gen Idealize.ShloMosaic Idealize.ShloMosaic.TcCoe Idealize.SL.Sem Idealize.ShloMosaic.StableHlo
open Idealize.ShloMosaic.ValueIdx Idealize.ShloMosaic.GatherRows Idealize.ShloMosaic.Columns

/-! The kernel program's logits read at an edge: which rows of the projections each edge's logit takes. -/

/-- A row number read Python's way among `50000` rows: a negative index counts from the end. -/
def norm50k (v : BitVec 32) : BitVec 32 := Scalar.select (IntOp.cmpi .slt v 0#32) (IntOp.addi v 50000#32) v

theorem g4_eq : gather_S50000x4_S800000x1_S800000x4_1_0_n_n_0_1_14
    = rowsDims 50000 4 800000 Facts₀.gather_S50000x4_S800000x1_S800000x4_1_0_n_n_0_1_14_wf := rfl

/-- The start index the gathers use for row `i`: the row number normalised. -/
theorem normIdx_apply (S : IVec S800000 32) (i : Fin 800000) (u : Fin 1) :
    broadcastInDim S800000x1 ![0] bcast_S800000_S800000x1_0
        (select (cmpi .slt S (broadcastInDim S800000 ![] bcast_S_S800000 (constantI S_ 32 0#32)))
          (addi S (broadcastInDim S800000 ![] bcast_S_S800000 (constantI S_ 32 50000#32))) S) (ix2 i u)
      = norm50k (S (ix1 i)) := by
  refine (broadcastInDim_a_a1_apply _ _ i u).trans ?_
  rfl

/-- Column `q` of the projection gathered at the normalised rows, as a flat vector, at `i`. -/
theorem colAt (P : FVec Ideal S50000x4 .f32) (S : IVec S800000 32) (o : ℕ) (q : Fin 4) (hq : q.val = o + (0 : Fin 1).val)
    (hsl : S800000x4.Slices ![0, o] S800000x1) (i : Fin 800000) :
    shapeCast S800000 (extractStridedSlice S800000x1 ![0, o]
        (Host.gather gather_S50000x4_S800000x1_S800000x4_1_0_n_n_0_1_14 P
          (broadcastInDim S800000x1 ![0] bcast_S800000_S800000x1_0
            (select (cmpi .slt S (broadcastInDim S800000 ![] bcast_S_S800000 (constantI S_ 32 0#32)))
              (addi S (broadcastInDim S800000 ![] bcast_S_S800000 (constantI S_ 32 50000#32))) S))) hsl)
        shapeCasts_S800000x1_S800000 (ix1 i)
      = P (ix2 (rowOf 50000 (by decide) (norm50k (S (ix1 i)))) q) := by
  refine (shapeCast_a1_a_apply _ _ i).trans ?_
  refine (slice2_axis1_apply o _ hsl i (0 : Fin 1) q hq).trans ?_
  rw [g4_eq]
  refine (gather_rows_apply (by decide) _ P _ i q).trans ?_
  rw [normIdx_apply]

set_option maxHeartbeats 1000000 in
theorem npreK_apply (P : FVec Ideal S50000x4 .f32) (E : IVec S1x2x400000 32) (i : Fin 800000) :
    (npreK (F := Ideal)).1 P E (ix1 i)
      = P (ix2 (rowOf 50000 (by decide) (norm50k ((srcK (F := Ideal)).1 E (ix1 i)))) (0 : Fin 4))
        + P (ix2 (rowOf 50000 (by decide) (norm50k ((dstK (F := Ideal)).1 E (ix1 i)))) (1 : Fin 4)) :=
  congrArg₂ (· + ·) (colAt P ((srcK (F := Ideal)).1 E) 0 0 rfl _ i) (colAt P ((dstK (F := Ideal)).1 E) 1 1 rfl _ i)

end Cert.KernelIdeal.Bridge
end
-- ==== Proof.LibGatherRows3.lean ====
/-
  Gathering whole rows of a matrix into a rank-3 result. For a matrix `x : [N, D]` and start indices
  `idx : [M, S, 1]` (offset axis 2, axis 0 of the operand collapsed and named by the start index, the index vector on
  axis 2, slice sizes `[1, D]`), result element `(t, s, c)` is `x` at row `idx[t, s, 0]` — read as a signed integer
  and clamped into `[0, N − 1]` — and column `c`.
-/
import proofs.«130992_j35871566856204_2_alg».proof.Proof.LibGatherRows

namespace Idealize.ShloMosaic.GatherRows

open Idealize.ShloMosaic.ValueIdx

variable {α : Type}

/-- The dimension numbers of a row gather into a rank-3 result: operand `[N, D]`, start indices `[M, S, 1]`,
    result `[M, S, D]`. -/
abbrev rows3Dims (N D M S : Nat)
    (wf : GatherDims.WF ⟨2, ![N, D]⟩ ⟨3, ![M, S, 1]⟩ ⟨3, ![M, S, D]⟩ [2] [0] [] [0] [] 2 ![1, D]) :
    GatherDims ⟨2, ![N, D]⟩ ⟨3, ![M, S, 1]⟩ ⟨3, ![M, S, D]⟩ where
  offsetDims := [2]
  collapsedSliceDims := [0]
  operandBatchingDims := []
  startIndicesBatchingDims := []
  startIndexMap := [0]
  indexVectorDim := 2
  sliceSizes := ![1, D]
  wf := wf

/-- THE ROW GATHER INTO A RANK-3 RESULT READ AT `(t, s, c)`: the operand at the row the start index `idx[t, s, 0]`
    names, column `c`. -/
theorem gather_rows3_apply {N D M S w : Nat} (hN : 0 < N)
    (wf : GatherDims.WF ⟨2, ![N, D]⟩ ⟨3, ![M, S, 1]⟩ ⟨3, ![M, S, D]⟩ [2] [0] [] [0] [] 2 ![1, D])
    (x : (⟨2, ![N, D]⟩ : Shape).Idx → α) (idx : IVec ⟨3, ![M, S, 1]⟩ w) (t : Fin M) (s : Fin S) (c : Fin D) :
    Host.gather (rows3Dims N D M S wf) x idx (ix3 t s c)
      = x (ix2 (rowOf N hN (idx (ix3 t s (0 : Fin 1)))) c) := by
  unfold Host.gather
  congr 1
  funext a
  refine Fin.ext ?_
  show (rows3Dims N D M S wf).start (ix3 t s c) idx a + (rows3Dims N D M S wf).batchCoord (ix3 t s c) a
    + (rows3Dims N D M S wf).offCoord (ix3 t s c) a = _
  rw [GatherDims.batchCoord_eq_zero _ _ _ List.not_mem_nil]
  match a with
  | ⟨0, _⟩ =>
    rw [GatherDims.offCoord_eq_zero _ _ _ (fun h => ((GatherDims.mem_sKept _ _).mp h).1 (List.mem_singleton.mpr rfl))]
    simp only [Nat.add_zero]
    unfold GatherDims.start
    rw [dif_pos (show (⟨0, by decide⟩ : Fin 2) ∈ (rows3Dims N D M S wf).startIndexMap from List.mem_singleton.mpr rfl)]
    have hsi : (rows3Dims N D M S wf).siIdx (ix3 t s c) ⟨List.idxOf (⟨0, by decide⟩ : Fin 2) (rows3Dims N D M S wf).startIndexMap,
        List.idxOf_lt_length_iff.2 (List.mem_singleton.mpr rfl)⟩ = ix3 t s (0 : Fin 1) := by
      funext b; refine Fin.ext ?_
      match b with
      | ⟨0, _⟩ => rfl
      | ⟨1, _⟩ => rfl
      | ⟨2, _⟩ => rfl
    rw [hsi]
    rfl
  | ⟨1, h1⟩ =>
    have hs : (rows3Dims N D M S wf).start (ix3 t s c) idx ⟨1, h1⟩ = 0 := by
      unfold GatherDims.start
      rw [dif_neg (fun h => absurd (Fin.ext_iff.mp (List.mem_singleton.mp h)) Nat.one_ne_zero)]
    have hk : (⟨1, h1⟩ : Fin 2) ∈ (rows3Dims N D M S wf).sKept :=
      (GatherDims.mem_sKept _ _).mpr
        ⟨fun h => absurd (Fin.ext_iff.mp (List.mem_singleton.mp h)) Nat.one_ne_zero, List.not_mem_nil⟩
    have hkept : (rows3Dims N D M S wf).sKept = [(⟨1, h1⟩ : Fin 2)] := rfl
    rw [hs]
    unfold GatherDims.offCoord
    rw [dif_pos hk]
    simp only [hkept, Nat.zero_add]
    rfl

end Idealize.ShloMosaic.GatherRows
-- ==== Proof.LibDotRows.lean ====
/-
  A plain matrix product on the host read at an entry. At the ideal values `dot_general` contracting the second axis
  of an `[M, K]` array with the first axis of a `[K, N]` array is, at `(i, j)`, the sum over `k : Fin K` of
  `l (i, k) * r (k, j)`; the matrix unit's product into a zero accumulator is the same sum.
-/
import Idealize.ShloMosaic.Lib.ValueIdx
import Idealize.ShloMosaic.PureOps.Ideal.Laws

open scoped BigOperators

namespace Idealize.ShloMosaic.DotRows

open Idealize.ShloMosaic.ValueIdx

/-- The contraction index of a plain product is its one coordinate. -/
def kEquiv (M K N : ℕ) : (DotDims.plain M K N).contr.Idx ≃ Fin K :=
  contrEquiv1 (DotDims.plain M K N) K rfl rfl

theorem lhs_at {M K N : ℕ} (i : Fin M) (j : Fin N) (k : Fin K) :
    (DotDims.plain M K N).lhsIdx (ix2 i j) ((kEquiv M K N).symm k) = ix2 i k := by
  funext a
  refine Fin.ext ?_
  match a with
  | ⟨0, _⟩ => rfl
  | ⟨1, _⟩ =>
    refine ((DotDims.plain M K N).lhsIdx_val_of_single (cl := (1 : Fin 2)) rfl (ix2 i j) _).trans ?_
    exact contrEquiv1_symm_val (DotDims.plain M K N) K rfl rfl k

theorem rhs_at {M K N : ℕ} (i : Fin M) (j : Fin N) (k : Fin K) :
    (DotDims.plain M K N).rhsIdx (ix2 i j) ((kEquiv M K N).symm k) = ix2 k j := by
  funext a
  refine Fin.ext ?_
  match a with
  | ⟨0, _⟩ =>
    refine ((DotDims.plain M K N).rhsIdx_val_of_single (cr := (0 : Fin 2)) rfl (ix2 i j) _).trans ?_
    exact contrEquiv1_symm_val (DotDims.plain M K N) K rfl rfl k
  | ⟨1, _⟩ => rfl

/-- The host's plain product at `(i, j)`. -/
theorem dotGeneral_plain_apply {M K N : ℕ} {φ₁ φ₂ : FTy} (prec : Option ContractPrecision) (sched : HostSchedule)
    (l : FVec Ideal ⟨2, ![M, K]⟩ φ₁) (r : FVec Ideal ⟨2, ![K, N]⟩ φ₂) (i : Fin M) (j : Fin N) :
    FloatOps.dotGeneral (DotDims.plain M K N) prec sched l r (ix2 i j) = ∑ k : Fin K, l (ix2 i k) * r (ix2 k j) := by
  rw [Ideal.dotGeneral_apply, ← Equiv.sum_comp (kEquiv M K N).symm]
  exact Finset.sum_congr rfl fun k _ => by rw [lhs_at, rhs_at]

/-- The matrix unit's plain product into the zero accumulator at `(i, j)`. -/
theorem matmul_plain_zero_apply {M K N : ℕ} {φ₁ φ₂ : FTy} (prec : Option ContractPrecision)
    (l : FVec Ideal ⟨2, ![M, K]⟩ φ₁) (r : FVec Ideal ⟨2, ![K, N]⟩ φ₂) (i : Fin M) (j : Fin N) :
    FloatOps.matmul (DotDims.plain M K N) prec l r (constant ⟨2, ![M, N]⟩ .f32 0x00000000#32) (ix2 i j)
      = ∑ k : Fin K, l (ix2 i k) * r (ix2 k j) := by
  rw [Ideal.matmul_constant_zero_apply, ← Equiv.sum_comp (kEquiv M K N).symm]
  exact Finset.sum_congr rfl fun k _ => by rw [lhs_at, rhs_at]

end Idealize.ShloMosaic.DotRows
-- ==== Proof.NodeLogits.lean ====
/-
  The node logits of the two programs are one function of the edges. At edge `i` the reference's logit is the product of
  the row `[H(row(src i), ·), H(row(dst i), ·)]` (the two endpoint rows of the node projection `H = X · W`, side by side)
  with the attention column `a`, a sum over 256 terms; cut in its halves it is
  `∑ j, H(row(src i), j) · a(j) + ∑ j, H(row(dst i), j) · a(128 + j)`. The kernel program's is
  `P(row(src i), 0) + P(row(dst i), 1)` where columns 0 and 1 of `P` hold exactly those two sums for every row. The
  endpoints `src i`, `dst i` are entries `(i, 0)`, `(i, 1)` of the same `[800000, 2]` array of edge endpoints in both
  programs, and `row` is the endpoint read as a row number among 50000 rows (a negative one counts from the end), clamped; both gathered arrays have 50000 rows.
-/
import proofs.«130992_j35871566856204_2_alg».proof.Proof.KIdxA
import proofs.«130992_j35871566856204_2_alg».proof.Proof.RStageA
import proofs.«130992_j35871566856204_2_alg».proof.Proof.LibGatherRows3
import proofs.«130992_j35871566856204_2_alg».proof.Proof.LibDotRows
import proofs.«130992_j35871566856204_2_alg».proof.Proof.LibColumns
import Idealize.ShloMosaic.Lib.ValueLayout

set_option pp.maxSteps 20000

open scoped BigOperators

noncomputable section
namespace Cert.Bridge
open Idealize.ShloMosaic Idealize.ShloMosaic.ValueIdx Idealize.ShloMosaic.GatherRows Idealize.ShloMosaic.Columns
open Idealize.ShloMosaic.DotRows
open Cert.KernelIdeal.Bridge (norm50k srcK dstK npreK npreK_apply)
open Cert.ReferenceIdeal.Bridge (npreR)

section Ref
open Cert.ReferenceIdeal Cert.ReferenceIdeal.Gen

/-- The edge endpoints, one edge per row: the row-major `[400000, 2]` reading of the edge array followed by the same
    with its two columns swapped. -/
def eAll (E : IVec S1x2x400000 32) : IVec S800000x2 32 :=
  concatenate S800000x2 0
    [⟨S400000x2, fun i => shapeCast S400000x2 E shapeCasts_S1x2x400000_S400000x2 i⟩,
      ⟨S400000x2, Host.reverse [1] fun i => shapeCast S400000x2 E shapeCasts_S1x2x400000_S400000x2 i⟩]
    concatenates_S400000x2_S400000x2_S800000x2_d0

theorem g3_eq : gather_S50000x128_S800000x2x1_S800000x2x128_2_0_n_n_0_2_1128
    = rows3Dims 50000 128 800000 2 gather_S50000x128_S800000x2x1_S800000x2x128_2_0_n_n_0_2_1128.wf := rfl

/-- The start index the rank-3 gather uses at `(i, s)`: the endpoint normalised. -/
theorem normIdx3_apply (EA : IVec S800000x2 32) (i : Fin 800000) (s : Fin 2) (u : Fin 1) :
    broadcastInDim S800000x2x1 ![0, 1] bcast_S800000x2_S800000x2x1_0_1
        (select (cmpi .slt EA (broadcastInDim S800000x2 ![] bcast_S_S800000x2 (constantI S_ 32 0#32)))
          (addi EA (broadcastInDim S800000x2 ![] bcast_S_S800000x2 (constantI S_ 32 50000#32))) EA) (ix3 i s u)
      = norm50k (EA (ix2 i s)) := by
  refine (broadcastInDim_apply _ _ _ (ix3 i s u) (ix2 i s) fun ax => ?_).trans ?_
  · match ax with
    | ⟨0, _⟩ => rfl
    | ⟨1, _⟩ => rfl
  · rfl

/-- The two endpoint rows of the node projection side by side, at `(i, k)` with `k = 128 s + c`. -/
theorem hexp_apply (H : FVec Ideal S50000x128 .f32) (EA : IVec S800000x2 32) (i : Fin 800000) (s : Fin 2) (c : Fin 128)
    (k : Fin 256) (hk : k.val = s.val * 128 + c.val) :
    shapeCast S800000x256
        (Host.gather gather_S50000x128_S800000x2x1_S800000x2x128_2_0_n_n_0_2_1128 H
          (broadcastInDim S800000x2x1 ![0, 1] bcast_S800000x2_S800000x2x1_0_1
            (select (cmpi .slt EA (broadcastInDim S800000x2 ![] bcast_S_S800000x2 (constantI S_ 32 0#32)))
              (addi EA (broadcastInDim S800000x2 ![] bcast_S_S800000x2 (constantI S_ 32 50000#32))) EA)))
        shapeCasts_S800000x2x128_S800000x256 (ix2 i k)
      = H (ix2 (rowOf 50000 (by decide) (norm50k (EA (ix2 i s)))) c) := by
  refine (shapeCast_apply _ _ (ix2 i k) (ix3 i s c) ?_).trans ?_
  · rw [Shape.rowMajor_val_three, Shape.rowMajor_val_two]
    show (i.val * 2 + s.val) * 128 + c.val = i.val * 256 + k.val
    omega
  · rw [g3_eq]
    refine (gather_rows3_apply (by decide) _ H _ i s c).trans ?_
    rw [normIdx3_apply]

/-- A `[800000, 256]` array against a `[256, 1]` column, flattened, at `i`: the sum cut in its two halves. -/
theorem dotCol_apply (G : FVec Ideal S800000x256 .f32) (an : FVec Ideal S256x1 .f32) (i : Fin 800000) :
    shapeCast S800000 (Host.dotGeneral dot_S800000x256_S256x1_S800000x1_1_0_0_1_n_n none G an)
        shapeCasts_S800000x1_S800000 (ix1 i)
      = ∑ j : Fin 128, G (ix2 i (Fin.castAdd 128 j)) * an (ix2 (Fin.castAdd 128 j) (0 : Fin 1))
        + ∑ j : Fin 128, G (ix2 i (Fin.natAdd 128 j)) * an (ix2 (Fin.natAdd 128 j) (0 : Fin 1)) := by
  refine (shapeCast_a1_a_apply _ _ i).trans ?_
  refine (dotGeneral_plain_apply (M := 800000) (K := 256) (N := 1) none .single G an i (0 : Fin 1)).trans ?_
  exact sum_halves (d := 128) (fun k : Fin (128 + 128) => G (ix2 i k) * an (ix2 k (0 : Fin 1)))

/-- The reference's node logit at edge `i`: the source row of the node projection against the first half of the
    attention column plus the destination row against the second half. -/
theorem npreR_apply (H : FVec Ideal S50000x128 .f32) (E : IVec S1x2x400000 32) (an : FVec Ideal S256x1 .f32)
    (i : Fin 800000) :
    (npreR (F := Ideal)).1 H E an (ix1 i)
      = ∑ j : Fin 128, H (ix2 (rowOf 50000 (by decide) (norm50k (eAll E (ix2 i (0 : Fin 2))))) j)
            * an (ix2 (Fin.castAdd 128 j) (0 : Fin 1))
        + ∑ j : Fin 128, H (ix2 (rowOf 50000 (by decide) (norm50k (eAll E (ix2 i (1 : Fin 2))))) j)
            * an (ix2 (Fin.natAdd 128 j) (0 : Fin 1)) := by
  refine (dotCol_apply _ an i).trans ?_
  refine congrArg₂ (· + ·) (Finset.sum_congr rfl fun j _ => ?_) (Finset.sum_congr rfl fun j _ => ?_)
  · exact congrArg (· * an (ix2 (Fin.castAdd 128 j) (0 : Fin 1)))
      (hexp_apply H (eAll E) i (0 : Fin 2) j (Fin.castAdd 128 j) (by show j.val = 0 * 128 + j.val; omega))
  · exact congrArg (· * an (ix2 (Fin.natAdd 128 j) (0 : Fin 1)))
      (hexp_apply H (eAll E) i (1 : Fin 2) j (Fin.natAdd 128 j) (by show 128 + j.val = 1 * 128 + j.val; omega))

/-- The node projection at `(r, j)`. -/
theorem proj_apply (X : FVec Ideal S50000x256 .f32) (W : FVec Ideal S256x128 .f32) (r : Fin 50000) (j : Fin 128) :
    Host.dotGeneral dot_S50000x256_S256x128_S50000x128_1_0_0_1_n_n none X W (ix2 r j)
      = ∑ k : Fin 256, X (ix2 r k) * W (ix2 k j) :=
  dotGeneral_plain_apply (M := 50000) (K := 256) (N := 128) none .single X W r j

end Ref

/-- The kernel program's source of edge `i` is entry `(i, 0)` of the endpoint array. -/
theorem srcK_apply (E : IVec ⟨3, ![1, 2, 400000]⟩ 32) (i : Fin 800000) :
    (srcK (F := Ideal)).1 E (ix1 i) = eAll E (ix2 i (0 : Fin 2)) := by
  dsimp only [srcK]
  exact (shapeCast_a1_a_apply _ _ i).trans (slice2_axis1_apply 0 (eAll E) _ i (0 : Fin 1) (0 : Fin 2) rfl)

/-- The kernel program's destination of edge `i` is entry `(i, 1)` of the endpoint array. -/
theorem dstK_apply (E : IVec ⟨3, ![1, 2, 400000]⟩ 32) (i : Fin 800000) :
    (dstK (F := Ideal)).1 E (ix1 i) = eAll E (ix2 i (1 : Fin 2)) := by
  dsimp only [dstK]
  exact (shapeCast_a1_a_apply _ _ i).trans (slice2_axis1_apply 1 (eAll E) _ i (0 : Fin 1) (1 : Fin 2) rfl)

/-- THE NODE LOGITS AGREE: when columns 0 and 1 of `P` are, row by row, the node projection `X · W` against the
    first and the second half of the attention column, the kernel program's node logits are the reference's. -/
theorem npre_eq (X : FVec Ideal ⟨2, ![50000, 256]⟩ .f32) (W : FVec Ideal ⟨2, ![256, 128]⟩ .f32)
    (an : FVec Ideal ⟨2, ![256, 1]⟩ .f32) (E : IVec ⟨3, ![1, 2, 400000]⟩ 32) (P : FVec Ideal ⟨2, ![50000, 4]⟩ .f32)
    (hP0 : ∀ r : Fin 50000, P (ix2 r (0 : Fin 4))
      = ∑ j : Fin 128, (∑ k : Fin 256, X (ix2 r k) * W (ix2 k j)) * an (ix2 ⟨j.val, by omega⟩ (0 : Fin 1)))
    (hP1 : ∀ r : Fin 50000, P (ix2 r (1 : Fin 4))
      = ∑ j : Fin 128, (∑ k : Fin 256, X (ix2 r k) * W (ix2 k j)) * an (ix2 ⟨128 + j.val, by omega⟩ (0 : Fin 1))) :
    (npreK (F := Ideal)).1 P E
      = (npreR (F := Ideal)).1
          (Host.dotGeneral Cert.ReferenceIdeal.dot_S50000x256_S256x128_S50000x128_1_0_0_1_n_n none X W) E an := by
  funext j
  obtain ⟨i, rfl⟩ : ∃ i : Fin 800000, j = ix1 i := ⟨j 0, eq_ix1 j⟩
  refine (npreK_apply P E i).trans ?_
  refine Eq.trans ?_ (npreR_apply _ E an i).symm
  rw [hP0, hP1, srcK_apply, dstK_apply]
  refine congrArg₂ (· + ·) (Finset.sum_congr rfl fun j _ => ?_) (Finset.sum_congr rfl fun j _ => ?_)
  · rw [proj_apply]; rfl
  · rw [proj_apply]; rfl

end Cert.Bridge
end
-- ==== Proof.EdgeLogits.lean ====
/-
  The edge logits of the two programs are one function of the edges. At edge `i` the reference's logit is the product of
  the row `[H(row(src i), ·), EV(i, ·)]` — the source row of the node projection `H = X · W` beside the edge's row of the
  edge projection `EV = [Y; Y] · We` (the edge features laid twice, one copy per direction of the edge) — with the edge
  attention column `a`, a sum over 256 terms; cut in its halves it is
  `∑ j, H(row(src i), j) · a(j) + ∑ j, EV(i, j) · a(128 + j)`, and `EV(i, j) = ∑ k, Y(i mod 400000, k) · We(k, j)`. The
  kernel program's is `P(row(src i), 2) + Q(i mod 400000, 0)`, where column 2 of `P` holds the first sum for every node
  row and column 0 of `Q` the second for every row of the given edge list. The source `src i` is entry `(i, 0)` of the
  same `[800000, 2]` array of edge endpoints in both programs, and `row` is the endpoint read as a row number among
  50000 rows (a negative one counts from the end), clamped. Only the two sums are compared term by term: nothing about
  finiteness is used.
-/
import proofs.«130992_j35871566856204_2_alg».proof.Proof.NodeLogits
import proofs.«130992_j35871566856204_2_alg».proof.Proof.KIdxA
import proofs.«130992_j35871566856204_2_alg».proof.Proof.RStageA
import proofs.«130992_j35871566856204_2_alg».proof.Proof.LibGatherRows
import proofs.«130992_j35871566856204_2_alg».proof.Proof.LibDotRows
import proofs.«130992_j35871566856204_2_alg».proof.Proof.LibColumns
import Idealize.ShloMosaic.Lib.ValueLayout

set_option pp.maxSteps 20000

open scoped BigOperators

noncomputable section
namespace Cert.Bridge
open Idealize.ShloMosaic Idealize.ShloMosaic.ValueIdx Idealize.ShloMosaic.GatherRows Idealize.ShloMosaic.Columns
open Idealize.ShloMosaic.DotRows
open Cert.KernelIdeal.Bridge (norm50k srcK epreK colAt)
open Cert.ReferenceIdeal.Bridge (eexpR)

/-- Edge `i` of the doubled edge list is edge `i mod 400000` of the given one. -/
def half (i : Fin 800000) : Fin 400000 := ⟨i.val % 400000, Nat.mod_lt _ (by decide)⟩

section Twice
variable {α : Type}

/-- A `[400000, n]` array laid twice along axis 0, at row `i`: row `i mod 400000`. -/
theorem twiceRows_apply {n : Nat} (Y : (⟨2, ![400000, n]⟩ : Shape).Idx → α)
    (h : Shape.Concatenates [⟨2, ![400000, n]⟩, ⟨2, ![400000, n]⟩] ⟨2, ![800000, n]⟩ (0 : Fin 2)) (i : Fin 800000) (k : Fin n) :
    concatenate ⟨2, ![800000, n]⟩ (0 : Fin 2) [⟨⟨2, ![400000, n]⟩, Y⟩, ⟨⟨2, ![400000, n]⟩, Y⟩] h (ix2 i k) = Y (ix2 (half i) k) := by
  by_cases hi : i.val < 400000
  · refine concatenate_pair_apply_left (0 : Fin 2) Y Y h (ix2 i k) rfl (ix2 (half i) k) fun b => ?_
    match b with
    | ⟨0, _⟩ => show i.val % 400000 = i.val; exact Nat.mod_eq_of_lt hi
    | ⟨1, _⟩ => rfl
  · refine concatenate_pair_apply_right (0 : Fin 2) Y Y h (ix2 i k) rfl rfl (ix2 (half i) k) (fun b hb => ?_) ?_
    · match b with
      | ⟨0, _⟩ => exact absurd rfl hb
      | ⟨1, _⟩ => rfl
    · show i.val % 400000 + 400000 = i.val
      have := i.isLt; omega

/-- A `[400000]` array laid twice, at `i`: entry `i mod 400000`. -/
theorem twiceFlat_apply (q : (⟨1, ![400000]⟩ : Shape).Idx → α)
    (h : Shape.Concatenates [⟨1, ![400000]⟩, ⟨1, ![400000]⟩] ⟨1, ![800000]⟩ (0 : Fin 1)) (i : Fin 800000) :
    concatenate ⟨1, ![800000]⟩ (0 : Fin 1) [⟨⟨1, ![400000]⟩, q⟩, ⟨⟨1, ![400000]⟩, q⟩] h (ix1 i) = q (ix1 (half i)) := by
  by_cases hi : i.val < 400000
  · refine concatenate_pair_apply_left (0 : Fin 1) q q h (ix1 i) rfl (ix1 (half i)) fun b => ?_
    match b with
    | ⟨0, _⟩ => show i.val % 400000 = i.val; exact Nat.mod_eq_of_lt hi
  · refine concatenate_pair_apply_right (0 : Fin 1) q q h (ix1 i) rfl rfl (ix1 (half i)) (fun b hb => ?_) ?_
    · match b with
      | ⟨0, _⟩ => exact absurd rfl hb
    · show i.val % 400000 + 400000 = i.val
      have := i.isLt; omega

/-- Two `[800000, 128]` arrays side by side, at a column of the first half: the first array. -/
theorem sideBySide_left (A B : (⟨2, ![800000, 128]⟩ : Shape).Idx → α)
    (h : Shape.Concatenates [⟨2, ![800000, 128]⟩, ⟨2, ![800000, 128]⟩] ⟨2, ![800000, 256]⟩ (1 : Fin 2)) (i : Fin 800000) (j : Fin 128) :
    concatenate ⟨2, ![800000, 256]⟩ (1 : Fin 2) [⟨⟨2, ![800000, 128]⟩, A⟩, ⟨⟨2, ![800000, 128]⟩, B⟩] h (ix2 i (Fin.castAdd 128 j)) = A (ix2 i j) := by
  refine concatenate_pair_apply_left (1 : Fin 2) A B h (ix2 i (Fin.castAdd 128 j)) rfl (ix2 i j) fun b => ?_
  match b with
  | ⟨0, _⟩ => rfl
  | ⟨1, _⟩ => rfl

/-- At a column of the second half: the second array. -/
theorem sideBySide_right (A B : (⟨2, ![800000, 128]⟩ : Shape).Idx → α)
    (h : Shape.Concatenates [⟨2, ![800000, 128]⟩, ⟨2, ![800000, 128]⟩] ⟨2, ![800000, 256]⟩ (1 : Fin 2)) (i : Fin 800000) (j : Fin 128) :
    concatenate ⟨2, ![800000, 256]⟩ (1 : Fin 2) [⟨⟨2, ![800000, 128]⟩, A⟩, ⟨⟨2, ![800000, 128]⟩, B⟩] h (ix2 i (Fin.natAdd 128 j)) = B (ix2 i j) := by
  refine concatenate_pair_apply_right (1 : Fin 2) A B h (ix2 i (Fin.natAdd 128 j)) rfl rfl (ix2 i j) (fun b hb => ?_) ?_
  · match b with
    | ⟨0, _⟩ => rfl
    | ⟨1, _⟩ => exact absurd rfl hb
  · show j.val + 128 = 128 + j.val
    omega

end Twice

/-! ## The reference's edge logits at an edge -/

section Ref
open Cert.ReferenceIdeal Cert.ReferenceIdeal.Gen

/-- The reference's source of edge `i` is entry `(i, 0)` of the endpoint array. -/
theorem srcRef_apply (E : IVec S1x2x400000 32) (i : Fin 800000) :
    shapeCast S800000 (extractStridedSlice S800000x1 ![0, 0] (eAll E) slices_S800000x2_S800000x1_0_0)
        shapeCasts_S800000x1_S800000 (ix1 i) = eAll E (ix2 i (0 : Fin 2)) :=
  (shapeCast_a1_a_apply _ _ i).trans (slice2_axis1_apply 0 (eAll E) _ i (0 : Fin 1) (0 : Fin 2) rfl)

theorem g2_eq : gather_S50000x128_S800000x1_S800000x128_1_0_n_n_0_1_1128
    = rowsDims 50000 128 800000 gather_S50000x128_S800000x1_S800000x128_1_0_n_n_0_1_1128.wf := rfl

/-- The start index the row gather uses for edge `i`: the row number normalised. -/
theorem normIdxRef_apply (S : IVec S800000 32) (i : Fin 800000) (u : Fin 1) :
    broadcastInDim S800000x1 ![0] bcast_S800000_S800000x1_0
        (select (cmpi .slt S (broadcastInDim S800000 ![] bcast_S_S800000 (constantI S_ 32 0#32)))
          (addi S (broadcastInDim S800000 ![] bcast_S_S800000 (constantI S_ 32 50000#32))) S) (ix2 i u)
      = norm50k (S (ix1 i)) := by
  refine (broadcastInDim_a_a1_apply _ _ i u).trans ?_
  rfl

/-- The node projection's rows gathered at the normalised rows, at `(i, j)`. -/
theorem hrows_apply (H : FVec Ideal S50000x128 .f32) (S : IVec S800000 32) (i : Fin 800000) (j : Fin 128) :
    Host.gather gather_S50000x128_S800000x1_S800000x128_1_0_n_n_0_1_1128 H
        (broadcastInDim S800000x1 ![0] bcast_S800000_S800000x1_0
          (select (cmpi .slt S (broadcastInDim S800000 ![] bcast_S_S800000 (constantI S_ 32 0#32)))
            (addi S (broadcastInDim S800000 ![] bcast_S_S800000 (constantI S_ 32 50000#32))) S)) (ix2 i j)
      = H (ix2 (rowOf 50000 (by decide) (norm50k (S (ix1 i)))) j) := by
  rw [g2_eq]
  refine (gather_rows_apply (by decide) _ H _ i j).trans ?_
  rw [normIdxRef_apply]

set_option maxHeartbeats 400000 in
/-- The concatenated edge features at a column of the first half: the source row of the node projection. -/
theorem eexp_left (H : FVec Ideal S50000x128 .f32) (EV : FVec Ideal S800000x128 .f32) (E : IVec S1x2x400000 32)
    (i : Fin 800000) (j : Fin 128) :
    (eexpR (F := Ideal)).1 H EV E (ix2 i (Fin.castAdd 128 j))
      = H (ix2 (rowOf 50000 (by decide) (norm50k (eAll E (ix2 i (0 : Fin 2))))) j) := by
  dsimp only [eexpR]
  refine (sideBySide_left _ EV _ i j).trans ?_
  refine (hrows_apply H _ i j).trans ?_
  exact congrArg (fun v => H (ix2 (rowOf 50000 (by decide) (norm50k v)) j)) (srcRef_apply E i)

set_option maxHeartbeats 400000 in
/-- At a column of the second half: the edge projection. -/
theorem eexp_right (H : FVec Ideal S50000x128 .f32) (EV : FVec Ideal S800000x128 .f32) (E : IVec S1x2x400000 32)
    (i : Fin 800000) (j : Fin 128) :
    (eexpR (F := Ideal)).1 H EV E (ix2 i (Fin.natAdd 128 j)) = EV (ix2 i j) := by
  dsimp only [eexpR]
  exact sideBySide_right _ EV _ i j

/-- The edge projection at `(i, j)`: the edge features, laid twice, against the edge weights. -/
theorem eproj_apply (Y : FVec Ideal S400000x128 .f32) (We : FVec Ideal S128x128 .f32) (i : Fin 800000) (j : Fin 128) :
    Host.dotGeneral dot_S800000x128_S128x128_S800000x128_1_0_0_1_n_n none
        (concatenate S800000x128 0 [⟨S400000x128, Y⟩, ⟨S400000x128, Y⟩] concatenates_S400000x128_S400000x128_S800000x128_d0) We (ix2 i j)
      = ∑ k : Fin 128, Y (ix2 (half i) k) * We (ix2 k j) := by
  refine (dotGeneral_plain_apply (M := 800000) (K := 128) (N := 128) none .single _ We i j).trans ?_
  exact Finset.sum_congr rfl fun k _ => congrArg (· * We (ix2 k j)) (twiceRows_apply Y _ i k)

end Ref

/-! ## The kernel program's edge logits at an edge -/

section Ker
open Cert.KernelIdeal Cert.KernelIdeal.Gen

/-- The first column of the edge projection, flat, at `r`. -/
theorem qcol_apply (Q : FVec Ideal S400000x4 .f32) (r : Fin 400000) :
    shapeCast S400000 (extractStridedSlice S400000x1 ![0, 0] Q slices_S400000x4_S400000x1_0_0)
        shapeCasts_S400000x1_S400000 (ix1 r) = Q (ix2 r (0 : Fin 4)) :=
  (shapeCast_a1_a_apply _ _ r).trans (slice2_axis1_apply 0 Q _ r (0 : Fin 1) (0 : Fin 4) rfl)

set_option maxHeartbeats 1000000 in
/-- The kernel program's edge logit at edge `i`: column 2 of the node projection at the source row plus column 0 of the
    edge projection at the edge's row of the given edge list. -/
theorem epreK_apply (P : FVec Ideal S50000x4 .f32) (Q : FVec Ideal S400000x4 .f32) (E : IVec S1x2x400000 32) (i : Fin 800000) :
    (epreK (F := Ideal)).1 P Q E (ix1 i)
      = P (ix2 (rowOf 50000 (by decide) (norm50k ((srcK (F := Ideal)).1 E (ix1 i)))) (2 : Fin 4))
        + Q (ix2 (half i) (0 : Fin 4)) :=
  congrArg₂ (· + ·) (colAt P ((srcK (F := Ideal)).1 E) 2 2 rfl _ i)
    ((twiceFlat_apply _ concatenates_S400000_S400000_S800000_d0 i).trans (qcol_apply Q (half i)))

end Ker

section RefLogit
open Cert.ReferenceIdeal Cert.ReferenceIdeal.Gen

set_option maxHeartbeats 400000 in
/-- The reference's edge logit at edge `i`: the source row of the node projection against the first half of the
    attention column plus the edge's row of the edge projection against the second half. -/
theorem epreR_apply (X : FVec Ideal S50000x256 .f32) (W : FVec Ideal S256x128 .f32) (Y : FVec Ideal S400000x128 .f32)
    (We : FVec Ideal S128x128 .f32) (ae : FVec Ideal S256x1 .f32) (E : IVec S1x2x400000 32) (i : Fin 800000) :
    shapeCast S800000 (Host.dotGeneral dot_S800000x256_S256x1_S800000x1_1_0_0_1_n_n none
        ((eexpR (F := Ideal)).1 (Host.dotGeneral dot_S50000x256_S256x128_S50000x128_1_0_0_1_n_n none X W)
          (Host.dotGeneral dot_S800000x128_S128x128_S800000x128_1_0_0_1_n_n none
            (concatenate S800000x128 0 [⟨S400000x128, Y⟩, ⟨S400000x128, Y⟩] concatenates_S400000x128_S400000x128_S800000x128_d0) We) E) ae)
        shapeCasts_S800000x1_S800000 (ix1 i)
      = ∑ j : Fin 128, (∑ k : Fin 256, X (ix2 (rowOf 50000 (by decide) (norm50k (eAll E (ix2 i (0 : Fin 2))))) k) * W (ix2 k j))
            * ae (ix2 (Fin.castAdd 128 j) (0 : Fin 1))
        + ∑ j : Fin 128, (∑ k : Fin 128, Y (ix2 (half i) k) * We (ix2 k j)) * ae (ix2 (Fin.natAdd 128 j) (0 : Fin 1)) := by
  refine (dotCol_apply _ ae i).trans ?_
  refine congrArg₂ (· + ·) (Finset.sum_congr rfl fun j _ => ?_) (Finset.sum_congr rfl fun j _ => ?_)
  · refine congrArg (· * ae (ix2 (Fin.castAdd 128 j) (0 : Fin 1))) ?_
    exact (eexp_left _ _ E i j).trans (proj_apply X W _ j)
  · refine congrArg (· * ae (ix2 (Fin.natAdd 128 j) (0 : Fin 1))) ?_
    exact (eexp_right _ _ E i j).trans (eproj_apply Y We i j)

end RefLogit

set_option maxHeartbeats 400000 in
/-- THE EDGE LOGITS AGREE: when column 2 of `P` is, row by row, the node projection `X · W` against the first half of
    the edge attention column, and column 0 of `Q` is, row by row, the edge projection `Y · We` against the second half,
    the kernel program's edge logits are the reference's. -/
theorem epre_eq (X : FVec Ideal ⟨2, ![50000, 256]⟩ .f32) (W : FVec Ideal ⟨2, ![256, 128]⟩ .f32)
    (Y : FVec Ideal ⟨2, ![400000, 128]⟩ .f32) (We : FVec Ideal ⟨2, ![128, 128]⟩ .f32)
    (ae : FVec Ideal ⟨2, ![256, 1]⟩ .f32) (E : IVec ⟨3, ![1, 2, 400000]⟩ 32)
    (P : FVec Ideal ⟨2, ![50000, 4]⟩ .f32) (Q : FVec Ideal ⟨2, ![400000, 4]⟩ .f32)
    (hP2 : ∀ r : Fin 50000, P (ix2 r (2 : Fin 4))
      = ∑ j : Fin 128, (∑ k : Fin 256, X (ix2 r k) * W (ix2 k j)) * ae (ix2 ⟨j.val, by omega⟩ (0 : Fin 1)))
    (hQ0 : ∀ r : Fin 400000, Q (ix2 r (0 : Fin 4))
      = ∑ j : Fin 128, (∑ k : Fin 128, Y (ix2 r k) * We (ix2 k j)) * ae (ix2 ⟨128 + j.val, by omega⟩ (0 : Fin 1))) :
    (epreK (F := Ideal)).1 P Q E
      = shapeCast Cert.ReferenceIdeal.S800000
          (Host.dotGeneral Cert.ReferenceIdeal.dot_S800000x256_S256x1_S800000x1_1_0_0_1_n_n none
            ((eexpR (F := Ideal)).1
              (Host.dotGeneral Cert.ReferenceIdeal.dot_S50000x256_S256x128_S50000x128_1_0_0_1_n_n none X W)
              (Host.dotGeneral Cert.ReferenceIdeal.dot_S800000x128_S128x128_S800000x128_1_0_0_1_n_n none
                (concatenate Cert.ReferenceIdeal.S800000x128 0
                  [⟨Cert.ReferenceIdeal.S400000x128, Y⟩, ⟨Cert.ReferenceIdeal.S400000x128, Y⟩]
                  Cert.ReferenceIdeal.Facts₀.concatenates_S400000x128_S400000x128_S800000x128_d0) We) E) ae)
          Cert.ReferenceIdeal.Facts₀.shapeCasts_S800000x1_S800000 := by
  funext j
  obtain ⟨i, rfl⟩ : ∃ i : Fin 800000, j = ix1 i := ⟨j 0, eq_ix1 j⟩
  refine (epreK_apply P Q E i).trans ?_
  refine Eq.trans ?_ (epreR_apply X W Y We ae E i).symm
  rw [hP2, hQ0, srcK_apply]
  rfl

end Cert.Bridge
end
-- ==== Proof.MidEq.lean ====
/- The two programs' middle lines are the same functions. The kernel program and the reference call the same
   module-local functions on the same shapes between the logits and the normalized attentions, so piece by piece the
   kernel program's function IS the reference's: the same operations over shapes, dimension records and side conditions
   that are equal literals, equal records and proofs. The four composed results are then the same compositions of the
   same functions. Two pieces differ in where they start: the
   reference's node attention computes the logits' sign test and sloped copy itself (the kernel program's takes them as
   inputs), and the reference's edge attention computes the edge logits itself (the kernel program's takes them). -/
import proofs.«130992_j35871566856204_2_alg».proof.Proof.RStageM
import proofs.«130992_j35871566856204_2_alg».proof.Proof.KStageM
import Idealize.ShloMosaic.PureOps.Ideal

noncomputable section
namespace Cert.Bridge
open Idealize.ShloMosaic Idealize.ShloMosaic.StableHlo
open Cert.KernelIdeal.Bridge (natt_K eatt_K zeros_K c15_K one_K counts_K nsum_K esum_K rollA_K cumA_K idxA_K takeA_K rollB_K cumB_K idxB_K takeB_K nnorm_K enorm_K nvar_K evar_K nnormMid enormMid nvarMid evarMid)
open Cert.ReferenceIdeal.Bridge (natt_R eatt_R consts_v44_R consts_c11_R consts_c31_R counts_R nsum_R esum_R rollA_R cumA_R idxA_R takeA_R rollB_R cumB_R idxB_R takeB_R nnorm_R enorm_R nvar_R evar_R nnormF enormF nvarF evarF countsF)

/-! ## Piece by piece -/

set_option maxHeartbeats 400000 in
/-- The sources' counts (the kernel program's piece takes the sources first, the reference's the clipping bound). -/
theorem counts_eq (s : IVec ⟨1, ![800000]⟩ 32) :
    (counts_K (F := Ideal)).1 s (c15_K (F := Ideal)).1 (zeros_K (F := Ideal)).1
      = (counts_R (F := Ideal)).1 (consts_c11_R (F := Ideal)).1 s (consts_v44_R (F := Ideal)).1 := rfl

set_option maxHeartbeats 400000 in
theorem nsum_eq (s : IVec ⟨1, ![800000]⟩ 32) (w : FVec Ideal ⟨1, ![800000]⟩ .f32) :
    (nsum_K (F := Ideal)).1 s w = (nsum_R (F := Ideal)).1 s w := rfl

set_option maxHeartbeats 400000 in
theorem esum_eq (s : IVec ⟨1, ![800000]⟩ 32) (w : FVec Ideal ⟨1, ![800000]⟩ .f32) :
    (esum_K (F := Ideal)).1 s w = (esum_R (F := Ideal)).1 s w := rfl

set_option maxHeartbeats 400000 in
theorem rollA_eq (c : IVec ⟨1, ![50000]⟩ 32) : (rollA_K (F := Ideal)).1 c = (rollA_R (F := Ideal)).1 c := rfl

set_option maxHeartbeats 400000 in
theorem cumA_eq (c : IVec ⟨1, ![50000]⟩ 32) : (cumA_K (F := Ideal)).1 c = (cumA_R (F := Ideal)).1 c := rfl

set_option maxHeartbeats 400000 in
theorem idxA_eq (c : IVec ⟨1, ![800000]⟩ 32) : (idxA_K (F := Ideal)).1 c = (idxA_R (F := Ideal)).1 c := rfl

set_option maxHeartbeats 400000 in
/-- The denominators' lookup (the kernel program's piece takes the table first, the reference's the positions). -/
theorem takeA_eq (t : FVec Ideal ⟨1, ![50000]⟩ .f32) (i : IVec ⟨1, ![800000]⟩ 32) :
    (takeA_K (F := Ideal)).1 t i = (takeA_R (F := Ideal)).1 i t := rfl

set_option maxHeartbeats 400000 in
theorem rollB_eq (c : IVec ⟨1, ![50000]⟩ 32) : (rollB_K (F := Ideal)).1 c = (rollB_R (F := Ideal)).1 c := rfl

set_option maxHeartbeats 400000 in
theorem cumB_eq (c : IVec ⟨1, ![50000]⟩ 32) : (cumB_K (F := Ideal)).1 c = (cumB_R (F := Ideal)).1 c := rfl

set_option maxHeartbeats 400000 in
theorem idxB_eq (c : IVec ⟨1, ![800000]⟩ 32) : (idxB_K (F := Ideal)).1 c = (idxB_R (F := Ideal)).1 c := rfl

set_option maxHeartbeats 400000 in
theorem takeB_eq (t : FVec Ideal ⟨1, ![50000]⟩ .f32) (i : IVec ⟨1, ![800000]⟩ 32) :
    (takeB_K (F := Ideal)).1 t i = (takeB_R (F := Ideal)).1 i t := rfl

set_option maxHeartbeats 400000 in
theorem nnorm_eq (w d : FVec Ideal ⟨1, ![800000]⟩ .f32) : (nnorm_K (F := Ideal)).1 w d = (nnorm_R (F := Ideal)).1 w d := rfl

set_option maxHeartbeats 400000 in
theorem enorm_eq (w d : FVec Ideal ⟨1, ![800000]⟩ .f32) : (enorm_K (F := Ideal)).1 w d = (enorm_R (F := Ideal)).1 w d := rfl

set_option maxHeartbeats 400000 in
/-- The node variance, each side at its own constant one. -/
theorem nvar_eq (w : FVec Ideal ⟨1, ![800000]⟩ .f32) :
    (nvar_K (F := Ideal)).1 w (one_K (F := Ideal)).1 = (nvar_R (F := Ideal)).1 w (consts_c31_R (F := Ideal)).1 := rfl

set_option maxHeartbeats 400000 in
theorem evar_eq (w : FVec Ideal ⟨1, ![800000]⟩ .f32) : (evar_K (F := Ideal)).1 w = (evar_R (F := Ideal)).1 w := rfl

set_option maxHeartbeats 400000 in
/-- The node attention: the kernel program's piece at the logits' own sign test and sloped copy is the reference's, which
    computes both itself. -/
theorem natt_eq (x : FVec Ideal ⟨1, ![800000]⟩ .f32) :
    (natt_K (F := Ideal)).1 x
        (cmpf .oge x (broadcastInDim Cert.KernelIdeal.S800000 ![] Cert.KernelIdeal.Gen.bcast_S_S800000 (constant Cert.KernelIdeal.S_ .f32 0x00000000#32)))
        (mulf (broadcastInDim Cert.KernelIdeal.S800000 ![] Cert.KernelIdeal.Gen.bcast_S_S800000 (constant Cert.KernelIdeal.S_ .f32 0x3E4CCCCD#32)) x)
      = (natt_R (F := Ideal)).1 x := rfl

set_option maxHeartbeats 400000 in
/-- The edge attention: the kernel program's piece at the edge features against the attention vector, as one column, is
    the reference's, which computes those logits itself. -/
theorem eatt_eq (e : FVec Ideal ⟨2, ![800000, 256]⟩ .f32) (a : FVec Ideal ⟨2, ![256, 1]⟩ .f32) :
    (eatt_K (F := Ideal)).1
        (shapeCast Cert.ReferenceIdeal.S800000 (Host.dotGeneral Cert.ReferenceIdeal.dot_S800000x256_S256x1_S800000x1_1_0_0_1_n_n none e a) Cert.ReferenceIdeal.Gen.shapeCasts_S800000x1_S800000)
      = (eatt_R (F := Ideal)).1 e a := rfl

/-! ## Composed -/

set_option maxHeartbeats 400000 in
/-- The normalized node attention. -/
theorem nnorm_mid_eq (x : FVec Ideal ⟨1, ![800000]⟩ .f32) (s : IVec ⟨1, ![800000]⟩ 32) :
    nnormF (F := Ideal) x s
      = nnormMid (F := Ideal) x
          (cmpf .oge x (broadcastInDim Cert.KernelIdeal.S800000 ![] Cert.KernelIdeal.Gen.bcast_S_S800000 (constant Cert.KernelIdeal.S_ .f32 0x00000000#32)))
          (mulf (broadcastInDim Cert.KernelIdeal.S800000 ![] Cert.KernelIdeal.Gen.bcast_S_S800000 (constant Cert.KernelIdeal.S_ .f32 0x3E4CCCCD#32)) x) s := by
  simp only [nnormF, countsF, nnormMid, nnorm_eq, takeA_eq, nsum_eq, idxA_eq, cumA_eq, rollA_eq, counts_eq]
  rw [natt_eq x]

set_option maxHeartbeats 400000 in
/-- The node attention's sample variance. -/
theorem nvar_mid_eq (x : FVec Ideal ⟨1, ![800000]⟩ .f32) (s : IVec ⟨1, ![800000]⟩ 32) :
    nvarF (F := Ideal) x s
      = nvarMid (F := Ideal) x
          (cmpf .oge x (broadcastInDim Cert.KernelIdeal.S800000 ![] Cert.KernelIdeal.Gen.bcast_S_S800000 (constant Cert.KernelIdeal.S_ .f32 0x00000000#32)))
          (mulf (broadcastInDim Cert.KernelIdeal.S800000 ![] Cert.KernelIdeal.Gen.bcast_S_S800000 (constant Cert.KernelIdeal.S_ .f32 0x3E4CCCCD#32)) x) s := by
  simp only [nvarF, nnormF, countsF, nvarMid, nnormMid, nnorm_eq, takeA_eq, nsum_eq, idxA_eq, cumA_eq, rollA_eq,
    counts_eq, nvar_eq]
  rw [natt_eq x]

set_option maxHeartbeats 400000 in
/-- The normalized edge attention. -/
theorem enorm_mid_eq (e : FVec Ideal ⟨2, ![800000, 256]⟩ .f32) (a : FVec Ideal ⟨2, ![256, 1]⟩ .f32) (s : IVec ⟨1, ![800000]⟩ 32) :
    enormF (F := Ideal) e a s
      = enormMid (F := Ideal)
          (shapeCast Cert.ReferenceIdeal.S800000 (Host.dotGeneral Cert.ReferenceIdeal.dot_S800000x256_S256x1_S800000x1_1_0_0_1_n_n none e a) Cert.ReferenceIdeal.Gen.shapeCasts_S800000x1_S800000) s := by
  simp only [enormF, countsF, enormMid, eatt_eq, enorm_eq, takeB_eq, esum_eq, idxB_eq, cumB_eq, rollB_eq, counts_eq]

set_option maxHeartbeats 400000 in
/-- The edge attention's sample variance. -/
theorem evar_mid_eq (e : FVec Ideal ⟨2, ![800000, 256]⟩ .f32) (a : FVec Ideal ⟨2, ![256, 1]⟩ .f32) (s : IVec ⟨1, ![800000]⟩ 32) :
    evarF (F := Ideal) e a s
      = evarMid (F := Ideal)
          (shapeCast Cert.ReferenceIdeal.S800000 (Host.dotGeneral Cert.ReferenceIdeal.dot_S800000x256_S256x1_S800000x1_1_0_0_1_n_n none e a) Cert.ReferenceIdeal.Gen.shapeCasts_S800000x1_S800000) s := by
  simp only [evarF, enormF, countsF, evarMid, enormMid, eatt_eq, enorm_eq, takeB_eq, esum_eq, idxB_eq, cumB_eq, rollB_eq,
    counts_eq, evar_eq]

end Cert.Bridge
end
-- ==== Proof.LibScatterRows.lean ====
/-
  Adding rows into a matrix by a column of row numbers. The host's accumulating scatter of updates `[M, D]` into an
  operand `[N, D]` at scatter indices `[M, 1]` (window axis 1, axis 0 inserted and named by the index): at the ideal
  values entry `(n, c)` of the result is the operand's entry plus the sum, over the update rows `t` whose index —
  read as a signed integer, not clamped — is `n`, of the update's entry `(t, c)`. Columns do not mix: the result's
  column `c` depends on the updates' column `c` only.
-/
import Idealize.ShloMosaic.Lib.ValueIdx
import Idealize.ShloMosaic.PureOps.Ideal.Laws
import proofs.«130992_j35871566856204_2_alg».proof.Proof.LibColumns

open scoped BigOperators

namespace Idealize.ShloMosaic.ScatterRows

open Idealize.ShloMosaic.ValueIdx

/-- The dimension numbers of a row scatter: operand `[N, D]`, scatter indices `[M, 1]`, updates `[M, D]`. -/
abbrev rowsScatter (N D M : Nat)
    (wf : ScatterDims.WF ⟨2, ![N, D]⟩ ⟨2, ![M, 1]⟩ ⟨2, ![M, D]⟩ [1] [0] [0] 1) :
    ScatterDims ⟨2, ![N, D]⟩ ⟨2, ![M, 1]⟩ ⟨2, ![M, D]⟩ where
  updateWindowDims := [1]
  insertedWindowDims := [0]
  scatterDimsToOperandDims := [0]
  indexVectorDim := 1
  wf := wf

variable {N D M w : Nat} (wf : ScatterDims.WF ⟨2, ![N, D]⟩ ⟨2, ![M, 1]⟩ ⟨2, ![M, D]⟩ [1] [0] [0] 1)

theorem start0 (idx : IVec ⟨2, ![M, 1]⟩ w) (t : Fin M) (c : Fin D) (h0 : 0 < 2) :
    (rowsScatter N D M wf).start (ix2 t c) idx ⟨0, h0⟩ = (idx (ix2 t (0 : Fin 1))).toInt := by
  unfold ScatterDims.start
  rw [dif_pos (show (⟨0, h0⟩ : Fin 2) ∈ (rowsScatter N D M wf).scatterDimsToOperandDims from List.mem_singleton.mpr rfl)]
  have hsi : (rowsScatter N D M wf).siIdx (ix2 t c) ⟨List.idxOf (⟨0, h0⟩ : Fin 2) (rowsScatter N D M wf).scatterDimsToOperandDims,
      List.idxOf_lt_length_iff.2 (List.mem_singleton.mpr rfl)⟩ = ix2 t (0 : Fin 1) := by
    funext b; refine Fin.ext ?_
    match b with
    | ⟨0, _⟩ => rfl
    | ⟨1, _⟩ => rfl
  rw [hsi]

theorem start1 (idx : IVec ⟨2, ![M, 1]⟩ w) (t : Fin M) (c : Fin D) (h1 : 1 < 2) :
    (rowsScatter N D M wf).start (ix2 t c) idx ⟨1, h1⟩ = 0 := by
  unfold ScatterDims.start
  rw [dif_neg (fun h => absurd (Fin.ext_iff.mp (List.mem_singleton.mp h)) Nat.one_ne_zero)]

theorem window0 (t : Fin M) (c : Fin D) (h0 : 0 < 2) : (rowsScatter N D M wf).window (ix2 t c) ⟨0, h0⟩ = 0 := by
  unfold ScatterDims.window
  have hkept : (rowsScatter N D M wf).sKept = [(⟨1, Nat.one_lt_two⟩ : Fin 2)] := rfl
  rw [dif_neg (by rw [hkept]; exact fun h => absurd (Fin.ext_iff.mp (List.mem_singleton.mp h)) (Nat.zero_ne_one))]

theorem window1 (t : Fin M) (c : Fin D) (h1 : 1 < 2) : (rowsScatter N D M wf).window (ix2 t c) ⟨1, h1⟩ = c.val := by
  unfold ScatterDims.window
  have hkept : (rowsScatter N D M wf).sKept = [(⟨1, h1⟩ : Fin 2)] := rfl
  rw [dif_pos (by rw [hkept]; exact List.mem_singleton.mpr rfl)]
  simp only [hkept]
  rfl

/-- Where update entry `(t, c')` lands: at `(n, c)` exactly when row `t`'s index is `n` and the columns agree. -/
theorem resultIdx_eq_some_iff (idx : IVec ⟨2, ![M, 1]⟩ w) (t : Fin M) (c' : Fin D) (n : Fin N) (c : Fin D) :
    (rowsScatter N D M wf).resultIdx? (ix2 t c') idx = some (ix2 n c)
      ↔ (idx (ix2 t (0 : Fin 1))).toInt = (n.val : ℤ) ∧ c' = c := by
  unfold ScatterDims.resultIdx?
  constructor
  · intro h
    split at h
    · rename_i hall
      have hf := Option.some.inj h
      have e0 := congrArg (fun f => (f (⟨0, Nat.zero_lt_two⟩ : Fin 2)).val) hf
      have e1 := congrArg (fun f => (f (⟨1, Nat.one_lt_two⟩ : Fin 2)).val) hf
      simp only [start0, start1, window0, window1] at e0 e1
      have h0 := (hall ⟨0, Nat.zero_lt_two⟩).1
      simp only [start0, window0] at h0
      refine ⟨?_, Fin.ext ?_⟩
      · have : ((idx (ix2 t (0 : Fin 1))).toInt + ((0 : ℕ) : ℤ)).toNat = n.val := e0
        omega
      · have : ((0 : ℤ) + ((c'.val : ℕ) : ℤ)).toNat = c.val := e1
        omega
    · exact absurd h (by simp)
  · rintro ⟨hI, rfl⟩
    have hall : ∀ a : Fin 2, 0 ≤ (rowsScatter N D M wf).start (ix2 t c') idx a + (rowsScatter N D M wf).window (ix2 t c') a
        ∧ (rowsScatter N D M wf).start (ix2 t c') idx a + (rowsScatter N D M wf).window (ix2 t c') a
          < (⟨2, ![N, D]⟩ : Shape).size a := by
      intro a
      match a with
      | ⟨0, _⟩ =>
        rw [start0, window0, hI]
        have := n.isLt
        show 0 ≤ (n.val : ℤ) + ((0 : ℕ) : ℤ) ∧ (n.val : ℤ) + ((0 : ℕ) : ℤ) < (N : ℤ)
        omega
      | ⟨1, _⟩ =>
        rw [start1, window1]
        have := c'.isLt
        show 0 ≤ (0 : ℤ) + ((c'.val : ℕ) : ℤ) ∧ (0 : ℤ) + ((c'.val : ℕ) : ℤ) < (D : ℤ)
        omega
    rw [dif_pos hall]
    refine congrArg some (funext fun a => Fin.ext ?_)
    match a with
    | ⟨0, h0⟩ =>
      show ((rowsScatter N D M wf).start (ix2 t c') idx ⟨0, h0⟩ + (rowsScatter N D M wf).window (ix2 t c') ⟨0, h0⟩).toNat = n.val
      rw [start0, window0, hI]
      omega
    | ⟨1, h1⟩ =>
      show ((rowsScatter N D M wf).start (ix2 t c') idx ⟨1, h1⟩ + (rowsScatter N D M wf).window (ix2 t c') ⟨1, h1⟩).toNat = c'.val
      rw [start1, window1]
      omega

/-- THE ROW SCATTER-ADD READ AT `(n, c)`: the operand's entry plus the updates' entries `(t, c)` of the rows `t`
    whose index is `n`. -/
theorem scatterAdd_rows_apply (x : (⟨2, ![N, D]⟩ : Shape).Idx → EReal) (idx : IVec ⟨2, ![M, 1]⟩ w)
    (upd : (⟨2, ![M, D]⟩ : Shape).Idx → EReal) (n : Fin N) (c : Fin D) :
    Ideal.hostScatterAdd (rowsScatter N D M wf) x idx upd (ix2 n c)
      = x (ix2 n c) + ∑ t ∈ Finset.univ.filter (fun t : Fin M => (idx (ix2 t (0 : Fin 1))).toInt = (n.val : ℤ)), upd (ix2 t c) := by
  unfold Ideal.hostScatterAdd
  refine congrArg (x (ix2 n c) + ·) ?_
  rw [Finset.sum_filter, sum_idx2, Finset.sum_filter]
  refine Finset.sum_congr rfl fun t _ => ?_
  by_cases ht : (idx (ix2 t (0 : Fin 1))).toInt = (n.val : ℤ)
  · rw [if_pos ht]
    rw [Finset.sum_eq_single c]
    · rw [if_pos ((resultIdx_eq_some_iff wf idx t c n c).mpr ⟨ht, rfl⟩)]
    · intro c' _ hc'
      rw [if_neg (fun h => hc' ((resultIdx_eq_some_iff wf idx t c' n c).mp h).2)]
    · intro h; exact absurd (Finset.mem_univ c) h
  · rw [if_neg ht]
    exact Finset.sum_eq_zero fun c' _ => by
      rw [if_neg (fun h => ht ((resultIdx_eq_some_iff wf idx t c' n c).mp h).1)]

/-- The same for rows gathered elsewhere and scaled by one weight per update row, added into zeros: entry `(n, c)` is
    the sum over the update rows `t` whose index is `n` of `G (t, c) * v t`. The index column and the weight column
    are given as flat vectors broadcast to columns, as a segment sum prints them. -/
theorem scatterAdd_scaled_apply
    (hz : (⟨0, ![]⟩ : Shape).BroadcastsInDim ⟨2, ![N, D]⟩ ![])
    (hs : (⟨1, ![M]⟩ : Shape).BroadcastsInDim ⟨2, ![M, 1]⟩ ![0])
    (hb : (⟨2, ![M, 1]⟩ : Shape).BroadcastsInDim ⟨2, ![M, D]⟩ ![0, 1])
    (G : (⟨2, ![M, D]⟩ : Shape).Idx → EReal) (s : IVec ⟨1, ![M]⟩ w) (v : (⟨1, ![M]⟩ : Shape).Idx → EReal)
    (n : Fin N) (c : Fin D) :
    Ideal.hostScatterAdd (rowsScatter N D M wf)
        (broadcastInDim ⟨2, ![N, D]⟩ ![] hz (constant (F := Ideal) ⟨0, ![]⟩ .f32 0#32))
        (broadcastInDim ⟨2, ![M, 1]⟩ ![0] hs s)
        (fun j => G j * broadcastInDim ⟨2, ![M, D]⟩ ![0, 1] hb (broadcastInDim ⟨2, ![M, 1]⟩ ![0] hs v) j) (ix2 n c)
      = ∑ t ∈ Finset.univ.filter (fun t : Fin M => (s (ix1 t)).toInt = (n.val : ℤ)), G (ix2 t c) * v (ix1 t) := by
  rw [scatterAdd_rows_apply]
  have hzero : broadcastInDim ⟨2, ![N, D]⟩ ![] hz (constant (F := Ideal) ⟨0, ![]⟩ .f32 0#32) (ix2 n c) = 0 := by
    refine (Columns.broadcastInDim_scalar_apply _ _ _).trans ?_
    exact Ideal.ofBits_zero_f32
  rw [hzero, zero_add]
  have hidx : ∀ t : Fin M, broadcastInDim ⟨2, ![M, 1]⟩ ![0] hs s (ix2 t (0 : Fin 1)) = s (ix1 t) :=
    fun t => Columns.broadcastInDim_a_a1_apply _ _ t 0
  have hw : ∀ t : Fin M, broadcastInDim ⟨2, ![M, D]⟩ ![0, 1] hb (broadcastInDim ⟨2, ![M, 1]⟩ ![0] hs v) (ix2 t c) = v (ix1 t) :=
    fun t => (Columns.broadcastInDim_a1_ab_apply _ _ t c).trans (Columns.broadcastInDim_a_a1_apply _ _ t 0)
  simp only [hidx, hw]

end Idealize.ShloMosaic.ScatterRows
-- ==== Proof.LibSegmentRows.lean ====
/-
  A segment sum of gathered rows. Adding update rows `[M, D]` into a zero matrix `[N, D]` by a flat vector of row
  numbers: entry `(n, c)` of the result is the sum, over the update rows `t` whose row number is `n`, of the update's
  entry `(t, c)`. When the update rows are rows of a matrix `X : [R, D]` gathered at start indices that are first
  normalised (a negative index `v` is replaced by `v + K`), each scaled by a weight `v t`, the entry is the sum over those
  `t` of `X (row t, c) * v t`. A normalised index that was non-negative is unchanged.
-/
import proofs.«130992_j35871566856204_2_alg».proof.Proof.LibScatterRows
import proofs.«130992_j35871566856204_2_alg».proof.Proof.LibGatherRows
import Idealize.ShloMosaic.Lib.Affine

open scoped BigOperators

namespace Idealize.ShloMosaic.ScatterRows

open Idealize.ShloMosaic.ValueIdx Idealize.ShloMosaic.GatherRows

/-- A row number with a negative one counted from the end of `K` rows: `v + K` when `v < 0` (signed), else `v`. -/
def normBy (K v : BitVec 32) : BitVec 32 := Scalar.select (IntOp.cmpi .slt v 0#32) (IntOp.addi v K) v

/-- A non-negative row number is unchanged. -/
theorem normBy_of_nonneg (K v : BitVec 32) (h0 : 0 ≤ v.toInt) : normBy K v = v := by
  unfold normBy
  have h00 : (0#32 : BitVec 32).toInt = 0 := by decide
  have hc : IntOp.cmpi .slt v 0#32 = 0#1 :=
    eq_zero_of_ne_one (fun h => by have := IntOp.cmpi_slt.1 h; rw [h00] at this; omega)
  rw [hc, select_zero]

section
variable {M : Nat}

/-- The normalised start indices, as a column, at row `i`. -/
theorem normIdxM_apply (K : BitVec 32) (hb0 : (⟨0, ![]⟩ : Shape).BroadcastsInDim ⟨1, ![M]⟩ ![])
    (hb1 : (⟨1, ![M]⟩ : Shape).BroadcastsInDim ⟨2, ![M, 1]⟩ ![0]) (S : IVec ⟨1, ![M]⟩ 32) (i : Fin M) (u : Fin 1) :
    broadcastInDim ⟨2, ![M, 1]⟩ ![0] hb1
        (select (cmpi .slt S (broadcastInDim ⟨1, ![M]⟩ ![] hb0 (constantI ⟨0, ![]⟩ 32 0#32)))
          (addi S (broadcastInDim ⟨1, ![M]⟩ ![] hb0 (constantI ⟨0, ![]⟩ 32 K))) S) (ix2 i u)
      = normBy K (S (ix1 i)) :=
  (Columns.broadcastInDim_a_a1_apply _ _ i u).trans rfl

/-- Rows of `x : [R, D]` gathered at the normalised start indices, at `(t, c)`. -/
theorem gather_norm_apply {α : Type} {R D : Nat} (hR : 0 < R)
    (wfg : GatherDims.WF ⟨2, ![R, D]⟩ ⟨2, ![M, 1]⟩ ⟨2, ![M, D]⟩ [1] [0] [] [0] [] 1 ![1, D])
    (K : BitVec 32) (hb0 : (⟨0, ![]⟩ : Shape).BroadcastsInDim ⟨1, ![M]⟩ ![])
    (hb1 : (⟨1, ![M]⟩ : Shape).BroadcastsInDim ⟨2, ![M, 1]⟩ ![0])
    (x : (⟨2, ![R, D]⟩ : Shape).Idx → α) (S : IVec ⟨1, ![M]⟩ 32) (t : Fin M) (c : Fin D) :
    Host.gather (rowsDims R D M wfg) x
        (broadcastInDim ⟨2, ![M, 1]⟩ ![0] hb1
          (select (cmpi .slt S (broadcastInDim ⟨1, ![M]⟩ ![] hb0 (constantI ⟨0, ![]⟩ 32 0#32)))
            (addi S (broadcastInDim ⟨1, ![M]⟩ ![] hb0 (constantI ⟨0, ![]⟩ 32 K))) S)) (ix2 t c)
      = x (ix2 (rowOf R hR (normBy K (S (ix1 t)))) c) :=
  (gather_rows_apply hR wfg x _ t c).trans (by rw [normIdxM_apply])

end

variable {N D M w : Nat} (wf : ScatterDims.WF ⟨2, ![N, D]⟩ ⟨2, ![M, 1]⟩ ⟨2, ![M, D]⟩ [1] [0] [0] 1)

/-- THE SEGMENT SUM READ AT `(n, c)`: update rows added into zeros by a flat vector of row numbers. -/
theorem scatterAdd_zeros_apply
    (hz : (⟨0, ![]⟩ : Shape).BroadcastsInDim ⟨2, ![N, D]⟩ ![])
    (hs : (⟨1, ![M]⟩ : Shape).BroadcastsInDim ⟨2, ![M, 1]⟩ ![0])
    (upd : (⟨2, ![M, D]⟩ : Shape).Idx → EReal) (s : IVec ⟨1, ![M]⟩ w) (n : Fin N) (c : Fin D) :
    Ideal.hostScatterAdd (rowsScatter N D M wf)
        (broadcastInDim ⟨2, ![N, D]⟩ ![] hz (constant (F := Ideal) ⟨0, ![]⟩ .f32 0#32))
        (broadcastInDim ⟨2, ![M, 1]⟩ ![0] hs s) upd (ix2 n c)
      = ∑ t ∈ Finset.univ.filter (fun t : Fin M => (s (ix1 t)).toInt = (n.val : ℤ)), upd (ix2 t c) := by
  rw [scatterAdd_rows_apply]
  have hzero : broadcastInDim ⟨2, ![N, D]⟩ ![] hz (constant (F := Ideal) ⟨0, ![]⟩ .f32 0#32) (ix2 n c) = 0 := by
    refine (Columns.broadcastInDim_scalar_apply _ _ _).trans ?_
    exact Ideal.ofBits_zero_f32
  rw [hzero, zero_add]
  have hidx : ∀ t : Fin M, broadcastInDim ⟨2, ![M, 1]⟩ ![0] hs s (ix2 t (0 : Fin 1)) = s (ix1 t) :=
    fun t => Columns.broadcastInDim_a_a1_apply _ _ t 0
  simp only [hidx]

/-- THE SEGMENT SUM OF GATHERED, SCALED ROWS READ AT `(n, c)`. -/
theorem segsum_gather_apply {R : Nat} (hR : 0 < R)
    (wfg : GatherDims.WF ⟨2, ![R, D]⟩ ⟨2, ![M, 1]⟩ ⟨2, ![M, D]⟩ [1] [0] [] [0] [] 1 ![1, D])
    (K : BitVec 32)
    (hz : (⟨0, ![]⟩ : Shape).BroadcastsInDim ⟨2, ![N, D]⟩ ![])
    (hs : (⟨1, ![M]⟩ : Shape).BroadcastsInDim ⟨2, ![M, 1]⟩ ![0])
    (hb : (⟨2, ![M, 1]⟩ : Shape).BroadcastsInDim ⟨2, ![M, D]⟩ ![0, 1])
    (hb0 : (⟨0, ![]⟩ : Shape).BroadcastsInDim ⟨1, ![M]⟩ ![])
    (X : (⟨2, ![R, D]⟩ : Shape).Idx → EReal) (d : IVec ⟨1, ![M]⟩ 32) (s : IVec ⟨1, ![M]⟩ w)
    (v : (⟨1, ![M]⟩ : Shape).Idx → EReal) (n : Fin N) (c : Fin D) :
    Ideal.hostScatterAdd (rowsScatter N D M wf)
        (broadcastInDim ⟨2, ![N, D]⟩ ![] hz (constant (F := Ideal) ⟨0, ![]⟩ .f32 0#32))
        (broadcastInDim ⟨2, ![M, 1]⟩ ![0] hs s)
        (fun j => Host.gather (rowsDims R D M wfg) X
            (broadcastInDim ⟨2, ![M, 1]⟩ ![0] hs
              (select (cmpi .slt d (broadcastInDim ⟨1, ![M]⟩ ![] hb0 (constantI ⟨0, ![]⟩ 32 0#32)))
                (addi d (broadcastInDim ⟨1, ![M]⟩ ![] hb0 (constantI ⟨0, ![]⟩ 32 K))) d)) j
          * broadcastInDim ⟨2, ![M, D]⟩ ![0, 1] hb (broadcastInDim ⟨2, ![M, 1]⟩ ![0] hs v) j) (ix2 n c)
      = ∑ t ∈ Finset.univ.filter (fun t : Fin M => (s (ix1 t)).toInt = (n.val : ℤ)),
          X (ix2 (rowOf R hR (normBy K (d (ix1 t)))) c) * v (ix1 t) :=
  (scatterAdd_scaled_apply wf hz hs hb _ s v n c).trans
    (Finset.sum_congr rfl fun t _ => congrArg (· * v (ix1 t)) (gather_norm_apply hR wfg K hb0 hs X d t c))

/-! ### The same, as the host operations spell them -/

/-- The segment sum at `(n, c)`, for a scatter record that is the row scatter's. -/
theorem host_scatterAdd_zeros_apply
    (sd : ScatterDims ⟨2, ![N, D]⟩ ⟨2, ![M, 1]⟩ ⟨2, ![M, D]⟩) (hsd : sd = rowsScatter N D M wf)
    (hz : (⟨0, ![]⟩ : Shape).BroadcastsInDim ⟨2, ![N, D]⟩ ![])
    (hs : (⟨1, ![M]⟩ : Shape).BroadcastsInDim ⟨2, ![M, 1]⟩ ![0])
    (upd : FVec Ideal ⟨2, ![M, D]⟩ .f32) (s : IVec ⟨1, ![M]⟩ w) (n : Fin N) (c : Fin D) :
    Host.scatterAdd sd (broadcastInDim ⟨2, ![N, D]⟩ ![] hz (constant (F := Ideal) ⟨0, ![]⟩ .f32 0#32))
        (broadcastInDim ⟨2, ![M, 1]⟩ ![0] hs s) upd (ix2 n c)
      = ∑ t ∈ Finset.univ.filter (fun t : Fin M => (s (ix1 t)).toInt = (n.val : ℤ)), upd (ix2 t c) := by
  subst hsd
  exact scatterAdd_zeros_apply wf hz hs upd s n c

/-- The segment sum of gathered, scaled rows at `(n, c)`, for records that are the row scatter's and the row gather's. -/
theorem host_segsum_gather_apply {R : Nat} (hR : 0 < R)
    (sd : ScatterDims ⟨2, ![N, D]⟩ ⟨2, ![M, 1]⟩ ⟨2, ![M, D]⟩) (hsd : sd = rowsScatter N D M wf)
    (gd : GatherDims ⟨2, ![R, D]⟩ ⟨2, ![M, 1]⟩ ⟨2, ![M, D]⟩)
    (wfg : GatherDims.WF ⟨2, ![R, D]⟩ ⟨2, ![M, 1]⟩ ⟨2, ![M, D]⟩ [1] [0] [] [0] [] 1 ![1, D])
    (hgd : gd = rowsDims R D M wfg)
    (K : BitVec 32)
    (hz : (⟨0, ![]⟩ : Shape).BroadcastsInDim ⟨2, ![N, D]⟩ ![])
    (hs : (⟨1, ![M]⟩ : Shape).BroadcastsInDim ⟨2, ![M, 1]⟩ ![0])
    (hb : (⟨2, ![M, 1]⟩ : Shape).BroadcastsInDim ⟨2, ![M, D]⟩ ![0, 1])
    (hb0 : (⟨0, ![]⟩ : Shape).BroadcastsInDim ⟨1, ![M]⟩ ![])
    (X : FVec Ideal ⟨2, ![R, D]⟩ .f32) (d : IVec ⟨1, ![M]⟩ 32) (s : IVec ⟨1, ![M]⟩ w)
    (v : FVec Ideal ⟨1, ![M]⟩ .f32) (n : Fin N) (c : Fin D) :
    Host.scatterAdd sd (broadcastInDim ⟨2, ![N, D]⟩ ![] hz (constant (F := Ideal) ⟨0, ![]⟩ .f32 0#32))
        (broadcastInDim ⟨2, ![M, 1]⟩ ![0] hs s)
        (mulf
          (Host.gather gd X
            (broadcastInDim ⟨2, ![M, 1]⟩ ![0] hs
              (select (cmpi .slt d (broadcastInDim ⟨1, ![M]⟩ ![] hb0 (constantI ⟨0, ![]⟩ 32 0#32)))
                (addi d (broadcastInDim ⟨1, ![M]⟩ ![] hb0 (constantI ⟨0, ![]⟩ 32 K))) d)))
          (broadcastInDim ⟨2, ![M, D]⟩ ![0, 1] hb (broadcastInDim ⟨2, ![M, 1]⟩ ![0] hs v))) (ix2 n c)
      = ∑ t ∈ Finset.univ.filter (fun t : Fin M => (s (ix1 t)).toInt = (n.val : ℤ)),
          X (ix2 (rowOf R hR (normBy K (d (ix1 t)))) c) * v (ix1 t) := by
  subst hsd hgd
  exact segsum_gather_apply wf hR wfg K hz hs hb hb0 X d s v n c

end Idealize.ShloMosaic.ScatterRows
-- ==== Proof.OutEq.lean ====
/-
  The two feature results of the two programs are one function. Each result is a segment sum: entry `(n, c)` is the sum,
  over the edges `t` whose source is `n`, of a row entry gathered at the edge's destination times the edge's weight.
  The reference computes the node result from the node projection `H : [50000, 128]` with the node weights and the
  edge result from the edge projection `EV : [800000, 128]` with the edge weights. The kernel program lays the two
  matmul outputs side by side (`[50000, 256]`), gathers once, scales columns `0..127` by the node weights and columns
  `128..255` by the edge weights, adds once into `[50000, 256]` and cuts the result in its column halves. Columns do
  not mix in the sum, so column `c` of the first half is the node result's and column `c` of the second half the edge
  result's. For the edge result the kernel program reads rows `0..49999` of its matmul output and the reference rows of
  `EV` among 800000: with every destination in `[0, 50000)` both read row `dst t`.
-/
import proofs.«130992_j35871566856204_2_alg».proof.Proof.KStageE
import proofs.«130992_j35871566856204_2_alg».proof.Proof.RStageE
import proofs.«130992_j35871566856204_2_alg».proof.Proof.LibSegmentRows
import Idealize.ShloMosaic.Lib.ValueLayout
import Idealize.ShloMosaic.Lib.Pipeline.Value

set_option pp.maxSteps 20000

open scoped BigOperators

noncomputable section
namespace Cert.Bridge
open Idealize.ShloMosaic Idealize.ShloMosaic.ValueIdx Idealize.ShloMosaic.GatherRows Idealize.ShloMosaic.ScatterRows
open Idealize.ShloMosaic.Columns
open Cert.KernelIdeal.Bridge (out0K out1K)
open Cert.ReferenceIdeal.Bridge (out0R out1R)

/-! ### Two arrays side by side, read at a column -/

section Cat
variable {α : Type} {N D E : Nat}

/-- Two `[N, D]` arrays side by side read at a column of the first. -/
theorem cat1_left (x₁ x₂ : (⟨2, ![N, D]⟩ : Shape).Idx → α)
    (h : Shape.Concatenates [(⟨2, ![N, D]⟩ : Shape), ⟨2, ![N, D]⟩] ⟨2, ![N, E]⟩ (1 : Fin 2))
    (r : Fin N) (c : Fin D) (c' : Fin E) (hc : c'.val = c.val) :
    concatenate ⟨2, ![N, E]⟩ (1 : Fin 2) [⟨⟨2, ![N, D]⟩, x₁⟩, ⟨⟨2, ![N, D]⟩, x₂⟩] h (ix2 r c') = x₁ (ix2 r c) :=
  concatenate_pair_apply_left (1 : Fin 2) x₁ x₂ h (ix2 r c') rfl (ix2 r c)
    (fun b => match b with | ⟨0, _⟩ => rfl | ⟨1, _⟩ => hc.symm)

/-- Two `[N, D]` arrays side by side read at a column of the second. -/
theorem cat1_right (x₁ x₂ : (⟨2, ![N, D]⟩ : Shape).Idx → α)
    (h : Shape.Concatenates [(⟨2, ![N, D]⟩ : Shape), ⟨2, ![N, D]⟩] ⟨2, ![N, E]⟩ (1 : Fin 2))
    (r : Fin N) (c : Fin D) (c' : Fin E) (hc : c'.val = D + c.val) :
    concatenate ⟨2, ![N, E]⟩ (1 : Fin 2) [⟨⟨2, ![N, D]⟩, x₁⟩, ⟨⟨2, ![N, D]⟩, x₂⟩] h (ix2 r c') = x₂ (ix2 r c) :=
  concatenate_pair_apply_right (1 : Fin 2) x₁ x₂ h (ix2 r c') rfl rfl (ix2 r c)
    (fun b hb => match b, hb with
      | ⟨0, _⟩, _ => rfl
      | ⟨1, _⟩, hb => absurd rfl hb)
    (by show c.val + D = c'.val; omega)

end Cat

/-! ### The reference -/

section Ref
open Cert.ReferenceIdeal Cert.ReferenceIdeal.Gen

set_option maxHeartbeats 400000 in
/-- The reference's node result at `(n, c)`. -/
theorem out0R_apply (H : FVec Ideal S50000x128 .f32) (d s : IVec S800000 32) (nn : FVec Ideal S800000 .f32)
    (n : Fin 50000) (c : Fin 128) :
    (out0R (F := Ideal)).1 H d nn s (ix2 n c)
      = ∑ t ∈ Finset.univ.filter (fun t : Fin 800000 => (s (ix1 t)).toInt = (n.val : ℤ)),
          H (ix2 (rowOf 50000 (by decide) (normBy 50000#32 (d (ix1 t)))) c) * nn (ix1 t) := by
  dsimp only [out0R]
  exact host_segsum_gather_apply (N := 50000) (D := 128) (M := 800000) (R := 50000)
    scatter_S50000x128_S800000x1_S800000x128_1_0_0_1.wf (by decide)
    scatter_S50000x128_S800000x1_S800000x128_1_0_0_1 rfl
    gather_S50000x128_S800000x1_S800000x128_1_0_n_n_0_1_1128
    gather_S50000x128_S800000x1_S800000x128_1_0_n_n_0_1_1128.wf rfl 50000#32 _ _ _ _ H d s nn n c

set_option maxHeartbeats 400000 in
/-- The reference's edge result at `(n, c)`. -/
theorem out1R_apply (EV : FVec Ideal S800000x128 .f32) (d s : IVec S800000 32) (en : FVec Ideal S800000 .f32)
    (n : Fin 50000) (c : Fin 128) :
    (out1R (F := Ideal)).1 EV d en s (ix2 n c)
      = ∑ t ∈ Finset.univ.filter (fun t : Fin 800000 => (s (ix1 t)).toInt = (n.val : ℤ)),
          EV (ix2 (rowOf 800000 (by decide) (normBy 800000#32 (d (ix1 t)))) c) * en (ix1 t) := by
  dsimp only [out1R]
  exact host_segsum_gather_apply (N := 50000) (D := 128) (M := 800000) (R := 800000)
    scatter_S50000x128_S800000x1_S800000x128_1_0_0_1.wf (by decide)
    scatter_S50000x128_S800000x1_S800000x128_1_0_0_1 rfl
    gather_S800000x128_S800000x1_S800000x128_1_0_n_n_0_1_1128
    gather_S800000x128_S800000x1_S800000x128_1_0_n_n_0_1_1128.wf rfl 800000#32 _ _ _ _ EV d s en n c

end Ref

/-! ### The kernel program -/

section Kernel
open Cert.KernelIdeal Cert.KernelIdeal.Gen

/-- The gathered table: the node matmul output and the first 50000 rows of the edge matmul output, side by side. -/
def tcat (Hk : FVec Ideal S50000x128 .bf16) (Gk : FVec Ideal S400000x128 .bf16) : FVec Ideal S50000x256 .bf16 :=
  concatenate S50000x256 1
    [⟨S50000x128, Hk⟩,
      ⟨S50000x128, extractStridedSlice S50000x128 ![0, 0] Gk slices_S400000x128_S50000x128_0_0⟩]
    concatenates_S50000x128_S50000x128_S50000x256_d1

/-- The weights: the node weights on columns `0..127`, the edge weights on columns `128..255`. -/
def scaleK (nn en : FVec Ideal S800000 .f32) : FVec Ideal S800000x256 .f32 :=
  concatenate S800000x256 1
    [⟨S800000x128, broadcastInDim S800000x128 ![0, 1] bcast_S800000x1_S800000x128_0_1
        (broadcastInDim S800000x1 ![0] bcast_S800000_S800000x1_0 nn)⟩,
      ⟨S800000x128, broadcastInDim S800000x128 ![0, 1] bcast_S800000x1_S800000x128_0_1
        (broadcastInDim S800000x1 ![0] bcast_S800000_S800000x1_0 en)⟩]
    concatenates_S800000x128_S800000x128_S800000x256_d1

theorem tcat_left (Hk : FVec Ideal S50000x128 .bf16) (Gk : FVec Ideal S400000x128 .bf16) (r : Fin 50000) (c : Fin 128)
    (c' : Fin 256) (hc : c'.val = c.val) : tcat Hk Gk (ix2 r c') = Hk (ix2 r c) :=
  cat1_left (N := 50000) (D := 128) (E := 256) Hk _ _ r c c' hc

theorem tcat_right (Hk : FVec Ideal S50000x128 .bf16) (Gk : FVec Ideal S400000x128 .bf16) (r : Fin 50000) (c : Fin 128)
    (c' : Fin 256) (hc : c'.val = 128 + c.val) : tcat Hk Gk (ix2 r c') = Gk (ix2 ⟨r.val, by omega⟩ c) :=
  (cat1_right (N := 50000) (D := 128) (E := 256) Hk _ _ r c c' hc).trans
    (slice2_axis0_apply 0 Gk _ r c ⟨r.val, by omega⟩ (by show r.val = 0 + r.val; omega))

theorem scaleK_left (nn en : FVec Ideal S800000 .f32) (t : Fin 800000) (c : Fin 128) (c' : Fin 256)
    (hc : c'.val = c.val) : scaleK nn en (ix2 t c') = nn (ix1 t) :=
  (cat1_left (N := 800000) (D := 128) (E := 256) _ _ _ t c c' hc).trans
    ((broadcastInDim_a1_ab_apply _ _ t c).trans (broadcastInDim_a_a1_apply _ _ t 0))

theorem scaleK_right (nn en : FVec Ideal S800000 .f32) (t : Fin 800000) (c : Fin 128) (c' : Fin 256)
    (hc : c'.val = 128 + c.val) : scaleK nn en (ix2 t c') = en (ix1 t) :=
  (cat1_right (N := 800000) (D := 128) (E := 256) _ _ _ t c c' hc).trans
    ((broadcastInDim_a1_ab_apply _ _ t c).trans (broadcastInDim_a_a1_apply _ _ t 0))

set_option maxHeartbeats 400000 in
/-- One entry of the update: the table's row at the normalised destination times the weight. -/
theorem updK_apply (Hk : FVec Ideal S50000x128 .bf16) (Gk : FVec Ideal S400000x128 .bf16) (d : IVec S800000 32)
    (nn en : FVec Ideal S800000 .f32) (t : Fin 800000) (c' : Fin 256) :
    mulf
        (extf .f32
          (Host.gather gather_S50000x256_S800000x1_S800000x256_1_0_n_n_0_1_1256 (tcat Hk Gk)
            (broadcastInDim S800000x1 ![0] bcast_S800000_S800000x1_0
              (select (cmpi .slt d (broadcastInDim S800000 ![] bcast_S_S800000 (constantI S_ 32 0#32)))
                (addi d (broadcastInDim S800000 ![] bcast_S_S800000 (constantI S_ 32 50000#32))) d)))
          bitsLt_bf16_f32)
        (scaleK nn en) (ix2 t c')
      = tcat Hk Gk (ix2 (rowOf 50000 (by decide) (normBy 50000#32 (d (ix1 t)))) c') * scaleK nn en (ix2 t c') :=
  congrArg (· * scaleK nn en (ix2 t c'))
    (gather_norm_apply (R := 50000) (D := 256) (M := 800000) (by decide)
      gather_S50000x256_S800000x1_S800000x256_1_0_n_n_0_1_1256.wf 50000#32 _ _ (tcat Hk Gk) d t c')

set_option maxHeartbeats 400000 in
/-- The kernel program's first result at `(n, c)`: column `c` of the sum, the node matmul output's rows with the node
    weights. -/
theorem out0K_apply (Hk : FVec Ideal S50000x128 .bf16) (Gk : FVec Ideal S400000x128 .bf16) (d s : IVec S800000 32)
    (nn en : FVec Ideal S800000 .f32) (n : Fin 50000) (c : Fin 128) :
    (out0K (F := Ideal)).1 Hk Gk d nn en s (ix2 n c)
      = ∑ t ∈ Finset.univ.filter (fun t : Fin 800000 => (s (ix1 t)).toInt = (n.val : ℤ)),
          Hk (ix2 (rowOf 50000 (by decide) (normBy 50000#32 (d (ix1 t)))) c) * nn (ix1 t) := by
  dsimp only [out0K]
  refine (slice2_axis1_apply 0 _ _ n c (⟨c.val, by omega⟩ : Fin 256) (by show c.val = 0 + c.val; omega)).trans ?_
  refine (host_scatterAdd_zeros_apply (N := 50000) (D := 256) (M := 800000)
    scatter_S50000x256_S800000x1_S800000x256_1_0_0_1.wf scatter_S50000x256_S800000x1_S800000x256_1_0_0_1 rfl
    _ _ _ s n _).trans ?_
  refine Finset.sum_congr rfl fun t _ => ?_
  refine (updK_apply Hk Gk d nn en t _).trans ?_
  rw [tcat_left Hk Gk _ c _ rfl, scaleK_left nn en t c _ rfl]

set_option maxHeartbeats 400000 in
/-- The kernel program's second result at `(n, c)`: column `128 + c` of the sum, the edge matmul output's rows with the
    edge weights. -/
theorem out1K_apply (Hk : FVec Ideal S50000x128 .bf16) (Gk : FVec Ideal S400000x128 .bf16) (d s : IVec S800000 32)
    (nn en : FVec Ideal S800000 .f32) (n : Fin 50000) (c : Fin 128) :
    (out1K (F := Ideal)).1 Hk Gk d nn en s (ix2 n c)
      = ∑ t ∈ Finset.univ.filter (fun t : Fin 800000 => (s (ix1 t)).toInt = (n.val : ℤ)),
          Gk (ix2 ⟨(rowOf 50000 (by decide) (normBy 50000#32 (d (ix1 t)))).val, by omega⟩ c) * en (ix1 t) := by
  dsimp only [out1K]
  refine (slice2_axis1_apply 128 _ _ n c (⟨128 + c.val, by omega⟩ : Fin 256) rfl).trans ?_
  refine (host_scatterAdd_zeros_apply (N := 50000) (D := 256) (M := 800000)
    scatter_S50000x256_S800000x1_S800000x256_1_0_0_1.wf scatter_S50000x256_S800000x1_S800000x256_1_0_0_1 rfl
    _ _ _ s n _).trans ?_
  refine Finset.sum_congr rfl fun t _ => ?_
  refine (updK_apply Hk Gk d nn en t _).trans ?_
  rw [tcat_right Hk Gk _ c _ rfl, scaleK_right nn en t c _ rfl]

end Kernel

/-! ### The two programs -/

/-- With every destination in `[0, 50000)`, the row it names among 50000 rows is the row it names among 800000. -/
theorem row_agree (v : BitVec 32) (h0 : 0 ≤ v.toInt) (h1 : v.toInt < 50000) :
    (rowOf 50000 (by decide) (normBy 50000#32 v)).val = (rowOf 800000 (by decide) (normBy 800000#32 v)).val := by
  rw [normBy_of_nonneg _ _ h0, normBy_of_nonneg _ _ h0, rowOf_val_of_lt _ _ h0 (by omega),
    rowOf_val_of_lt _ _ h0 (by omega)]

set_option maxHeartbeats 400000 in
/-- THE NODE RESULTS AGREE when the kernel program's node matmul output is the node projection. -/
theorem out0_eq (Hk : FVec Ideal ⟨2, ![50000, 128]⟩ .bf16) (Gk : FVec Ideal ⟨2, ![400000, 128]⟩ .bf16)
    (H : FVec Ideal ⟨2, ![50000, 128]⟩ .f32) (hH : ∀ (r : Fin 50000) (j : Fin 128), Hk (ix2 r j) = H (ix2 r j))
    (d s : IVec ⟨1, ![800000]⟩ 32) (nn en : FVec Ideal ⟨1, ![800000]⟩ .f32) :
    (out0K (F := Ideal)).1 Hk Gk d nn en s = (out0R (F := Ideal)).1 H d nn s := by
  funext j
  obtain ⟨n, c, rfl⟩ : ∃ (n : Fin 50000) (c : Fin 128), j = ix2 n c := ⟨j 0, j 1, eq_ix2 j⟩
  refine (out0K_apply Hk Gk d s nn en n c).trans (Eq.trans ?_ (out0R_apply H d s nn n c).symm)
  exact Finset.sum_congr rfl fun t _ => by rw [hH]

set_option maxHeartbeats 400000 in
/-- THE EDGE RESULTS AGREE when the first 50000 rows of the kernel program's edge matmul output are the edge
    projection's and every destination is a node number. -/
theorem out1_eq (Hk : FVec Ideal ⟨2, ![50000, 128]⟩ .bf16) (Gk : FVec Ideal ⟨2, ![400000, 128]⟩ .bf16)
    (EV : FVec Ideal ⟨2, ![800000, 128]⟩ .f32)
    (hG : ∀ (r : Fin 50000) (j : Fin 128), Gk (ix2 ⟨r.val, by omega⟩ j) = EV (ix2 ⟨r.val, by omega⟩ j))
    (d s : IVec ⟨1, ![800000]⟩ 32) (nn en : FVec Ideal ⟨1, ![800000]⟩ .f32)
    (hd : ∀ t : Fin 800000, 0 ≤ (d (ix1 t)).toInt ∧ (d (ix1 t)).toInt < 50000) :
    (out1K (F := Ideal)).1 Hk Gk d nn en s = (out1R (F := Ideal)).1 EV d en s := by
  funext j
  obtain ⟨n, c, rfl⟩ : ∃ (n : Fin 50000) (c : Fin 128), j = ix2 n c := ⟨j 0, j 1, eq_ix2 j⟩
  refine (out1K_apply Hk Gk d s nn en n c).trans (Eq.trans ?_ (out1R_apply EV d s en n c).symm)
  refine Finset.sum_congr rfl fun t _ => ?_
  rw [hG]
  exact congrArg (fun r => EV (ix2 r c) * en (ix1 t)) (Fin.ext (row_agree _ (hd t).1 (hd t).2))

end Cert.Bridge
end
-- ==== Proof.PreRange.lean ====
/-
  The precondition's last conjunct read back: every entry of the integer edge array is a node number in [0, 50000).
  The printed predicate is a chain of six float tests and, last, the reduction by "and" over all three axes of the
  elementwise conjunction (edges ≥ 0) ∧ (edges < 50000), both signed; the whole chain is the conjunction of its seven
  reductions, so the claim that it is 1 gives that the last reduction is 1, hence each of its elements is 1, hence both
  comparisons hold at every index, read as comparisons of the signed integers.
-/
import proofs.«130992_j35871566856204_2_alg».proof.Defs
import proofs.«130992_j35871566856204_2_alg».proof.Proof.Gen.Pre_finite_inputs
import Idealize.ShloMosaic.Lib.ReduceAll
import Idealize.ShloMosaic.Lib.ValueIdx

noncomputable section
namespace Cert.KernelIdeal.Bridge
open Idealize.ShloMosaic Idealize.ShloMosaic.ValueIdx

/-- The scalar shape has one index. -/
instance subsingleton_scalar_idx : Subsingleton (⟨0, ![]⟩ : Shape).Idx := ⟨fun a b => funext fun d => d.elim0⟩

open Cert.Pre_finite_inputs in
/-- Every entry of the edge array lies in [0, 50000), read signed, when the printed precondition holds. -/
theorem edges_in_range [hP : Cert.Pre_finite_inputs.Facts]
    (a0 : FVec Ideal S50000x256 .f32) (a1 : FVec Ideal S400000x128 .f32) (E : IVec S1x2x400000 32)
    (a3 : FVec Ideal S256x128 .f32) (a4 : FVec Ideal S128x128 .f32) (a5 a6 : FVec Ideal S256x1 .f32)
    (h : Cert.Pre_finite_inputs.fn (F := Ideal) a0 a1 E a3 a4 a5 a6 = fun _ => 1#1) (j : S1x2x400000.Idx) :
    0 ≤ (E j).toInt ∧ (E j).toInt < 50000 := by
  have e := congrFun h ValueIdx.ix0
  dsimp only [Cert.Pre_finite_inputs.fn, Cert.Pre_finite_inputs.fn_part1, Cert.Pre_finite_inputs.fn_part2] at e
  -- the chain's last "and": its right operand is the reduction over the edge tests
  have e2 := (IntOp.andi_eq_one.1 e).2
  have e3 := Host.reduce_andi_all _ _ _ _ _ e2 j
  obtain ⟨hge, hlt⟩ := IntOp.andi_eq_one.1 e3
  have hge' := IntOp.cmpi_sge.1 hge
  have hlt' := IntOp.cmpi_slt.1 hlt
  refine ⟨?_, ?_⟩
  · exact hge'
  · exact hlt'

end Cert.KernelIdeal.Bridge

end
-- ==== Proof.SrcDstRange.lean ====
/-
  The source and destination vectors the kernel program cuts out of the edge array hold only entries of that array:
  each is a reshape of a one-column slice of the concatenation of the [E, 2] reading of the edges with its reversal
  along axis 1. Every one of these operations only re-indexes its operand — the result at an index IS the operand (one
  of the operands, for the concatenation) at some index — so a property that holds of every entry of the operand holds
  of every entry of the result. Carried through the five operations, "in [0, 50000)" passes from the edges to both vectors.
-/
import proofs.«130992_j35871566856204_2_alg».proof.Proof.KStageA
import Idealize.ShloMosaic.Lib.ValueIdx

noncomputable section
namespace Cert.KernelIdeal.Bridge
open Cert.KernelIdeal Cert.KernelIdeal.Gen Idealize.ShloMosaic Idealize.ShloMosaic.ValueIdx

section Reindex
variable {α : Type} {s t : Shape} (P : α → Prop)

/-- A reshape's entries are entries of its operand. -/
theorem all_shapeCast (x : s.Idx → α) (h : s.ShapeCasts t) (hx : ∀ k, P (x k)) (j : t.Idx) : P (shapeCast t x h j) := by
  unfold shapeCast; exact hx _

/-- A slice's entries are entries of its operand. -/
theorem all_slice (off : Fin s.rank → Nat) (x : s.Idx → α) (h : s.Slices off t) (hx : ∀ k, P (x k)) (j : t.Idx) :
    P (extractStridedSlice t off x h j) := by
  unfold extractStridedSlice; exact hx _

/-- A reversal's entries are entries of its operand. -/
theorem all_reverse (axes : List (Fin s.rank)) (x : s.Idx → α) (hx : ∀ k, P (x k)) (j : s.Idx) :
    P (Host.reverse axes x j) := by
  unfold Host.reverse; exact hx _

/-- A concatenation's entries are entries of its operands. -/
theorem all_concatenate (a : Fin t.rank) (xs : List ((s : Shape) × (s.Idx → α)))
    (h : Shape.Concatenates (xs.map (·.1)) t a) (hx : ∀ p ∈ xs, ∀ k, P (p.2 k)) (j : t.Idx) :
    P (concatenate t a xs h j) := by
  unfold concatenate
  exact hx _ (List.getElem_mem _) _

end Reindex

/-- Every entry of the source vector is an entry of the edge array, so it lies in [0, 50000) when they all do. -/
theorem srcK_in_range (E : IVec S1x2x400000 32) (hE : ∀ j, 0 ≤ (E j).toInt ∧ (E j).toInt < 50000) (i : Fin 800000) :
    0 ≤ ((srcK (F := Ideal)).1 E (ix1 i)).toInt ∧ ((srcK (F := Ideal)).1 E (ix1 i)).toInt < 50000 := by
  dsimp only [srcK]
  refine all_shapeCast (fun v : BitVec 32 => 0 ≤ v.toInt ∧ v.toInt < 50000) _ _ (fun k => ?_) _
  refine all_slice (fun v : BitVec 32 => 0 ≤ v.toInt ∧ v.toInt < 50000) _ _ _ (fun k => ?_) k
  refine all_concatenate (fun v : BitVec 32 => 0 ≤ v.toInt ∧ v.toInt < 50000) _ _ _ (fun p hp => ?_) k
  simp only [List.mem_cons, List.not_mem_nil, or_false] at hp
  rcases hp with rfl | rfl
  · exact fun k => all_shapeCast (fun v : BitVec 32 => 0 ≤ v.toInt ∧ v.toInt < 50000) _ _ hE k
  · exact fun k => all_reverse (fun v : BitVec 32 => 0 ≤ v.toInt ∧ v.toInt < 50000) _ _
      (fun k => all_shapeCast (fun v : BitVec 32 => 0 ≤ v.toInt ∧ v.toInt < 50000) _ _ hE k) k

/-- Every entry of the destination vector is an entry of the edge array, so it lies in [0, 50000) when they all do. -/
theorem dstK_in_range (E : IVec S1x2x400000 32) (hE : ∀ j, 0 ≤ (E j).toInt ∧ (E j).toInt < 50000) (i : Fin 800000) :
    0 ≤ ((dstK (F := Ideal)).1 E (ix1 i)).toInt ∧ ((dstK (F := Ideal)).1 E (ix1 i)).toInt < 50000 := by
  dsimp only [dstK]
  refine all_shapeCast (fun v : BitVec 32 => 0 ≤ v.toInt ∧ v.toInt < 50000) _ _ (fun k => ?_) _
  refine all_slice (fun v : BitVec 32 => 0 ≤ v.toInt ∧ v.toInt < 50000) _ _ _ (fun k => ?_) k
  refine all_concatenate (fun v : BitVec 32 => 0 ≤ v.toInt ∧ v.toInt < 50000) _ _ _ (fun p hp => ?_) k
  simp only [List.mem_cons, List.not_mem_nil, or_false] at hp
  rcases hp with rfl | rfl
  · exact fun k => all_shapeCast (fun v : BitVec 32 => 0 ≤ v.toInt ∧ v.toInt < 50000) _ _ hE k
  · exact fun k => all_reverse (fun v : BitVec 32 => 0 ≤ v.toInt ∧ v.toInt < 50000) _ _
      (fun k => all_shapeCast (fun v : BitVec 32 => 0 ≤ v.toInt ∧ v.toInt < 50000) _ _ hE k) k

end Cert.KernelIdeal.Bridge

end
-- ==== Proof.Bridge.lean ====
import proofs.«130992_j35871566856204_2_alg».proof.Defs
import proofs.«130992_j35871566856204_2_alg».proof.Proof.KFacts
import proofs.«130992_j35871566856204_2_alg».proof.Proof.RCompose
import proofs.«130992_j35871566856204_2_alg».proof.Proof.NodeLogits
import proofs.«130992_j35871566856204_2_alg».proof.Proof.EdgeLogits
import proofs.«130992_j35871566856204_2_alg».proof.Proof.MidEq
import proofs.«130992_j35871566856204_2_alg».proof.Proof.OutEq
import proofs.«130992_j35871566856204_2_alg».proof.Proof.PreRange
import proofs.«130992_j35871566856204_2_alg».proof.Proof.SrcDstRange

set_option pp.maxSteps 5000
set_option pp.deepTerms false

open scoped BigOperators

noncomputable section
namespace Cert.Bridge
open Idealize.ShloMosaic Idealize.ShloMosaic.TcCoe Idealize.SL.Sem Idealize.ShloMosaic.StableHlo
open Idealize.ShloMosaic.ValueIdx

/-! The two programs' results are equal: each result of the reference's line, over a launch memory that agrees with
    the kernel program's on the arguments, is the kernel program's result. -/

variable (m : (ℓ : Loc Cert.KernelIdeal.nD Cert.KernelIdeal.τ Cert.KernelIdeal.sig) → Buf (Elt Ideal) ℓ)
  (ρ : Dev Cert.KernelIdeal.nD → PrngReg)
  (m' : (ℓ : Loc Cert.ReferenceIdeal.nD Cert.ReferenceIdeal.τ Cert.ReferenceIdeal.sig) → Buf (Elt Ideal) ℓ)

/-- The two launch memories agree on the seven arguments (the hypothesis of the claim, per core). -/
def Agree (c : Dev Cert.KernelIdeal.nD) : Prop :=
  m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
  ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
  ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
  ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
  ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
  ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
  ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)

open Cert.KernelIdeal.Bridge Cert.ReferenceIdeal.Bridge

variable {m m'}

section Args
variable (c : Dev Cert.KernelIdeal.nD) (h : Agree m m' c)
include h

theorem lc_arg0 : StableHlo.launchContents m' c (Proc.devRef .tc Cert.ReferenceIdeal.main_arg0) = argX m c := h.1
theorem lc_arg1 : StableHlo.launchContents m' c (Proc.devRef .tc Cert.ReferenceIdeal.main_arg1) = argY m c := h.2.1
theorem lc_arg2 : StableHlo.launchContents m' c (Proc.devRef .tc Cert.ReferenceIdeal.main_arg2) = edgesK m c := h.2.2.1
theorem lc_arg3 : StableHlo.launchContents m' c (Proc.devRef .tc Cert.ReferenceIdeal.main_arg3) = argW m c := h.2.2.2.1
theorem lc_arg4 : StableHlo.launchContents m' c (Proc.devRef .tc Cert.ReferenceIdeal.main_arg4) = argWe m c := h.2.2.2.2.1
theorem lc_arg5 : StableHlo.launchContents m' c (Proc.devRef .tc Cert.ReferenceIdeal.main_arg5) = argAn m c := h.2.2.2.2.2.1
theorem lc_arg6 : StableHlo.launchContents m' c (Proc.devRef .tc Cert.ReferenceIdeal.main_arg6) = argAe m c := h.2.2.2.2.2.2

/-- The sources and destinations are cut out of the common edge list the same way. -/
theorem src_bridge : srcF (F := Ideal) (StableHlo.launchContents m' c) = sK (F := Ideal) m c := by
  unfold srcF sK
  rw [lc_arg2 c h]
  rfl

theorem dst_bridge : dstF (F := Ideal) (StableHlo.launchContents m' c) = dK (F := Ideal) m c := by
  unfold dstF dK
  rw [lc_arg2 c h]
  rfl

/-- The node logits agree. -/
theorem npre_bridge : npreF (F := Ideal) (StableHlo.launchContents m' c) = xK (F := Ideal) m ρ c := by
  unfold npreF hvF xK
  rw [lc_arg0 c h, lc_arg2 c h, lc_arg3 c h, lc_arg5 c h]
  exact (npre_eq (argX m c) (argW m c) (argAn m c) (edgesK m c) (projNK (F := Ideal) m ρ c)
    (projNK_col0 m ρ c) (projNK_col1 m ρ c)).symm

/-- The edge logits agree: the kernel program's, and the reference's row-by-vector product of its concatenated rows. -/
theorem epre_bridge :
    shapeCast Cert.ReferenceIdeal.S800000
        (Host.dotGeneral (φ₁ := .f32) (φ₂ := .f32) Cert.ReferenceIdeal.dot_S800000x256_S256x1_S800000x1_1_0_0_1_n_n none
          (eexpF (F := Ideal) (StableHlo.launchContents m' c))
          (StableHlo.launchContents m' c (Proc.devRef .tc Cert.ReferenceIdeal.main_arg6)))
        Cert.ReferenceIdeal.Gen.shapeCasts_S800000x1_S800000
      = yK (F := Ideal) m ρ c := by
  unfold eexpF hvF evF yK
  rw [lc_arg0 c h, lc_arg1 c h, lc_arg2 c h, lc_arg3 c h, lc_arg4 c h, lc_arg6 c h]
  exact (epre_eq (argX m c) (argW m c) (argY m c) (argWe m c) (argAe m c) (edgesK m c)
    (projNK (F := Ideal) m ρ c) (projEK (F := Ideal) m ρ c) (projNK_col2 m ρ c) (projEK_col0 m ρ c)).symm

/-- The normalised node attention agrees. -/
theorem nnorm_bridge :
    nnormF (F := Ideal) (npreF (F := Ideal) (StableHlo.launchContents m' c)) (srcF (F := Ideal) (StableHlo.launchContents m' c))
      = nnormMid (F := Ideal) (xK m ρ c) (aK m ρ c) (bK m ρ c) (sK m c) := by
  rw [npre_bridge ρ c h, src_bridge c h, nnorm_mid_eq]

/-- The normalised edge attention agrees. -/
theorem enorm_bridge :
    enormF (F := Ideal) (eexpF (F := Ideal) (StableHlo.launchContents m' c))
        (StableHlo.launchContents m' c (Proc.devRef .tc Cert.ReferenceIdeal.main_arg6)) (srcF (F := Ideal) (StableHlo.launchContents m' c))
      = enormMid (F := Ideal) (yK m ρ c) (sK m c) := by
  rw [src_bridge c h, enorm_mid_eq, epre_bridge ρ c h]

/-- The node attention's variance: the reference's third result is the kernel program's. -/
theorem bridge_nvar :
    StableHlo.after Cert.ReferenceIdeal.Hand.ops (StableHlo.launchContents m' c) (Proc.devRef .tc Cert.ReferenceIdeal.main_v96)
      = Cert.KernelIdeal.Hand.Wend m ρ c (Proc.devRef .tc Cert.KernelIdeal.main_v120) := by
  rw [nvar_args, Wend_v120, npre_bridge ρ c h, src_bridge c h, nvar_mid_eq]

/-- The edge attention's variance: the fourth results agree. -/
theorem bridge_evar :
    StableHlo.after Cert.ReferenceIdeal.Hand.ops (StableHlo.launchContents m' c) (Proc.devRef .tc Cert.ReferenceIdeal.main_v97)
      = Cert.KernelIdeal.Hand.Wend m ρ c (Proc.devRef .tc Cert.KernelIdeal.main_v121) := by
  rw [evar_args, Wend_v121, src_bridge c h, evar_mid_eq, epre_bridge ρ c h]

/-- The projected node features: the first region's product and the reference's `dot_general` are one sum. -/
theorem featN_agree (r : Fin 50000) (j : Fin 128) :
    (featNK (F := Ideal) m ρ c : (⟨2, ![50000, 128]⟩ : Shape).Idx → EReal) (ix2 r j)
      = (hvF (F := Ideal) (StableHlo.launchContents m' c) : (⟨2, ![50000, 128]⟩ : Shape).Idx → EReal) (ix2 r j) := by
  unfold hvF
  rw [lc_arg0 c h, lc_arg3 c h]
  exact (featNK_apply m ρ c r j).trans (proj_apply (argX m c) (argW m c) r j).symm

/-- The projected edge features on the first 50000 rows: the second region's product and the reference's doubled one. -/
theorem featE_agree (r : Fin 50000) (j : Fin 128) :
    (featEK (F := Ideal) m ρ c : (⟨2, ![400000, 128]⟩ : Shape).Idx → EReal) (ix2 ⟨r.val, by omega⟩ j)
      = (evF (F := Ideal) (StableHlo.launchContents m' c) : (⟨2, ![800000, 128]⟩ : Shape).Idx → EReal) (ix2 ⟨r.val, by omega⟩ j) := by
  unfold evF
  rw [lc_arg1 c h, lc_arg4 c h]
  refine (featEK_apply m ρ c ⟨r.val, by omega⟩ j).trans ?_
  refine Eq.trans ?_ (eproj_apply (argY m c) (argWe m c) ⟨r.val, by omega⟩ j).symm
  have hhalf : half ⟨r.val, by omega⟩ = (⟨r.val, by omega⟩ : Fin 400000) :=
    Fin.ext (Nat.mod_eq_of_lt (by have := r.isLt; show r.val < 400000; omega))
  rw [hhalf]

/-- The first feature output: the reference's first result is the kernel program's. -/
theorem bridge_out0 :
    StableHlo.after Cert.ReferenceIdeal.Hand.ops (StableHlo.launchContents m' c) (Proc.devRef .tc Cert.ReferenceIdeal.main_v110)
      = Cert.KernelIdeal.Hand.Wend m ρ c (Proc.devRef .tc Cert.KernelIdeal.main_v141) := by
  rw [out0_args, Wend_v141, nnorm_bridge ρ c h, src_bridge c h, dst_bridge c h]
  exact (out0_eq (featNK (F := Ideal) m ρ c) (featEK (F := Ideal) m ρ c) (hvF (F := Ideal) (StableHlo.launchContents m' c))
    (featN_agree ρ c h) (dK m c) (sK m c) _ _).symm

/-- The second feature output, where the edge list holds node numbers. -/
theorem bridge_out1 (hE : ∀ j, 0 ≤ (edgesK m c j).toInt ∧ (edgesK m c j).toInt < 50000) :
    StableHlo.after Cert.ReferenceIdeal.Hand.ops (StableHlo.launchContents m' c) (Proc.devRef .tc Cert.ReferenceIdeal.main_v123)
      = Cert.KernelIdeal.Hand.Wend m ρ c (Proc.devRef .tc Cert.KernelIdeal.main_v142) := by
  rw [out1_args, Wend_v142, enorm_bridge ρ c h, src_bridge c h, dst_bridge c h]
  exact (out1_eq (featNK (F := Ideal) m ρ c) (featEK (F := Ideal) m ρ c) (evF (F := Ideal) (StableHlo.launchContents m' c))
    (featE_agree ρ c h) (dK m c) (sK m c) _ _ (fun t => dstK_in_range (edgesK m c) hE t)).symm

end Args

end Cert.Bridge
end
-- ==== Proof.lean ====
/-
  The proof of `Cert.Claim` for the graph attention head: the kernel's program against its jnp reference.

  Both programs compute, for every edge of the doubled edge list, a node logit and an edge logit from the projected
  features of the edge's endpoints (`h = node_fts · W_node`, `e = edge_fts · W_edge`), pass them through the leaky
  rectifier, a clip and the exponential, normalise them by sums spread back over the edges, take the two variances, and
  add the gathered projected rows, scaled by the normalised weights, into the rows of the sources. The kernel's program
  obtains the logits from two small projections computed inside its two matrix kernels (`p = h · A`, `q = e · B`,
  the columns of `A` and `B` being the halves of the two attention vectors) and gathers and scatters both feature
  halves at once; the reference multiplies the concatenated gathered rows by the attention vectors and treats the
  halves separately. On the extended reals the two are one function wherever the edge list holds node numbers
  (`0 ≤ id < 50000`: the stated domain): a sum over 256 products is the sum of its two halves, a gather of rows
  commutes with a row-wise product, and an accumulating scatter treats each column by itself.
-/
import proofs.«130992_j35871566856204_2_alg».proof.Defs
import proofs.«130992_j35871566856204_2_alg».proof.Proof.Gen.Kernel
import proofs.«130992_j35871566856204_2_alg».proof.Proof.Gen.KernelIdeal
import proofs.«130992_j35871566856204_2_alg».proof.Proof.Gen.ReferenceIdeal
import proofs.«130992_j35871566856204_2_alg».proof.Proof.Gen.Pre_finite_inputs
import proofs.«130992_j35871566856204_2_alg».proof.Proof.KRun
import proofs.«130992_j35871566856204_2_alg».proof.Proof.KIRun
import proofs.«130992_j35871566856204_2_alg».proof.Proof.RefFrame
import proofs.«130992_j35871566856204_2_alg».proof.Proof.KIRunValues
import proofs.«130992_j35871566856204_2_alg».proof.Proof.RefRunValues
import proofs.«130992_j35871566856204_2_alg».proof.Proof.Bridge
import Idealize.ShloMosaic.Adequacy
import Idealize.ShloMosaic.Init

noncomputable section

namespace Cert.Proof

open Idealize.ShloMosaic Idealize.SL.Sem

/-- The word-level program runs through its two regions and leaves its arguments as launched. -/
theorem frame_k : Cert.frame_Kernel (hKernel := Cert.Kernel.Gen.facts) (hPre_finite_inputs := Cert.Pre_finite_inputs.Gen.facts) :=
  fun m ρ _ => Cert.Kernel.Hand.frame (F := Bits) m ρ

/-- So does its reading at the ideal values. -/
theorem frame_ki : Cert.frame_KernelIdeal (hKernelIdeal := Cert.KernelIdeal.Gen.facts) (hPre_finite_inputs := Cert.Pre_finite_inputs.Gen.facts) :=
  fun m ρ _ => Cert.KernelIdeal.Hand.frame (F := Ideal) m ρ

/-- The reference is one line of host operations; none writes an argument. -/
theorem frame_ri : Cert.frame_ReferenceIdeal (hReferenceIdeal := Cert.ReferenceIdeal.Gen.facts) (hPre_finite_inputs := Cert.Pre_finite_inputs.Gen.facts) :=
  fun m ρ _ => Cert.ReferenceIdeal.Hand.frame (F := Ideal) m ρ

/-- At the ideal values, from memories agreeing on the arguments and an edge list of node numbers, the two programs end
    with equal results: the kernel program's four results are named by its run; the reference's run ends at its line's
    fold, and each of its four results is the kernel program's (the node logits and the edge logits agree entry by entry,
    the middle of the two lines is one function of them, and the two scatters add the same rows). -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' hpre hagree
  refine ⟨fun c => Cert.KernelIdeal.Hand.Wend m ρ c (Proc.devRef .tc Cert.KernelIdeal.main_v141),
    fun c => Cert.KernelIdeal.Hand.Wend m ρ c (Proc.devRef .tc Cert.KernelIdeal.main_v142),
    fun c => Cert.KernelIdeal.Hand.Wend m ρ c (Proc.devRef .tc Cert.KernelIdeal.main_v120),
    fun c => Cert.KernelIdeal.Hand.Wend m ρ c (Proc.devRef .tc Cert.KernelIdeal.main_v121),
    Cert.KernelIdeal.Hand.run_values m ρ, ?_⟩
  refine (θ_run Cert.ReferenceIdeal.defs _ _).mono (fun r h c => ?_) (Cert.ReferenceIdeal.Hand.run_values m' ρ')
  have hE : ∀ j, 0 ≤ (Cert.KernelIdeal.Bridge.edgesK m c j).toInt ∧ (Cert.KernelIdeal.Bridge.edgesK m c j).toInt < 50000 :=
    fun j => Cert.KernelIdeal.Bridge.edges_in_range (hP := Cert.Pre_finite_inputs.Gen.facts) _ _ _ _ _ _ _ (hpre c) j
  exact ⟨(h c).1.trans (Cert.Bridge.bridge_out0 ρ c (hagree c)),
    (h c).2.1.trans (Cert.Bridge.bridge_out1 ρ c (hagree c) hE),
    (h c).2.2.1.trans (Cert.Bridge.bridge_nvar ρ c (hagree c)),
    (h c).2.2.2.1.trans (Cert.Bridge.bridge_evar ρ c (hagree c)),
    (h c).2.2.2.2⟩

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
